-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v374)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v374) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S32768x1024 : Shape := ⟨2, ![32768, 1024]⟩
abbrev S32768 : Shape := ⟨1, ![32768]⟩
abbrev S15x35 : Shape := ⟨2, ![15, 35]⟩
abbrev S15 : Shape := ⟨1, ![15]⟩
abbrev S8x15 : Shape := ⟨2, ![8, 15]⟩
abbrev S8 : Shape := ⟨1, ![8]⟩
abbrev S1x8 : Shape := ⟨2, ![1, 8]⟩
abbrev S1 : Shape := ⟨1, ![1]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S32768 : S_.BroadcastsInDim S32768 (![] : Fin 0 → Fin S32768.rank)
  reducesTo_S32768_S_d0 : S32768.ReducesTo [0] S_
  bcast_S_S15x35 : S_.BroadcastsInDim S15x35 (![] : Fin 0 → Fin S15x35.rank)
  reducesTo_S15x35_S_d0_1 : S15x35.ReducesTo [0, 1] S_
  bcast_S_S15 : S_.BroadcastsInDim S15 (![] : Fin 0 → Fin S15.rank)
  reducesTo_S15_S_d0 : S15.ReducesTo [0] S_
  bcast_S_S8x15 : S_.BroadcastsInDim S8x15 (![] : Fin 0 → Fin S8x15.rank)
  reducesTo_S8x15_S_d0_1 : S8x15.ReducesTo [0, 1] S_
  bcast_S_S8 : S_.BroadcastsInDim S8 (![] : Fin 0 → Fin S8.rank)
  reducesTo_S8_S_d0 : S8.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S8 .f32) (main_arg15 : FVec F S1x8 .f32) (main_arg16 : FVec F S1 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_v74 : FVec F S1x8 .f32 := Host.absf main_arg15
  let main_cst_28 : FVec F S_ .f32 := constant S_ .f32 0x7F800000#32
  let main_v75 : FVec F S1x8 .f32 := broadcastInDim S1x8 ![] bcast_S_S1x8 main_cst_28
  let main_v76 : IVec S1x8 1 := cmpf .olt main_v74 main_v75
  let main_c_29 : IVec S_ 1 := constantI S_ 1 1#1
  let main_v77 : IVec S_ 1 := (fun x v => Host.reduce IntOp.andi x v reducesTo_S1x8_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S15x35 .f32) (main_arg12 : FVec F S15 .f32) (main_arg13 : FVec F S8x15 .f32) (main_arg14 : FVec F S8 .f32) (main_arg15 : FVec F S1x8 .f32) (main_arg16 : FVec F S1 .f32) (main_v48 : IVec S_ 1) (main_v49 : FVec F S32768 .f32) (main_v50 : FVec F S32768 .f32) : IVec S_ 1 :=
  let main_v51 : IVec S32768 1 := cmpf .olt main_v49 main_v50
  let main_c_19 : IVec S_ 1 := constantI S_ 1 1#1
  let main_v52 : IVec S_ 1 := (fun x v => Host.reduce IntOp.andi x v reducesTo_S32768_S_d0 h_S_) main_v51 main_c_19
  let main_v53 : IVec S_ 1 := andi main_v48 main_v52
  let main_v54 : FVec F S15x35 .f32 := Host.absf main_arg11
  let main_cst_20 : FVec F S_ .f32 := constant S_ .f32 0x7F800000#32
  let main_v55 : FVec F S15x35 .f32 := broadcastInDim S15x35 ![] bcast_S_S15x35 main_cst_20
  let main_v56 : IVec S15x35 1 := cmpf .olt main_v54 main_v55
  let main_c_21 : IVec S_ 1 := constantI S_ 1 1#1
  let main_v57 : IVec S_ 1 := (fun x v => Host.reduce IntOp.andi x v reducesTo_S15x35_S_d0_1 h_S_) main_v56 main_c_21
  let main_v58 : IVec S_ 1 := andi main_v53 main_v57
  let main_v59 : FVec F S15 .f32 := Host.absf main_arg12
  let main_cst_22 : FVec F S_ .f32 := constant S_ .f32 0x7F800000#32
  let main_v60 : FVec F S15 .f32 := broadcastInDim S15 ![] bcast_S_S15 main_cst_22
  let main_v61 : IVec S15 1 := cmpf .olt main_v59 main_v60
  let main_c_23 : IVec S_ 1 := constantI S_ 1 1#1
  let main_v62 : IVec S_ 1 := (fun x v => Host.reduce IntOp.andi x v reducesTo_S15_S_d0 h_S_) main_v61 main_c_23
  let main_v63 : IVec S_ 1 := andi main_v58 main_v62
  let main_v64 : FVec F S8x15 .f32 := Host.absf main_arg13
  let main_cst_24 : FVec F S_ .f32 := constant S_ .f32 0x7F800000#32
  let main_v65 : FVec F S8x15 .f32 := broadcastInDim S8x15 ![] bcast_S_S8x15 main_cst_24
  let main_v66 : IVec S8x15 1 := cmpf .olt main_v64 main_v65
  let main_c_25 : IVec S_ 1 := constantI S_ 1 1#1
  let main_v67 : IVec S_ 1 := (fun x v => Host.reduce IntOp.andi x v reducesTo_S8x15_S_d0_1 h_S_) main_v66 main_c_25
  fn_part4 (F := F) main_arg14 main_arg15 main_arg16 main_v63 main_v67

def fn_part2 {F : FTy → Type} [FloatOps F] (main_arg7 : FVec F S32768x1024 .f32) (main_arg8 : FVec F S32768 .f32) (main_arg9 : FVec F S32768x1024 .f32) (main_arg10 : FVec F S32768 .f32) (main_arg11 : FVec F S15x35 .f32) (main_arg12 : FVec F S15 .f32) (main_arg13 : FVec F S8x15 .f32) (main_arg14 : FVec F S8 .f32) (main_arg15 : FVec F S1x8 .f32) (main_arg16 : FVec F S1 .f32) (main_v33 : IVec S_ 1) : IVec S_ 1 :=
  let main_v34 : FVec F S32768x1024 .f32 := Host.absf main_arg7
  let main_cst_12 : FVec F S_ .f32 := constant S_ .f32 0x7F800000#32
  let main_v35 : FVec F S32768x1024 .f32 := broadcastInDim S32768x1024 ![] bcast_S_S32768x1024 main_cst_12
  let main_v36 : IVec S32768x1024 1 := cmpf .olt main_v34 main_v35
  let main_c_13 : IVec S_ 1 := constantI S_ 1 1#1
  let main_v37 : IVec S_ 1 := (fun x v => Host.reduce IntOp.andi x v reducesTo_S32768x1024_S_d0_1 h_S_) main_v36 main_c_13
  let main_v38 : IVec S_ 1 := andi main_v33 main_v37
  let main_v39 : FVec F S32768 .f32 := Host.absf main_arg8
  let main_cst_14 : FVec F S_ .f32 := constant S_ .f32 0x7F800000#32
  let main_v40 : FVec F S32768 .f32 := broadcastInDim S32768 ![] bcast_S_S32768 main_cst_14
  let main_v41 : IVec S32768 1 := cmpf .olt main_v39 main_v40
  let main_c_15 : IVec S_ 1 := constantI S_ 1 1#1
  let main_v42 : IVec S_ 1 := (fun x v => Host.reduce IntOp.andi x v reducesTo_S32768_S_d0 h_S_) main_v41 main_c_15
  let main_v43 : IVec S_ 1 := andi main_v38 main_v42
  let main_v44 : FVec F S32768x1024 .f32 := Host.absf main_arg9
  let main_cst_16 : FVec F S_ .f32 := constant S_ .f32 0x7F800000#32
  let main_v45 : FVec F S32768x1024 .f32 := broadcastInDim S32768x1024 ![] bcast_S_S32768x1024 main_cst_16
  let main_v46 : IVec S32768x1024 1 := cmpf .olt main_v44 main_v45
  let main_c_17 : IVec S_ 1 := constantI S_ 1 1#1
  let main_v47 : IVec S_ 1 := (fun x v => Host.reduce IntOp.andi x v reducesTo_S32768x1024_S_d0_1 h_S_) main_v46 main_c_17
  let main_v48 : IVec S_ 1 := andi main_v43 main_v47
  let main_v49 : FVec F S32768 .f32 := Host.absf main_arg10
  let main_cst_18 : FVec F S_ .f32 := constant S_ .f32 0x7F800000#32
  let main_v50 : FVec F S32768 .f32 := broadcastInDim S32768 ![] bcast_S_S32768 main_cst_18
  fn_part3 (F := F) main_arg11 main_arg12 main_arg13 main_arg14 main_arg15 main_arg16 main_v48 main_v49 main_v50

def fn_part1 {F : FTy → Type} [FloatOps F] (main_arg4 : FVec F S32768 .f32) (main_arg5 : FVec F S32768x1024 .f32) (main_arg6 : FVec F S32768 .f32) (main_arg7 : FVec F S32768x1024 .f32) (main_arg8 : FVec F S32768 .f32) (main_arg9 : FVec F S32768x1024 .f32) (main_arg10 : FVec F S32768 .f32) (main_arg11 : FVec F S15x35 .f32) (main_arg12 : FVec F S15 .f32) (main_arg13 : FVec F S8x15 .f32) (main_arg14 : FVec F S8 .f32) (main_arg15 : FVec F S1x8 .f32) (main_arg16 : FVec F S1 .f32) (main_v13 : IVec S_ 1) (main_v16 : IVec S32768x1024 1) : IVec S_ 1 :=
  let main_c_5 : IVec S_ 1 := constantI S_ 1 1#1
  let main_v17 : IVec S_ 1 := (fun x v => Host.reduce IntOp.andi x v reducesTo_S32768x1024_S_d0_1 h_S_) main_v16 main_c_5
  let main_v18 : IVec S_ 1 := andi main_v13 main_v17
  let main_v19 : FVec F S32768 .f32 := Host.absf main_arg4
  let main_cst_6 : FVec F S_ .f32 := constant S_ .f32 0x7F800000#32
  let main_v20 : FVec F S32768 .f32 := broadcastInDim S32768 ![] bcast_S_S32768 main_cst_6
  let main_v21 : IVec S32768 1 := cmpf .olt main_v19 main_v20
  let main_c_7 : IVec S_ 1 := constantI S_ 1 1#1
  let main_v22 : IVec S_ 1 := (fun x v => Host.reduce IntOp.andi x v reducesTo_S32768_S_d0 h_S_) main_v21 main_c_7
  let main_v23 : IVec S_ 1 := andi main_v18 main_v22
  let main_v24 : FVec F S32768x1024 .f32 := Host.absf main_arg5
  let main_cst_8 : FVec F S_ .f32 := constant S_ .f32 0x7F800000#32
  let main_v25 : FVec F S32768x1024 .f32 := broadcastInDim S32768x1024 ![] bcast_S_S32768x1024 main_cst_8
  let main_v26 : IVec S32768x1024 1 := cmpf .olt main_v24 main_v25
  let main_c_9 : IVec S_ 1 := constantI S_ 1 1#1
  let main_v27 : IVec S_ 1 := (fun x v => Host.reduce IntOp.andi x v reducesTo_S32768x1024_S_d0_1 h_S_) main_v26 main_c_9
  let main_v28 : IVec S_ 1 := andi main_v23 main_v27
  let main_v29 : FVec F S32768 .f32 := Host.absf main_arg6
  let main_cst_10 : FVec F S_ .f32 := constant S_ .f32 0x7F800000#32
  let main_v30 : FVec F S32768 .f32 := broadcastInDim S32768 ![] bcast_S_S32768 main_cst_10
  let main_v31 : IVec S32768 1 := cmpf .olt main_v29 main_v30
  let main_c_11 : IVec S_ 1 := constantI S_ 1 1#1
  let main_v32 : IVec S_ 1 := (fun x v => Host.reduce IntOp.andi x v reducesTo_S32768_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S512x1024 .f32) (main_arg1 : FVec F S32768x1024 .f32) (main_arg2 : FVec F S32768 .f32) (main_arg3 : FVec F S32768x1024 .f32) (main_arg4 : FVec F S32768 .f32) (main_arg5 : FVec F S32768x1024 .f32) (main_arg6 : FVec F S32768 .f32) (main_arg7 : FVec F S32768x1024 .f32) (main_arg8 : FVec F S32768 .f32) (main_arg9 : FVec F S32768x1024 .f32) (main_arg10 : FVec F S32768 .f32) (main_arg11 : FVec F S15x35 .f32) (main_arg12 : FVec F S15 .f32) (main_arg13 : FVec F S8x15 .f32) (main_arg14 : FVec F S8 .f32) (main_arg15 : FVec F S1x8 .f32) (main_arg16 : FVec F S1 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768 .f32 := Host.absf main_arg2
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  let main_v14 : FVec F S32768x1024 .f32 := Host.absf main_arg3
  let main_cst_4 : FVec F S_ .f32 := constant S_ .f32 0x7F800000#32
  let main_v15 : FVec F S32768x1024 .f32 := broadcastInDim S32768x1024 ![] bcast_S_S32768x1024 main_cst_4
  let main_v16 : IVec S32768x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S512x1024 : Shape := ⟨2, ![512, 1024]⟩
abbrev S32768x1024 : Shape := ⟨2, ![32768, 1024]⟩
abbrev S32768 : Shape := ⟨1, ![32768]⟩
abbrev S15x35 : Shape := ⟨2, ![15, 35]⟩
abbrev S15 : Shape := ⟨1, ![15]⟩
abbrev S8x15 : Shape := ⟨2, ![8, 15]⟩
abbrev S8 : Shape := ⟨1, ![8]⟩
abbrev S1x8 : Shape := ⟨2, ![1, 8]⟩
abbrev S1 : Shape := ⟨1, ![1]⟩
abbrev S15x32 : Shape := ⟨2, ![15, 32]⟩
abbrev S15x1 : Shape := ⟨2, ![15, 1]⟩
abbrev S32x15 : Shape := ⟨2, ![32, 15]⟩
abbrev S_ : Shape := ⟨0, ![]⟩
abbrev S256x120 : Shape := ⟨2, ![256, 120]⟩
abbrev S2 : Shape := ⟨1, ![2]⟩
abbrev S15x8 : Shape := ⟨2, ![15, 8]⟩
abbrev S120x64 : Shape := ⟨2, ![120, 64]⟩
abbrev S8x1 : Shape := ⟨2, ![8, 1]⟩
abbrev S64x8 : Shape := ⟨2, ![64, 8]⟩
abbrev S1x15 : Shape := ⟨2, ![1, 15]⟩
abbrev S120 : Shape := ⟨1, ![120]⟩
abbrev S1x120 : Shape := ⟨2, ![1, 120]⟩
abbrev S8x8 : Shape := ⟨2, ![8, 8]⟩
abbrev S64 : Shape := ⟨1, ![64]⟩
abbrev S1x64 : Shape := ⟨2, ![1, 64]⟩
abbrev S1x1 : Shape := ⟨2, ![1, 1]⟩
abbrev S1x32768 : Shape := ⟨2, ![1, 32768]⟩
abbrev S1024x1024 : Shape := ⟨2, ![1024, 1024]⟩
abbrev S1x1024 : Shape := ⟨2, ![1, 1024]⟩
abbrev S512x128 : Shape := ⟨2, ![512, 128]⟩
abbrev S512x4096 : Shape := ⟨2, ![512, 4096]⟩
abbrev S512x256 : Shape := ⟨2, ![512, 256]⟩
abbrev S512x120 : Shape := ⟨2, ![512, 120]⟩
abbrev S512x64 : Shape := ⟨2, ![512, 64]⟩
abbrev S512x8 : Shape := ⟨2, ![512, 8]⟩
abbrev S512x32768 : Shape := ⟨2, ![512, 32768]⟩
abbrev S2048x1024 : Shape := ⟨2, ![2048, 1024]⟩
abbrev S1x2048 : Shape := ⟨2, ![1, 2048]⟩
abbrev S512x2048 : Shape := ⟨2, ![512, 2048]⟩
abbrev S1x512 : Shape := ⟨2, ![1, 512]⟩
abbrev S512x512 : Shape := ⟨2, ![512, 512]⟩

abbrev nBuf : Space → Nat
  | .hbm => 545
  | .vmem => 56
  | .smem => 0
  | _ => 0

abbrev hbmTy0_0 (i : Nat) : BufTy := match i % 128 with
  | 0 => ⟨S512x1024, .f32⟩
  | 1 => ⟨S32768x1024, .f32⟩
  | 2 => ⟨S32768, .f32⟩
  | 3 => ⟨S32768x1024, .f32⟩
  | 4 => ⟨S32768, .f32⟩
  | 5 => ⟨S32768x1024, .f32⟩
  | 6 => ⟨S32768, .f32⟩
  | 7 => ⟨S32768x1024, .f32⟩
  | 8 => ⟨S32768, .f32⟩
  | 9 => ⟨S32768x1024, .f32⟩
  | 10 => ⟨S32768, .f32⟩
  | 11 => ⟨S15x35, .f32⟩
  | 12 => ⟨S15, .f32⟩
  | 13 => ⟨S8x15, .f32⟩
  | 14 => ⟨S8, .f32⟩
  | 15 => ⟨S1x8, .f32⟩
  | 16 => ⟨S1, .f32⟩
  | 17 => ⟨S512x1024, .bf16⟩
  | 18 => ⟨S15x32, .f32⟩
  | 19 => ⟨S15x1, .f32⟩
  | 20 => ⟨S15, .f32⟩
  | 21 => ⟨S15, .f32⟩
  | 22 => ⟨S32x15, .f32⟩
  | 23 => ⟨S32x15, .bf16⟩
  | 24 => ⟨S_, .bf16⟩
  | 25 => ⟨S256x120, .bf16⟩
  | 26 => ⟨S_, .i32⟩
  | 27 => ⟨S1, .i32⟩
  | 28 => ⟨S_, .i32⟩
  | 29 => ⟨S1, .i32⟩
  | 30 => ⟨S2, .i32⟩
  | 31 => ⟨S256x120, .bf16⟩
  | 32 => ⟨S_, .i32⟩
  | 33 => ⟨S1, .i32⟩
  | 34 => ⟨S_, .i32⟩
  | 35 => ⟨S1, .i32⟩
  | 36 => ⟨S2, .i32⟩
  | 37 => ⟨S256x120, .bf16⟩
  | 38 => ⟨S_, .i32⟩
  | 39 => ⟨S1, .i32⟩
  | 40 => ⟨S_, .i32⟩
  | 41 => ⟨S1, .i32⟩
  | 42 => ⟨S2, .i32⟩
  | 43 => ⟨S256x120, .bf16⟩
  | 44 => ⟨S_, .i32⟩
  | 45 => ⟨S1, .i32⟩
  | 46 => ⟨S_, .i32⟩
  | 47 => ⟨S1, .i32⟩
  | 48 => ⟨S2, .i32⟩
  | 49 => ⟨S256x120, .bf16⟩
  | 50 => ⟨S_, .i32⟩
  | 51 => ⟨S1, .i32⟩
  | 52 => ⟨S_, .i32⟩
  | 53 => ⟨S1, .i32⟩
  | 54 => ⟨S2, .i32⟩
  | 55 => ⟨S256x120, .bf16⟩
  | 56 => ⟨S_, .i32⟩
  | 57 => ⟨S1, .i32⟩
  | 58 => ⟨S_, .i32⟩
  | 59 => ⟨S1, .i32⟩
  | 60 => ⟨S2, .i32⟩
  | 61 => ⟨S256x120, .bf16⟩
  | 62 => ⟨S_, .i32⟩
  | 63 => ⟨S1, .i32⟩
  | 64 => ⟨S_, .i32⟩
  | 65 => ⟨S1, .i32⟩
  | 66 => ⟨S2, .i32⟩
  | 67 => ⟨S256x120, .bf16⟩
  | 68 => ⟨S_, .i32⟩
  | 69 => ⟨S1, .i32⟩
  | 70 => ⟨S_, .i32⟩
  | 71 => ⟨S1, .i32⟩
  | 72 => ⟨S2, .i32⟩
  | 73 => ⟨S256x120, .bf16⟩
  | 74 => ⟨S15x8, .f32⟩
  | 75 => ⟨S15x8, .bf16⟩
  | 76 => ⟨S_, .bf16⟩
  | 77 => ⟨S120x64, .bf16⟩
  | 78 => ⟨S_, .i32⟩
  | 79 => ⟨S1, .i32⟩
  | 80 => ⟨S_, .i32⟩
  | 81 => ⟨S1, .i32⟩
  | 82 => ⟨S2, .i32⟩
  | 83 => ⟨S120x64, .bf16⟩
  | 84 => ⟨S_, .i32⟩
  | 85 => ⟨S1, .i32⟩
  | 86 => ⟨S_, .i32⟩
  | 87 => ⟨S1, .i32⟩
  | 88 => ⟨S2, .i32⟩
  | 89 => ⟨S120x64, .bf16⟩
  | 90 => ⟨S_, .i32⟩
  | 91 => ⟨S1, .i32⟩
  | 92 => ⟨S_, .i32⟩
  | 93 => ⟨S1, .i32⟩
  | 94 => ⟨S2, .i32⟩
  | 95 => ⟨S120x64, .bf16⟩
  | 96 => ⟨S_, .i32⟩
  | 97 => ⟨S1, .i32⟩
  | 98 => ⟨S_, .i32⟩
  | 99 => ⟨S1, .i32⟩
  | 100 => ⟨S2, .i32⟩
  | 101 => ⟨S120x64, .bf16⟩
  | 102 => ⟨S_, .i32⟩
  | 103 => ⟨S1, .i32⟩
  | 104 => ⟨S_, .i32⟩
  | 105 => ⟨S1, .i32⟩
  | 106 => ⟨S2, .i32⟩
  | 107 => ⟨S120x64, .bf16⟩
  | 108 => ⟨S_, .i32⟩
  | 109 => ⟨S1, .i32⟩
  | 110 => ⟨S_, .i32⟩
  | 111 => ⟨S1, .i32⟩
  | 112 => ⟨S2, .i32⟩
  | 113 => ⟨S120x64, .bf16⟩
  | 114 => ⟨S_, .i32⟩
  | 115 => ⟨S1, .i32⟩
  | 116 => ⟨S_, .i32⟩
  | 117 => ⟨S1, .i32⟩
  | 118 => ⟨S2, .i32⟩
  | 119 => ⟨S120x64, .bf16⟩
  | 120 => ⟨S_, .i32⟩
  | 121 => ⟨S1, .i32⟩
  | 122 => ⟨S_, .i32⟩
  | 123 => ⟨S1, .i32⟩
  | 124 => ⟨S2, .i32⟩
  | 125 => ⟨S120x64, .bf16⟩
  | 126 => ⟨S8x1, .f32⟩
  | 127 => ⟨S8x1, .bf16⟩
  | _ => ⟨S512x1024, .f32⟩

abbrev hbmTy0_1 (i : Nat) : BufTy := match i % 128 with
  | 0 => ⟨S_, .bf16⟩
  | 1 => ⟨S64x8, .bf16⟩
  | 2 => ⟨S_, .i32⟩
  | 3 => ⟨S1, .i32⟩
  | 4 => ⟨S_, .i32⟩
  | 5 => ⟨S1, .i32⟩
  | 6 => ⟨S2, .i32⟩
  | 7 => ⟨S64x8, .bf16⟩
  | 8 => ⟨S_, .i32⟩
  | 9 => ⟨S1, .i32⟩
  | 10 => ⟨S_, .i32⟩
  | 11 => ⟨S1, .i32⟩
  | 12 => ⟨S2, .i32⟩
  | 13 => ⟨S64x8, .bf16⟩
  | 14 => ⟨S_, .i32⟩
  | 15 => ⟨S1, .i32⟩
  | 16 => ⟨S_, .i32⟩
  | 17 => ⟨S1, .i32⟩
  | 18 => ⟨S2, .i32⟩
  | 19 => ⟨S64x8, .bf16⟩
  | 20 => ⟨S_, .i32⟩
  | 21 => ⟨S1, .i32⟩
  | 22 => ⟨S_, .i32⟩
  | 23 => ⟨S1, .i32⟩
  | 24 => ⟨S2, .i32⟩
  | 25 => ⟨S64x8, .bf16⟩
  | 26 => ⟨S_, .i32⟩
  | 27 => ⟨S1, .i32⟩
  | 28 => ⟨S_, .i32⟩
  | 29 => ⟨S1, .i32⟩
  | 30 => ⟨S2, .i32⟩
  | 31 => ⟨S64x8, .bf16⟩
  | 32 => ⟨S_, .i32⟩
  | 33 => ⟨S1, .i32⟩
  | 34 => ⟨S_, .i32⟩
  | 35 => ⟨S1, .i32⟩
  | 36 => ⟨S2, .i32⟩
  | 37 => ⟨S64x8, .bf16⟩
  | 38 => ⟨S_, .i32⟩
  | 39 => ⟨S1, .i32⟩
  | 40 => ⟨S_, .i32⟩
  | 41 => ⟨S1, .i32⟩
  | 42 => ⟨S2, .i32⟩
  | 43 => ⟨S64x8, .bf16⟩
  | 44 => ⟨S_, .i32⟩
  | 45 => ⟨S1, .i32⟩
  | 46 => ⟨S_, .i32⟩
  | 47 => ⟨S1, .i32⟩
  | 48 => ⟨S2, .i32⟩
  | 49 => ⟨S64x8, .bf16⟩
  | 50 => ⟨S1x15, .f32⟩
  | 51 => ⟨S8x15, .f32⟩
  | 52 => ⟨S120, .f32⟩
  | 53 => ⟨S1x120, .f32⟩
  | 54 => ⟨S1x8, .f32⟩
  | 55 => ⟨S8x8, .f32⟩
  | 56 => ⟨S64, .f32⟩
  | 57 => ⟨S1x64, .f32⟩
  | 58 => ⟨S1x1, .f32⟩
  | 59 => ⟨S8x1, .f32⟩
  | 60 => ⟨S8, .f32⟩
  | 61 => ⟨S1x8, .f32⟩
  | 62 => ⟨S1x32768, .f32⟩
  | 63 => ⟨S512x1024, .f32⟩
  | 64 => ⟨S512x1024, .bf16⟩
  | 65 => ⟨S1x32768, .f32⟩
  | 66 => ⟨S512x32768, .f32⟩
  | 67 => ⟨S15x32, .f32⟩
  | 68 => ⟨S15x1, .f32⟩
  | 69 => ⟨S15, .f32⟩
  | 70 => ⟨S15, .f32⟩
  | 71 => ⟨S32x15, .f32⟩
  | 72 => ⟨S32x15, .bf16⟩
  | 73 => ⟨S_, .bf16⟩
  | 74 => ⟨S256x120, .bf16⟩
  | 75 => ⟨S_, .i32⟩
  | 76 => ⟨S1, .i32⟩
  | 77 => ⟨S_, .i32⟩
  | 78 => ⟨S1, .i32⟩
  | 79 => ⟨S2, .i32⟩
  | 80 => ⟨S256x120, .bf16⟩
  | 81 => ⟨S_, .i32⟩
  | 82 => ⟨S1, .i32⟩
  | 83 => ⟨S_, .i32⟩
  | 84 => ⟨S1, .i32⟩
  | 85 => ⟨S2, .i32⟩
  | 86 => ⟨S256x120, .bf16⟩
  | 87 => ⟨S_, .i32⟩
  | 88 => ⟨S1, .i32⟩
  | 89 => ⟨S_, .i32⟩
  | 90 => ⟨S1, .i32⟩
  | 91 => ⟨S2, .i32⟩
  | 92 => ⟨S256x120, .bf16⟩
  | 93 => ⟨S_, .i32⟩
  | 94 => ⟨S1, .i32⟩
  | 95 => ⟨S_, .i32⟩
  | 96 => ⟨S1, .i32⟩
  | 97 => ⟨S2, .i32⟩
  | 98 => ⟨S256x120, .bf16⟩
  | 99 => ⟨S_, .i32⟩
  | 100 => ⟨S1, .i32⟩
  | 101 => ⟨S_, .i32⟩
  | 102 => ⟨S1, .i32⟩
  | 103 => ⟨S2, .i32⟩
  | 104 => ⟨S256x120, .bf16⟩
  | 105 => ⟨S_, .i32⟩
  | 106 => ⟨S1, .i32⟩
  | 107 => ⟨S_, .i32⟩
  | 108 => ⟨S1, .i32⟩
  | 109 => ⟨S2, .i32⟩
  | 110 => ⟨S256x120, .bf16⟩
  | 111 => ⟨S_, .i32⟩
  | 112 => ⟨S1, .i32⟩
  | 113 => ⟨S_, .i32⟩
  | 114 => ⟨S1, .i32⟩
  | 115 => ⟨S2, .i32⟩
  | 116 => ⟨S256x120, .bf16⟩
  | 117 => ⟨S_, .i32⟩
  | 118 => ⟨S1, .i32⟩
  | 119 => ⟨S_, .i32⟩
  | 120 => ⟨S1, .i32⟩
  | 121 => ⟨S2, .i32⟩
  | 122 => ⟨S256x120, .bf16⟩
  | 123 => ⟨S15x8, .f32⟩
  | 124 => ⟨S15x8, .bf16⟩
  | 125 => ⟨S_, .bf16⟩
  | 126 => ⟨S120x64, .bf16⟩
  | 127 => ⟨S_, .i32⟩
  | _ => ⟨S512x1024, .f32⟩

abbrev hbmTy0_2 (i : Nat) : BufTy := match i % 128 with
  | 0 => ⟨S1, .i32⟩
  | 1 => ⟨S_, .i32⟩
  | 2 => ⟨S1, .i32⟩
  | 3 => ⟨S2, .i32⟩
  | 4 => ⟨S120x64, .bf16⟩
  | 5 => ⟨S_, .i32⟩
  | 6 => ⟨S1, .i32⟩
  | 7 => ⟨S_, .i32⟩
  | 8 => ⟨S1, .i32⟩
  | 9 => ⟨S2, .i32⟩
  | 10 => ⟨S120x64, .bf16⟩
  | 11 => ⟨S_, .i32⟩
  | 12 => ⟨S1, .i32⟩
  | 13 => ⟨S_, .i32⟩
  | 14 => ⟨S1, .i32⟩
  | 15 => ⟨S2, .i32⟩
  | 16 => ⟨S120x64, .bf16⟩
  | 17 => ⟨S_, .i32⟩
  | 18 => ⟨S1, .i32⟩
  | 19 => ⟨S_, .i32⟩
  | 20 => ⟨S1, .i32⟩
  | 21 => ⟨S2, .i32⟩
  | 22 => ⟨S120x64, .bf16⟩
  | 23 => ⟨S_, .i32⟩
  | 24 => ⟨S1, .i32⟩
  | 25 => ⟨S_, .i32⟩
  | 26 => ⟨S1, .i32⟩
  | 27 => ⟨S2, .i32⟩
  | 28 => ⟨S120x64, .bf16⟩
  | 29 => ⟨S_, .i32⟩
  | 30 => ⟨S1, .i32⟩
  | 31 => ⟨S_, .i32⟩
  | 32 => ⟨S1, .i32⟩
  | 33 => ⟨S2, .i32⟩
  | 34 => ⟨S120x64, .bf16⟩
  | 35 => ⟨S_, .i32⟩
  | 36 => ⟨S1, .i32⟩
  | 37 => ⟨S_, .i32⟩
  | 38 => ⟨S1, .i32⟩
  | 39 => ⟨S2, .i32⟩
  | 40 => ⟨S120x64, .bf16⟩
  | 41 => ⟨S_, .i32⟩
  | 42 => ⟨S1, .i32⟩
  | 43 => ⟨S_, .i32⟩
  | 44 => ⟨S1, .i32⟩
  | 45 => ⟨S2, .i32⟩
  | 46 => ⟨S120x64, .bf16⟩
  | 47 => ⟨S8x1, .f32⟩
  | 48 => ⟨S8x1, .bf16⟩
  | 49 => ⟨S_, .bf16⟩
  | 50 => ⟨S64x8, .bf16⟩
  | 51 => ⟨S_, .i32⟩
  | 52 => ⟨S1, .i32⟩
  | 53 => ⟨S_, .i32⟩
  | 54 => ⟨S1, .i32⟩
  | 55 => ⟨S2, .i32⟩
  | 56 => ⟨S64x8, .bf16⟩
  | 57 => ⟨S_, .i32⟩
  | 58 => ⟨S1, .i32⟩
  | 59 => ⟨S_, .i32⟩
  | 60 => ⟨S1, .i32⟩
  | 61 => ⟨S2, .i32⟩
  | 62 => ⟨S64x8, .bf16⟩
  | 63 => ⟨S_, .i32⟩
  | 64 => ⟨S1, .i32⟩
  | 65 => ⟨S_, .i32⟩
  | 66 => ⟨S1, .i32⟩
  | 67 => ⟨S2, .i32⟩
  | 68 => ⟨S64x8, .bf16⟩
  | 69 => ⟨S_, .i32⟩
  | 70 => ⟨S1, .i32⟩
  | 71 => ⟨S_, .i32⟩
  | 72 => ⟨S1, .i32⟩
  | 73 => ⟨S2, .i32⟩
  | 74 => ⟨S64x8, .bf16⟩
  | 75 => ⟨S_, .i32⟩
  | 76 => ⟨S1, .i32⟩
  | 77 => ⟨S_, .i32⟩
  | 78 => ⟨S1, .i32⟩
  | 79 => ⟨S2, .i32⟩
  | 80 => ⟨S64x8, .bf16⟩
  | 81 => ⟨S_, .i32⟩
  | 82 => ⟨S1, .i32⟩
  | 83 => ⟨S_, .i32⟩
  | 84 => ⟨S1, .i32⟩
  | 85 => ⟨S2, .i32⟩
  | 86 => ⟨S64x8, .bf16⟩
  | 87 => ⟨S_, .i32⟩
  | 88 => ⟨S1, .i32⟩
  | 89 => ⟨S_, .i32⟩
  | 90 => ⟨S1, .i32⟩
  | 91 => ⟨S2, .i32⟩
  | 92 => ⟨S64x8, .bf16⟩
  | 93 => ⟨S_, .i32⟩
  | 94 => ⟨S1, .i32⟩
  | 95 => ⟨S_, .i32⟩
  | 96 => ⟨S1, .i32⟩
  | 97 => ⟨S2, .i32⟩
  | 98 => ⟨S64x8, .bf16⟩
  | 99 => ⟨S1x15, .f32⟩
  | 100 => ⟨S8x15, .f32⟩
  | 101 => ⟨S120, .f32⟩
  | 102 => ⟨S1x120, .f32⟩
  | 103 => ⟨S1x8, .f32⟩
  | 104 => ⟨S8x8, .f32⟩
  | 105 => ⟨S64, .f32⟩
  | 106 => ⟨S1x64, .f32⟩
  | 107 => ⟨S1x1, .f32⟩
  | 108 => ⟨S8x1, .f32⟩
  | 109 => ⟨S8, .f32⟩
  | 110 => ⟨S1x8, .f32⟩
  | 111 => ⟨S1x32768, .f32⟩
  | 112 => ⟨S1x32768, .f32⟩
  | 113 => ⟨S512x1024, .f32⟩
  | 114 => ⟨S512x1024, .bf16⟩
  | 115 => ⟨S15x32, .f32⟩
  | 116 => ⟨S15x1, .f32⟩
  | 117 => ⟨S15, .f32⟩
  | 118 => ⟨S15, .f32⟩
  | 119 => ⟨S32x15, .f32⟩
  | 120 => ⟨S32x15, .bf16⟩
  | 121 => ⟨S_, .bf16⟩
  | 122 => ⟨S256x120, .bf16⟩
  | 123 => ⟨S_, .i32⟩
  | 124 => ⟨S1, .i32⟩
  | 125 => ⟨S_, .i32⟩
  | 126 => ⟨S1, .i32⟩
  | 127 => ⟨S2, .i32⟩
  | _ => ⟨S512x1024, .f32⟩

abbrev hbmTy0_3 (i : Nat) : BufTy := match i % 128 with
  | 0 => ⟨S256x120, .bf16⟩
  | 1 => ⟨S_, .i32⟩
  | 2 => ⟨S1, .i32⟩
  | 3 => ⟨S_, .i32⟩
  | 4 => ⟨S1, .i32⟩
  | 5 => ⟨S2, .i32⟩
  | 6 => ⟨S256x120, .bf16⟩
  | 7 => ⟨S_, .i32⟩
  | 8 => ⟨S1, .i32⟩
  | 9 => ⟨S_, .i32⟩
  | 10 => ⟨S1, .i32⟩
  | 11 => ⟨S2, .i32⟩
  | 12 => ⟨S256x120, .bf16⟩
  | 13 => ⟨S_, .i32⟩
  | 14 => ⟨S1, .i32⟩
  | 15 => ⟨S_, .i32⟩
  | 16 => ⟨S1, .i32⟩
  | 17 => ⟨S2, .i32⟩
  | 18 => ⟨S256x120, .bf16⟩
  | 19 => ⟨S_, .i32⟩
  | 20 => ⟨S1, .i32⟩
  | 21 => ⟨S_, .i32⟩
  | 22 => ⟨S1, .i32⟩
  | 23 => ⟨S2, .i32⟩
  | 24 => ⟨S256x120, .bf16⟩
  | 25 => ⟨S_, .i32⟩
  | 26 => ⟨S1, .i32⟩
  | 27 => ⟨S_, .i32⟩
  | 28 => ⟨S1, .i32⟩
  | 29 => ⟨S2, .i32⟩
  | 30 => ⟨S256x120, .bf16⟩
  | 31 => ⟨S_, .i32⟩
  | 32 => ⟨S1, .i32⟩
  | 33 => ⟨S_, .i32⟩
  | 34 => ⟨S1, .i32⟩
  | 35 => ⟨S2, .i32⟩
  | 36 => ⟨S256x120, .bf16⟩
  | 37 => ⟨S_, .i32⟩
  | 38 => ⟨S1, .i32⟩
  | 39 => ⟨S_, .i32⟩
  | 40 => ⟨S1, .i32⟩
  | 41 => ⟨S2, .i32⟩
  | 42 => ⟨S256x120, .bf16⟩
  | 43 => ⟨S15x8, .f32⟩
  | 44 => ⟨S15x8, .bf16⟩
  | 45 => ⟨S_, .bf16⟩
  | 46 => ⟨S120x64, .bf16⟩
  | 47 => ⟨S_, .i32⟩
  | 48 => ⟨S1, .i32⟩
  | 49 => ⟨S_, .i32⟩
  | 50 => ⟨S1, .i32⟩
  | 51 => ⟨S2, .i32⟩
  | 52 => ⟨S120x64, .bf16⟩
  | 53 => ⟨S_, .i32⟩
  | 54 => ⟨S1, .i32⟩
  | 55 => ⟨S_, .i32⟩
  | 56 => ⟨S1, .i32⟩
  | 57 => ⟨S2, .i32⟩
  | 58 => ⟨S120x64, .bf16⟩
  | 59 => ⟨S_, .i32⟩
  | 60 => ⟨S1, .i32⟩
  | 61 => ⟨S_, .i32⟩
  | 62 => ⟨S1, .i32⟩
  | 63 => ⟨S2, .i32⟩
  | 64 => ⟨S120x64, .bf16⟩
  | 65 => ⟨S_, .i32⟩
  | 66 => ⟨S1, .i32⟩
  | 67 => ⟨S_, .i32⟩
  | 68 => ⟨S1, .i32⟩
  | 69 => ⟨S2, .i32⟩
  | 70 => ⟨S120x64, .bf16⟩
  | 71 => ⟨S_, .i32⟩
  | 72 => ⟨S1, .i32⟩
  | 73 => ⟨S_, .i32⟩
  | 74 => ⟨S1, .i32⟩
  | 75 => ⟨S2, .i32⟩
  | 76 => ⟨S120x64, .bf16⟩
  | 77 => ⟨S_, .i32⟩
  | 78 => ⟨S1, .i32⟩
  | 79 => ⟨S_, .i32⟩
  | 80 => ⟨S1, .i32⟩
  | 81 => ⟨S2, .i32⟩
  | 82 => ⟨S120x64, .bf16⟩
  | 83 => ⟨S_, .i32⟩
  | 84 => ⟨S1, .i32⟩
  | 85 => ⟨S_, .i32⟩
  | 86 => ⟨S1, .i32⟩
  | 87 => ⟨S2, .i32⟩
  | 88 => ⟨S120x64, .bf16⟩
  | 89 => ⟨S_, .i32⟩
  | 90 => ⟨S1, .i32⟩
  | 91 => ⟨S_, .i32⟩
  | 92 => ⟨S1, .i32⟩
  | 93 => ⟨S2, .i32⟩
  | 94 => ⟨S120x64, .bf16⟩
  | 95 => ⟨S8x1, .f32⟩
  | 96 => ⟨S8x1, .bf16⟩
  | 97 => ⟨S_, .bf16⟩
  | 98 => ⟨S64x8, .bf16⟩
  | 99 => ⟨S_, .i32⟩
  | 100 => ⟨S1, .i32⟩
  | 101 => ⟨S_, .i32⟩
  | 102 => ⟨S1, .i32⟩
  | 103 => ⟨S2, .i32⟩
  | 104 => ⟨S64x8, .bf16⟩
  | 105 => ⟨S_, .i32⟩
  | 106 => ⟨S1, .i32⟩
  | 107 => ⟨S_, .i32⟩
  | 108 => ⟨S1, .i32⟩
  | 109 => ⟨S2, .i32⟩
  | 110 => ⟨S64x8, .bf16⟩
  | 111 => ⟨S_, .i32⟩
  | 112 => ⟨S1, .i32⟩
  | 113 => ⟨S_, .i32⟩
  | 114 => ⟨S1, .i32⟩
  | 115 => ⟨S2, .i32⟩
  | 116 => ⟨S64x8, .bf16⟩
  | 117 => ⟨S_, .i32⟩
  | 118 => ⟨S1, .i32⟩
  | 119 => ⟨S_, .i32⟩
  | 120 => ⟨S1, .i32⟩
  | 121 => ⟨S2, .i32⟩
  | 122 => ⟨S64x8, .bf16⟩
  | 123 => ⟨S_, .i32⟩
  | 124 => ⟨S1, .i32⟩
  | 125 => ⟨S_, .i32⟩
  | 126 => ⟨S1, .i32⟩
  | 127 => ⟨S2, .i32⟩
  | _ => ⟨S512x1024, .f32⟩

abbrev hbmTy0_4 (i : Nat) : BufTy := match i % 128 with
  | 0 => ⟨S64x8, .bf16⟩
  | 1 => ⟨S_, .i32⟩
  | 2 => ⟨S1, .i32⟩
  | 3 => ⟨S_, .i32⟩
  | 4 => ⟨S1, .i32⟩
  | 5 => ⟨S2, .i32⟩
  | 6 => ⟨S64x8, .bf16⟩
  | 7 => ⟨S_, .i32⟩
  | 8 => ⟨S1, .i32⟩
  | 9 => ⟨S_, .i32⟩
  | 10 => ⟨S1, .i32⟩
  | 11 => ⟨S2, .i32⟩
  | 12 => ⟨S64x8, .bf16⟩
  | 13 => ⟨S_, .i32⟩
  | 14 => ⟨S1, .i32⟩
  | 15 => ⟨S_, .i32⟩
  | 16 => ⟨S1, .i32⟩
  | 17 => ⟨S2, .i32⟩
  | 18 => ⟨S64x8, .bf16⟩
  | 19 => ⟨S1x15, .f32⟩
  | 20 => ⟨S8x15, .f32⟩
  | 21 => ⟨S120, .f32⟩
  | 22 => ⟨S1x120, .f32⟩
  | 23 => ⟨S1x8, .f32⟩
  | 24 => ⟨S8x8, .f32⟩
  | 25 => ⟨S64, .f32⟩
  | 26 => ⟨S1x64, .f32⟩
  | 27 => ⟨S1x1, .f32⟩
  | 28 => ⟨S8x1, .f32⟩
  | 29 => ⟨S8, .f32⟩
  | 30 => ⟨S1x8, .f32⟩
  | 31 => ⟨S1x32768, .f32⟩
  | 32 => ⟨S512x1024, .f32⟩
  | _ => ⟨S512x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S512x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S256x120, .bf16⟩
  | .local _ .vmem, ⟨6, _⟩ => ⟨S120x64, .bf16⟩
  | .local _ .vmem, ⟨7, _⟩ => ⟨S64x8, .bf16⟩
  | .local _ .vmem, ⟨8, _⟩ => ⟨S1x120, .f32⟩
  | .local _ .vmem, ⟨9, _⟩ => ⟨S1x64, .f32⟩
  | .local _ .vmem, ⟨10, _⟩ => ⟨S1x8, .f32⟩
  | .local _ .vmem, ⟨11, _⟩ => ⟨S512x128, .f32⟩
  | .local _ .vmem, ⟨12, _⟩ => ⟨S512x128, .f32⟩
  | .local _ .vmem, ⟨13, _⟩ => ⟨S512x4096, .f32⟩
  | .local _ .vmem, ⟨14, _⟩ => ⟨S512x1024, .bf16⟩
  | .local _ .vmem, ⟨15, _⟩ => ⟨S2048x1024, .f32⟩
  | .local _ .vmem, ⟨16, _⟩ => ⟨S2048x1024, .f32⟩
  | .local _ .vmem, ⟨17, _⟩ => ⟨S1x2048, .f32⟩
  | .local _ .vmem, ⟨18, _⟩ => ⟨S1x2048, .f32⟩
  | .local _ .vmem, ⟨19, _⟩ => ⟨S512x2048, .f32⟩
  | .local _ .vmem, ⟨20, _⟩ => ⟨S512x2048, .f32⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S256x120, .bf16⟩
  | .local _ .vmem, ⟨32, _⟩ => ⟨S120x64, .bf16⟩
  | .local _ .vmem, ⟨33, _⟩ => ⟨S64x8, .bf16⟩
  | .local _ .vmem, ⟨34, _⟩ => ⟨S1x120, .f32⟩
  | .local _ .vmem, ⟨35, _⟩ => ⟨S1x64, .f32⟩
  | .local _ .vmem, ⟨36, _⟩ => ⟨S1x8, .f32⟩
  | .local _ .vmem, ⟨37, _⟩ => ⟨S512x128, .f32⟩
  | .local _ .vmem, ⟨38, _⟩ => ⟨S512x128, .f32⟩
  | .local _ .vmem, ⟨39, _⟩ => ⟨S512x4096, .f32⟩
  | .local _ .vmem, ⟨40, _⟩ => ⟨S512x1024, .bf16⟩
  | .local _ .vmem, ⟨41, _⟩ => ⟨S1024x1024, .f32⟩
  | .local _ .vmem, ⟨42, _⟩ => ⟨S1024x1024, .f32⟩
  | .local _ .vmem, ⟨43, _⟩ => ⟨S1x1024, .f32⟩
  | .local _ .vmem, ⟨44, _⟩ => ⟨S1x1024, .f32⟩
  | .local _ .vmem, ⟨45, _⟩ => ⟨S512x1024, .f32⟩
  | .local _ .vmem, ⟨46, _⟩ => ⟨S512x1024, .f32⟩
  | .local _ .vmem, ⟨47, _⟩ => ⟨S256x120, .bf16⟩
  | .local _ .vmem, ⟨48, _⟩ => ⟨S120x64, .bf16⟩
  | .local _ .vmem, ⟨49, _⟩ => ⟨S64x8, .bf16⟩
  | .local _ .vmem, ⟨50, _⟩ => ⟨S1x120, .f32⟩
  | .local _ .vmem, ⟨51, _⟩ => ⟨S1x64, .f32⟩
  | .local _ .vmem, ⟨52, _⟩ => ⟨S1x8, .f32⟩
  | .local _ .vmem, ⟨53, _⟩ => ⟨S512x128, .f32⟩
  | .local _ .vmem, ⟨54, _⟩ => ⟨S512x128, .f32⟩
  | .local _ .vmem, ⟨55, _⟩ => ⟨S512x4096, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_c_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_c_8 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_9 : Ref sig .tc := ⟨.hbm, 56, rfl⟩
abbrev main_v28 : Ref sig .tc := ⟨.hbm, 57, rfl⟩
abbrev main_c_10 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_11 : Ref sig .tc := ⟨.hbm, 62, rfl⟩
abbrev main_v32 : Ref sig .tc := ⟨.hbm, 63, rfl⟩
abbrev main_c_12 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_13 : Ref sig .tc := ⟨.hbm, 68, rfl⟩
abbrev main_v36 : Ref sig .tc := ⟨.hbm, 69, rfl⟩
abbrev main_c_14 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_15 : Ref sig .tc := ⟨.hbm, 76, rfl⟩
abbrev main_v42 : Ref sig .tc := ⟨.hbm, 77, rfl⟩
abbrev main_c_16 : Ref sig .tc := ⟨.hbm, 78, rfl⟩
abbrev main_v43 : Ref sig .tc := ⟨.hbm, 79, rfl⟩
abbrev main_c_17 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_18 : Ref sig .tc := ⟨.hbm, 84, rfl⟩
abbrev main_v47 : Ref sig .tc := ⟨.hbm, 85, rfl⟩
abbrev main_c_19 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_20 : Ref sig .tc := ⟨.hbm, 90, rfl⟩
abbrev main_v51 : Ref sig .tc := ⟨.hbm, 91, rfl⟩
abbrev main_c_21 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_22 : Ref sig .tc := ⟨.hbm, 96, rfl⟩
abbrev main_v55 : Ref sig .tc := ⟨.hbm, 97, rfl⟩
abbrev main_c_23 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_c_24 : Ref sig .tc := ⟨.hbm, 102, rfl⟩
abbrev main_v59 : Ref sig .tc := ⟨.hbm, 103, rfl⟩
abbrev main_c_25 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_26 : Ref sig .tc := ⟨.hbm, 108, rfl⟩
abbrev main_v63 : Ref sig .tc := ⟨.hbm, 109, rfl⟩
abbrev main_c_27 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_28 : Ref sig .tc := ⟨.hbm, 114, rfl⟩
abbrev main_v67 : Ref sig .tc := ⟨.hbm, 115, rfl⟩
abbrev main_c_29 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_c_30 : Ref sig .tc := ⟨.hbm, 120, rfl⟩
abbrev main_v71 : Ref sig .tc := ⟨.hbm, 121, rfl⟩
abbrev main_c_31 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_32 : Ref sig .tc := ⟨.hbm, 128, rfl⟩
abbrev main_v77 : Ref sig .tc := ⟨.hbm, 129, rfl⟩
abbrev main_c_33 : Ref sig .tc := ⟨.hbm, 130, rfl⟩
abbrev main_v78 : Ref sig .tc := ⟨.hbm, 131, rfl⟩
abbrev main_c_34 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_35 : Ref sig .tc := ⟨.hbm, 136, rfl⟩
abbrev main_v82 : Ref sig .tc := ⟨.hbm, 137, rfl⟩
abbrev main_c_36 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_c_37 : Ref sig .tc := ⟨.hbm, 142, rfl⟩
abbrev main_v86 : Ref sig .tc := ⟨.hbm, 143, rfl⟩
abbrev main_c_38 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_c_39 : Ref sig .tc := ⟨.hbm, 148, rfl⟩
abbrev main_v90 : Ref sig .tc := ⟨.hbm, 149, rfl⟩
abbrev main_c_40 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_c_41 : Ref sig .tc := ⟨.hbm, 154, rfl⟩
abbrev main_v94 : Ref sig .tc := ⟨.hbm, 155, rfl⟩
abbrev main_c_42 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_c_43 : Ref sig .tc := ⟨.hbm, 160, rfl⟩
abbrev main_v98 : Ref sig .tc := ⟨.hbm, 161, rfl⟩
abbrev main_c_44 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_45 : Ref sig .tc := ⟨.hbm, 166, rfl⟩
abbrev main_v102 : Ref sig .tc := ⟨.hbm, 167, rfl⟩
abbrev main_c_46 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_c_47 : Ref sig .tc := ⟨.hbm, 172, rfl⟩
abbrev main_v106 : Ref sig .tc := ⟨.hbm, 173, rfl⟩
abbrev main_c_48 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_49 : Ref sig .tc := ⟨.hbm, 201, rfl⟩
abbrev main_v133 : Ref sig .tc := ⟨.hbm, 202, rfl⟩
abbrev main_c_50 : Ref sig .tc := ⟨.hbm, 203, rfl⟩
abbrev main_v134 : Ref sig .tc := ⟨.hbm, 204, rfl⟩
abbrev main_c_51 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_c_52 : Ref sig .tc := ⟨.hbm, 209, rfl⟩
abbrev main_v138 : Ref sig .tc := ⟨.hbm, 210, rfl⟩
abbrev main_c_53 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_c_54 : Ref sig .tc := ⟨.hbm, 215, rfl⟩
abbrev main_v142 : Ref sig .tc := ⟨.hbm, 216, rfl⟩
abbrev main_c_55 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_c_56 : Ref sig .tc := ⟨.hbm, 221, rfl⟩
abbrev main_v146 : Ref sig .tc := ⟨.hbm, 222, rfl⟩
abbrev main_c_57 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_c_58 : Ref sig .tc := ⟨.hbm, 227, rfl⟩
abbrev main_v150 : Ref sig .tc := ⟨.hbm, 228, rfl⟩
abbrev main_c_59 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_c_60 : Ref sig .tc := ⟨.hbm, 233, rfl⟩
abbrev main_v154 : Ref sig .tc := ⟨.hbm, 234, rfl⟩
abbrev main_c_61 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_c_62 : Ref sig .tc := ⟨.hbm, 239, rfl⟩
abbrev main_v158 : Ref sig .tc := ⟨.hbm, 240, rfl⟩
abbrev main_c_63 : Ref sig .tc := ⟨.hbm, 241, rfl⟩
abbrev main_v159 : Ref sig .tc := ⟨.hbm, 242, rfl⟩
abbrev main_v160 : Ref sig .tc := ⟨.hbm, 243, rfl⟩
abbrev main_v161 : Ref sig .tc := ⟨.hbm, 244, rfl⟩
abbrev main_c_64 : Ref sig .tc := ⟨.hbm, 245, rfl⟩
abbrev main_v162 : Ref sig .tc := ⟨.hbm, 246, rfl⟩
abbrev main_c_65 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_cst_66 : Ref sig .tc := ⟨.hbm, 253, rfl⟩
abbrev main_v168 : Ref sig .tc := ⟨.hbm, 254, rfl⟩
abbrev main_c_67 : Ref sig .tc := ⟨.hbm, 255, rfl⟩
abbrev main_v169 : Ref sig .tc := ⟨.hbm, 256, rfl⟩
abbrev main_c_68 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_c_69 : Ref sig .tc := ⟨.hbm, 261, rfl⟩
abbrev main_v173 : Ref sig .tc := ⟨.hbm, 262, rfl⟩
abbrev main_c_70 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_c_71 : Ref sig .tc := ⟨.hbm, 267, rfl⟩
abbrev main_v177 : Ref sig .tc := ⟨.hbm, 268, rfl⟩
abbrev main_c_72 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_c_73 : Ref sig .tc := ⟨.hbm, 273, rfl⟩
abbrev main_v181 : Ref sig .tc := ⟨.hbm, 274, rfl⟩
abbrev main_c_74 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_c_75 : Ref sig .tc := ⟨.hbm, 279, rfl⟩
abbrev main_v185 : Ref sig .tc := ⟨.hbm, 280, rfl⟩
abbrev main_c_76 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_c_77 : Ref sig .tc := ⟨.hbm, 285, rfl⟩
abbrev main_v189 : Ref sig .tc := ⟨.hbm, 286, rfl⟩
abbrev main_c_78 : Ref sig .tc := ⟨.hbm, 287, rfl⟩
abbrev main_v190 : Ref sig .tc := ⟨.hbm, 288, rfl⟩
abbrev main_v191 : Ref sig .tc := ⟨.hbm, 289, rfl⟩
abbrev main_v192 : Ref sig .tc := ⟨.hbm, 290, rfl⟩
abbrev main_c_79 : Ref sig .tc := ⟨.hbm, 291, rfl⟩
abbrev main_v193 : Ref sig .tc := ⟨.hbm, 292, rfl⟩
abbrev main_c_80 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_c_81 : Ref sig .tc := ⟨.hbm, 297, rfl⟩
abbrev main_v197 : Ref sig .tc := ⟨.hbm, 298, rfl⟩
abbrev main_c_82 : Ref sig .tc := ⟨.hbm, 299, rfl⟩
abbrev main_v198 : Ref sig .tc := ⟨.hbm, 300, rfl⟩
abbrev main_v199 : Ref sig .tc := ⟨.hbm, 301, rfl⟩
abbrev main_v200 : Ref sig .tc := ⟨.hbm, 302, rfl⟩
abbrev main_v201 : Ref sig .tc := ⟨.hbm, 303, rfl⟩
abbrev main_v202 : Ref sig .tc := ⟨.hbm, 304, rfl⟩
abbrev main_cst_83 : Ref sig .tc := ⟨.hbm, 305, rfl⟩
abbrev main_v203 : Ref sig .tc := ⟨.hbm, 306, rfl⟩
abbrev main_c_84 : Ref sig .tc := ⟨.hbm, 307, rfl⟩
abbrev main_v204 : Ref sig .tc := ⟨.hbm, 308, rfl⟩
abbrev main_c_85 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_c_86 : Ref sig .tc := ⟨.hbm, 313, rfl⟩
abbrev main_v208 : Ref sig .tc := ⟨.hbm, 314, rfl⟩
abbrev main_c_87 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_c_88 : Ref sig .tc := ⟨.hbm, 319, rfl⟩
abbrev main_v212 : Ref sig .tc := ⟨.hbm, 320, rfl⟩
abbrev main_c_89 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_c_90 : Ref sig .tc := ⟨.hbm, 325, rfl⟩
abbrev main_v216 : Ref sig .tc := ⟨.hbm, 326, rfl⟩
abbrev main_c_91 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_c_92 : Ref sig .tc := ⟨.hbm, 331, rfl⟩
abbrev main_v220 : Ref sig .tc := ⟨.hbm, 332, rfl⟩
abbrev main_c_93 : Ref sig .tc := ⟨.hbm, 333, rfl⟩
abbrev main_v221 : Ref sig .tc := ⟨.hbm, 334, rfl⟩
abbrev main_v222 : Ref sig .tc := ⟨.hbm, 335, rfl⟩
abbrev main_v223 : Ref sig .tc := ⟨.hbm, 336, rfl⟩
abbrev main_c_94 : Ref sig .tc := ⟨.hbm, 337, rfl⟩
abbrev main_v224 : Ref sig .tc := ⟨.hbm, 338, rfl⟩
abbrev main_c_95 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_c_96 : Ref sig .tc := ⟨.hbm, 343, rfl⟩
abbrev main_v228 : Ref sig .tc := ⟨.hbm, 344, rfl⟩
abbrev main_c_97 : Ref sig .tc := ⟨.hbm, 345, rfl⟩
abbrev main_v229 : Ref sig .tc := ⟨.hbm, 346, rfl⟩
abbrev main_v230 : Ref sig .tc := ⟨.hbm, 347, rfl⟩
abbrev main_v231 : Ref sig .tc := ⟨.hbm, 348, rfl⟩
abbrev main_c_98 : Ref sig .tc := ⟨.hbm, 349, rfl⟩
abbrev main_v232 : Ref sig .tc := ⟨.hbm, 350, rfl⟩
abbrev main_c_99 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_v237 : Ref sig .tc := ⟨.hbm, 356, rfl⟩
abbrev main_v238 : Ref sig .tc := ⟨.hbm, 357, rfl⟩
abbrev main_v239 : Ref sig .tc := ⟨.hbm, 358, rfl⟩
abbrev main_v240 : Ref sig .tc := ⟨.hbm, 359, rfl⟩
abbrev main_v241 : Ref sig .tc := ⟨.hbm, 360, rfl⟩
abbrev main_v242 : Ref sig .tc := ⟨.hbm, 361, rfl⟩
abbrev main_v243 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_v257 : Ref sig .tc := ⟨.hbm, 376, rfl⟩
abbrev main_cst_100 : Ref sig .tc := ⟨.hbm, 377, rfl⟩
abbrev main_v258 : Ref sig .tc := ⟨.hbm, 378, rfl⟩
abbrev main_c_101 : Ref sig .tc := ⟨.hbm, 379, rfl⟩
abbrev main_v259 : Ref sig .tc := ⟨.hbm, 380, rfl⟩
abbrev main_c_102 : Ref sig .tc := ⟨.hbm, 381, rfl⟩
abbrev main_v260 : Ref sig .tc := ⟨.hbm, 382, rfl⟩
abbrev main_v261 : Ref sig .tc := ⟨.hbm, 383, rfl⟩
abbrev main_v262 : Ref sig .tc := ⟨.hbm, 384, rfl⟩
abbrev main_c_103 : Ref sig .tc := ⟨.hbm, 385, rfl⟩
abbrev main_v263 : Ref sig .tc := ⟨.hbm, 386, rfl⟩
abbrev main_c_104 : Ref sig .tc := ⟨.hbm, 387, rfl⟩
abbrev main_v264 : Ref sig .tc := ⟨.hbm, 388, rfl⟩
abbrev main_v265 : Ref sig .tc := ⟨.hbm, 389, rfl⟩
abbrev main_v266 : Ref sig .tc := ⟨.hbm, 390, rfl⟩
abbrev main_c_105 : Ref sig .tc := ⟨.hbm, 391, rfl⟩
abbrev main_v267 : Ref sig .tc := ⟨.hbm, 392, rfl⟩
abbrev main_c_106 : Ref sig .tc := ⟨.hbm, 393, rfl⟩
abbrev main_v268 : Ref sig .tc := ⟨.hbm, 394, rfl⟩
abbrev main_v269 : Ref sig .tc := ⟨.hbm, 395, rfl⟩
abbrev main_v270 : Ref sig .tc := ⟨.hbm, 396, rfl⟩
abbrev main_c_107 : Ref sig .tc := ⟨.hbm, 397, rfl⟩
abbrev main_v271 : Ref sig .tc := ⟨.hbm, 398, rfl⟩
abbrev main_c_108 : Ref sig .tc := ⟨.hbm, 399, rfl⟩
abbrev main_v272 : Ref sig .tc := ⟨.hbm, 400, rfl⟩
abbrev main_v273 : Ref sig .tc := ⟨.hbm, 401, rfl⟩
abbrev main_v274 : Ref sig .tc := ⟨.hbm, 402, rfl⟩
abbrev main_c_109 : Ref sig .tc := ⟨.hbm, 403, rfl⟩
abbrev main_v275 : Ref sig .tc := ⟨.hbm, 404, rfl⟩
abbrev main_c_110 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_c_111 : Ref sig .tc := ⟨.hbm, 409, rfl⟩
abbrev main_v279 : Ref sig .tc := ⟨.hbm, 410, rfl⟩
abbrev main_c_112 : Ref sig .tc := ⟨.hbm, 411, rfl⟩
abbrev main_v280 : Ref sig .tc := ⟨.hbm, 412, rfl⟩
abbrev main_v281 : Ref sig .tc := ⟨.hbm, 413, rfl⟩
abbrev main_v282 : Ref sig .tc := ⟨.hbm, 414, rfl⟩
abbrev main_c_113 : Ref sig .tc := ⟨.hbm, 415, rfl⟩
abbrev main_v283 : Ref sig .tc := ⟨.hbm, 416, rfl⟩
abbrev main_c_114 : Ref sig .tc := ⟨.hbm, 417, rfl⟩
abbrev main_v284 : Ref sig .tc := ⟨.hbm, 418, rfl⟩
abbrev main_v285 : Ref sig .tc := ⟨.hbm, 419, rfl⟩
abbrev main_v286 : Ref sig .tc := ⟨.hbm, 420, rfl⟩
abbrev main_c_115 : Ref sig .tc := ⟨.hbm, 421, rfl⟩
abbrev main_v287 : Ref sig .tc := ⟨.hbm, 422, rfl⟩
abbrev main_c_116 : Ref sig .tc := ⟨.hbm, 423, rfl⟩
abbrev main_v288 : Ref sig .tc := ⟨.hbm, 424, rfl⟩
abbrev main_v289 : Ref sig .tc := ⟨.hbm, 425, rfl⟩
abbrev main_v290 : Ref sig .tc := ⟨.hbm, 426, rfl⟩
abbrev main_v291 : Ref sig .tc := ⟨.hbm, 427, rfl⟩
abbrev main_v292 : Ref sig .tc := ⟨.hbm, 428, rfl⟩
abbrev main_cst_117 : Ref sig .tc := ⟨.hbm, 429, rfl⟩
abbrev main_v293 : Ref sig .tc := ⟨.hbm, 430, rfl⟩
abbrev main_c_118 : Ref sig .tc := ⟨.hbm, 431, rfl⟩
abbrev main_v294 : Ref sig .tc := ⟨.hbm, 432, rfl⟩
abbrev main_c_119 : Ref sig .tc := ⟨.hbm, 433, rfl⟩
abbrev main_v295 : Ref sig .tc := ⟨.hbm, 434, rfl⟩
abbrev main_v296 : Ref sig .tc := ⟨.hbm, 435, rfl⟩
abbrev main_v297 : Ref sig .tc := ⟨.hbm, 436, rfl⟩
abbrev main_c_120 : Ref sig .tc := ⟨.hbm, 437, rfl⟩
abbrev main_v298 : Ref sig .tc := ⟨.hbm, 438, rfl⟩
abbrev main_c_121 : Ref sig .tc := ⟨.hbm, 439, rfl⟩
abbrev main_v299 : Ref sig .tc := ⟨.hbm, 440, rfl⟩
abbrev main_v300 : Ref sig .tc := ⟨.hbm, 441, rfl⟩
abbrev main_v301 : Ref sig .tc := ⟨.hbm, 442, rfl⟩
abbrev main_c_122 : Ref sig .tc := ⟨.hbm, 443, rfl⟩
abbrev main_v302 : Ref sig .tc := ⟨.hbm, 444, rfl⟩
abbrev main_c_123 : Ref sig .tc := ⟨.hbm, 445, rfl⟩
abbrev main_v303 : Ref sig .tc := ⟨.hbm, 446, rfl⟩
abbrev main_v304 : Ref sig .tc := ⟨.hbm, 447, rfl⟩
abbrev main_v305 : Ref sig .tc := ⟨.hbm, 448, rfl⟩
abbrev main_c_124 : Ref sig .tc := ⟨.hbm, 449, rfl⟩
abbrev main_v306 : Ref sig .tc := ⟨.hbm, 450, rfl⟩
abbrev main_c_125 : Ref sig .tc := ⟨.hbm, 451, rfl⟩
abbrev main_v307 : Ref sig .tc := ⟨.hbm, 452, rfl⟩
abbrev main_v308 : Ref sig .tc := ⟨.hbm, 453, rfl⟩
abbrev main_v309 : Ref sig .tc := ⟨.hbm, 454, rfl⟩
abbrev main_c_126 : Ref sig .tc := ⟨.hbm, 455, rfl⟩
abbrev main_v310 : Ref sig .tc := ⟨.hbm, 456, rfl⟩
abbrev main_c_127 : Ref sig .tc := ⟨.hbm, 457, rfl⟩
abbrev main_v311 : Ref sig .tc := ⟨.hbm, 458, rfl⟩
abbrev main_v312 : Ref sig .tc := ⟨.hbm, 459, rfl⟩
abbrev main_v313 : Ref sig .tc := ⟨.hbm, 460, rfl⟩
abbrev main_c_128 : Ref sig .tc := ⟨.hbm, 461, rfl⟩
abbrev main_v314 : Ref sig .tc := ⟨.hbm, 462, rfl⟩
abbrev main_c_129 : Ref sig .tc := ⟨.hbm, 463, rfl⟩
abbrev main_v315 : Ref sig .tc := ⟨.hbm, 464, rfl⟩
abbrev main_v316 : Ref sig .tc := ⟨.hbm, 465, rfl⟩
abbrev main_v317 : Ref sig .tc := ⟨.hbm, 466, rfl⟩
abbrev main_c_130 : Ref sig .tc := ⟨.hbm, 467, rfl⟩
abbrev main_v318 : Ref sig .tc := ⟨.hbm, 468, rfl⟩
abbrev main_c_131 : Ref sig .tc := ⟨.hbm, 469, rfl⟩
abbrev main_v319 : Ref sig .tc := ⟨.hbm, 470, rfl⟩
abbrev main_v320 : Ref sig .tc := ⟨.hbm, 471, rfl⟩
abbrev main_v321 : Ref sig .tc := ⟨.hbm, 472, rfl⟩
abbrev main_c_132 : Ref sig .tc := ⟨.hbm, 473, rfl⟩
abbrev main_v322 : Ref sig .tc := ⟨.hbm, 474, rfl⟩
abbrev main_c_133 : Ref sig .tc := ⟨.hbm, 475, rfl⟩
abbrev main_v323 : Ref sig .tc := ⟨.hbm, 476, rfl⟩
abbrev main_v324 : Ref sig .tc := ⟨.hbm, 477, rfl⟩
abbrev main_v325 : Ref sig .tc := ⟨.hbm, 478, rfl⟩
abbrev main_v326 : Ref sig .tc := ⟨.hbm, 479, rfl⟩
abbrev main_v327 : Ref sig .tc := ⟨.hbm, 480, rfl⟩
abbrev main_cst_134 : Ref sig .tc := ⟨.hbm, 481, rfl⟩
abbrev main_v328 : Ref sig .tc := ⟨.hbm, 482, rfl⟩
abbrev main_c_135 : Ref sig .tc := ⟨.hbm, 483, rfl⟩
abbrev main_v329 : Ref sig .tc := ⟨.hbm, 484, rfl⟩
abbrev main_c_136 : Ref sig .tc := ⟨.hbm, 485, rfl⟩
abbrev main_v330 : Ref sig .tc := ⟨.hbm, 486, rfl⟩
abbrev main_v331 : Ref sig .tc := ⟨.hbm, 487, rfl⟩
abbrev main_v332 : Ref sig .tc := ⟨.hbm, 488, rfl⟩
abbrev main_c_137 : Ref sig .tc := ⟨.hbm, 489, rfl⟩
abbrev main_v333 : Ref sig .tc := ⟨.hbm, 490, rfl⟩
abbrev main_c_138 : Ref sig .tc := ⟨.hbm, 491, rfl⟩
abbrev main_v334 : Ref sig .tc := ⟨.hbm, 492, rfl⟩
abbrev main_v335 : Ref sig .tc := ⟨.hbm, 493, rfl⟩
abbrev main_v336 : Ref sig .tc := ⟨.hbm, 494, rfl⟩
abbrev main_c_139 : Ref sig .tc := ⟨.hbm, 495, rfl⟩
abbrev main_v337 : Ref sig .tc := ⟨.hbm, 496, rfl⟩
abbrev main_c_140 : Ref sig .tc := ⟨.hbm, 497, rfl⟩
abbrev main_v338 : Ref sig .tc := ⟨.hbm, 498, rfl⟩
abbrev main_v339 : Ref sig .tc := ⟨.hbm, 499, rfl⟩
abbrev main_v340 : Ref sig .tc := ⟨.hbm, 500, rfl⟩
abbrev main_c_141 : Ref sig .tc := ⟨.hbm, 501, rfl⟩
abbrev main_v341 : Ref sig .tc := ⟨.hbm, 502, rfl⟩
abbrev main_c_142 : Ref sig .tc := ⟨.hbm, 503, rfl⟩
abbrev main_v342 : Ref sig .tc := ⟨.hbm, 504, rfl⟩
abbrev main_v343 : Ref sig .tc := ⟨.hbm, 505, rfl⟩
abbrev main_v344 : Ref sig .tc := ⟨.hbm, 506, rfl⟩
abbrev main_c_143 : Ref sig .tc := ⟨.hbm, 507, rfl⟩
abbrev main_v345 : Ref sig .tc := ⟨.hbm, 508, rfl⟩
abbrev main_c_144 : Ref sig .tc := ⟨.hbm, 509, rfl⟩
abbrev main_v346 : Ref sig .tc := ⟨.hbm, 510, rfl⟩
abbrev main_v347 : Ref sig .tc := ⟨.hbm, 511, rfl⟩
abbrev main_v348 : Ref sig .tc := ⟨.hbm, 512, rfl⟩
abbrev main_c_145 : Ref sig .tc := ⟨.hbm, 513, rfl⟩
abbrev main_v349 : Ref sig .tc := ⟨.hbm, 514, rfl⟩
abbrev main_c_146 : Ref sig .tc := ⟨.hbm, 515, rfl⟩
abbrev main_v350 : Ref sig .tc := ⟨.hbm, 516, rfl⟩
abbrev main_v351 : Ref sig .tc := ⟨.hbm, 517, rfl⟩
abbrev main_v352 : Ref sig .tc := ⟨.hbm, 518, rfl⟩
abbrev main_c_147 : Ref sig .tc := ⟨.hbm, 519, rfl⟩
abbrev main_v353 : Ref sig .tc := ⟨.hbm, 520, rfl⟩
abbrev main_c_148 : Ref sig .tc := ⟨.hbm, 521, rfl⟩
abbrev main_v354 : Ref sig .tc := ⟨.hbm, 522, rfl⟩
abbrev main_v355 : Ref sig .tc := ⟨.hbm, 523, rfl⟩
abbrev main_v356 : Ref sig .tc := ⟨.hbm, 524, rfl⟩
abbrev main_c_149 : Ref sig .tc := ⟨.hbm, 525, rfl⟩
abbrev main_v357 : Ref sig .tc := ⟨.hbm, 526, rfl⟩
abbrev main_c_150 : Ref sig .tc := ⟨.hbm, 527, rfl⟩
abbrev main_v358 : Ref sig .tc := ⟨.hbm, 528, rfl⟩
abbrev main_v359 : Ref sig .tc := ⟨.hbm, 529, rfl⟩
abbrev main_v360 : Ref sig .tc := ⟨.hbm, 530, rfl⟩
abbrev main_v361 : Ref sig .tc := ⟨.hbm, 531, rfl⟩
abbrev main_v362 : Ref sig .tc := ⟨.hbm, 532, rfl⟩
abbrev main_v363 : Ref sig .tc := ⟨.hbm, 533, rfl⟩
abbrev main_v364 : Ref sig .tc := ⟨.hbm, 534, rfl⟩
abbrev main_v365 : Ref sig .tc := ⟨.hbm, 535, rfl⟩
abbrev main_v366 : Ref sig .tc := ⟨.hbm, 536, rfl⟩
abbrev main_v367 : Ref sig .tc := ⟨.hbm, 537, rfl⟩
abbrev main_v368 : Ref sig .tc := ⟨.hbm, 538, rfl⟩
abbrev main_v369 : Ref sig .tc := ⟨.hbm, 539, rfl⟩
abbrev main_v370 : Ref sig .tc := ⟨.hbm, 540, rfl⟩
abbrev main_v371 : Ref sig .tc := ⟨.hbm, 541, rfl⟩
abbrev main_v372 : Ref sig .tc := ⟨.hbm, 542, rfl⟩
abbrev main_v373 : Ref sig .tc := ⟨.hbm, 543, rfl⟩
abbrev main_v374 : Ref sig .tc := ⟨.hbm, 544, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg10_0 : Ref sig .tc := ⟨.vmem, 35, rfl⟩
abbrev cc2_stg11_0 : Ref sig .tc := ⟨.vmem, 36, rfl⟩
abbrev cc2_stg12_0 : Ref sig .tc := ⟨.vmem, 37, rfl⟩
abbrev cc2_stg12_1 : Ref sig .tc := ⟨.vmem, 38, rfl⟩
abbrev cc2_scratch0 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg10_0 : Ref sig .tc := ⟨.vmem, 53, rfl⟩
abbrev cc3_stg10_1 : Ref sig .tc := ⟨.vmem, 54, rfl⟩
abbrev cc3_scratch0 : Ref sig .tc := ⟨.vmem, 55, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem12_1 : DmaSem sig := 37
abbrev cc3_sem0_0 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem10_0 : DmaSem sig := 51
abbrev cc3_sem10_1 : DmaSem sig := 52

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v12 : BitVec 32 := Scalar.muli arg1 c1024_i32
  v12
def k0_off1 (i : grid0.Coords) : Fin 2 → Nat :=
  let c0_6 : Index := 0#32
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  ![0, v14.toNat]
def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S120x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 8], ![false, false]⟩

def k2_mult1 (i : grid2.Coords) : BitVec 32 :=
  let arg1 : BitVec 32 := BitVec.ofNat 32 (i 1).val
  let c512_i32 : BitVec 32 := 512#32
  let v22 : BitVec 32 := Scalar.muli arg1 c512_i32
  v22
def k2_off1 (i : grid2.Coords) : Fin 2 → Nat :=
  let c0_13 : Index := 0#32
  let arg1 : BitVec 32 := BitVec.ofNat 32 (i 1).val
  let c512_i32 : BitVec 32 := 512#32
  let v22 : BitVec 32 := Scalar.muli arg1 c512_i32
  let v23 : BitVec 32 := v22
  let v24 : Index := Scalar.indexCast v23
  ![0, v24.toNat]
def k2_cond2 (i : grid2.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_14 : BitVec 32 := 0#32
  let v30 : BitVec 1 := Scalar.cmpi .ne v29 c0_i32_14
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc2_transform_5 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S512x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S256x120 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S120x64 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x8 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x120 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x8 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 2 → Memref sig .tc .vmem S512x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, false]

abbrev grid3 : Pipeline.Grid := ⟨2, ![8, 4], ![false, false]⟩

def k3_mult1 (i : grid3.Coords) : BitVec 32 :=
  let arg1 : BitVec 32 := BitVec.ofNat 32 (i 1).val
  let c1024_i32 : BitVec 32 := 1024#32
  let v15 : BitVec 32 := Scalar.muli arg1 c1024_i32
  v15
def k3_off1 (i : grid3.Coords) : Fin 2 → Nat :=
  let c0_8 : Index := 0#32
  let arg1 : BitVec 32 := BitVec.ofNat 32 (i 1).val
  let c1024_i32 : BitVec 32 := 1024#32
  let v15 : BitVec 32 := Scalar.muli arg1 c1024_i32
  let v16 : BitVec 32 := v15
  let v17 : Index := Scalar.indexCast v16
  ![0, v17.toNat]
def k3_cond2 (i : grid3.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_9 : BitVec 32 := 0#32
  let v23 : BitVec 1 := Scalar.cmpi .ne v22 c0_i32_9
  v23

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc3_transform_3 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 1 → Memref sig .tc .vmem S512x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S256x120 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S120x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S64x8 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x120 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x8 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 2 → Memref sig .tc .vmem S512x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

class Facts₀ : Prop where
  bitsLt_bf16_f32 : FTy.bits .bf16 < FTy.bits .f32
  slices_S15x35_S15x32_0_0 : S15x35.Slices ![0, 0] S15x32
  slices_S15x35_S15x1_0_32 : S15x35.Slices ![0, 32] S15x1
  shapeCasts_S15x1_S15 : S15x1.ShapeCasts S15
  transposes_S15x32_S32x15_1_0 : S15x32.Transposes [1, 0] S32x15
  bcast_S_S256x120 : S_.BroadcastsInDim S256x120 (![] : Fin 0 → Fin S256x120.rank)
  bcast_S_S1 : S_.BroadcastsInDim S1 (![] : Fin 0 → Fin S1.rank)
  concatenates_S1_S1_S2_d0 : Shape.Concatenates [S1, S1] S2 0
  transposes_S8x15_S15x8_1_0 : S8x15.Transposes [1, 0] S15x8
  bcast_S_S120x64 : S_.BroadcastsInDim S120x64 (![] : Fin 0 → Fin S120x64.rank)
  transposes_S1x8_S8x1_1_0 : S1x8.Transposes [1, 0] S8x1
  bcast_S_S64x8 : S_.BroadcastsInDim S64x8 (![] : Fin 0 → Fin S64x8.rank)
  shapeCasts_S15_S1x15 : S15.ShapeCasts S1x15
  bcast_S1x15_S8x15_0_1 : S1x15.BroadcastsInDim S8x15 (![0, 1] : Fin 2 → Fin S8x15.rank)
  shapeCasts_S8x15_S120 : S8x15.ShapeCasts S120
  shapeCasts_S120_S1x120 : S120.ShapeCasts S1x120
  shapeCasts_S8_S1x8 : S8.ShapeCasts S1x8
  bcast_S1x8_S8x8_0_1 : S1x8.BroadcastsInDim S8x8 (![0, 1] : Fin 2 → Fin S8x8.rank)
  shapeCasts_S8x8_S64 : S8x8.ShapeCasts S64
  shapeCasts_S64_S1x64 : S64.ShapeCasts S1x64
  shapeCasts_S1_S1x1 : S1.ShapeCasts S1x1
  bcast_S1x1_S8x1_0_1 : S1x1.BroadcastsInDim S8x1 (![0, 1] : Fin 2 → Fin S8x1.rank)
  shapeCasts_S8x1_S8 : S8x1.ShapeCasts S8
  shapeCasts_S32768_S1x32768 : S32768.ShapeCasts S1x32768
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S256x120_S256x120_0_0 : ∀ a, (![0, 0] : Fin 2 → Nat) a + S256x120.size a ≤ S256x120.size a
  h_S256x120 : 0 < S256x120.numel
  shapeCasts_S256x120_S256x120 : S256x120.ShapeCasts S256x120
  inb_S120x64_S120x64_0_0 : ∀ a, (![0, 0] : Fin 2 → Nat) a + S120x64.size a ≤ S120x64.size a
  h_S120x64 : 0 < S120x64.numel
  shapeCasts_S120x64_S120x64 : S120x64.ShapeCasts S120x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S1x120_S1x120_0_0 : ∀ a, (![0, 0] : Fin 2 → Nat) a + S1x120.size a ≤ S1x120.size a
  h_S1x120 : 0 < S1x120.numel
  shapeCasts_S1x120_S1x120 : S1x120.ShapeCasts S1x120
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S512x4096_S512x256_0_0 : ∀ a, (![0, 0] : Fin 2 → Nat) a + S512x256.size a ≤ S512x4096.size a
  h_S512x256 : 0 < S512x256.numel
  broadcasts_S1x120_S512x120 : S1x120.Broadcasts S512x120
  broadcasts_S1x64_S512x64 : S1x64.Broadcasts S512x64
  broadcasts_S1x8_S512x8 : S1x8.Broadcasts S512x8
  inb_S512x4096_S512x256_0_256 : ∀ a, (![0, 256] : Fin 2 → Nat) a + S512x256.size a ≤ S512x4096.size a
  inb_S512x4096_S512x256_0_512 : ∀ a, (![0, 512] : Fin 2 → Nat) a + S512x256.size a ≤ S512x4096.size a
  inb_S512x4096_S512x256_0_768 : ∀ a, (![0, 768] : Fin 2 → Nat) a + S512x256.size a ≤ S512x4096.size a
  inb_S512x4096_S512x256_0_1024 : ∀ a, (![0, 1024] : Fin 2 → Nat) a + S512x256.size a ≤ S512x4096.size a
  inb_S512x4096_S512x256_0_1280 : ∀ a, (![0, 1280] : Fin 2 → Nat) a + S512x256.size a ≤ S512x4096.size a
  inb_S512x4096_S512x256_0_1536 : ∀ a, (![0, 1536] : Fin 2 → Nat) a + S512x256.size a ≤ S512x4096.size a
  inb_S512x4096_S512x256_0_1792 : ∀ a, (![0, 1792] : Fin 2 → Nat) a + S512x256.size a ≤ S512x4096.size a
  inb_S512x4096_S512x256_0_2048 : ∀ a, (![0, 2048] : Fin 2 → Nat) a + S512x256.size a ≤ S512x4096.size a
  inb_S512x4096_S512x256_0_2304 : ∀ a, (![0, 2304] : Fin 2 → Nat) a + S512x256.size a ≤ S512x4096.size a
  inb_S512x4096_S512x256_0_2560 : ∀ a, (![0, 2560] : Fin 2 → Nat) a + S512x256.size a ≤ S512x4096.size a
  inb_S512x4096_S512x256_0_2816 : ∀ a, (![0, 2816] : Fin 2 → Nat) a + S512x256.size a ≤ S512x4096.size a
  inb_S512x4096_S512x256_0_3072 : ∀ a, (![0, 3072] : Fin 2 → Nat) a + S512x256.size a ≤ S512x4096.size a
  inb_S512x4096_S512x256_0_3328 : ∀ a, (![0, 3328] : Fin 2 → Nat) a + S512x256.size a ≤ S512x4096.size a
  inb_S512x4096_S512x256_0_3584 : ∀ a, (![0, 3584] : Fin 2 → Nat) a + S512x256.size a ≤ S512x4096.size a
  inb_S512x4096_S512x256_0_3840 : ∀ a, (![0, 3840] : Fin 2 → Nat) a + S512x256.size a ≤ S512x4096.size a
  concatenates_S512x8_S512x8_S512x8_S512x8_S512x8_S512x8_S512x8_S512x8_S512x8_S512x8_S512x8_S512x8_S512x8_S512x8_S512x8_S512x8_S512x128_d1 : Shape.Concatenates [S512x8, S512x8, S512x8, S512x8, S512x8, S512x8, S512x8, S512x8, S512x8, S512x8, S512x8, S512x8, S512x8, S512x8, S512x8, S512x8] S512x128 1
  inb_S512x128_S512x128_0_0 : ∀ a, (![0, 0] : Fin 2 → Nat) a + S512x128.size a ≤ S512x128.size a
  h_S512x128 : 0 < S512x128.numel
  inb_S2048x1024_S2048x1024_0_0 : ∀ a, (![0, 0] : Fin 2 → Nat) a + S2048x1024.size a ≤ S2048x1024.size a
  h_S2048x1024 : 0 < S2048x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  slices_S15x35_S15x1_0_33 : S15x35.Slices ![0, 33] S15x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  h_S512x512 : 0 < S512x512.numel
  shapeCasts_S512x512_S512x512 : S512x512.ShapeCasts S512x512
  slices_S15x35_S15x1_0_34 : S15x35.Slices ![0, 34] S15x1
  scatter_S256x120_S2_S32x15_01_n_01_0_wf : ScatterDims.WF S256x120 S2 S32x15 [0, 1] [] [0, 1] 0
  scatter_S120x64_S2_S15x8_01_n_01_0_wf : ScatterDims.WF S120x64 S2 S15x8 [0, 1] [] [0, 1] 0
  scatter_S64x8_S2_S8x1_01_n_01_0_wf : ScatterDims.WF S64x8 S2 S8x1 [0, 1] [] [0, 1] 0
  dot_S512x1024_S1024x1024_S512x1024_1_1_0_0_n_n_wf : DotDims.WF S512x1024 S1024x1024 S512x1024 [1] [1] [0] [0] [] []
  dot_S512x256_S256x120_S512x120_1_0_0_1_n_n_wf : DotDims.WF S512x256 S256x120 S512x120 [1] [0] [0] [1] [] []
  dot_S512x120_S120x64_S512x64_1_0_0_1_n_n_wf : DotDims.WF S512x120 S120x64 S512x64 [1] [0] [0] [1] [] []
  dot_S512x64_S64x8_S512x8_1_0_0_1_n_n_wf : DotDims.WF S512x64 S64x8 S512x8 [1] [0] [0] [1] [] []
  dot_S512x1024_S2048x1024_S512x2048_1_1_0_0_n_n_wf : DotDims.WF S512x1024 S2048x1024 S512x2048 [1] [1] [0] [0] [] []
  dot_S512x1024_S512x1024_S512x512_1_1_0_0_n_n_wf : DotDims.WF S512x1024 S512x1024 S512x512 [1] [1] [0] [0] [] []
  hrank0 : 0 < grid0.rank
  k0_mult1_dvd : ∀ i : grid0.Coords, 128 ∣ (k0_mult1 i).toNat
  k0_off1_inb : ∀ i : grid0.Coords, ∀ a, (k0_off1 i) a + S512x1024.size a ≤ S512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .bf16 = 32 ∨ (Rect.block (s := S512x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x32768.size a
  hwx0_2 : ∀ i : grid0.Coords, EltTy.bits .f32 = 32 ∨ (Rect.block (s := S1x32768) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x120.size a ≤ S256x120.size a
  hwx0_3 : ∀ i : grid0.Coords, EltTy.bits .bf16 = 32 ∨ (Rect.block (s := S256x120) S256x120.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S120x64.size a ≤ S120x64.size a
  hwx0_4 : ∀ i : grid0.Coords, EltTy.bits .bf16 = 32 ∨ (Rect.block (s := S120x64) S120x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x8.size a ≤ S64x8.size a
  hwx0_5 : ∀ i : grid0.Coords, EltTy.bits .bf16 = 32 ∨ (Rect.block (s := S64x8) S64x8.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8.size a ≤ S1x8.size a
  hwx0_8 : ∀ i : grid0.Coords, EltTy.bits .f32 = 32 ∨ (Rect.block (s := S1x8) S1x8.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x1024.size a
  hwx0_9 : ∀ i : grid0.Coords, EltTy.bits .f32 = 32 ∨ (Rect.block (s := S512x1024) S512x128.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x1024.size a
  hwx1_0 : ∀ i : grid1.Coords, EltTy.bits .bf16 = 32 ∨ (Rect.block (s := S512x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S32768x1024.size a
  hwx1_1 : ∀ i : grid1.Coords, EltTy.bits .f32 = 32 ∨ (Rect.block (s := S32768x1024) S2048x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x32768.size a
  hwx1_2 : ∀ i : grid1.Coords, EltTy.bits .f32 = 32 ∨ (Rect.block (s := S1x32768) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S512x32768.size a
  hwx1_3 : ∀ i : grid1.Coords, EltTy.bits .f32 = 32 ∨ (Rect.block (s := S512x32768) S512x2048.size (cc1_transform_3 i) (hinb1_3 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S512x512.size a ≤ S512x4096.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x1024.size a
  hwx2_0 : ∀ i : grid2.Coords, EltTy.bits .bf16 = 32 ∨ (Rect.block (s := S512x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .bf16 = 32 ∨ (Rect.block (s := S512x1024) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S32768x1024.size a
  hwx2_2 : ∀ i : grid2.Coords, EltTy.bits .f32 = 32 ∨ (Rect.block (s := S32768x1024) S512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S32768x1024.size a
  hwx2_3 : ∀ i : grid2.Coords, EltTy.bits .f32 = 32 ∨ (Rect.block (s := S32768x1024) S512x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x32768.size a
  hwx2_4 : ∀ i : grid2.Coords, EltTy.bits .f32 = 32 ∨ (Rect.block (s := S1x32768) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x32768.size a
  hwx2_5 : ∀ i : grid2.Coords, EltTy.bits .f32 = 32 ∨ (Rect.block (s := S1x32768) S1x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x120.size a ≤ S256x120.size a
  hwx2_6 : ∀ i : grid2.Coords, EltTy.bits .bf16 = 32 ∨ (Rect.block (s := S256x120) S256x120.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S120x64.size a ≤ S120x64.size a
  hwx2_7 : ∀ i : grid2.Coords, EltTy.bits .bf16 = 32 ∨ (Rect.block (s := S120x64) S120x64.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x8.size a ≤ S64x8.size a
  hwx2_8 : ∀ i : grid2.Coords, EltTy.bits .bf16 = 32 ∨ (Rect.block (s := S64x8) S64x8.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x120.size a ≤ S1x120.size a
  hwx2_9 : ∀ i : grid2.Coords, EltTy.bits .f32 = 32 ∨ (Rect.block (s := S1x120) S1x120.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x8.size a ≤ S1x8.size a
  hwx2_11 : ∀ i : grid2.Coords, EltTy.bits .f32 = 32 ∨ (Rect.block (s := S1x8) S1x8.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S512x128.size a ≤ S512x1024.size a
  hwx2_12 : ∀ i : grid2.Coords, EltTy.bits .f32 = 32 ∨ (Rect.block (s := S512x1024) S512x128.size (cc2_transform_12 i) (hinb2_12 i)).WholeWords (EltTy.packing .f32)
  hrank3 : 0 < grid3.rank
  k3_mult1_dvd : ∀ i : grid3.Coords, 128 ∣ (k3_mult1 i).toNat
  k3_off1_inb : ∀ i : grid3.Coords, ∀ a, (k3_off1 i) a + S512x1024.size a ≤ S512x4096.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S512x1024.size a
  hwx3_0 : ∀ i : grid3.Coords, EltTy.bits .bf16 = 32 ∨ (Rect.block (s := S512x1024) S512x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S32768x1024.size a
  hwx3_1 : ∀ i : grid3.Coords, EltTy.bits .f32 = 32 ∨ (Rect.block (s := S32768x1024) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x32768.size a
  hwx3_2 : ∀ i : grid3.Coords, EltTy.bits .f32 = 32 ∨ (Rect.block (s := S1x32768) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S512x32768.size a
  hwx3_3 : ∀ i : grid3.Coords, EltTy.bits .f32 = 32 ∨ (Rect.block (s := S512x32768) S512x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x120.size a ≤ S256x120.size a
  hwx3_4 : ∀ i : grid3.Coords, EltTy.bits .bf16 = 32 ∨ (Rect.block (s := S256x120) S256x120.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S120x64.size a ≤ S120x64.size a
  hwx3_5 : ∀ i : grid3.Coords, EltTy.bits .bf16 = 32 ∨ (Rect.block (s := S120x64) S120x64.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x8.size a ≤ S64x8.size a
  hwx3_6 : ∀ i : grid3.Coords, EltTy.bits .bf16 = 32 ∨ (Rect.block (s := S64x8) S64x8.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x120.size a ≤ S1x120.size a
  hwx3_7 : ∀ i : grid3.Coords, EltTy.bits .f32 = 32 ∨ (Rect.block (s := S1x120) S1x120.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x8.size a ≤ S1x8.size a
  hwx3_9 : ∀ i : grid3.Coords, EltTy.bits .f32 = 32 ∨ (Rect.block (s := S1x8) S1x8.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S512x128.size a ≤ S512x1024.size a
  hwx3_10 : ∀ i : grid3.Coords, EltTy.bits .f32 = 32 ∨ (Rect.block (s := S512x1024) S512x128.size (cc3_transform_10 i) (hinb3_10 i)).WholeWords (EltTy.packing .f32)

variable [Facts₀]

def scatter_S256x120_S2_S32x15_01_n_01_0 : ScatterDims S256x120 S2 S32x15 where
  updateWindowDims := [0, 1]
  insertedWindowDims := []
  scatterDimsToOperandDims := [0, 1]
  indexVectorDim := 0
  wf := scatter_S256x120_S2_S32x15_01_n_01_0_wf
def scatter_S120x64_S2_S15x8_01_n_01_0 : ScatterDims S120x64 S2 S15x8 where
  updateWindowDims := [0, 1]
  insertedWindowDims := []
  scatterDimsToOperandDims := [0, 1]
  indexVectorDim := 0
  wf := scatter_S120x64_S2_S15x8_01_n_01_0_wf
def scatter_S64x8_S2_S8x1_01_n_01_0 : ScatterDims S64x8 S2 S8x1 where
  updateWindowDims := [0, 1]
  insertedWindowDims := []
  scatterDimsToOperandDims := [0, 1]
  indexVectorDim := 0
  wf := scatter_S64x8_S2_S8x1_01_n_01_0_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x256_S256x120_S512x120_1_0_0_1_n_n : DotDims S512x256 S256x120 S512x120 where
  lhsContracting := [1]
  rhsContracting := [0]
  lhsNonContracting := [0]
  rhsNonContracting := [1]
  lhsBatch := []
  rhsBatch := []
  wf := dot_S512x256_S256x120_S512x120_1_0_0_1_n_n_wf
def dot_S512x120_S120x64_S512x64_1_0_0_1_n_n : DotDims S512x120 S120x64 S512x64 where
  lhsContracting := [1]
  rhsContracting := [0]
  lhsNonContracting := [0]
  rhsNonContracting := [1]
  lhsBatch := []
  rhsBatch := []
  wf := dot_S512x120_S120x64_S512x64_1_0_0_1_n_n_wf
def dot_S512x64_S64x8_S512x8_1_0_0_1_n_n : DotDims S512x64 S64x8 S512x8 where
  lhsContracting := [1]
  rhsContracting := [0]
  lhsNonContracting := [0]
  rhsNonContracting := [1]
  lhsBatch := []
  rhsBatch := []
  wf := dot_S512x64_S64x8_S512x8_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v122) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S256x120.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v74) S120x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v109) S64x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v113) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v117) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v121) S1x8.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v123) S512x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v124) S512x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v125) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v126) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v124) S512x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v0) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v248) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v249) S1x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v165) S256x120.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v200) S120x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v235) S64x8.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v239) S1x120.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v243) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v247) S1x8.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v250) S512x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev idle2 : Fin 13 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k2_cond2 i == 1#1) | ⟨_ + 13, h⟩ => absurd h (Nat.not_lt.2 (Nat.le_add_left _ _))

abbrev win3_0 : Pipeline.Window sig grid3 :=
  Pipeline.Window.ofSpec (Memref.whole main_v251) S512x1024.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v373) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v126) S512x1024.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v290) S256x120.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v325) S120x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v360) S64x8.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v364) S1x120.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v368) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v372) S1x8.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v374) S512x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev idle3 : Fin 11 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k3_cond2 i == 1#1) | ⟨_ + 11, h⟩ => absurd h (Nat.not_lt.2 (Nat.le_add_left _ _))

class Facts : Prop extends Facts₀ where

variable [Facts]
-- ==== ReferenceIdeal.lean ====
abbrev S512x1024 : Shape := ⟨2, ![512, 1024]⟩
abbrev S32768x1024 : Shape := ⟨2, ![32768, 1024]⟩
abbrev S32768 : Shape := ⟨1, ![32768]⟩
abbrev S15x35 : Shape := ⟨2, ![15, 35]⟩
abbrev S15 : Shape := ⟨1, ![15]⟩
abbrev S8x15 : Shape := ⟨2, ![8, 15]⟩
abbrev S8 : Shape := ⟨1, ![8]⟩
abbrev S1x8 : Shape := ⟨2, ![1, 8]⟩
abbrev S1 : Shape := ⟨1, ![1]⟩
abbrev S1024x32768 : Shape := ⟨2, ![1024, 32768]⟩
abbrev S512x32768 : Shape := ⟨2, ![512, 32768]⟩
abbrev S1x32768 : Shape := ⟨2, ![1, 32768]⟩
abbrev S512x1024x32 : Shape := ⟨3, ![512, 1024, 32]⟩
abbrev S15x32 : Shape := ⟨2, ![15, 32]⟩
abbrev S512x1024x15 : Shape := ⟨3, ![512, 1024, 15]⟩
abbrev S15x1 : Shape := ⟨2, ![15, 1]⟩
abbrev S1x1x15 : Shape := ⟨3, ![1, 1, 15]⟩
abbrev S_ : Shape := ⟨0, ![]⟩
abbrev S512x1024x8 : Shape := ⟨3, ![512, 1024, 8]⟩
abbrev S1x1x8 : Shape := ⟨3, ![1, 1, 8]⟩
abbrev S512x1024x1 : Shape := ⟨3, ![512, 1024, 1]⟩
abbrev S1x1x1 : Shape := ⟨3, ![1, 1, 1]⟩

abbrev nBuf : Space → Nat
  | .hbm => 161
  | .vmem => 0
  | .smem => 0
  | _ => 0

abbrev hbmTy0_0 (i : Nat) : BufTy := match i % 128 with
  | 0 => ⟨S512x1024, .f32⟩
  | 1 => ⟨S32768x1024, .f32⟩
  | 2 => ⟨S32768, .f32⟩
  | 3 => ⟨S32768x1024, .f32⟩
  | 4 => ⟨S32768, .f32⟩
  | 5 => ⟨S32768x1024, .f32⟩
  | 6 => ⟨S32768, .f32⟩
  | 7 => ⟨S32768x1024, .f32⟩
  | 8 => ⟨S32768, .f32⟩
  | 9 => ⟨S32768x1024, .f32⟩
  | 10 => ⟨S32768, .f32⟩
  | 11 => ⟨S15x35, .f32⟩
  | 12 => ⟨S15, .f32⟩
  | 13 => ⟨S8x15, .f32⟩
  | 14 => ⟨S8, .f32⟩
  | 15 => ⟨S1x8, .f32⟩
  | 16 => ⟨S1, .f32⟩
  | 17 => ⟨S1024x32768, .f32⟩
  | 18 => ⟨S512x32768, .f32⟩
  | 19 => ⟨S1x32768, .f32⟩
  | 20 => ⟨S512x32768, .f32⟩
  | 21 => ⟨S512x32768, .f32⟩
  | 22 => ⟨S512x1024x32, .f32⟩
  | 23 => ⟨S15x32, .f32⟩
  | 24 => ⟨S512x1024x15, .f32⟩
  | 25 => ⟨S15x1, .f32⟩
  | 26 => ⟨S15, .f32⟩
  | 27 => ⟨S15, .f32⟩
  | 28 => ⟨S1x1x15, .f32⟩
  | 29 => ⟨S512x1024x15, .f32⟩
  | 30 => ⟨S512x1024x15, .f32⟩
  | 31 => ⟨S_, .f32⟩
  | 32 => ⟨S512x1024x15, .f32⟩
  | 33 => ⟨S512x1024x15, .i1⟩
  | 34 => ⟨S_, .f32⟩
  | 35 => ⟨S512x1024x15, .f32⟩
  | 36 => ⟨S512x1024x15, .f32⟩
  | 37 => ⟨S512x1024x15, .f32⟩
  | 38 => ⟨S512x1024x8, .f32⟩
  | 39 => ⟨S1x1x8, .f32⟩
  | 40 => ⟨S512x1024x8, .f32⟩
  | 41 => ⟨S512x1024x8, .f32⟩
  | 42 => ⟨S_, .f32⟩
  | 43 => ⟨S512x1024x8, .f32⟩
  | 44 => ⟨S512x1024x8, .i1⟩
  | 45 => ⟨S_, .f32⟩
  | 46 => ⟨S512x1024x8, .f32⟩
  | 47 => ⟨S512x1024x8, .f32⟩
  | 48 => ⟨S512x1024x8, .f32⟩
  | 49 => ⟨S512x1024x1, .f32⟩
  | 50 => ⟨S1x1x1, .f32⟩
  | 51 => ⟨S512x1024x1, .f32⟩
  | 52 => ⟨S512x1024x1, .f32⟩
  | 53 => ⟨S512x1024, .f32⟩
  | 54 => ⟨S_, .f32⟩
  | 55 => ⟨S512x1024, .f32⟩
  | 56 => ⟨S512x1024, .i1⟩
  | 57 => ⟨S_, .f32⟩
  | 58 => ⟨S512x1024, .f32⟩
  | 59 => ⟨S512x1024, .f32⟩
  | 60 => ⟨S512x1024, .f32⟩
  | 61 => ⟨S1024x32768, .f32⟩
  | 62 => ⟨S512x32768, .f32⟩
  | 63 => ⟨S1x32768, .f32⟩
  | 64 => ⟨S512x32768, .f32⟩
  | 65 => ⟨S512x32768, .f32⟩
  | 66 => ⟨S1024x32768, .f32⟩
  | 67 => ⟨S512x32768, .f32⟩
  | 68 => ⟨S1x32768, .f32⟩
  | 69 => ⟨S512x32768, .f32⟩
  | 70 => ⟨S512x32768, .f32⟩
  | 71 => ⟨S512x32768, .f32⟩
  | 72 => ⟨S1024x32768, .f32⟩
  | 73 => ⟨S512x32768, .f32⟩
  | 74 => ⟨S1x32768, .f32⟩
  | 75 => ⟨S512x32768, .f32⟩
  | 76 => ⟨S512x32768, .f32⟩
  | 77 => ⟨S512x1024x32, .f32⟩
  | 78 => ⟨S15x32, .f32⟩
  | 79 => ⟨S512x1024x15, .f32⟩
  | 80 => ⟨S15x1, .f32⟩
  | 81 => ⟨S15, .f32⟩
  | 82 => ⟨S15, .f32⟩
  | 83 => ⟨S1x1x15, .f32⟩
  | 84 => ⟨S512x1024x15, .f32⟩
  | 85 => ⟨S512x1024x15, .f32⟩
  | 86 => ⟨S_, .f32⟩
  | 87 => ⟨S512x1024x15, .f32⟩
  | 88 => ⟨S512x1024x15, .i1⟩
  | 89 => ⟨S_, .f32⟩
  | 90 => ⟨S512x1024x15, .f32⟩
  | 91 => ⟨S512x1024x15, .f32⟩
  | 92 => ⟨S512x1024x15, .f32⟩
  | 93 => ⟨S512x1024x8, .f32⟩
  | 94 => ⟨S1x1x8, .f32⟩
  | 95 => ⟨S512x1024x8, .f32⟩
  | 96 => ⟨S512x1024x8, .f32⟩
  | 97 => ⟨S_, .f32⟩
  | 98 => ⟨S512x1024x8, .f32⟩
  | 99 => ⟨S512x1024x8, .i1⟩
  | 100 => ⟨S_, .f32⟩
  | 101 => ⟨S512x1024x8, .f32⟩
  | 102 => ⟨S512x1024x8, .f32⟩
  | 103 => ⟨S512x1024x8, .f32⟩
  | 104 => ⟨S512x1024x1, .f32⟩
  | 105 => ⟨S1x1x1, .f32⟩
  | 106 => ⟨S512x1024x1, .f32⟩
  | 107 => ⟨S512x1024x1, .f32⟩
  | 108 => ⟨S512x1024, .f32⟩
  | 109 => ⟨S_, .f32⟩
  | 110 => ⟨S512x1024, .f32⟩
  | 111 => ⟨S512x1024, .i1⟩
  | 112 => ⟨S_, .f32⟩
  | 113 => ⟨S512x1024, .f32⟩
  | 114 => ⟨S512x1024, .f32⟩
  | 115 => ⟨S512x1024, .f32⟩
  | 116 => ⟨S1024x32768, .f32⟩
  | 117 => ⟨S512x32768, .f32⟩
  | 118 => ⟨S1x32768, .f32⟩
  | 119 => ⟨S512x32768, .f32⟩
  | 120 => ⟨S512x32768, .f32⟩
  | 121 => ⟨S512x32768, .f32⟩
  | 122 => ⟨S512x1024x32, .f32⟩
  | 123 => ⟨S15x32, .f32⟩
  | 124 => ⟨S512x1024x15, .f32⟩
  | 125 => ⟨S15x1, .f32⟩
  | 126 => ⟨S15, .f32⟩
  | 127 => ⟨S15, .f32⟩
  | _ => ⟨S512x1024, .f32⟩

abbrev hbmTy0_1 (i : Nat) : BufTy := match i % 128 with
  | 0 => ⟨S1x1x15, .f32⟩
  | 1 => ⟨S512x1024x15, .f32⟩
  | 2 => ⟨S512x1024x15, .f32⟩
  | 3 => ⟨S_, .f32⟩
  | 4 => ⟨S512x1024x15, .f32⟩
  | 5 => ⟨S512x1024x15, .i1⟩
  | 6 => ⟨S_, .f32⟩
  | 7 => ⟨S512x1024x15, .f32⟩
  | 8 => ⟨S512x1024x15, .f32⟩
  | 9 => ⟨S512x1024x15, .f32⟩
  | 10 => ⟨S512x1024x8, .f32⟩
  | 11 => ⟨S1x1x8, .f32⟩
  | 12 => ⟨S512x1024x8, .f32⟩
  | 13 => ⟨S512x1024x8, .f32⟩
  | 14 => ⟨S_, .f32⟩
  | 15 => ⟨S512x1024x8, .f32⟩
  | 16 => ⟨S512x1024x8, .i1⟩
  | 17 => ⟨S_, .f32⟩
  | 18 => ⟨S512x1024x8, .f32⟩
  | 19 => ⟨S512x1024x8, .f32⟩
  | 20 => ⟨S512x1024x8, .f32⟩
  | 21 => ⟨S512x1024x1, .f32⟩
  | 22 => ⟨S1x1x1, .f32⟩
  | 23 => ⟨S512x1024x1, .f32⟩
  | 24 => ⟨S512x1024x1, .f32⟩
  | 25 => ⟨S512x1024, .f32⟩
  | 26 => ⟨S_, .f32⟩
  | 27 => ⟨S512x1024, .f32⟩
  | 28 => ⟨S512x1024, .i1⟩
  | 29 => ⟨S_, .f32⟩
  | 30 => ⟨S512x1024, .f32⟩
  | 31 => ⟨S512x1024, .f32⟩
  | 32 => ⟨S512x1024, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call4_cst : Ref sig .tc := ⟨.hbm, 97, rfl⟩
abbrev main_call4_v0 : Ref sig .tc := ⟨.hbm, 98, rfl⟩
abbrev main_call4_v1 : Ref sig .tc := ⟨.hbm, 99, rfl⟩
abbrev main_call4_cst_0 : Ref sig .tc := ⟨.hbm, 100, rfl⟩
abbrev main_call4_v2 : Ref sig .tc := ⟨.hbm, 101, rfl⟩
abbrev main_call4_v3 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_call5_cst : Ref sig .tc := ⟨.hbm, 109, rfl⟩
abbrev main_call5_v0 : Ref sig .tc := ⟨.hbm, 110, rfl⟩
abbrev main_call5_v1 : Ref sig .tc := ⟨.hbm, 111, rfl⟩
abbrev main_call5_cst_0 : Ref sig .tc := ⟨.hbm, 112, rfl⟩
abbrev main_call5_v2 : Ref sig .tc := ⟨.hbm, 113, rfl⟩
abbrev main_call5_v3 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_call6_cst : Ref sig .tc := ⟨.hbm, 131, rfl⟩
abbrev main_call6_v0 : Ref sig .tc := ⟨.hbm, 132, rfl⟩
abbrev main_call6_v1 : Ref sig .tc := ⟨.hbm, 133, rfl⟩
abbrev main_call6_cst_0 : Ref sig .tc := ⟨.hbm, 134, rfl⟩
abbrev main_call6_v2 : Ref sig .tc := ⟨.hbm, 135, rfl⟩
abbrev main_call6_v3 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_call7_cst : Ref sig .tc := ⟨.hbm, 142, rfl⟩
abbrev main_call7_v0 : Ref sig .tc := ⟨.hbm, 143, rfl⟩
abbrev main_call7_v1 : Ref sig .tc := ⟨.hbm, 144, rfl⟩
abbrev main_call7_cst_0 : Ref sig .tc := ⟨.hbm, 145, rfl⟩
abbrev main_call7_v2 : Ref sig .tc := ⟨.hbm, 146, rfl⟩
abbrev main_call7_v3 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_call8_cst : Ref sig .tc := ⟨.hbm, 154, rfl⟩
abbrev main_call8_v0 : Ref sig .tc := ⟨.hbm, 155, rfl⟩
abbrev main_call8_v1 : Ref sig .tc := ⟨.hbm, 156, rfl⟩
abbrev main_call8_cst_0 : Ref sig .tc := ⟨.hbm, 157, rfl⟩
abbrev main_call8_v2 : Ref sig .tc := ⟨.hbm, 158, rfl⟩
abbrev main_call8_v3 : Ref sig .tc := ⟨.hbm, 159, rfl⟩
abbrev main_v89 : Ref sig .tc := ⟨.hbm, 160, rfl⟩

abbrev nD : Nat := 1
abbrev τ : Topo := Topo.v7x

variable {F : FTy → Type} [FloatOps F]

class Facts₀ : Prop where
  transposes_S32768x1024_S1024x32768_1_0 : S32768x1024.Transposes [1, 0] S1024x32768
  bcast_S32768_S1x32768_1 : S32768.BroadcastsInDim S1x32768 (![1] : Fin 1 → Fin S1x32768.rank)
  bcast_S1x32768_S512x32768_0_1 : S1x32768.BroadcastsInDim S512x32768 (![0, 1] : Fin 2 → Fin S512x32768.rank)
  shapeCasts_S512x32768_S512x1024x32 : S512x32768.ShapeCasts S512x1024x32
  slices_S15x35_S15x32_0_0 : S15x35.Slices ![0, 0] S15x32
  slices_S15x35_S15x1_0_32 : S15x35.Slices ![0, 32] S15x1
  shapeCasts_S15x1_S15 : S15x1.ShapeCasts S15
  bcast_S15_S1x1x15_2 : S15.BroadcastsInDim S1x1x15 (![2] : Fin 1 → Fin S1x1x15.rank)
  bcast_S1x1x15_S512x1024x15_0_1_2 : S1x1x15.BroadcastsInDim S512x1024x15 (![0, 1, 2] : Fin 3 → Fin S512x1024x15.rank)
  bcast_S_S512x1024x15 : S_.BroadcastsInDim S512x1024x15 (![] : Fin 0 → Fin S512x1024x15.rank)
  bcast_S8_S1x1x8_2 : S8.BroadcastsInDim S1x1x8 (![2] : Fin 1 → Fin S1x1x8.rank)
  bcast_S1x1x8_S512x1024x8_0_1_2 : S1x1x8.BroadcastsInDim S512x1024x8 (![0, 1, 2] : Fin 3 → Fin S512x1024x8.rank)
  bcast_S_S512x1024x8 : S_.BroadcastsInDim S512x1024x8 (![] : Fin 0 → Fin S512x1024x8.rank)
  bcast_S1_S1x1x1_2 : S1.BroadcastsInDim S1x1x1 (![2] : Fin 1 → Fin S1x1x1.rank)
  bcast_S1x1x1_S512x1024x1_0_1_2 : S1x1x1.BroadcastsInDim S512x1024x1 (![0, 1, 2] : Fin 3 → Fin S512x1024x1.rank)
  shapeCasts_S512x1024x1_S512x1024 : S512x1024x1.ShapeCasts S512x1024
  bcast_S_S512x1024 : S_.BroadcastsInDim S512x1024 (![] : Fin 0 → Fin S512x1024.rank)
  slices_S15x35_S15x1_0_33 : S15x35.Slices ![0, 33] S15x1
  slices_S15x35_S15x1_0_34 : S15x35.Slices ![0, 34] S15x1
  dot_S512x1024_S1024x32768_S512x32768_1_0_0_1_n_n_wf : DotDims.WF S512x1024 S1024x32768 S512x32768 [1] [0] [0] [1] [] []
  dot_S512x1024x32_S15x32_S512x1024x15_2_1_01_0_n_n_wf : DotDims.WF S512x1024x32 S15x32 S512x1024x15 [2] [1] [0, 1] [0] [] []
  dot_S512x1024x15_S8x15_S512x1024x8_2_1_01_0_n_n_wf : DotDims.WF S512x1024x15 S8x15 S512x1024x8 [2] [1] [0, 1] [0] [] []
  dot_S512x1024x8_S1x8_S512x1024x1_2_1_01_0_n_n_wf : DotDims.WF S512x1024x8 S1x8 S512x1024x1 [2] [1] [0, 1] [0] [] []

variable [Facts₀]

def dot_S512x1024_S1024x32768_S512x32768_1_0_0_1_n_n : DotDims S512x1024 S1024x32768 S512x32768 where
  lhsContracting := [1]
  rhsContracting := [0]
  lhsNonContracting := [0]
  rhsNonContracting := [1]
  lhsBatch := []
  rhsBatch := []
  wf := dot_S512x1024_S1024x32768_S512x32768_1_0_0_1_n_n_wf
def dot_S512x1024x32_S15x32_S512x1024x15_2_1_01_0_n_n : DotDims S512x1024x32 S15x32 S512x1024x15 where
  lhsContracting := [2]
  rhsContracting := [1]
  lhsNonContracting := [0, 1]
  rhsNonContracting := [0]
  lhsBatch := []
  rhsBatch := []
  wf := dot_S512x1024x32_S15x32_S512x1024x15_2_1_01_0_n_n_wf
def dot_S512x1024x15_S8x15_S512x1024x8_2_1_01_0_n_n : DotDims S512x1024x15 S8x15 S512x1024x8 where
  lhsContracting := [2]
  rhsContracting := [1]
  lhsNonContracting := [0, 1]
  rhsNonContracting := [0]
  lhsBatch := []
  rhsBatch := []
  wf := dot_S512x1024x15_S8x15_S512x1024x8_2_1_01_0_n_n_wf
def dot_S512x1024x8_S1x8_S512x1024x1_2_1_01_0_n_n : DotDims S512x1024x8 S1x8 S512x1024x1 where
  lhsContracting := [2]
  rhsContracting := [1]
  lhsNonContracting := [0, 1]
  rhsNonContracting := [0]
  lhsBatch := []
  rhsBatch := []
  wf := dot_S512x1024x8_S1x8_S512x1024x1_2_1_01_0_n_n_wf

class Facts : Prop extends Facts₀ where

variable [Facts]
-- ==== Proof.BBody0Defs.lean ====
/-
  Region 0 of the kernel program (the first dense layer with its per-node perceptron fused in), shared
  definitions: the windows' blocks, the two conditions the body branches on as functions of the grid
  point (the micro step is 0; the micro step is the last, 3), where the output window is idle, and the
  scratch slab the body carries from one micro step to the next.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point: where it is not fetched again its block index has
    not moved.  One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The body's first condition, "the micro step is 0", as the program computes it from the grid point. -/
abbrev cond0_0 (i : grid0.Coords) : Prop := (Scalar.cmpi .ne (Scalar.extui (Scalar.cmpi .eq (BitVec.ofNat 32 (i 1).val) 0#32)) 0#32) = 1#1
/-- It holds at the points congruent to 0 modulo 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second condition, "the micro step is the last". -/
abbrev cond0_1 (i : grid0.Coords) : Prop := k0_cond2 i = 1#1
/-- It holds at the points congruent to 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Before the last micro step the body stores nothing into the output window, and the pipeline does not write it back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- At the last micro step the output window is live. -/
theorem liveAt0_9 : ∀ t : Fin cfg0.N, cond0_1 (grid0.coords t) → cfg0.idle 9 (grid0.coords t) = false := by decide +kernel

/-- Each window's current staging buffer at point `t`, as the pipeline passes it to the body, with its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x120 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S120x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x8 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x120 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .f32 := win0_9.stage (cfg0.slots t 9)
abbrev hs0_9 (t : Fin cfg0.N) : (ms0_9 t).IsWhole := hstage0_9 ((cfg0.slots t 9).cast nbuf0_9)

/-- The scratch slab (512 x 4096) the body carries between micro steps, as a whole memref and as a view. -/
abbrev scM0_0 : Memref sig .tc .vmem S512x4096 .f32 := Memref.whole cc0_scratch0
abbrev VS0_0 : View sig .tc .vmem S512x4096 .f32 := scM0_0.view
/-- One staging buffer of the output window, through which its contents are stated. -/
abbrev VO0_9 : View sig .tc .vmem S512x128 .f32 := (ms0_9 ⟨0, by rw [show cfg0.N = 32 from N_0]; decide⟩).view

/-- The untouched scoped memory with the scratch slab taken out and owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.KBody

end
-- ==== Proof.BBody0RunA.lean ====
/-
  Region 0, the body run in its three cases.  At micro step 0 the scratch slab is cleared and the first
  slice of  x * Wblock^T + bias  is stored into it; at a middle micro step one more slice is stored over
  what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.BBody0Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset vector, as the whole-buffer rectangles spell it. -/
theorem hz00 : (![0, 0] : Fin 2 → Nat) = fun _ => 0 := funext fun a => by fin_cases a <;> rfl

set_option maxHeartbeats 4000000 in
/-- Micro step 0: the slab ends at a value `Y` that does not depend on what it held before. -/
noncomputable def kernelRun0_A (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : cond0_0 i) (hc1 : ¬cond0_1 i)
    (x2 : Vec F S512x1024 .bf16) (x3 : Vec F S1024x1024 .f32) (x4 : Vec F S1x1024 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg12 fullShare d)
            ∗ (iprop(owns (c : Thread nD τ) arg2 fullShare x2 ∗ owns (c : Thread nD τ) arg3 fullShare x3 ∗ owns (c : Thread nD τ) arg4 fullShare x4
                ∗ owns (c : Thread nD τ) arg12 fullShare Y) -∗ K ⟨⟩))
          ⊢ wp frame (wpE (defs₀ (F := F)) Variants.none c none) E (cc0__dan_linear_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__dan_linear_kernel_eq_skeleton]; unfold cc0__dan_linear_kernel_skel
    unfold owns
    iintro ⟨⟨%f2, %hf2, H2⟩, ⟨%f3, %hf3, H3⟩, ⟨%f4, %hf4, H4⟩, ⟨%ds, %fs, -, HS⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr
    swap; · iexact HS
    ipureintro
    refine View.read_writes_eq_canon (Val := Elt F) arg12.view _ _ (fun y => ?_)
    refine ⟨_, List.mem_cons_of_mem _ (List.mem_cons_self ..), ?_⟩
    exact View.mem_set_unit_zero hz00 inb_S512x4096_S512x4096_0_0 y

end Cert.Kernel.KBody

end
-- ==== Proof.BBody0RunB.lean ====
/-
  Region 0, the body run in its three cases.  At micro step 0 the scratch slab is cleared and the first
  slice of  x * Wblock^T + bias  is stored into it; at a middle micro step one more slice is stored over
  what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.BBody0Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- A middle micro step: the slab, found at `xs`, ends at a value `Y` of `xs` and the three input blocks. -/
noncomputable def kernelRun0_B (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : ¬cond0_0 i) (hc1 : ¬cond0_1 i)
    (x2 : Vec F S512x1024 .bf16) (x3 : Vec F S1024x1024 .f32) (x4 : Vec F S1x1024 .f32) (xs : Vec F S512x4096 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg12 fullShare xs
            ∗ (iprop(owns (c : Thread nD τ) arg2 fullShare x2 ∗ owns (c : Thread nD τ) arg3 fullShare x3 ∗ owns (c : Thread nD τ) arg4 fullShare x4
                ∗ owns (c : Thread nD τ) arg12 fullShare Y) -∗ K ⟨⟩))
          ⊢ wp frame (wpE (defs₀ (F := F)) Variants.none c none) E (cc0__dan_linear_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__dan_linear_kernel_eq_skeleton]; unfold cc0__dan_linear_kernel_skel
    unfold owns
    iintro ⟨⟨%f2, %hf2, H2⟩, ⟨%f3, %hf3, H3⟩, ⟨%f4, %hf4, H4⟩, ⟨%fs, %hfs, HS⟩, Hk⟩
    obtain rfl := harg2.eq_unread hf2; obtain rfl := harg3.eq_unread hf3; obtain rfl := harg4.eq_unread hf4
    obtain rfl := harg12.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; rfl
    iexact HS

end Cert.Kernel.KBody

end
-- ==== Proof.BBody0RunC.lean ====
/-
  Region 0, the body run in its three cases.  At micro step 0 the scratch slab is cleared and the first
  slice of  x * Wblock^T + bias  is stored into it; at a middle micro step one more slice is stored over
  what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.BBody0Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 16000000 in
/-- The last micro step: the slab, found at `xs`, ends at `Y.2`; the output block, found at anything, ends at `Y.1`,
    a value of `xs` and the nine input blocks only. -/
noncomputable def kernelRun0_C (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : ¬cond0_0 i) (hc1 : cond0_1 i)
    (x2 : Vec F S512x1024 .bf16) (x3 : Vec F S1024x1024 .f32) (x4 : Vec F S1x1024 .f32)
    (x5 : Vec F S256x120 .bf16) (x6 : Vec F S120x64 .bf16) (x7 : Vec F S64x8 .bf16)
    (x8 : Vec F S1x120 .f32) (x9 : Vec F S1x64 .f32) (x10 : Vec F S1x8 .f32) (xs : Vec F S512x4096 .f32) :
    { Y : Vec F S512x128 .f32 × Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9 ∗ owns (c : Thread nD τ) arg10 fullShare x10
            ∗ (∃ d, owns (c : Thread nD τ) arg11 fullShare d) ∗ owns (c : Thread nD τ) arg12 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg8 fullShare x8 ∗ owns (c : Thread nD τ) arg9 fullShare x9 ∗ owns (c : Thread nD τ) arg10 fullShare x10
                ∗ owns (c : Thread nD τ) arg11 fullShare Y.1 ∗ owns (c : Thread nD τ) arg12 fullShare Y.2) -∗ K ⟨⟩))
          ⊢ wp frame (wpE (defs₀ (F := F)) Variants.none c none) E (cc0__dan_linear_kernel i arg2 harg2 arg3 harg3 arg4 harg4 arg5 harg5 arg6 harg6 arg7 harg7 arg8 harg8 arg9 harg9 arg10 harg10 arg11 harg11 arg12 harg12) K } := by
  refine ⟨(?_, ?_), fun E K => ?run⟩
  case run =>
    simp only [cc0__dan_linear_kernel_eq_skeleton]; unfold cc0__dan_linear_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    obtain rfl := harg12.eq_unread hfs
    sl_exec_parts! (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; rfl
      iexact H11
    iexists _; isplitr; · ipureintro; rfl
    iexact HS

end Cert.Kernel.KBody

end
-- ==== Proof.BBody0Runs.lean ====
/-
  Region 0: the body's three runs (micro step 0, a middle micro step, the last micro step), one module each.
-/
import proofs.«120596_j16338055594194_2_alg».proof.Proof.BBody0RunA
import proofs.«120596_j16338055594194_2_alg».proof.Proof.BBody0RunB
import proofs.«120596_j16338055594194_2_alg».proof.Proof.BBody0RunC
-- ==== Proof.BBody0.lean ====
/-
  Region 0: the proof data and the body obligation.  What the scratch slab holds after each grid point is
  defined by recursion on the point (cleared and first slice at micro step 0, one more slice at each later
  micro step); the output block is named only at the last micro step of each macro tile, where the body
  stores it and the pipeline writes it back; elsewhere the output window is idle.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.BBody0Runs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three runs at grid point `t`, on the buffers the pipeline passes there and the windows' blocks. -/
abbrev runA0 (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    ((hcond0_0 t).mpr h0) (fun h => by have h3 := (hcond0_1 t).mp h; omega)
    (iblk0 V c 0 t) (iblk0 V c 1 t) (iblk0 V c 2 t)
abbrev runB0 (c : Dev nD) (t : Fin cfg0.N) (h0 : ¬t.val % 4 = 0) (h1 : ¬t.val % 4 = 3) (xs : Vec F S512x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (fun h => h0 ((hcond0_0 t).mp h)) (fun h => h1 ((hcond0_1 t).mp h))
    (iblk0 V c 0 t) (iblk0 V c 1 t) (iblk0 V c 2 t) xs
abbrev runC0 (c : Dev nD) (t : Fin cfg0.N) (h1 : t.val % 4 = 3) (xs : Vec F S512x4096 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (fun h => by have h3 := (hcond0_0 t).mp h; omega) ((hcond0_1 t).mpr h1)
    (iblk0 V c 0 t) (iblk0 V c 1 t) (iblk0 V c 2 t) (iblk0 V c 3 t) (iblk0 V c 4 t) (iblk0 V c 5 t)
    (iblk0 V c 6 t) (iblk0 V c 7 t) (iblk0 V c 8 t) xs

/-- What the scratch slab holds after the body at position `n`, by recursion on the position. -/
def scr0 (c : Dev nD) : (n : ℕ) → n < cfg0.N → Vec F S512x4096 .f32
  | 0, hn => (runA0 V c ⟨0, hn⟩ (Nat.zero_mod _)).1
  | n + 1, hn =>
    if h0 : (n + 1) % 4 = 0 then (runA0 V c ⟨n + 1, hn⟩ h0).1
    else if h1 : (n + 1) % 4 = 3 then (runC0 V c ⟨n + 1, hn⟩ h1 (scr0 c n (Nat.lt_of_succ_lt hn))).1.2
    else (runB0 V c ⟨n + 1, hn⟩ h0 h1 (scr0 c n (Nat.lt_of_succ_lt hn))).1

theorem scr0_A (c : Dev nD) (t : Fin cfg0.N) (h0 : t.val % 4 = 0) : scr0 V c t.val t.isLt = (runA0 V c t h0).1 := by
  obtain ⟨n, hn⟩ := t
  cases n with
  | zero => exact rfl
  | succ n => exact (dif_pos h0).trans rfl

theorem scr0_B (c : Dev nD) (t : Fin cfg0.N) (h0 : ¬t.val % 4 = 0) (h1 : ¬t.val % 4 = 3) :
    scr0 V c t.val t.isLt = (runB0 V c t h0 h1 (scr0 V c (t.val - 1) (Nat.lt_of_le_of_lt (Nat.sub_le _ _) t.isLt))).1 := by
  obtain ⟨n, hn⟩ := t
  cases n with
  | zero => exact absurd (Nat.zero_mod _) h0
  | succ n => exact (dif_neg h0).trans ((dif_neg h1).trans rfl)

theorem scr0_C (c : Dev nD) (t : Fin cfg0.N) (h1 : t.val % 4 = 3) :
    scr0 V c t.val t.isLt = (runC0 V c t h1 (scr0 V c (t.val - 1) (Nat.lt_of_le_of_lt (Nat.sub_le _ _) t.isLt))).1.2 := by
  obtain ⟨n, hn⟩ := t
  cases n with
  | zero => exact absurd (show (0 : ℕ) % 4 = 3 from h1) (by decide)
  | succ n =>
    have h0 : ¬(n + 1) % 4 = 0 := fun h => by
      have h1' : (n + 1) % 4 = 3 := h1
      omega
    exact (dif_neg h0).trans ((dif_pos h1).trans rfl)

/-- What the output block holds after the body at point `t`: at the last micro step of a macro tile the epilogue's
    value; at the other points, where the window is idle, a placeholder nothing reads. -/
def out0_9 (c : Dev nD) (t : Fin cfg0.N) : Vec F S512x128 .f32 :=
  if h1 : t.val % 4 = 3 then (runC0 V c t h1 (scr0 V c (t.val - 1) (Nat.lt_of_le_of_lt (Nat.sub_le _ _) t.isLt))).1.1
  else VO0_9.read (Elt F) VO0_9.junk

/-- The invariant before position `n`: before the first point the untouched scoped memory and generator register;
    afterwards the same with the scratch slab at what the point before left in it. -/
def PhiS0 (c : Dev nD) : (n : ℕ) → n ≤ cfg0.N → sProp 𝕄
  | 0, _ => Pipeline.ΦA spec0 c
  | n + 1, hn => iprop(iprop(owns (c : Thread nD τ) scM0_0 fullShare (scr0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (scr0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (scr0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t ∗ (dat0 V c).leavesExact 7 t ∗ (dat0 V c).leavesExact 8 t
    ∗ (dat0 V c).leavesExact 9 t)

/-- At every point the input windows are live: the body hands each back at its block. -/
theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t)
    ∧ (dat0 V c).leavesExact 5 t = owns (c : Thread nD τ) (ms0_5 t) fullShare (iblk0 V c 5 t)
    ∧ (dat0 V c).leavesExact 6 t = owns (c : Thread nD τ) (ms0_6 t) fullShare (iblk0 V c 6 t)
    ∧ (dat0 V c).leavesExact 7 t = owns (c : Thread nD τ) (ms0_7 t) fullShare (iblk0 V c 7 t)
    ∧ (dat0 V c).leavesExact 8 t = owns (c : Thread nD τ) (ms0_8 t) fullShare (iblk0 V c 8 t) := by
  refine ⟨?_, ?_, ?_, ?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]
  · unfold Dat.leavesExact; rw [liveAt0_5 t, after0_5]
  · unfold Dat.leavesExact; rw [liveAt0_6 t, after0_6]
  · unfold Dat.leavesExact; rw [liveAt0_7 t, after0_7]
  · unfold Dat.leavesExact; rw [liveAt0_8 t, after0_8]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  obtain ⟨hl0, hl1, hl2, hl3, hl4, hl5, hl6, hl7, hl8⟩ := leaves0_in V c t
  rw [hl0, hl1, hl2, hl3, hl4, hl5, hl6, hl7, hl8]
  have hN : t.val < 32 := lt_of_lt_of_eq t.isLt (show cfg0.N = 32 from N_0)
  by_cases h1 : t.val % 4 = 3
  · have hz : t.val ≠ 0 := by omega
    rw [show (dat0 V c).leavesExact 9 t = owns (c : Thread nD τ) (ms0_9 t) fullShare ((dat0 V c).after 9 t) from by
      unfold Dat.leavesExact; rw [liveAt0_9 t ((hcond0_1 t).mpr h1)], after0_9]
    unfold out0_9; rw [dif_pos h1, scr0_C V c t h1]
    rw [PhiS0_castSucc V c t, PhiS0_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC0 V c t h1 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Dat.leavesExact_idle (dat0 V c) 9 t (idleAt0_9 t (fun h => h1 ((hcond0_1 t).mp h))) (noFlush0_9 t (fun h => h1 ((hcond0_1 t).mp h)))]
    by_cases h0 : t.val % 4 = 0
    · rw [scr0_A V c t h0]
      by_cases hz : t.val = 0
      · rw [PhiS0_castSucc V c t, PhiS0_zero V c _ _ hz, PhiA0_eq]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
        iapply ((runA0 V c t h0).2 Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · rw [PhiS0_castSucc V c t, PhiS0_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
        iapply ((runA0 V c t h0).2 Set.univ _)
        isplitl [H0]; · iexact H0
        isplitl [H1]; · iexact H1
        isplitl [H2]; · iexact H2
        isplitl [HS]; · iexists _; iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
    · have hz : t.val ≠ 0 := fun h => h0 (by rw [h])
      rw [scr0_B V c t h0 h1]
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
      iapply ((runB0 V c t h0 h1 _).2 Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem Φ_in0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = PhiS0 V c 0 (Nat.zero_le _) from rfl, PhiS0_zero V c 0 _ rfl]; unfold Pipeline.ΦA
  iintro ⟨Hg, Hs⟩
  isplitl [Hs]; · iexact Hs
  iexact Hg

/-- After the last point the invariant gives the scoped memory back, the slab's contents forgotten. -/
theorem Φ_out0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), scopedRest0_split]
  simp only [scM0_0, owns_whole]
  iintro ⟨⟨HS, Hrest⟩, Hg⟩
  isplitl [Hg]; · iexact Hg
  isplitl [HS]; · iexists _; iexact HS
  iexact Hrest

end Cert.Kernel.KBody

end
-- ==== Proof.BBody1.lean ====
/-
  Region 1 of the kernel program: the plain dense layer.  One grid point reads the whole activation
  block x (512 x 1024), one block of 2048 rows of the weights and the matching block of the bias,
  and stores  x * Wblock^T + bias  over the whole output block (512 x 2048).  Nothing is carried from
  point to point, so the region's invariant is the untouched scoped memory and generator register.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point: where it is not fetched again its block index has
    not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev r1_0 : Rect S512x1024 := Rect.unit (s := S512x1024) ![0, 0] S512x1024.size inb_S512x1024_S512x1024_0_0
abbrev r1_1 : Rect S2048x1024 := Rect.unit (s := S2048x1024) ![0, 0] S2048x1024.size inb_S2048x1024_S2048x1024_0_0
abbrev r1_2 : Rect S1x2048 := Rect.unit (s := S1x2048) ![0, 0] S1x2048.size inb_S1x2048_S1x2048_0_0
abbrev r1_3 : Rect S512x2048 := Rect.unit (s := S512x2048) ![0, 0] S512x2048.size inb_S512x2048_S512x2048_0_0

/-- The output block after the body, from the three input blocks: the matrix product plus the bias row, stored whole. -/
def out1_3 (x0 : Vec F S512x1024 .bf16) (x1 : Vec F S2048x1024 .f32) (x2 : Vec F S1x2048 .f32) : Vec F S512x2048 .f32 :=
  View.canon [⟨r1_3, k1_pay1 (View.ld x0 r1_0) (View.ld x1 r1_1) (View.ld x2 r1_2)⟩]

/-- The one store covers the output block. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

set_option maxHeartbeats 1000000 in
/-- The body on whole buffers: the inputs are read and handed back as they were, the output ends at `out1_3`. -/
theorem sound_kernel1 (c : Dev nD) (E : Set ℕ) (i : grid1.Coords) (arg1 : Memref sig .tc .vmem S512x1024 .bf16) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole)
    (x0 : Vec F S512x1024 .bf16) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_cast_kernel i arg1 harg1 arg2 harg2 arg3 harg3 arg4 harg4) K := by
  simp only [cc1__linear_cast_kernel_eq_skeleton]; unfold cc1__linear_cast_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of region 1 on core `c`: the arrays as the region finds them; after the body each input's buffer
    at its block and the output's at `out1_3` of the three blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- The invariant is the generator register beside the scoped memory the pipeline does not stage, in and out. -/
theorem Φ_in1 (c : Dev nD) :
    iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Pipeline.ΦA spec1 c from rfl]; unfold Pipeline.ΦA
  iintro ⟨Hg, Hs⟩
  isplitl [Hs]; · iexact Hs
  iexact Hg

theorem Φ_out1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Pipeline.ΦA spec1 c from rfl]; unfold Pipeline.ΦA
  iintro ⟨Hs, Hg⟩
  isplitl [Hg]; · iexact Hg
  iexact Hs

end Cert.Kernel.KBody

end
-- ==== Proof.BBody2Defs.lean ====
/-
  Region 2 of the kernel program (the second dense layer, its skip pre-activation of the input computed beside
  it, with the per-node perceptron fused in), shared definitions: the windows' blocks, the two conditions the
  body branches on as functions of the grid point (the micro step is 0; the micro step is the last, 7), where
  the output window is idle, and the scratch slab the body carries from one micro step to the next.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point: where it is not fetched again its block index has
    not moved.  One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- The body's first condition, "the micro step is 0", as the program computes it from the grid point. -/
abbrev cond2_0 (i : grid2.Coords) : Prop := (Scalar.cmpi .ne (Scalar.extui (Scalar.cmpi .eq (BitVec.ofNat 32 (i 1).val) 0#32)) 0#32) = 1#1
/-- It holds at the points congruent to 0 modulo 8. -/
theorem hcond2_0 : ∀ t : Fin cfg2.N, cond2_0 (grid2.coords t) ↔ t.val % 8 = 0 :=
  (by decide +kernel : ∀ t : Fin grid2.N, cond2_0 (grid2.coords t) ↔ t.val % 8 = 0)

/-- The body's second condition, "the micro step is the last". -/
abbrev cond2_1 (i : grid2.Coords) : Prop := k2_cond2 i = 1#1
/-- It holds at the points congruent to 7 modulo 8. -/
theorem hcond2_1 : ∀ t : Fin cfg2.N, cond2_1 (grid2.coords t) ↔ t.val % 8 = 7 :=
  (by decide +kernel : ∀ t : Fin grid2.N, cond2_1 (grid2.coords t) ↔ t.val % 8 = 7)

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel
theorem liveAt2_11 : ∀ t : Fin cfg2.N, cfg2.idle 11 (grid2.coords t) = false := by decide +kernel
/-- Before the last micro step the body stores nothing into the output window, and the pipeline does not write it back. -/
theorem idleAt2_12 : ∀ t : Fin cfg2.N, ¬cond2_1 (grid2.coords t) → cfg2.idle 12 (grid2.coords t) = true := by decide +kernel
theorem noFlush2_12 : ∀ t : Fin cfg2.N, ¬cond2_1 (grid2.coords t) → (cfg2.win 12).flush t = false := by decide +kernel
/-- At the last micro step the output window is live. -/
theorem liveAt2_12 : ∀ t : Fin cfg2.N, cond2_1 (grid2.coords t) → cfg2.idle 12 (grid2.coords t) = false := by decide +kernel

/-- Each window's current staging buffer at point `t`, as the pipeline passes it to the body, with its wholeness. -/
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x120 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S120x64 .bf16 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x8 .bf16 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x120 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x8 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S512x128 .f32 := win2_12.stage (cfg2.slots t 12)
abbrev hs2_12 (t : Fin cfg2.N) : (ms2_12 t).IsWhole := hstage2_12 ((cfg2.slots t 12).cast nbuf2_12)

/-- The scratch slab (512 x 4096) the body carries between micro steps, as a whole memref and as a view. -/
abbrev scM2_0 : Memref sig .tc .vmem S512x4096 .f32 := Memref.whole cc2_scratch0
abbrev VS2_0 : View sig .tc .vmem S512x4096 .f32 := scM2_0.view
/-- One staging buffer of the output window, through which its contents are stated. -/
abbrev VO2_12 : View sig .tc .vmem S512x128 .f32 := (ms2_12 ⟨0, by rw [show cfg2.N = 64 from N_2]; decide⟩).view

/-- The untouched scoped memory with the scratch slab taken out and owned at some contents. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.KBody

end
-- ==== Proof.BBody2RunA.lean ====
/-
  Region 2, the body at micro step 0: the scratch slab is cleared and the first slice of
  h * W1block^T + x * Wsblock^T + the two bias rows  is stored into it.  What the slab holds afterwards is the
  two stores' pieces read together (the clearing store covers the slab), whatever it held before.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import proofs.«120596_j16338055594194_2_alg».proof.Proof.BBody2Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a whole-slab access, as the constant function. -/
theorem hz00_2 : (![0, 0] : Fin 2 → Nat) = fun _ => 0 := funext fun a => by fin_cases a <;> rfl

set_option maxHeartbeats 4000000 in
/-- Micro step 0: the slab ends at a value `Y` that does not depend on what it held before. -/
noncomputable def kernelRun2_A (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : cond2_0 i) (hc1 : ¬cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ d, owns (c : Thread nD τ) arg15 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg15 fullShare Y) -∗ K ⟨⟩))
          ⊢ wp frame (wpE (defs₀ (F := F)) Variants.none c none) E (cc2__dan_linear1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc2__dan_linear1_kernel_eq_skeleton]; unfold cc2__dan_linear1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; isplitr
    swap; · iexact HS
    ipureintro
    refine View.read_writes_eq_canon (Val := Elt F) arg15.view _ _ (fun y => ?_)
    refine ⟨_, List.mem_cons_of_mem _ (List.mem_cons_self ..), ?_⟩
    exact View.mem_set_unit_zero hz00_2 inb_S512x4096_S512x4096_0_0 y

end Cert.Kernel.KBody

end
-- ==== Proof.BBody2RunB.lean ====
/-
  Region 2, the body at a middle micro step: one more slice is stored over what the slab held.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.BBody2Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle micro step: the slab, found at `xs`, ends at a value `Y` of `xs` and the six input blocks. -/
noncomputable def kernelRun2_B (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : ¬cond2_0 i) (hc1 : ¬cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32) (xs : Vec F S512x4096 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg15 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg15 fullShare Y) -∗ K ⟨⟩))
          ⊢ wp frame (wpE (defs₀ (F := F)) Variants.none c none) E (cc2__dan_linear1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc2__dan_linear1_kernel_eq_skeleton]; unfold cc2__dan_linear1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg15.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; isplitr; · ipureintro; rfl
    iexact HS

end Cert.Kernel.KBody

end
-- ==== Proof.BBody2RunC.lean ====
/-
  Region 2, the body at the last micro step: the last slice is stored, the slab is read back in sixteen strips,
  the per-node perceptron's three small products are applied to each, and the concatenation goes to the output block.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.BBody2Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The last micro step: the slab, found at `xs`, ends at `Y.2`; the output block, found at anything, ends at `Y.1`,
    a value of `xs` and the twelve input blocks only. -/
noncomputable def kernelRun2_C (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : ¬cond2_0 i) (hc1 : cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32)
    (x8 : Vec F S256x120 .bf16) (x9 : Vec F S120x64 .bf16) (x10 : Vec F S64x8 .bf16)
    (x11 : Vec F S1x120 .f32) (x12 : Vec F S1x64 .f32) (x13 : Vec F S1x8 .f32) (xs : Vec F S512x4096 .f32) :
    { Y : Vec F S512x128 .f32 × Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9 ∗ owns (c : Thread nD τ) arg10 fullShare x10
            ∗ owns (c : Thread nD τ) arg11 fullShare x11 ∗ owns (c : Thread nD τ) arg12 fullShare x12 ∗ owns (c : Thread nD τ) arg13 fullShare x13
            ∗ (∃ d, owns (c : Thread nD τ) arg14 fullShare d) ∗ owns (c : Thread nD τ) arg15 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg8 fullShare x8 ∗ owns (c : Thread nD τ) arg9 fullShare x9 ∗ owns (c : Thread nD τ) arg10 fullShare x10
                ∗ owns (c : Thread nD τ) arg11 fullShare x11 ∗ owns (c : Thread nD τ) arg12 fullShare x12 ∗ owns (c : Thread nD τ) arg13 fullShare x13
                ∗ owns (c : Thread nD τ) arg14 fullShare Y.1 ∗ owns (c : Thread nD τ) arg15 fullShare Y.2) -∗ K ⟨⟩))
          ⊢ wp frame (wpE (defs₀ (F := F)) Variants.none c none) E (cc2__dan_linear1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_), fun E K => ?run⟩
  case run =>
    simp only [cc2__dan_linear1_kernel_eq_skeleton]; unfold cc2__dan_linear1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    obtain rfl := harg11.eq_unread hf11; obtain rfl := harg12.eq_unread hf12; obtain rfl := harg13.eq_unread hf13
    obtain rfl := harg15.eq_unread hfs
    sl_exec_parts! (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; rfl
      iexact H14
    iexists _; isplitr; · ipureintro; rfl
    iexact HS

end Cert.Kernel.KBody

end
-- ==== Proof.BBody2Runs.lean ====
/-
  Region 2, the body run in its three cases: micro step 0, a middle micro step, the last micro step (one module each).
-/
import proofs.«120596_j16338055594194_2_alg».proof.Proof.BBody2RunA
import proofs.«120596_j16338055594194_2_alg».proof.Proof.BBody2RunB
import proofs.«120596_j16338055594194_2_alg».proof.Proof.BBody2RunC
-- ==== Proof.BBody2.lean ====
/-
  Region 2's proof data and body obligation.  The 512 x 4096 scratch slab is carried from grid point to grid point:
  what it holds after the body at position n is defined by recursion on n through the three runs (micro step 0
  clears and starts it, a middle micro step adds one slice, the last micro step adds the last slice and reads it
  all back), and the invariant before a point says the slab holds what the point before left.  The output block
  is the last run's value at the points where the micro step is the last, and is idle elsewhere.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.BBody2Defs
import proofs.«120596_j16338055594194_2_alg».proof.Proof.BBody2Runs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three runs at grid point `t`, on the buffers the pipeline passes there and the windows' blocks. -/
abbrev runA2 (c : Dev nD) (t : Fin cfg2.N) (h0 : t.val % 8 = 0) :=
  kernelRun2_A (F := F) c (grid2.coords t) (ms2_0 t) (hs2_0 t) (ms2_1 t) (hs2_1 t) (ms2_2 t) (hs2_2 t) (ms2_3 t) (hs2_3 t)
    (ms2_4 t) (hs2_4 t) (ms2_5 t) (hs2_5 t) (ms2_6 t) (hs2_6 t) (ms2_7 t) (hs2_7 t) (ms2_8 t) (hs2_8 t) (ms2_9 t) (hs2_9 t)
    (ms2_10 t) (hs2_10 t) (ms2_11 t) (hs2_11 t) (ms2_12 t) (hs2_12 t) scM2_0 (Memref.isWhole_whole _)
    ((hcond2_0 t).mpr h0) (fun h => by have h3 := (hcond2_1 t).mp h; omega)
    (iblk2 V c 0 t) (iblk2 V c 1 t) (iblk2 V c 2 t) (iblk2 V c 3 t) (iblk2 V c 4 t) (iblk2 V c 5 t)
abbrev runB2 (c : Dev nD) (t : Fin cfg2.N) (h0 : ¬t.val % 8 = 0) (h1 : ¬t.val % 8 = 7) (xs : Vec F S512x4096 .f32) :=
  kernelRun2_B (F := F) c (grid2.coords t) (ms2_0 t) (hs2_0 t) (ms2_1 t) (hs2_1 t) (ms2_2 t) (hs2_2 t) (ms2_3 t) (hs2_3 t)
    (ms2_4 t) (hs2_4 t) (ms2_5 t) (hs2_5 t) (ms2_6 t) (hs2_6 t) (ms2_7 t) (hs2_7 t) (ms2_8 t) (hs2_8 t) (ms2_9 t) (hs2_9 t)
    (ms2_10 t) (hs2_10 t) (ms2_11 t) (hs2_11 t) (ms2_12 t) (hs2_12 t) scM2_0 (Memref.isWhole_whole _)
    (fun h => h0 ((hcond2_0 t).mp h)) (fun h => h1 ((hcond2_1 t).mp h))
    (iblk2 V c 0 t) (iblk2 V c 1 t) (iblk2 V c 2 t) (iblk2 V c 3 t) (iblk2 V c 4 t) (iblk2 V c 5 t) xs
abbrev runC2 (c : Dev nD) (t : Fin cfg2.N) (h1 : t.val % 8 = 7) (xs : Vec F S512x4096 .f32) :=
  kernelRun2_C (F := F) c (grid2.coords t) (ms2_0 t) (hs2_0 t) (ms2_1 t) (hs2_1 t) (ms2_2 t) (hs2_2 t) (ms2_3 t) (hs2_3 t)
    (ms2_4 t) (hs2_4 t) (ms2_5 t) (hs2_5 t) (ms2_6 t) (hs2_6 t) (ms2_7 t) (hs2_7 t) (ms2_8 t) (hs2_8 t) (ms2_9 t) (hs2_9 t)
    (ms2_10 t) (hs2_10 t) (ms2_11 t) (hs2_11 t) (ms2_12 t) (hs2_12 t) scM2_0 (Memref.isWhole_whole _)
    (fun h => by have h3 := (hcond2_0 t).mp h; omega) ((hcond2_1 t).mpr h1)
    (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) (iblk2 V c 11 t) xs

/-- What the scratch slab holds after the body at position `n`, by recursion on the position. -/
def scr2 (c : Dev nD) : (n : ℕ) → n < cfg2.N → Vec F S512x4096 .f32
  | 0, hn => (runA2 V c ⟨0, hn⟩ (Nat.zero_mod _)).1
  | n + 1, hn =>
    if h0 : (n + 1) % 8 = 0 then (runA2 V c ⟨n + 1, hn⟩ h0).1
    else if h1 : (n + 1) % 8 = 7 then (runC2 V c ⟨n + 1, hn⟩ h1 (scr2 c n (Nat.lt_of_succ_lt hn))).1.2
    else (runB2 V c ⟨n + 1, hn⟩ h0 h1 (scr2 c n (Nat.lt_of_succ_lt hn))).1

theorem scr2_A (c : Dev nD) (t : Fin cfg2.N) (h0 : t.val % 8 = 0) : scr2 V c t.val t.isLt = (runA2 V c t h0).1 := by
  obtain ⟨n, hn⟩ := t
  cases n with
  | zero => exact rfl
  | succ n => exact (dif_pos h0).trans rfl

theorem scr2_B (c : Dev nD) (t : Fin cfg2.N) (h0 : ¬t.val % 8 = 0) (h1 : ¬t.val % 8 = 7) :
    scr2 V c t.val t.isLt = (runB2 V c t h0 h1 (scr2 V c (t.val - 1) (Nat.lt_of_le_of_lt (Nat.sub_le _ _) t.isLt))).1 := by
  obtain ⟨n, hn⟩ := t
  cases n with
  | zero => exact absurd (Nat.zero_mod _) h0
  | succ n => exact (dif_neg h0).trans ((dif_neg h1).trans rfl)

theorem scr2_C (c : Dev nD) (t : Fin cfg2.N) (h1 : t.val % 8 = 7) :
    scr2 V c t.val t.isLt = (runC2 V c t h1 (scr2 V c (t.val - 1) (Nat.lt_of_le_of_lt (Nat.sub_le _ _) t.isLt))).1.2 := by
  obtain ⟨n, hn⟩ := t
  cases n with
  | zero => exact absurd (show (0 : ℕ) % 8 = 7 from h1) (by decide)
  | succ n =>
    have h0 : ¬(n + 1) % 8 = 0 := fun h => by
      have h1' : (n + 1) % 8 = 7 := h1
      omega
    exact (dif_neg h0).trans ((dif_pos h1).trans rfl)

/-- What the output block holds after the body at point `t`: at the last micro step of a macro tile the epilogue's
    value; at the other points, where the window is idle, a placeholder nothing reads. -/
def out2_12 (c : Dev nD) (t : Fin cfg2.N) : Vec F S512x128 .f32 :=
  if h1 : t.val % 8 = 7 then (runC2 V c t h1 (scr2 V c (t.val - 1) (Nat.lt_of_le_of_lt (Nat.sub_le _ _) t.isLt))).1.1
  else VO2_12.read (Elt F) VO2_12.junk

/-- The invariant before position `n`: before the first point the untouched scoped memory and generator register;
    afterwards the same with the scratch slab at what the point before left in it. -/
def PhiS2 (c : Dev nD) : (n : ℕ) → n ≤ cfg2.N → sProp 𝕄
  | 0, _ => Pipeline.ΦA spec2 c
  | n + 1, hn => iprop(iprop(owns (c : Thread nD τ) scM2_0 fullShare (scr2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (scr2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (scr2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = out2_12 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t
    ∗ (dat2 V c).leavesExact 6 t ∗ (dat2 V c).leavesExact 7 t ∗ (dat2 V c).leavesExact 8 t
    ∗ (dat2 V c).leavesExact 9 t ∗ (dat2 V c).leavesExact 10 t ∗ (dat2 V c).leavesExact 11 t
    ∗ (dat2 V c).leavesExact 12 t)

/-- At every point the input windows are live: the body hands each back at its block. -/
theorem leaves2_in (c : Dev nD) (t : Fin cfg2.N) :
    (dat2 V c).leavesExact 0 t = owns (c : Thread nD τ) (ms2_0 t) fullShare (iblk2 V c 0 t)
    ∧ (dat2 V c).leavesExact 1 t = owns (c : Thread nD τ) (ms2_1 t) fullShare (iblk2 V c 1 t)
    ∧ (dat2 V c).leavesExact 2 t = owns (c : Thread nD τ) (ms2_2 t) fullShare (iblk2 V c 2 t)
    ∧ (dat2 V c).leavesExact 3 t = owns (c : Thread nD τ) (ms2_3 t) fullShare (iblk2 V c 3 t)
    ∧ (dat2 V c).leavesExact 4 t = owns (c : Thread nD τ) (ms2_4 t) fullShare (iblk2 V c 4 t)
    ∧ (dat2 V c).leavesExact 5 t = owns (c : Thread nD τ) (ms2_5 t) fullShare (iblk2 V c 5 t)
    ∧ (dat2 V c).leavesExact 6 t = owns (c : Thread nD τ) (ms2_6 t) fullShare (iblk2 V c 6 t)
    ∧ (dat2 V c).leavesExact 7 t = owns (c : Thread nD τ) (ms2_7 t) fullShare (iblk2 V c 7 t)
    ∧ (dat2 V c).leavesExact 8 t = owns (c : Thread nD τ) (ms2_8 t) fullShare (iblk2 V c 8 t)
    ∧ (dat2 V c).leavesExact 9 t = owns (c : Thread nD τ) (ms2_9 t) fullShare (iblk2 V c 9 t)
    ∧ (dat2 V c).leavesExact 10 t = owns (c : Thread nD τ) (ms2_10 t) fullShare (iblk2 V c 10 t)
    ∧ (dat2 V c).leavesExact 11 t = owns (c : Thread nD τ) (ms2_11 t) fullShare (iblk2 V c 11 t) := by
  refine ⟨?_, ?_, ?_, ?_, ?_, ?_, ?_, ?_, ?_, ?_, ?_, ?_⟩
  · unfold Dat.leavesExact; rw [liveAt2_0 t, after2_0]
  · unfold Dat.leavesExact; rw [liveAt2_1 t, after2_1]
  · unfold Dat.leavesExact; rw [liveAt2_2 t, after2_2]
  · unfold Dat.leavesExact; rw [liveAt2_3 t, after2_3]
  · unfold Dat.leavesExact; rw [liveAt2_4 t, after2_4]
  · unfold Dat.leavesExact; rw [liveAt2_5 t, after2_5]
  · unfold Dat.leavesExact; rw [liveAt2_6 t, after2_6]
  · unfold Dat.leavesExact; rw [liveAt2_7 t, after2_7]
  · unfold Dat.leavesExact; rw [liveAt2_8 t, after2_8]
  · unfold Dat.leavesExact; rw [liveAt2_9 t, after2_9]
  · unfold Dat.leavesExact; rw [liveAt2_10 t, after2_10]
  · unfold Dat.leavesExact; rw [liveAt2_11 t, after2_11]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9,
    before2_10, before2_11]
  rw [show (dat2 V c).owesAt () t.succ = (dat2 V c).owesAt () t.castSucc from rfl]
  rw [show (dat2 V c).Φ t.succ = PhiS2 V c (t.val + 1) t.isLt from rfl, PhiS2_succ]
  obtain ⟨hl0, hl1, hl2, hl3, hl4, hl5, hl6, hl7, hl8, hl9, hl10, hl11⟩ := leaves2_in V c t
  rw [hl0, hl1, hl2, hl3, hl4, hl5, hl6, hl7, hl8, hl9, hl10, hl11]
  have hN : t.val < 64 := lt_of_lt_of_eq t.isLt (show cfg2.N = 64 from N_2)
  by_cases h1 : t.val % 8 = 7
  · have hz : t.val ≠ 0 := by omega
    rw [show (dat2 V c).leavesExact 12 t = owns (c : Thread nD τ) (ms2_12 t) fullShare ((dat2 V c).after 12 t) from by
      unfold Dat.leavesExact; rw [liveAt2_12 t ((hcond2_1 t).mpr h1)], after2_12]
    unfold out2_12; rw [dif_pos h1, scr2_C V c t h1]
    rw [PhiS2_castSucc V c t, PhiS2_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runC2 V c t h1 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, H12, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [Dat.leavesExact_idle (dat2 V c) 12 t (idleAt2_12 t (fun h => h1 ((hcond2_1 t).mp h))) (noFlush2_12 t (fun h => h1 ((hcond2_1 t).mp h)))]
    by_cases h0 : t.val % 8 = 0
    · rw [scr2_A V c t h0]
      by_cases hz : t.val = 0
      · rw [PhiS2_castSucc V c t, PhiS2_zero V c _ _ hz, PhiA2_eq]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
        iapply ((runA2 V c t h0).2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
        iapply ((runA2 V c t h0).2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
    · have hz : t.val ≠ 0 := fun h => h0 (by rw [h])
      rw [scr2_B V c t h0 h1]
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
      iapply ((runB2 V c t h0 h1 _).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem Φ_in2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = PhiS2 V c 0 (Nat.zero_le _) from rfl, PhiS2_zero V c 0 _ rfl]; unfold Pipeline.ΦA
  iintro ⟨Hg, Hs⟩
  isplitl [Hs]; · iexact Hs
  iexact Hg

/-- After the last point the invariant gives the scoped memory back, the slab's contents forgotten. -/
theorem Φ_out2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), scopedRest2_split]
  simp only [scM2_0, owns_whole]
  iintro ⟨⟨HS, Hrest⟩, Hg⟩
  isplitl [Hg]; · iexact Hg
  isplitl [HS]; · iexists _; iexact HS
  iexact Hrest

end Cert.Kernel.KBody

end
-- ==== Proof.BBody3Defs.lean ====
/-
  Region 3 of the kernel program (the third dense layer, its skip pre-activation added, with the per-node
  perceptron fused in), shared definitions: the windows' blocks, the two conditions the body branches on as
  functions of the grid point (the micro step is 0; the micro step is the last, 3), where the output window is
  idle, and the scratch slab the body carries from one micro step to the next.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point: where it is not fetched again its block index has
    not moved.  One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The body's first condition, "the micro step is 0", as the program computes it from the grid point. -/
abbrev cond3_0 (i : grid3.Coords) : Prop := (Scalar.cmpi .ne (Scalar.extui (Scalar.cmpi .eq (BitVec.ofNat 32 (i 1).val) 0#32)) 0#32) = 1#1
/-- It holds at the points congruent to 0 modulo 4. -/
theorem hcond3_0 : ∀ t : Fin cfg3.N, cond3_0 (grid3.coords t) ↔ t.val % 4 = 0 :=
  (by decide +kernel : ∀ t : Fin grid3.N, cond3_0 (grid3.coords t) ↔ t.val % 4 = 0)

/-- The body's second condition, "the micro step is the last". -/
abbrev cond3_1 (i : grid3.Coords) : Prop := k3_cond2 i = 1#1
/-- It holds at the points congruent to 3 modulo 4. -/
theorem hcond3_1 : ∀ t : Fin cfg3.N, cond3_1 (grid3.coords t) ↔ t.val % 4 = 3 :=
  (by decide +kernel : ∀ t : Fin grid3.N, cond3_1 (grid3.coords t) ↔ t.val % 4 = 3)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel
theorem liveAt3_9 : ∀ t : Fin cfg3.N, cfg3.idle 9 (grid3.coords t) = false := by decide +kernel
/-- Before the last micro step the body stores nothing into the output window, and the pipeline does not write it back. -/
theorem idleAt3_10 : ∀ t : Fin cfg3.N, ¬cond3_1 (grid3.coords t) → cfg3.idle 10 (grid3.coords t) = true := by decide +kernel
theorem noFlush3_10 : ∀ t : Fin cfg3.N, ¬cond3_1 (grid3.coords t) → (cfg3.win 10).flush t = false := by decide +kernel
/-- At the last micro step the output window is live. -/
theorem liveAt3_10 : ∀ t : Fin cfg3.N, cond3_1 (grid3.coords t) → cfg3.idle 10 (grid3.coords t) = false := by decide +kernel

/-- Each window's current staging buffer at point `t`, as the pipeline passes it to the body, with its wholeness. -/
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S256x120 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S120x64 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x8 .bf16 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x120 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x64 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x8 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S512x128 .f32 := win3_10.stage (cfg3.slots t 10)
abbrev hs3_10 (t : Fin cfg3.N) : (ms3_10 t).IsWhole := hstage3_10 ((cfg3.slots t 10).cast nbuf3_10)

/-- The scratch slab (512 x 4096) the body carries between micro steps, as a whole memref and as a view. -/
abbrev scM3_0 : Memref sig .tc .vmem S512x4096 .f32 := Memref.whole cc3_scratch0
abbrev VS3_0 : View sig .tc .vmem S512x4096 .f32 := scM3_0.view
/-- One staging buffer of the output window, through which its contents are stated. -/
abbrev VO3_10 : View sig .tc .vmem S512x128 .f32 := (ms3_10 ⟨0, by rw [show cfg3.N = 32 from N_3]; decide⟩).view

/-- The untouched scoped memory with the scratch slab taken out and owned at some contents. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.KBody

end
-- ==== Proof.BBody3RunA.lean ====
/-
  Region 3, the body run in its three cases.  At micro step 0 the scratch slab is cleared and the first
  slice of  h * Wblock^T + bias + skip  is stored into it; at a middle micro step one more slice is stored
  over what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.BBody3Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset vector, as the whole-buffer rectangles spell it. -/
theorem hz00_3 : (![0, 0] : Fin 2 → Nat) = fun _ => 0 := funext fun a => by fin_cases a <;> rfl

set_option maxHeartbeats 4000000 in
/-- Micro step 0: the slab ends at a value `Y` that does not depend on what it held before. -/
noncomputable def kernelRun3_A (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole)
    (hc0 : cond3_0 i) (hc1 : ¬cond3_1 i)
    (x2 : Vec F S512x1024 .bf16) (x3 : Vec F S1024x1024 .f32) (x4 : Vec F S1x1024 .f32) (x5 : Vec F S512x1024 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ (∃ d, owns (c : Thread nD τ) arg13 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg13 fullShare Y) -∗ K ⟨⟩))
          ⊢ wp frame (wpE (defs₀ (F := F)) Variants.none c none) E (cc3__dan_linear2_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc3__dan_linear2_kernel_eq_skeleton]; unfold cc3__dan_linear2_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4
    obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; isplitr
    swap; · iexact HS
    ipureintro
    refine View.read_writes_eq_canon (Val := Elt F) arg13.view _ _ (fun y => ?_)
    refine ⟨_, List.mem_cons_of_mem _ (List.mem_cons_self ..), ?_⟩
    exact View.mem_set_unit_zero hz00_3 inb_S512x4096_S512x4096_0_0 y

end Cert.Kernel.KBody

end
-- ==== Proof.BBody3RunB.lean ====
/-
  Region 3, the body run in its three cases.  At micro step 0 the scratch slab is cleared and the first
  slice of  h * Wblock^T + bias + skip  is stored into it; at a middle micro step one more slice is stored
  over what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.BBody3Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- A middle micro step: the slab, found at `xs`, ends at a value `Y` of `xs` and the four input blocks. -/
noncomputable def kernelRun3_B (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole)
    (hc0 : ¬cond3_0 i) (hc1 : ¬cond3_1 i)
    (x2 : Vec F S512x1024 .bf16) (x3 : Vec F S1024x1024 .f32) (x4 : Vec F S1x1024 .f32) (x5 : Vec F S512x1024 .f32) (xs : Vec F S512x4096 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg13 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg13 fullShare Y) -∗ K ⟨⟩))
          ⊢ wp frame (wpE (defs₀ (F := F)) Variants.none c none) E (cc3__dan_linear2_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc3__dan_linear2_kernel_eq_skeleton]; unfold cc3__dan_linear2_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4
    obtain rfl := harg5.eq_unread hf5; obtain rfl := harg13.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; isplitr; · ipureintro; rfl
    iexact HS

end Cert.Kernel.KBody

end
-- ==== Proof.BBody3RunC.lean ====
/-
  Region 3, the body run in its three cases.  At micro step 0 the scratch slab is cleared and the first
  slice of  h * Wblock^T + bias + skip  is stored into it; at a middle micro step one more slice is stored
  over what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.BBody3Defs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 16000000 in
/-- The last micro step: the slab, found at `xs`, ends at `Y.2`; the output block, found at anything, ends at `Y.1`,
    a value of `xs` and the ten input blocks only. -/
noncomputable def kernelRun3_C (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole)
    (hc0 : ¬cond3_0 i) (hc1 : cond3_1 i)
    (x2 : Vec F S512x1024 .bf16) (x3 : Vec F S1024x1024 .f32) (x4 : Vec F S1x1024 .f32) (x5 : Vec F S512x1024 .f32)
    (x6 : Vec F S256x120 .bf16) (x7 : Vec F S120x64 .bf16) (x8 : Vec F S64x8 .bf16)
    (x9 : Vec F S1x120 .f32) (x10 : Vec F S1x64 .f32) (x11 : Vec F S1x8 .f32) (xs : Vec F S512x4096 .f32) :
    { Y : Vec F S512x128 .f32 × Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9 ∗ owns (c : Thread nD τ) arg10 fullShare x10
            ∗ owns (c : Thread nD τ) arg11 fullShare x11
            ∗ (∃ d, owns (c : Thread nD τ) arg12 fullShare d) ∗ owns (c : Thread nD τ) arg13 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg8 fullShare x8 ∗ owns (c : Thread nD τ) arg9 fullShare x9 ∗ owns (c : Thread nD τ) arg10 fullShare x10
                ∗ owns (c : Thread nD τ) arg11 fullShare x11
                ∗ owns (c : Thread nD τ) arg12 fullShare Y.1 ∗ owns (c : Thread nD τ) arg13 fullShare Y.2) -∗ K ⟨⟩))
          ⊢ wp frame (wpE (defs₀ (F := F)) Variants.none c none) E (cc3__dan_linear2_kernel i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    simp only [cc3__dan_linear2_kernel_eq_skeleton]; unfold cc3__dan_linear2_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    obtain rfl := harg11.eq_unread hf11; obtain rfl := harg13.eq_unread hfs
    sl_exec_parts! (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; rfl
      iexact H12
    iexists _; isplitr; · ipureintro; rfl
    iexact HS

end Cert.Kernel.KBody

end
-- ==== Proof.BBody3Runs.lean ====
/-
  Region 3: the body's three runs (micro step 0, a middle micro step, the last micro step), one module each.
-/
import proofs.«120596_j16338055594194_2_alg».proof.Proof.BBody3RunA
import proofs.«120596_j16338055594194_2_alg».proof.Proof.BBody3RunB
import proofs.«120596_j16338055594194_2_alg».proof.Proof.BBody3RunC
-- ==== Proof.BBody3.lean ====
/-
  Region 3: the proof data and the body obligation.  What the scratch slab holds after each grid point is
  defined by recursion on the point (cleared and first slice at micro step 0, one more slice at each later
  micro step); the output block is named only at the last micro step of each macro tile, where the body
  stores it and the pipeline writes it back; elsewhere the output window is idle.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.BBody3Runs

set_option maxRecDepth 16384

noncomputable section

namespace Cert.Kernel.KBody

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three runs at grid point `t`, on the buffers the pipeline passes there and the windows' blocks. -/
abbrev runA3 (c : Dev nD) (t : Fin cfg3.N) (h0 : t.val % 4 = 0) :=
  kernelRun3_A (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _)
    ((hcond3_0 t).mpr h0) (fun h => by have h3 := (hcond3_1 t).mp h; omega)
    (iblk3 V c 0 t) (iblk3 V c 1 t) (iblk3 V c 2 t) (iblk3 V c 3 t)
abbrev runB3 (c : Dev nD) (t : Fin cfg3.N) (h0 : ¬t.val % 4 = 0) (h1 : ¬t.val % 4 = 3) (xs : Vec F S512x4096 .f32) :=
  kernelRun3_B (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _)
    (fun h => h0 ((hcond3_0 t).mp h)) (fun h => h1 ((hcond3_1 t).mp h))
    (iblk3 V c 0 t) (iblk3 V c 1 t) (iblk3 V c 2 t) (iblk3 V c 3 t) xs
abbrev runC3 (c : Dev nD) (t : Fin cfg3.N) (h1 : t.val % 4 = 3) (xs : Vec F S512x4096 .f32) :=
  kernelRun3_C (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _)
    (fun h => by have h3 := (hcond3_0 t).mp h; omega) ((hcond3_1 t).mpr h1)
    (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) xs

/-- What the scratch slab holds after the body at position `n`, by recursion on the position. -/
def scr3 (c : Dev nD) : (n : ℕ) → n < cfg3.N → Vec F S512x4096 .f32
  | 0, hn => (runA3 V c ⟨0, hn⟩ (Nat.zero_mod _)).1
  | n + 1, hn =>
    if h0 : (n + 1) % 4 = 0 then (runA3 V c ⟨n + 1, hn⟩ h0).1
    else if h1 : (n + 1) % 4 = 3 then (runC3 V c ⟨n + 1, hn⟩ h1 (scr3 c n (Nat.lt_of_succ_lt hn))).1.2
    else (runB3 V c ⟨n + 1, hn⟩ h0 h1 (scr3 c n (Nat.lt_of_succ_lt hn))).1

theorem scr3_A (c : Dev nD) (t : Fin cfg3.N) (h0 : t.val % 4 = 0) : scr3 V c t.val t.isLt = (runA3 V c t h0).1 := by
  obtain ⟨n, hn⟩ := t
  cases n with
  | zero => exact rfl
  | succ n => exact (dif_pos h0).trans rfl

theorem scr3_B (c : Dev nD) (t : Fin cfg3.N) (h0 : ¬t.val % 4 = 0) (h1 : ¬t.val % 4 = 3) :
    scr3 V c t.val t.isLt = (runB3 V c t h0 h1 (scr3 V c (t.val - 1) (Nat.lt_of_le_of_lt (Nat.sub_le _ _) t.isLt))).1 := by
  obtain ⟨n, hn⟩ := t
  cases n with
  | zero => exact absurd (Nat.zero_mod _) h0
  | succ n => exact (dif_neg h0).trans ((dif_neg h1).trans rfl)

theorem scr3_C (c : Dev nD) (t : Fin cfg3.N) (h1 : t.val % 4 = 3) :
    scr3 V c t.val t.isLt = (runC3 V c t h1 (scr3 V c (t.val - 1) (Nat.lt_of_le_of_lt (Nat.sub_le _ _) t.isLt))).1.2 := by
  obtain ⟨n, hn⟩ := t
  cases n with
  | zero => exact absurd (show (0 : ℕ) % 4 = 3 from h1) (by decide)
  | succ n =>
    have h0 : ¬(n + 1) % 4 = 0 := fun h => by
      have h1' : (n + 1) % 4 = 3 := h1
      omega
    exact (dif_neg h0).trans ((dif_pos h1).trans rfl)

/-- What the output block holds after the body at point `t`: at the last micro step of a macro tile the epilogue's
    value; at the other points, where the window is idle, a placeholder nothing reads. -/
def out3_10 (c : Dev nD) (t : Fin cfg3.N) : Vec F S512x128 .f32 :=
  if h1 : t.val % 4 = 3 then (runC3 V c t h1 (scr3 V c (t.val - 1) (Nat.lt_of_le_of_lt (Nat.sub_le _ _) t.isLt))).1.1
  else VO3_10.read (Elt F) VO3_10.junk

/-- The invariant before position `n`: before the first point the untouched scoped memory and generator register;
    afterwards the same with the scratch slab at what the point before left in it. -/
def PhiS3 (c : Dev nD) : (n : ℕ) → n ≤ cfg3.N → sProp 𝕄
  | 0, _ => Pipeline.ΦA spec3 c
  | n + 1, hn => iprop(iprop(owns (c : Thread nD τ) scM3_0 fullShare (scr3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (scr3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (scr3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t ∗ (dat3 V c).leavesExact 5 t
    ∗ (dat3 V c).leavesExact 6 t ∗ (dat3 V c).leavesExact 7 t ∗ (dat3 V c).leavesExact 8 t
    ∗ (dat3 V c).leavesExact 9 t ∗ (dat3 V c).leavesExact 10 t)

/-- At every point the input windows are live: the body hands each back at its block. -/
theorem leaves3_in (c : Dev nD) (t : Fin cfg3.N) :
    (dat3 V c).leavesExact 0 t = owns (c : Thread nD τ) (ms3_0 t) fullShare (iblk3 V c 0 t)
    ∧ (dat3 V c).leavesExact 1 t = owns (c : Thread nD τ) (ms3_1 t) fullShare (iblk3 V c 1 t)
    ∧ (dat3 V c).leavesExact 2 t = owns (c : Thread nD τ) (ms3_2 t) fullShare (iblk3 V c 2 t)
    ∧ (dat3 V c).leavesExact 3 t = owns (c : Thread nD τ) (ms3_3 t) fullShare (iblk3 V c 3 t)
    ∧ (dat3 V c).leavesExact 4 t = owns (c : Thread nD τ) (ms3_4 t) fullShare (iblk3 V c 4 t)
    ∧ (dat3 V c).leavesExact 5 t = owns (c : Thread nD τ) (ms3_5 t) fullShare (iblk3 V c 5 t)
    ∧ (dat3 V c).leavesExact 6 t = owns (c : Thread nD τ) (ms3_6 t) fullShare (iblk3 V c 6 t)
    ∧ (dat3 V c).leavesExact 7 t = owns (c : Thread nD τ) (ms3_7 t) fullShare (iblk3 V c 7 t)
    ∧ (dat3 V c).leavesExact 8 t = owns (c : Thread nD τ) (ms3_8 t) fullShare (iblk3 V c 8 t)
    ∧ (dat3 V c).leavesExact 9 t = owns (c : Thread nD τ) (ms3_9 t) fullShare (iblk3 V c 9 t) := by
  refine ⟨?_, ?_, ?_, ?_, ?_, ?_, ?_, ?_, ?_, ?_⟩
  · unfold Dat.leavesExact; rw [liveAt3_0 t, after3_0]
  · unfold Dat.leavesExact; rw [liveAt3_1 t, after3_1]
  · unfold Dat.leavesExact; rw [liveAt3_2 t, after3_2]
  · unfold Dat.leavesExact; rw [liveAt3_3 t, after3_3]
  · unfold Dat.leavesExact; rw [liveAt3_4 t, after3_4]
  · unfold Dat.leavesExact; rw [liveAt3_5 t, after3_5]
  · unfold Dat.leavesExact; rw [liveAt3_6 t, after3_6]
  · unfold Dat.leavesExact; rw [liveAt3_7 t, after3_7]
  · unfold Dat.leavesExact; rw [liveAt3_8 t, after3_8]
  · unfold Dat.leavesExact; rw [liveAt3_9 t, after3_9]

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).owesAt () t.succ = (dat3 V c).owesAt () t.castSucc from rfl]
  rw [show (dat3 V c).Φ t.succ = PhiS3 V c (t.val + 1) t.isLt from rfl, PhiS3_succ]
  obtain ⟨hl0, hl1, hl2, hl3, hl4, hl5, hl6, hl7, hl8, hl9⟩ := leaves3_in V c t
  rw [hl0, hl1, hl2, hl3, hl4, hl5, hl6, hl7, hl8, hl9]
  have hN : t.val < 32 := lt_of_lt_of_eq t.isLt (show cfg3.N = 32 from N_3)
  by_cases h1 : t.val % 4 = 3
  · have hz : t.val ≠ 0 := by omega
    rw [show (dat3 V c).leavesExact 10 t = owns (c : Thread nD τ) (ms3_10 t) fullShare ((dat3 V c).after 10 t) from by
      unfold Dat.leavesExact; rw [liveAt3_10 t ((hcond3_1 t).mpr h1)], after3_10]
    unfold out3_10; rw [dif_pos h1, scr3_C V c t h1]
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runC3 V c t h1 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dat3 V c) 10 t (idleAt3_10 t (fun h => h1 ((hcond3_1 t).mp h))) (noFlush3_10 t (fun h => h1 ((hcond3_1 t).mp h)))]
    by_cases h0 : t.val % 4 = 0
    · rw [scr3_A V c t h0]
      by_cases hz : t.val = 0
      · rw [PhiS3_castSucc V c t, PhiS3_zero V c _ _ hz, PhiA3_eq]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
        iapply ((runA3 V c t h0).2 Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
        iapply ((runA3 V c t h0).2 Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · have hz : t.val ≠ 0 := fun h => h0 (by rw [h])
      rw [scr3_B V c t h0 h1]
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply ((runB3 V c t h0 h1 _).2 Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body obligation of region 3, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem Φ_in3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [show (dat3 V c).Φ 0 = PhiS3 V c 0 (Nat.zero_le _) from rfl, PhiS3_zero V c 0 _ rfl]; unfold Pipeline.ΦA
  iintro ⟨Hg, Hs⟩
  isplitl [Hs]; · iexact Hs
  iexact Hg

/-- After the last point the invariant gives the scoped memory back, the slab's contents forgotten. -/
theorem Φ_out3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), scopedRest3_split]
  simp only [scM3_0, owns_whole]
  iintro ⟨⟨HS, Hrest⟩, Hg⟩
  isplitl [Hg]; · iexact Hg
  isplitl [HS]; · iexists _; iexact HS
  iexact Hrest

end Cert.Kernel.KBody

end
-- ==== Proof.BBody.lean ====
/-
  The four kernel regions' proof data and body obligations: what each window's staging buffer holds after the
  body at each grid point, the invariant carried from point to point (for regions 0, 2 and 3 it holds the
  512 x 4096 pre-activation slab at named contents), and that the body, run at a point from the invariant and
  the windows' blocks, leaves the next point's invariant.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«120596_j16338055594194_2_alg».proof.Proof.BBody0
import proofs.«120596_j16338055594194_2_alg».proof.Proof.BBody1
import proofs.«120596_j16338055594194_2_alg».proof.Proof.BBody2
import proofs.«120596_j16338055594194_2_alg».proof.Proof.BBody3

set_option maxRecDepth 16384

noncomputable section

namespace Cert.Kernel.KBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

end Cert.Kernel.KBody

end
-- ==== Proof.BRunVals.lean ====
/-
  The buffers' contents at each boundary of the kernel program's @main, as a fold: the launch memory, then
  alternately a stretch of host operations applied to it and a kernel region's arrays replaced by what the
  region's pipeline leaves in them (an input array as entered, an output array with every block written back
  folded in), every other buffer untouched.  Eight steps: four host stretches, four regions.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import proofs.«120596_j16338055594194_2_alg».proof.Proof.BBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.KBody

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: the end of @main. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.Kernel.KRun

end
-- ==== Proof.BRunRegs.lean ====
/-
  The kernel program's @main as segments over one thread state: between segments every unscoped buffer of the
  core is held whole at the boundary's contents, beside the generator register and the statement that the core
  owes no other core anything.  A host stretch runs its operations over those buffers.  A kernel region takes
  its windows' arrays out of them, runs its pipeline, and puts the arrays back at what the pipeline leaves.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import proofs.«120596_j16338055594194_2_alg».proof.Proof.BRunVals
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.KBody

variable (m : (ℓ : Loc nD τ sig) → Buf (Elt F) ℓ) (ρ : Dev nD → PrngReg)

/-- No pipeline reads a prefetched table. -/
abbrev adm : (p : Fin 4) → (pcfgs (F := F) p).Adm := fun p => (cfgs p).toPCfg_adm

/-- Every pipeline's proof data, each at its own region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, and the core
    owing nothing. -/
abbrev R (c : Dev nD) : sProp 𝕄 := iprop((∃ r, prngReg c r) ∗ ∃ W, owes (c : Thread nD τ) (0 : CellTallies nD τ sig Unit) W)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the `owes`. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: entered from every unscoped buffer at `W1`, left at `W2`.  Its arrays are
    split out of the unscoped buffers at entry and put back at their final contents at exit; the generator
    register goes into the body's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed_eq0 (V1 m ρ) c 0]
      icases HO with ⟨%W, HO⟩; iexists W; isplitr
      · ipureintro; exact fun x _ => Or.inl (show x ∈ (dat0 (V1 m ρ) c).recorded 0 from by rw [recorded_eq0 (V1 m ρ) c 0]; trivial)
      iexact HO
    isplitl [Hp]; · iexact Hp
    iexact Hrest
  hin c := by
    show iprop((∃ r, prngReg c r) ∗ _ ∗ Pipeline.scopedRest spec0 c) ⊢ (dat0 (V1 m ρ) c).Φ 0
    iintro ⟨Hp, -, Hr⟩
    iapply (Φ_in0 (V1 m ρ) c)
    isplitl [Hp]; · iexact Hp
    iexact Hr
  hout c := by
    rw [Pipeline.ownSems0_none]
    show (dat0 (V1 m ρ) c).Φ (Fin.last cfg0.N) ⊢ iprop((∃ r, prngReg c r) ∗ emp ∗ Pipeline.scopedRest spec0 c)
    iintro H
    ihave H' := (Φ_out0 (V1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last (Pipeline.pin (pcfgs (F := F)) adm 0).N) = 0 from owed_eq0 (V1 m ρ) c _]
    icases HO with ⟨%W, -, HO⟩; iexists W; iexact HO

set_option backward.isDefEq.respectTransparency.types false in
/-- Region 1 over the thread state: entered at `W3`, left at `W4`; the same steps as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed_eq1 (V3 m ρ) c 0]
      icases HO with ⟨%W, HO⟩; iexists W; isplitr
      · ipureintro; exact fun x _ => Or.inl (show x ∈ (dat1 (V3 m ρ) c).recorded 0 from by rw [recorded_eq1 (V3 m ρ) c 0]; trivial)
      iexact HO
    isplitl [Hp]; · iexact Hp
    iexact Hrest
  hin c := by
    show iprop((∃ r, prngReg c r) ∗ _ ∗ Pipeline.scopedRest spec1 c) ⊢ (dat1 (V3 m ρ) c).Φ 0
    iintro ⟨Hp, -, Hr⟩
    iapply (Φ_in1 (V3 m ρ) c)
    isplitl [Hp]; · iexact Hp
    iexact Hr
  hout c := by
    rw [Pipeline.ownSems0_none]
    show (dat1 (V3 m ρ) c).Φ (Fin.last cfg1.N) ⊢ iprop((∃ r, prngReg c r) ∗ emp ∗ Pipeline.scopedRest spec1 c)
    iintro H
    ihave H' := (Φ_out1 (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last (Pipeline.pin (pcfgs (F := F)) adm 1).N) = 0 from owed_eq1 (V3 m ρ) c _]
    icases HO with ⟨%W, -, HO⟩; iexists W; iexact HO

set_option backward.isDefEq.respectTransparency.types false in
/-- Region 2 over the thread state: entered at `W5`, left at `W6`; the same steps as region 0. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed_eq2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from owed_eq2 (V5 m ρ) c 0]
      icases HO with ⟨%W, HO⟩; iexists W; isplitr
      · ipureintro; exact fun x _ => Or.inl (show x ∈ (dat2 (V5 m ρ) c).recorded 0 from by rw [recorded_eq2 (V5 m ρ) c 0]; trivial)
      iexact HO
    isplitl [Hp]; · iexact Hp
    iexact Hrest
  hin c := by
    show iprop((∃ r, prngReg c r) ∗ _ ∗ Pipeline.scopedRest spec2 c) ⊢ (dat2 (V5 m ρ) c).Φ 0
    iintro ⟨Hp, -, Hr⟩
    iapply (Φ_in2 (V5 m ρ) c)
    isplitl [Hp]; · iexact Hp
    iexact Hr
  hout c := by
    rw [Pipeline.ownSems0_none]
    show (dat2 (V5 m ρ) c).Φ (Fin.last cfg2.N) ⊢ iprop((∃ r, prngReg c r) ∗ emp ∗ Pipeline.scopedRest spec2 c)
    iintro H
    ihave H' := (Φ_out2 (V5 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 2 c).owed (Fin.last (Pipeline.pin (pcfgs (F := F)) adm 2).N) = 0 from owed_eq2 (V5 m ρ) c _]
    icases HO with ⟨%W, -, HO⟩; iexists W; iexact HO

set_option backward.isDefEq.respectTransparency.types false in
/-- Region 3 over the thread state: entered at `W7`, left at `W8`; the same steps as region 0. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun c t => owed_eq3 (V7 m ρ) c t
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => q_eq3 (V7 m ρ) c w) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 3 c).owed 0 = 0 from owed_eq3 (V7 m ρ) c 0]
      icases HO with ⟨%W, HO⟩; iexists W; isplitr
      · ipureintro; exact fun x _ => Or.inl (show x ∈ (dat3 (V7 m ρ) c).recorded 0 from by rw [recorded_eq3 (V7 m ρ) c 0]; trivial)
      iexact HO
    isplitl [Hp]; · iexact Hp
    iexact Hrest
  hin c := by
    show iprop((∃ r, prngReg c r) ∗ _ ∗ Pipeline.scopedRest spec3 c) ⊢ (dat3 (V7 m ρ) c).Φ 0
    iintro ⟨Hp, -, Hr⟩
    iapply (Φ_in3 (V7 m ρ) c)
    isplitl [Hp]; · iexact Hp
    iexact Hr
  hout c := by
    rw [Pipeline.ownSems0_none]
    show (dat3 (V7 m ρ) c).Φ (Fin.last cfg3.N) ⊢ iprop((∃ r, prngReg c r) ∗ emp ∗ Pipeline.scopedRest spec3 c)
    iintro H
    ihave H' := (Φ_out3 (V7 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => q_eq3 (V7 m ρ) c w)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 3 c).owed (Fin.last (Pipeline.pin (pcfgs (F := F)) adm 3).N) = 0 from owed_eq3 (V7 m ρ) c _]
    icases HO with ⟨%W, -, HO⟩; iexists W; iexact HO

end Cert.Kernel.KRun

end
-- ==== Proof.BRunMain.lean ====
/-
  The kernel program's run: from any memory with every semaphore at zero, every weakly fair execution of @main
  on the TensorCores terminates, nothing faults, and at the end every unscoped buffer of every core holds the
  last boundary's contents — the fold of the four host stretches and the four regions over the launch memory.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import proofs.«120596_j16338055594194_2_alg».proof.Proof.BRunRegs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.KBody

variable (m : (ℓ : Loc nD τ sig) → Buf (Elt F) ℓ) (ρ : Dev nD → PrngReg)

/-- @main's eight segments in order: a host stretch from its boundary's contents, then the region it feeds. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- @main is the run of the segments. -/
theorem main_run (c : Dev nD) : main (F := F) c = Pipeline.Seg.run (segs m ρ) := (main_chain c).trans (by chain_rfl)

set_option backward.isDefEq.respectTransparency.types false in
/-- The run, with every unscoped buffer read at the end. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.KRun

end
-- ==== Proof.BRunArgs.lean ====
/-
  The seventeen argument arrays end as launched.  No host operation of @main writes an argument, and a region
  either does not touch an argument's array or reads it through an input window, which its pipeline leaves as
  entered; so the fold of the boundaries' contents, read at an argument, walks back to the launch memory.
-/
import proofs.«120596_j16338055594194_2_alg».proof.Proof.Gen.Kernel.Launch
import proofs.«120596_j16338055594194_2_alg».proof.Proof.Gen.Kernel.Skeleton
import proofs.«120596_j16338055594194_2_alg».proof.Proof.Gen.Kernel.Points
import proofs.«120596_j16338055594194_2_alg».proof.Proof.BRunMain
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.KRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.KBody

variable (m : (ℓ : Loc nD τ sig) → Buf (Elt F) ℓ) (ρ : Dev nD → PrngReg)

/-- The seventeen argument references. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- Which buffers an operation writes does not depend on the float instance: each host stretch's list of
    write sets is the list at the exact instance, where it is a closed term. -/
theorem writes0_eq : (hostOps0 (F := F)).map HloOp.writes = (hostOps0 (F := Ideal)).map HloOp.writes := rfl
theorem writes1_eq : (hostOps1 (F := F)).map HloOp.writes = (hostOps1 (F := Ideal)).map HloOp.writes := rfl
theorem writes2_eq : (hostOps2 (F := F)).map HloOp.writes = (hostOps2 (F := Ideal)).map HloOp.writes := rfl
theorem writes3_eq : (hostOps3 (F := F)).map HloOp.writes = (hostOps3 (F := Ideal)).map HloOp.writes := rfl

/-- No write set of a host stretch holds an argument's buffer: decided over the closed lists. -/
theorem writes0_args : ((hostOps0 (F := Ideal)).map HloOp.writes).Forall (fun W => ∀ b ∈ argRefs, Proc.devRef (τ := τ) .tc b ∉ W) := by
  decide +kernel
theorem writes1_args : ((hostOps1 (F := Ideal)).map HloOp.writes).Forall (fun W => ∀ b ∈ argRefs, Proc.devRef (τ := τ) .tc b ∉ W) := by
  decide +kernel
theorem writes2_args : ((hostOps2 (F := Ideal)).map HloOp.writes).Forall (fun W => ∀ b ∈ argRefs, Proc.devRef (τ := τ) .tc b ∉ W) := by
  decide +kernel
theorem writes3_args : ((hostOps3 (F := Ideal)).map HloOp.writes).Forall (fun W => ∀ b ∈ argRefs, Proc.devRef (τ := τ) .tc b ∉ W) := by
  decide +kernel

/-- No operation of the first host stretch writes an argument. -/
theorem hostOps0_keeps : (hostOps0 : List (HloOp τ sig (Elt F))).Forall fun op => ∀ b ∈ argRefs, Proc.devRef .tc b ∉ op.writes := by
  have h := writes0_args
  rw [← writes0_eq (F := F)] at h
  exact (List.forall_map_iff HloOp.writes).mp h
/-- Nor of the second, -/
theorem hostOps1_keeps : (hostOps1 : List (HloOp τ sig (Elt F))).Forall fun op => ∀ b ∈ argRefs, Proc.devRef .tc b ∉ op.writes := by
  have h := writes1_args
  rw [← writes1_eq (F := F)] at h
  exact (List.forall_map_iff HloOp.writes).mp h
/-- the third, -/
theorem hostOps2_keeps : (hostOps2 : List (HloOp τ sig (Elt F))).Forall fun op => ∀ b ∈ argRefs, Proc.devRef .tc b ∉ op.writes := by
  have h := writes2_args
  rw [← writes2_eq (F := F)] at h
  exact (List.forall_map_iff HloOp.writes).mp h
/-- or the fourth. -/
theorem hostOps3_keeps : (hostOps3 : List (HloOp τ sig (Elt F))).Forall fun op => ∀ b ∈ argRefs, Proc.devRef .tc b ∉ op.writes := by
  have h := writes3_args
  rw [← writes3_eq (F := F)] at h
  exact (List.forall_map_iff HloOp.writes).mp h

/-- A host stretch leaves an argument's buffer as it found it. -/
theorem W1_keep (c : Dev nD) (b : Ref sig .tc) (hb : b ∈ argRefs) : W1 m ρ c (Proc.devRef .tc b) = W0 m ρ c (Proc.devRef .tc b) :=
  StableHlo.after_of_forall_not_mem (b := Proc.devRef .tc b) _ _ fun op hop => (List.forall_iff_forall_mem.mp hostOps0_keeps) op hop b hb
theorem W3_keep (c : Dev nD) (b : Ref sig .tc) (hb : b ∈ argRefs) : W3 m ρ c (Proc.devRef .tc b) = W2 m ρ c (Proc.devRef .tc b) :=
  StableHlo.after_of_forall_not_mem (b := Proc.devRef .tc b) _ _ fun op hop => (List.forall_iff_forall_mem.mp hostOps1_keeps) op hop b hb
theorem W5_keep (c : Dev nD) (b : Ref sig .tc) (hb : b ∈ argRefs) : W5 m ρ c (Proc.devRef .tc b) = W4 m ρ c (Proc.devRef .tc b) :=
  StableHlo.after_of_forall_not_mem (b := Proc.devRef .tc b) _ _ fun op hop => (List.forall_iff_forall_mem.mp hostOps2_keeps) op hop b hb
theorem W7_keep (c : Dev nD) (b : Ref sig .tc) (hb : b ∈ argRefs) : W7 m ρ c (Proc.devRef .tc b) = W6 m ρ c (Proc.devRef .tc b) :=
  StableHlo.after_of_forall_not_mem (b := Proc.devRef .tc b) _ _ fun op hop => (List.forall_iff_forall_mem.mp hostOps3_keeps) op hop b hb

/-- A window whose array is an argument is an input window, in every region. -/
theorem arg_windows_in0 : ∀ w : Fin cfg0.W, Pipeline.arrRef spec0 w ∈ argRefs → (cfg0.win w).isOut = false := by decide
theorem arg_windows_in1 : ∀ w : Fin cfg1.W, Pipeline.arrRef spec1 w ∈ argRefs → (cfg1.win w).isOut = false := by decide
theorem arg_windows_in2 : ∀ w : Fin cfg2.W, Pipeline.arrRef spec2 w ∈ argRefs → (cfg2.win w).isOut = false := by decide
theorem arg_windows_in3 : ∀ w : Fin cfg3.W, Pipeline.arrRef spec3 w ∈ argRefs → (cfg3.win w).isOut = false := by decide

/-- A region leaves an argument's buffer as it found it: untouched, or an input window's array. -/
theorem W2_keep (c : Dev nD) (b : Ref sig .tc) (hb : b ∈ argRefs) : W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (arg_windows_in0 w hb) _).trans (A_eq0 (V1 m ρ) c w))
  · exact W2_of_ne m ρ c b fun w e => h ⟨w, e⟩
theorem W4_keep (c : Dev nD) (b : Ref sig .tc) (hb : b ∈ argRefs) : W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (arg_windows_in1 w hb) _).trans (A_eq1 (V3 m ρ) c w))
  · exact W4_of_ne m ρ c b fun w e => h ⟨w, e⟩
theorem W6_keep (c : Dev nD) (b : Ref sig .tc) (hb : b ∈ argRefs) : W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (arg_windows_in2 w hb) _).trans (A_eq2 (V5 m ρ) c w))
  · exact W6_of_ne m ρ c b fun w e => h ⟨w, e⟩
theorem W8_keep (c : Dev nD) (b : Ref sig .tc) (hb : b ∈ argRefs) : W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (arg_windows_in3 w hb) _).trans (A_eq3 (V7 m ρ) c w))
  · exact W8_of_ne m ρ c b fun w e => h ⟨w, e⟩

/-- At the end an argument's buffer holds what it held at launch. -/
theorem W8_arg (c : Dev nD) (b : Ref sig .tc) (hb : b ∈ argRefs) : W8 m ρ c (Proc.devRef .tc b) = m ((c : Thread nD τ).loc b) :=
  calc W8 m ρ c (Proc.devRef .tc b)
    _ = W7 m ρ c (Proc.devRef .tc b) := W8_keep m ρ c b hb
    _ = W6 m ρ c (Proc.devRef .tc b) := W7_keep m ρ c b hb
    _ = W5 m ρ c (Proc.devRef .tc b) := W6_keep m ρ c b hb
    _ = W4 m ρ c (Proc.devRef .tc b) := W5_keep m ρ c b hb
    _ = W3 m ρ c (Proc.devRef .tc b) := W4_keep m ρ c b hb
    _ = W2 m ρ c (Proc.devRef .tc b) := W3_keep m ρ c b hb
    _ = W1 m ρ c (Proc.devRef .tc b) := W2_keep m ρ c b hb
    _ = W0 m ρ c (Proc.devRef .tc b) := W1_keep m ρ c b hb
    _ = m ((c : Thread nD τ).loc b) := rfl

/-- An argument's buffer read off the final memory. -/
theorem final_arg {r : PUnit × MemSt nD τ sig (Elt F)}
    (h : ∀ c : Dev nD, ∀ b ∈ Pipeline.ucRefs τ sig, r.2.mem (((c : Thread nD τ)).1, b) = W8 m ρ c b)
    (c : Dev nD) (b : Ref sig .tc) (hb : b ∈ argRefs) (hu : ¬ (Proc.devRef .tc b : DevRef τ sig).isScoped) :
    r.2.mem ((c.tc : Thread nD τ).loc b) = m ((c.tc : Thread nD τ).loc b) :=
  (h c _ (mem_uc b hu)).trans (W8_arg m ρ c b hb)

/-- The run with the result named and the arguments kept: the result array ends at the last boundary's
    contents of its buffer, and every argument array as launched. -/
theorem run_value : θ_run defs (onTc (τ := τ) (main (F := F))) ⟨m, fun _ => 0, ρ⟩ (fun r => ∀ c : Dev nD,
      r.2.mem ((c.tc : Thread nD τ).loc main_v374) = W8 m ρ c (Proc.devRef .tc main_v374)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v374 (by decide)),
     final_arg m ρ h c main_arg0 (by decide) (by decide), final_arg m ρ h c main_arg1 (by decide) (by decide),
     final_arg m ρ h c main_arg2 (by decide) (by decide), final_arg m ρ h c main_arg3 (by decide) (by decide),
     final_arg m ρ h c main_arg4 (by decide) (by decide), final_arg m ρ h c main_arg5 (by decide) (by decide),
     final_arg m ρ h c main_arg6 (by decide) (by decide), final_arg m ρ h c main_arg7 (by decide) (by decide),
     final_arg m ρ h c main_arg8 (by decide) (by decide), final_arg m ρ h c main_arg9 (by decide) (by decide),
     final_arg m ρ h c main_arg10 (by decide) (by decide), final_arg m ρ h c main_arg11 (by decide) (by decide),
     final_arg m ρ h c main_arg12 (by decide) (by decide), final_arg m ρ h c main_arg13 (by decide) (by decide),
     final_arg m ρ h c main_arg14 (by decide) (by decide), final_arg m ρ h c main_arg15 (by decide) (by decide),
     final_arg m ρ h c main_arg16 (by decide) (by decide)⟩) (run_main m ρ)

/-- The frame: the program runs to the end and its seventeen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_value m ρ)

end Cert.Kernel.KRun

end
-- ==== Proof.KBody0Defs.lean ====
/-
  Region 0 of the kernel program (the first dense layer with its per-node perceptron fused in), shared
  definitions: the windows' blocks, the two conditions the body branches on as functions of the grid
  point (the micro step is 0; the micro step is the last, 3), where the output window is idle, and the
  scratch slab the body carries from one micro step to the next.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point: where it is not fetched again its block index has
    not moved.  One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The body's first condition, "the micro step is 0", as the program computes it from the grid point. -/
abbrev cond0_0 (i : grid0.Coords) : Prop := (Scalar.cmpi .ne (Scalar.extui (Scalar.cmpi .eq (BitVec.ofNat 32 (i 1).val) 0#32)) 0#32) = 1#1
/-- It holds at the points congruent to 0 modulo 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second condition, "the micro step is the last". -/
abbrev cond0_1 (i : grid0.Coords) : Prop := k0_cond2 i = 1#1
/-- It holds at the points congruent to 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Before the last micro step the body stores nothing into the output window, and the pipeline does not write it back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- At the last micro step the output window is live. -/
theorem liveAt0_9 : ∀ t : Fin cfg0.N, cond0_1 (grid0.coords t) → cfg0.idle 9 (grid0.coords t) = false := by decide +kernel

/-- Each window's current staging buffer at point `t`, as the pipeline passes it to the body, with its wholeness. -/
abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x120 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S120x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x8 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x120 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .f32 := win0_9.stage (cfg0.slots t 9)
abbrev hs0_9 (t : Fin cfg0.N) : (ms0_9 t).IsWhole := hstage0_9 ((cfg0.slots t 9).cast nbuf0_9)

/-- The scratch slab (512 x 4096) the body carries between micro steps, as a whole memref and as a view. -/
abbrev scM0_0 : Memref sig .tc .vmem S512x4096 .f32 := Memref.whole cc0_scratch0
abbrev VS0_0 : View sig .tc .vmem S512x4096 .f32 := scM0_0.view
/-- One staging buffer of the output window, through which its contents are stated. -/
abbrev VO0_9 : View sig .tc .vmem S512x128 .f32 := (ms0_9 ⟨0, by rw [show cfg0.N = 32 from N_0]; decide⟩).view

/-- The untouched scoped memory with the scratch slab taken out and owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.KBody

end
-- ==== Proof.KBody0RunA.lean ====
/-
  Region 0, the body run in its three cases.  At micro step 0 the scratch slab is cleared and the first
  slice of  x * Wblock^T + bias  is stored into it; at a middle micro step one more slice is stored over
  what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.KBody0Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset vector, as the whole-buffer rectangles spell it. -/
theorem hz00 : (![0, 0] : Fin 2 → Nat) = fun _ => 0 := funext fun a => by fin_cases a <;> rfl

set_option maxHeartbeats 4000000 in
/-- Micro step 0: the slab ends at a value `Y` that does not depend on what it held before. -/
noncomputable def kernelRun0_A (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : cond0_0 i) (hc1 : ¬cond0_1 i)
    (x2 : Vec F S512x1024 .bf16) (x3 : Vec F S1024x1024 .f32) (x4 : Vec F S1x1024 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ (∃ d, owns (c : Thread nD τ) arg12 fullShare d)
            ∗ (iprop(owns (c : Thread nD τ) arg2 fullShare x2 ∗ owns (c : Thread nD τ) arg3 fullShare x3 ∗ owns (c : Thread nD τ) arg4 fullShare x4
                ∗ owns (c : Thread nD τ) arg12 fullShare Y) -∗ K ⟨⟩))
          ⊢ wp frame (wpE (defs₀ (F := F)) Variants.none c none) E (cc0__dan_linear_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__dan_linear_kernel_eq_skeleton]; unfold cc0__dan_linear_kernel_skel
    unfold owns
    iintro ⟨⟨%f2, %hf2, H2⟩, ⟨%f3, %hf3, H3⟩, ⟨%f4, %hf4, H4⟩, ⟨%ds, %fs, -, HS⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr
    swap; · iexact HS
    ipureintro
    refine View.read_writes_eq_canon (Val := Elt F) arg12.view _ _ (fun y => ?_)
    refine ⟨_, List.mem_cons_of_mem _ (List.mem_cons_self ..), ?_⟩
    exact View.mem_set_unit_zero hz00 inb_S512x4096_S512x4096_0_0 y

end Cert.KernelIdeal.KBody

end
-- ==== Proof.KBody0RunB.lean ====
/-
  Region 0, the body run in its three cases.  At micro step 0 the scratch slab is cleared and the first
  slice of  x * Wblock^T + bias  is stored into it; at a middle micro step one more slice is stored over
  what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.KBody0Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- A middle micro step: the slab, found at `xs`, ends at a value `Y` of `xs` and the three input blocks. -/
noncomputable def kernelRun0_B (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : ¬cond0_0 i) (hc1 : ¬cond0_1 i)
    (x2 : Vec F S512x1024 .bf16) (x3 : Vec F S1024x1024 .f32) (x4 : Vec F S1x1024 .f32) (xs : Vec F S512x4096 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg12 fullShare xs
            ∗ (iprop(owns (c : Thread nD τ) arg2 fullShare x2 ∗ owns (c : Thread nD τ) arg3 fullShare x3 ∗ owns (c : Thread nD τ) arg4 fullShare x4
                ∗ owns (c : Thread nD τ) arg12 fullShare Y) -∗ K ⟨⟩))
          ⊢ wp frame (wpE (defs₀ (F := F)) Variants.none c none) E (cc0__dan_linear_kernel i arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__dan_linear_kernel_eq_skeleton]; unfold cc0__dan_linear_kernel_skel
    unfold owns
    iintro ⟨⟨%f2, %hf2, H2⟩, ⟨%f3, %hf3, H3⟩, ⟨%f4, %hf4, H4⟩, ⟨%fs, %hfs, HS⟩, Hk⟩
    obtain rfl := harg2.eq_unread hf2; obtain rfl := harg3.eq_unread hf3; obtain rfl := harg4.eq_unread hf4
    obtain rfl := harg12.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; isplitr; · ipureintro; rfl
    iexact HS

end Cert.KernelIdeal.KBody

end
-- ==== Proof.KBody0RunC.lean ====
/-
  Region 0, the body run in its three cases.  At micro step 0 the scratch slab is cleared and the first
  slice of  x * Wblock^T + bias  is stored into it; at a middle micro step one more slice is stored over
  what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.KBody0Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 16000000 in
/-- The last micro step: the slab, found at `xs`, ends at `Y.2`; the output block, found at anything, ends at `Y.1`,
    a value of `xs` and the nine input blocks only. -/
noncomputable def kernelRun0_C (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : ¬cond0_0 i) (hc1 : cond0_1 i)
    (x2 : Vec F S512x1024 .bf16) (x3 : Vec F S1024x1024 .f32) (x4 : Vec F S1x1024 .f32)
    (x5 : Vec F S256x120 .bf16) (x6 : Vec F S120x64 .bf16) (x7 : Vec F S64x8 .bf16)
    (x8 : Vec F S1x120 .f32) (x9 : Vec F S1x64 .f32) (x10 : Vec F S1x8 .f32) (xs : Vec F S512x4096 .f32) :
    { Y : Vec F S512x128 .f32 × Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9 ∗ owns (c : Thread nD τ) arg10 fullShare x10
            ∗ (∃ d, owns (c : Thread nD τ) arg11 fullShare d) ∗ owns (c : Thread nD τ) arg12 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg8 fullShare x8 ∗ owns (c : Thread nD τ) arg9 fullShare x9 ∗ owns (c : Thread nD τ) arg10 fullShare x10
                ∗ owns (c : Thread nD τ) arg11 fullShare Y.1 ∗ owns (c : Thread nD τ) arg12 fullShare Y.2) -∗ K ⟨⟩))
          ⊢ wp frame (wpE (defs₀ (F := F)) Variants.none c none) E (cc0__dan_linear_kernel i arg2 harg2 arg3 harg3 arg4 harg4 arg5 harg5 arg6 harg6 arg7 harg7 arg8 harg8 arg9 harg9 arg10 harg10 arg11 harg11 arg12 harg12) K } := by
  refine ⟨(?_, ?_), fun E K => ?run⟩
  case run =>
    simp only [cc0__dan_linear_kernel_eq_skeleton]; unfold cc0__dan_linear_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    obtain rfl := harg12.eq_unread hfs
    sl_exec_parts! (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; rfl
      iexact H11
    iexists _; isplitr; · ipureintro; rfl
    iexact HS

end Cert.KernelIdeal.KBody

end
-- ==== Proof.KBody0Runs.lean ====
/-
  Region 0: the body's three runs (micro step 0, a middle micro step, the last micro step), one module each.
-/
import proofs.«120596_j16338055594194_2_alg».proof.Proof.KBody0RunA
import proofs.«120596_j16338055594194_2_alg».proof.Proof.KBody0RunB
import proofs.«120596_j16338055594194_2_alg».proof.Proof.KBody0RunC
-- ==== Proof.KBody0.lean ====
/-
  Region 0: the proof data and the body obligation.  What the scratch slab holds after each grid point is
  defined by recursion on the point (cleared and first slice at micro step 0, one more slice at each later
  micro step); the output block is named only at the last micro step of each macro tile, where the body
  stores it and the pipeline writes it back; elsewhere the output window is idle.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.KBody0Runs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three runs at grid point `t`, on the buffers the pipeline passes there and the windows' blocks. -/
abbrev runA0 (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    ((hcond0_0 t).mpr h0) (fun h => by have h3 := (hcond0_1 t).mp h; omega)
    (iblk0 V c 0 t) (iblk0 V c 1 t) (iblk0 V c 2 t)
abbrev runB0 (c : Dev nD) (t : Fin cfg0.N) (h0 : ¬t.val % 4 = 0) (h1 : ¬t.val % 4 = 3) (xs : Vec F S512x4096 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (fun h => h0 ((hcond0_0 t).mp h)) (fun h => h1 ((hcond0_1 t).mp h))
    (iblk0 V c 0 t) (iblk0 V c 1 t) (iblk0 V c 2 t) xs
abbrev runC0 (c : Dev nD) (t : Fin cfg0.N) (h1 : t.val % 4 = 3) (xs : Vec F S512x4096 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (fun h => by have h3 := (hcond0_0 t).mp h; omega) ((hcond0_1 t).mpr h1)
    (iblk0 V c 0 t) (iblk0 V c 1 t) (iblk0 V c 2 t) (iblk0 V c 3 t) (iblk0 V c 4 t) (iblk0 V c 5 t)
    (iblk0 V c 6 t) (iblk0 V c 7 t) (iblk0 V c 8 t) xs

/-- What the scratch slab holds after the body at position `n`, by recursion on the position. -/
def scr0 (c : Dev nD) : (n : ℕ) → n < cfg0.N → Vec F S512x4096 .f32
  | 0, hn => (runA0 V c ⟨0, hn⟩ (Nat.zero_mod _)).1
  | n + 1, hn =>
    if h0 : (n + 1) % 4 = 0 then (runA0 V c ⟨n + 1, hn⟩ h0).1
    else if h1 : (n + 1) % 4 = 3 then (runC0 V c ⟨n + 1, hn⟩ h1 (scr0 c n (Nat.lt_of_succ_lt hn))).1.2
    else (runB0 V c ⟨n + 1, hn⟩ h0 h1 (scr0 c n (Nat.lt_of_succ_lt hn))).1

theorem scr0_A (c : Dev nD) (t : Fin cfg0.N) (h0 : t.val % 4 = 0) : scr0 V c t.val t.isLt = (runA0 V c t h0).1 := by
  obtain ⟨n, hn⟩ := t
  cases n with
  | zero => exact rfl
  | succ n => exact (dif_pos h0).trans rfl

theorem scr0_B (c : Dev nD) (t : Fin cfg0.N) (h0 : ¬t.val % 4 = 0) (h1 : ¬t.val % 4 = 3) :
    scr0 V c t.val t.isLt = (runB0 V c t h0 h1 (scr0 V c (t.val - 1) (Nat.lt_of_le_of_lt (Nat.sub_le _ _) t.isLt))).1 := by
  obtain ⟨n, hn⟩ := t
  cases n with
  | zero => exact absurd (Nat.zero_mod _) h0
  | succ n => exact (dif_neg h0).trans ((dif_neg h1).trans rfl)

theorem scr0_C (c : Dev nD) (t : Fin cfg0.N) (h1 : t.val % 4 = 3) :
    scr0 V c t.val t.isLt = (runC0 V c t h1 (scr0 V c (t.val - 1) (Nat.lt_of_le_of_lt (Nat.sub_le _ _) t.isLt))).1.2 := by
  obtain ⟨n, hn⟩ := t
  cases n with
  | zero => exact absurd (show (0 : ℕ) % 4 = 3 from h1) (by decide)
  | succ n =>
    have h0 : ¬(n + 1) % 4 = 0 := fun h => by
      have h1' : (n + 1) % 4 = 3 := h1
      omega
    exact (dif_neg h0).trans ((dif_pos h1).trans rfl)

/-- What the output block holds after the body at point `t`: at the last micro step of a macro tile the epilogue's
    value; at the other points, where the window is idle, a placeholder nothing reads. -/
def out0_9 (c : Dev nD) (t : Fin cfg0.N) : Vec F S512x128 .f32 :=
  if h1 : t.val % 4 = 3 then (runC0 V c t h1 (scr0 V c (t.val - 1) (Nat.lt_of_le_of_lt (Nat.sub_le _ _) t.isLt))).1.1
  else VO0_9.read (Elt F) VO0_9.junk

/-- The invariant before position `n`: before the first point the untouched scoped memory and generator register;
    afterwards the same with the scratch slab at what the point before left in it. -/
def PhiS0 (c : Dev nD) : (n : ℕ) → n ≤ cfg0.N → sProp 𝕄
  | 0, _ => Pipeline.ΦA spec0 c
  | n + 1, hn => iprop(iprop(owns (c : Thread nD τ) scM0_0 fullShare (scr0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (scr0 V c n hn) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (scr0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t
    ∗ (dat0 V c).leavesExact 6 t ∗ (dat0 V c).leavesExact 7 t ∗ (dat0 V c).leavesExact 8 t
    ∗ (dat0 V c).leavesExact 9 t)

/-- At every point the input windows are live: the body hands each back at its block. -/
theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t)
    ∧ (dat0 V c).leavesExact 5 t = owns (c : Thread nD τ) (ms0_5 t) fullShare (iblk0 V c 5 t)
    ∧ (dat0 V c).leavesExact 6 t = owns (c : Thread nD τ) (ms0_6 t) fullShare (iblk0 V c 6 t)
    ∧ (dat0 V c).leavesExact 7 t = owns (c : Thread nD τ) (ms0_7 t) fullShare (iblk0 V c 7 t)
    ∧ (dat0 V c).leavesExact 8 t = owns (c : Thread nD τ) (ms0_8 t) fullShare (iblk0 V c 8 t) := by
  refine ⟨?_, ?_, ?_, ?_, ?_, ?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]
  · unfold Dat.leavesExact; rw [liveAt0_4 t, after0_4]
  · unfold Dat.leavesExact; rw [liveAt0_5 t, after0_5]
  · unfold Dat.leavesExact; rw [liveAt0_6 t, after0_6]
  · unfold Dat.leavesExact; rw [liveAt0_7 t, after0_7]
  · unfold Dat.leavesExact; rw [liveAt0_8 t, after0_8]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS0 V c (t.val + 1) t.isLt from rfl, PhiS0_succ]
  obtain ⟨hl0, hl1, hl2, hl3, hl4, hl5, hl6, hl7, hl8⟩ := leaves0_in V c t
  rw [hl0, hl1, hl2, hl3, hl4, hl5, hl6, hl7, hl8]
  have hN : t.val < 32 := lt_of_lt_of_eq t.isLt (show cfg0.N = 32 from N_0)
  by_cases h1 : t.val % 4 = 3
  · have hz : t.val ≠ 0 := by omega
    rw [show (dat0 V c).leavesExact 9 t = owns (c : Thread nD τ) (ms0_9 t) fullShare ((dat0 V c).after 9 t) from by
      unfold Dat.leavesExact; rw [liveAt0_9 t ((hcond0_1 t).mpr h1)], after0_9]
    unfold out0_9; rw [dif_pos h1, scr0_C V c t h1]
    rw [PhiS0_castSucc V c t, PhiS0_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC0 V c t h1 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [Dat.leavesExact_idle (dat0 V c) 9 t (idleAt0_9 t (fun h => h1 ((hcond0_1 t).mp h))) (noFlush0_9 t (fun h => h1 ((hcond0_1 t).mp h)))]
    by_cases h0 : t.val % 4 = 0
    · rw [scr0_A V c t h0]
      by_cases hz : t.val = 0
      · rw [PhiS0_castSucc V c t, PhiS0_zero V c _ _ hz, PhiA0_eq]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
        iapply ((runA0 V c t h0).2 Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · rw [PhiS0_castSucc V c t, PhiS0_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
        iapply ((runA0 V c t h0).2 Set.univ _)
        isplitl [H0]; · iexact H0
        isplitl [H1]; · iexact H1
        isplitl [H2]; · iexact H2
        isplitl [HS]; · iexists _; iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
    · have hz : t.val ≠ 0 := fun h => h0 (by rw [h])
      rw [scr0_B V c t h0 h1]
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
      iapply ((runB0 V c t h0 h1 _).2 Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem Φ_in0 (c : Dev nD) :
    iprop((∃ r, prngReg c r) ∗ Pipeline.scopedRest (Ix := Unit) (Name := ℕ) (U := UR sig nD τ) (Lvl := ℕ) (Val := Elt F) spec0 c)
      ⊢ (dat0 V c).Φ 0 := by
  rw [show (dat0 V c).Φ 0 = PhiS0 V c 0 (Nat.zero_le _) from rfl, PhiS0_zero V c 0 _ rfl]; unfold Pipeline.ΦA
  iintro ⟨Hg, Hs⟩
  isplitl [Hs]; · iexact Hs
  iexact Hg

/-- After the last point the invariant gives the scoped memory back, the slab's contents forgotten. -/
theorem Φ_out0 (c : Dev nD) :
    (dat0 V c).Φ (Fin.last cfg0.N)
      ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), scopedRest0_split]
  simp only [scM0_0, owns_whole]
  iintro ⟨⟨HS, Hrest⟩, Hg⟩
  isplitl [Hg]; · iexact Hg
  isplitl [HS]; · iexists _; iexact HS
  iexact Hrest

end Cert.KernelIdeal.KBody

end
-- ==== Proof.KBody1.lean ====
/-
  Region 1 of the kernel program: the plain dense layer.  One grid point reads the whole activation
  block x (512 x 1024), one block of 2048 rows of the weights and the matching block of the bias,
  and stores  x * Wblock^T + bias  over the whole output block (512 x 2048).  Nothing is carried from
  point to point, so the region's invariant is the untouched scoped memory and generator register.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point: where it is not fetched again its block index has
    not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev r1_0 : Rect S512x1024 := Rect.unit (s := S512x1024) ![0, 0] S512x1024.size inb_S512x1024_S512x1024_0_0
abbrev r1_1 : Rect S2048x1024 := Rect.unit (s := S2048x1024) ![0, 0] S2048x1024.size inb_S2048x1024_S2048x1024_0_0
abbrev r1_2 : Rect S1x2048 := Rect.unit (s := S1x2048) ![0, 0] S1x2048.size inb_S1x2048_S1x2048_0_0
abbrev r1_3 : Rect S512x2048 := Rect.unit (s := S512x2048) ![0, 0] S512x2048.size inb_S512x2048_S512x2048_0_0

/-- The output block after the body, from the three input blocks: the matrix product plus the bias row, stored whole. -/
def out1_3 (x0 : Vec F S512x1024 .bf16) (x1 : Vec F S2048x1024 .f32) (x2 : Vec F S1x2048 .f32) : Vec F S512x2048 .f32 :=
  View.canon [⟨r1_3, k1_pay1 (View.ld x0 r1_0) (View.ld x1 r1_1) (View.ld x2 r1_2)⟩]

/-- The one store covers the output block. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

set_option maxHeartbeats 1000000 in
/-- The body on whole buffers: the inputs are read and handed back as they were, the output ends at `out1_3`. -/
theorem sound_kernel1 (c : Dev nD) (E : Set ℕ) (i : grid1.Coords) (arg1 : Memref sig .tc .vmem S512x1024 .bf16) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole)
    (x0 : Vec F S512x1024 .bf16) (x1 : Vec F S2048x1024 .f32) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_cast_kernel i arg1 harg1 arg2 harg2 arg3 harg3 arg4 harg4) K := by
  simp only [cc1__linear_cast_kernel_eq_skeleton]; unfold cc1__linear_cast_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of region 1 on core `c`: the arrays as the region finds them; after the body each input's buffer
    at its block and the output's at `out1_3` of the three blocks; nothing carried, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

/-- The invariant is the generator register beside the scoped memory the pipeline does not stage, in and out. -/
theorem Φ_in1 (c : Dev nD) :
    iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Pipeline.ΦA spec1 c from rfl]; unfold Pipeline.ΦA
  iintro ⟨Hg, Hs⟩
  isplitl [Hs]; · iexact Hs
  iexact Hg

theorem Φ_out1 (c : Dev nD) :
    (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Pipeline.ΦA spec1 c from rfl]; unfold Pipeline.ΦA
  iintro ⟨Hs, Hg⟩
  isplitl [Hg]; · iexact Hg
  iexact Hs

end Cert.KernelIdeal.KBody

end
-- ==== Proof.KBody2Defs.lean ====
/-
  Region 2 of the kernel program (the second dense layer, its skip pre-activation of the input computed beside
  it, with the per-node perceptron fused in), shared definitions: the windows' blocks, the two conditions the
  body branches on as functions of the grid point (the micro step is 0; the micro step is the last, 7), where
  the output window is idle, and the scratch slab the body carries from one micro step to the next.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point: where it is not fetched again its block index has
    not moved.  One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)

/-- The body's first condition, "the micro step is 0", as the program computes it from the grid point. -/
abbrev cond2_0 (i : grid2.Coords) : Prop := (Scalar.cmpi .ne (Scalar.extui (Scalar.cmpi .eq (BitVec.ofNat 32 (i 1).val) 0#32)) 0#32) = 1#1
/-- It holds at the points congruent to 0 modulo 8. -/
theorem hcond2_0 : ∀ t : Fin cfg2.N, cond2_0 (grid2.coords t) ↔ t.val % 8 = 0 :=
  (by decide +kernel : ∀ t : Fin grid2.N, cond2_0 (grid2.coords t) ↔ t.val % 8 = 0)

/-- The body's second condition, "the micro step is the last". -/
abbrev cond2_1 (i : grid2.Coords) : Prop := k2_cond2 i = 1#1
/-- It holds at the points congruent to 7 modulo 8. -/
theorem hcond2_1 : ∀ t : Fin cfg2.N, cond2_1 (grid2.coords t) ↔ t.val % 8 = 7 :=
  (by decide +kernel : ∀ t : Fin grid2.N, cond2_1 (grid2.coords t) ↔ t.val % 8 = 7)

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
theorem liveAt2_8 : ∀ t : Fin cfg2.N, cfg2.idle 8 (grid2.coords t) = false := by decide +kernel
theorem liveAt2_9 : ∀ t : Fin cfg2.N, cfg2.idle 9 (grid2.coords t) = false := by decide +kernel
theorem liveAt2_10 : ∀ t : Fin cfg2.N, cfg2.idle 10 (grid2.coords t) = false := by decide +kernel
theorem liveAt2_11 : ∀ t : Fin cfg2.N, cfg2.idle 11 (grid2.coords t) = false := by decide +kernel
/-- Before the last micro step the body stores nothing into the output window, and the pipeline does not write it back. -/
theorem idleAt2_12 : ∀ t : Fin cfg2.N, ¬cond2_1 (grid2.coords t) → cfg2.idle 12 (grid2.coords t) = true := by decide +kernel
theorem noFlush2_12 : ∀ t : Fin cfg2.N, ¬cond2_1 (grid2.coords t) → (cfg2.win 12).flush t = false := by decide +kernel
/-- At the last micro step the output window is live. -/
theorem liveAt2_12 : ∀ t : Fin cfg2.N, cond2_1 (grid2.coords t) → cfg2.idle 12 (grid2.coords t) = false := by decide +kernel

/-- Each window's current staging buffer at point `t`, as the pipeline passes it to the body, with its wholeness. -/
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S256x120 .bf16 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S120x64 .bf16 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x8 .bf16 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x120 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x8 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S512x128 .f32 := win2_12.stage (cfg2.slots t 12)
abbrev hs2_12 (t : Fin cfg2.N) : (ms2_12 t).IsWhole := hstage2_12 ((cfg2.slots t 12).cast nbuf2_12)

/-- The scratch slab (512 x 4096) the body carries between micro steps, as a whole memref and as a view. -/
abbrev scM2_0 : Memref sig .tc .vmem S512x4096 .f32 := Memref.whole cc2_scratch0
abbrev VS2_0 : View sig .tc .vmem S512x4096 .f32 := scM2_0.view
/-- One staging buffer of the output window, through which its contents are stated. -/
abbrev VO2_12 : View sig .tc .vmem S512x128 .f32 := (ms2_12 ⟨0, by rw [show cfg2.N = 64 from N_2]; decide⟩).view

/-- The untouched scoped memory with the scratch slab taken out and owned at some contents. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.KBody

end
-- ==== Proof.KBody2RunA.lean ====
/-
  Region 2, the body at micro step 0: the scratch slab is cleared and the first slice of
  h * W1block^T + x * Wsblock^T + the two bias rows  is stored into it.  What the slab holds afterwards is the
  two stores' pieces read together (the clearing store covers the slab), whatever it held before.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic
import proofs.«120596_j16338055594194_2_alg».proof.Proof.KBody2Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset of a whole-slab access, as the constant function. -/
theorem hz00_2 : (![0, 0] : Fin 2 → Nat) = fun _ => 0 := funext fun a => by fin_cases a <;> rfl

set_option maxHeartbeats 4000000 in
/-- Micro step 0: the slab ends at a value `Y` that does not depend on what it held before. -/
noncomputable def kernelRun2_A (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : cond2_0 i) (hc1 : ¬cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (∃ d, owns (c : Thread nD τ) arg15 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg15 fullShare Y) -∗ K ⟨⟩))
          ⊢ wp frame (wpE (defs₀ (F := F)) Variants.none c none) E (cc2__dan_linear1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc2__dan_linear1_kernel_eq_skeleton]; unfold cc2__dan_linear1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; isplitr
    swap; · iexact HS
    ipureintro
    refine View.read_writes_eq_canon (Val := Elt F) arg15.view _ _ (fun y => ?_)
    refine ⟨_, List.mem_cons_of_mem _ (List.mem_cons_self ..), ?_⟩
    exact View.mem_set_unit_zero hz00_2 inb_S512x4096_S512x4096_0_0 y

end Cert.KernelIdeal.KBody

end
-- ==== Proof.KBody2RunB.lean ====
/-
  Region 2, the body at a middle micro step: one more slice is stored over what the slab held.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.KBody2Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle micro step: the slab, found at `xs`, ends at a value `Y` of `xs` and the six input blocks. -/
noncomputable def kernelRun2_B (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : ¬cond2_0 i) (hc1 : ¬cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32) (xs : Vec F S512x4096 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg15 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg15 fullShare Y) -∗ K ⟨⟩))
          ⊢ wp frame (wpE (defs₀ (F := F)) Variants.none c none) E (cc2__dan_linear1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc2__dan_linear1_kernel_eq_skeleton]; unfold cc2__dan_linear1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg15.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; isplitr; · ipureintro; rfl
    iexact HS

end Cert.KernelIdeal.KBody

end
-- ==== Proof.KBody2RunC.lean ====
/-
  Region 2, the body at the last micro step: the last slice is stored, the slab is read back in sixteen strips,
  the per-node perceptron's three small products are applied to each, and the concatenation goes to the output block.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.KBody2Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The last micro step: the slab, found at `xs`, ends at `Y.2`; the output block, found at anything, ends at `Y.1`,
    a value of `xs` and the twelve input blocks only. -/
noncomputable def kernelRun2_C (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : ¬cond2_0 i) (hc1 : cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32)
    (x8 : Vec F S256x120 .bf16) (x9 : Vec F S120x64 .bf16) (x10 : Vec F S64x8 .bf16)
    (x11 : Vec F S1x120 .f32) (x12 : Vec F S1x64 .f32) (x13 : Vec F S1x8 .f32) (xs : Vec F S512x4096 .f32) :
    { Y : Vec F S512x128 .f32 × Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9 ∗ owns (c : Thread nD τ) arg10 fullShare x10
            ∗ owns (c : Thread nD τ) arg11 fullShare x11 ∗ owns (c : Thread nD τ) arg12 fullShare x12 ∗ owns (c : Thread nD τ) arg13 fullShare x13
            ∗ (∃ d, owns (c : Thread nD τ) arg14 fullShare d) ∗ owns (c : Thread nD τ) arg15 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg8 fullShare x8 ∗ owns (c : Thread nD τ) arg9 fullShare x9 ∗ owns (c : Thread nD τ) arg10 fullShare x10
                ∗ owns (c : Thread nD τ) arg11 fullShare x11 ∗ owns (c : Thread nD τ) arg12 fullShare x12 ∗ owns (c : Thread nD τ) arg13 fullShare x13
                ∗ owns (c : Thread nD τ) arg14 fullShare Y.1 ∗ owns (c : Thread nD τ) arg15 fullShare Y.2) -∗ K ⟨⟩))
          ⊢ wp frame (wpE (defs₀ (F := F)) Variants.none c none) E (cc2__dan_linear1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?_, ?_), fun E K => ?run⟩
  case run =>
    simp only [cc2__dan_linear1_kernel_eq_skeleton]; unfold cc2__dan_linear1_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    obtain rfl := harg11.eq_unread hf11; obtain rfl := harg12.eq_unread hf12; obtain rfl := harg13.eq_unread hf13
    obtain rfl := harg15.eq_unread hfs
    sl_exec_parts! (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; rfl
      iexact H14
    iexists _; isplitr; · ipureintro; rfl
    iexact HS

end Cert.KernelIdeal.KBody

end
-- ==== Proof.KBody2Runs.lean ====
/-
  Region 2, the body run in its three cases: micro step 0, a middle micro step, the last micro step (one module each).
-/
import proofs.«120596_j16338055594194_2_alg».proof.Proof.KBody2RunA
import proofs.«120596_j16338055594194_2_alg».proof.Proof.KBody2RunB
import proofs.«120596_j16338055594194_2_alg».proof.Proof.KBody2RunC
-- ==== Proof.KBody2.lean ====
/-
  Region 2's proof data and body obligation.  The 512 x 4096 scratch slab is carried from grid point to grid point:
  what it holds after the body at position n is defined by recursion on n through the three runs (micro step 0
  clears and starts it, a middle micro step adds one slice, the last micro step adds the last slice and reads it
  all back), and the invariant before a point says the slab holds what the point before left.  The output block
  is the last run's value at the points where the micro step is the last, and is idle elsewhere.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.KBody2Defs
import proofs.«120596_j16338055594194_2_alg».proof.Proof.KBody2Runs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three runs at grid point `t`, on the buffers the pipeline passes there and the windows' blocks. -/
abbrev runA2 (c : Dev nD) (t : Fin cfg2.N) (h0 : t.val % 8 = 0) :=
  kernelRun2_A (F := F) c (grid2.coords t) (ms2_0 t) (hs2_0 t) (ms2_1 t) (hs2_1 t) (ms2_2 t) (hs2_2 t) (ms2_3 t) (hs2_3 t)
    (ms2_4 t) (hs2_4 t) (ms2_5 t) (hs2_5 t) (ms2_6 t) (hs2_6 t) (ms2_7 t) (hs2_7 t) (ms2_8 t) (hs2_8 t) (ms2_9 t) (hs2_9 t)
    (ms2_10 t) (hs2_10 t) (ms2_11 t) (hs2_11 t) (ms2_12 t) (hs2_12 t) scM2_0 (Memref.isWhole_whole _)
    ((hcond2_0 t).mpr h0) (fun h => by have h3 := (hcond2_1 t).mp h; omega)
    (iblk2 V c 0 t) (iblk2 V c 1 t) (iblk2 V c 2 t) (iblk2 V c 3 t) (iblk2 V c 4 t) (iblk2 V c 5 t)
abbrev runB2 (c : Dev nD) (t : Fin cfg2.N) (h0 : ¬t.val % 8 = 0) (h1 : ¬t.val % 8 = 7) (xs : Vec F S512x4096 .f32) :=
  kernelRun2_B (F := F) c (grid2.coords t) (ms2_0 t) (hs2_0 t) (ms2_1 t) (hs2_1 t) (ms2_2 t) (hs2_2 t) (ms2_3 t) (hs2_3 t)
    (ms2_4 t) (hs2_4 t) (ms2_5 t) (hs2_5 t) (ms2_6 t) (hs2_6 t) (ms2_7 t) (hs2_7 t) (ms2_8 t) (hs2_8 t) (ms2_9 t) (hs2_9 t)
    (ms2_10 t) (hs2_10 t) (ms2_11 t) (hs2_11 t) (ms2_12 t) (hs2_12 t) scM2_0 (Memref.isWhole_whole _)
    (fun h => h0 ((hcond2_0 t).mp h)) (fun h => h1 ((hcond2_1 t).mp h))
    (iblk2 V c 0 t) (iblk2 V c 1 t) (iblk2 V c 2 t) (iblk2 V c 3 t) (iblk2 V c 4 t) (iblk2 V c 5 t) xs
abbrev runC2 (c : Dev nD) (t : Fin cfg2.N) (h1 : t.val % 8 = 7) (xs : Vec F S512x4096 .f32) :=
  kernelRun2_C (F := F) c (grid2.coords t) (ms2_0 t) (hs2_0 t) (ms2_1 t) (hs2_1 t) (ms2_2 t) (hs2_2 t) (ms2_3 t) (hs2_3 t)
    (ms2_4 t) (hs2_4 t) (ms2_5 t) (hs2_5 t) (ms2_6 t) (hs2_6 t) (ms2_7 t) (hs2_7 t) (ms2_8 t) (hs2_8 t) (ms2_9 t) (hs2_9 t)
    (ms2_10 t) (hs2_10 t) (ms2_11 t) (hs2_11 t) (ms2_12 t) (hs2_12 t) scM2_0 (Memref.isWhole_whole _)
    (fun h => by have h3 := (hcond2_0 t).mp h; omega) ((hcond2_1 t).mpr h1)
    (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t) (iblk2 V c 11 t) xs

/-- What the scratch slab holds after the body at position `n`, by recursion on the position. -/
def scr2 (c : Dev nD) : (n : ℕ) → n < cfg2.N → Vec F S512x4096 .f32
  | 0, hn => (runA2 V c ⟨0, hn⟩ (Nat.zero_mod _)).1
  | n + 1, hn =>
    if h0 : (n + 1) % 8 = 0 then (runA2 V c ⟨n + 1, hn⟩ h0).1
    else if h1 : (n + 1) % 8 = 7 then (runC2 V c ⟨n + 1, hn⟩ h1 (scr2 c n (Nat.lt_of_succ_lt hn))).1.2
    else (runB2 V c ⟨n + 1, hn⟩ h0 h1 (scr2 c n (Nat.lt_of_succ_lt hn))).1

theorem scr2_A (c : Dev nD) (t : Fin cfg2.N) (h0 : t.val % 8 = 0) : scr2 V c t.val t.isLt = (runA2 V c t h0).1 := by
  obtain ⟨n, hn⟩ := t
  cases n with
  | zero => exact rfl
  | succ n => exact (dif_pos h0).trans rfl

theorem scr2_B (c : Dev nD) (t : Fin cfg2.N) (h0 : ¬t.val % 8 = 0) (h1 : ¬t.val % 8 = 7) :
    scr2 V c t.val t.isLt = (runB2 V c t h0 h1 (scr2 V c (t.val - 1) (Nat.lt_of_le_of_lt (Nat.sub_le _ _) t.isLt))).1 := by
  obtain ⟨n, hn⟩ := t
  cases n with
  | zero => exact absurd (Nat.zero_mod _) h0
  | succ n => exact (dif_neg h0).trans ((dif_neg h1).trans rfl)

theorem scr2_C (c : Dev nD) (t : Fin cfg2.N) (h1 : t.val % 8 = 7) :
    scr2 V c t.val t.isLt = (runC2 V c t h1 (scr2 V c (t.val - 1) (Nat.lt_of_le_of_lt (Nat.sub_le _ _) t.isLt))).1.2 := by
  obtain ⟨n, hn⟩ := t
  cases n with
  | zero => exact absurd (show (0 : ℕ) % 8 = 7 from h1) (by decide)
  | succ n =>
    have h0 : ¬(n + 1) % 8 = 0 := fun h => by
      have h1' : (n + 1) % 8 = 7 := h1
      omega
    exact (dif_neg h0).trans ((dif_pos h1).trans rfl)

/-- What the output block holds after the body at point `t`: at the last micro step of a macro tile the epilogue's
    value; at the other points, where the window is idle, a placeholder nothing reads. -/
def out2_12 (c : Dev nD) (t : Fin cfg2.N) : Vec F S512x128 .f32 :=
  if h1 : t.val % 8 = 7 then (runC2 V c t h1 (scr2 V c (t.val - 1) (Nat.lt_of_le_of_lt (Nat.sub_le _ _) t.isLt))).1.1
  else VO2_12.read (Elt F) VO2_12.junk

/-- The invariant before position `n`: before the first point the untouched scoped memory and generator register;
    afterwards the same with the scratch slab at what the point before left in it. -/
def PhiS2 (c : Dev nD) : (n : ℕ) → n ≤ cfg2.N → sProp 𝕄
  | 0, _ => Pipeline.ΦA spec2 c
  | n + 1, hn => iprop(iprop(owns (c : Thread nD τ) scM2_0 fullShare (scr2 V c n hn) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (scr2 V c n hn) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (scr2 V c (n - 1) (by omega)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => out2_12 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = out2_12 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t ∗ (dat2 V c).leavesExact 5 t
    ∗ (dat2 V c).leavesExact 6 t ∗ (dat2 V c).leavesExact 7 t ∗ (dat2 V c).leavesExact 8 t
    ∗ (dat2 V c).leavesExact 9 t ∗ (dat2 V c).leavesExact 10 t ∗ (dat2 V c).leavesExact 11 t
    ∗ (dat2 V c).leavesExact 12 t)

/-- At every point the input windows are live: the body hands each back at its block. -/
theorem leaves2_in (c : Dev nD) (t : Fin cfg2.N) :
    (dat2 V c).leavesExact 0 t = owns (c : Thread nD τ) (ms2_0 t) fullShare (iblk2 V c 0 t)
    ∧ (dat2 V c).leavesExact 1 t = owns (c : Thread nD τ) (ms2_1 t) fullShare (iblk2 V c 1 t)
    ∧ (dat2 V c).leavesExact 2 t = owns (c : Thread nD τ) (ms2_2 t) fullShare (iblk2 V c 2 t)
    ∧ (dat2 V c).leavesExact 3 t = owns (c : Thread nD τ) (ms2_3 t) fullShare (iblk2 V c 3 t)
    ∧ (dat2 V c).leavesExact 4 t = owns (c : Thread nD τ) (ms2_4 t) fullShare (iblk2 V c 4 t)
    ∧ (dat2 V c).leavesExact 5 t = owns (c : Thread nD τ) (ms2_5 t) fullShare (iblk2 V c 5 t)
    ∧ (dat2 V c).leavesExact 6 t = owns (c : Thread nD τ) (ms2_6 t) fullShare (iblk2 V c 6 t)
    ∧ (dat2 V c).leavesExact 7 t = owns (c : Thread nD τ) (ms2_7 t) fullShare (iblk2 V c 7 t)
    ∧ (dat2 V c).leavesExact 8 t = owns (c : Thread nD τ) (ms2_8 t) fullShare (iblk2 V c 8 t)
    ∧ (dat2 V c).leavesExact 9 t = owns (c : Thread nD τ) (ms2_9 t) fullShare (iblk2 V c 9 t)
    ∧ (dat2 V c).leavesExact 10 t = owns (c : Thread nD τ) (ms2_10 t) fullShare (iblk2 V c 10 t)
    ∧ (dat2 V c).leavesExact 11 t = owns (c : Thread nD τ) (ms2_11 t) fullShare (iblk2 V c 11 t) := by
  refine ⟨?_, ?_, ?_, ?_, ?_, ?_, ?_, ?_, ?_, ?_, ?_, ?_⟩
  · unfold Dat.leavesExact; rw [liveAt2_0 t, after2_0]
  · unfold Dat.leavesExact; rw [liveAt2_1 t, after2_1]
  · unfold Dat.leavesExact; rw [liveAt2_2 t, after2_2]
  · unfold Dat.leavesExact; rw [liveAt2_3 t, after2_3]
  · unfold Dat.leavesExact; rw [liveAt2_4 t, after2_4]
  · unfold Dat.leavesExact; rw [liveAt2_5 t, after2_5]
  · unfold Dat.leavesExact; rw [liveAt2_6 t, after2_6]
  · unfold Dat.leavesExact; rw [liveAt2_7 t, after2_7]
  · unfold Dat.leavesExact; rw [liveAt2_8 t, after2_8]
  · unfold Dat.leavesExact; rw [liveAt2_9 t, after2_9]
  · unfold Dat.leavesExact; rw [liveAt2_10 t, after2_10]
  · unfold Dat.leavesExact; rw [liveAt2_11 t, after2_11]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9,
    before2_10, before2_11]
  rw [show (dat2 V c).owesAt () t.succ = (dat2 V c).owesAt () t.castSucc from rfl]
  rw [show (dat2 V c).Φ t.succ = PhiS2 V c (t.val + 1) t.isLt from rfl, PhiS2_succ]
  obtain ⟨hl0, hl1, hl2, hl3, hl4, hl5, hl6, hl7, hl8, hl9, hl10, hl11⟩ := leaves2_in V c t
  rw [hl0, hl1, hl2, hl3, hl4, hl5, hl6, hl7, hl8, hl9, hl10, hl11]
  have hN : t.val < 64 := lt_of_lt_of_eq t.isLt (show cfg2.N = 64 from N_2)
  by_cases h1 : t.val % 8 = 7
  · have hz : t.val ≠ 0 := by omega
    rw [show (dat2 V c).leavesExact 12 t = owns (c : Thread nD τ) (ms2_12 t) fullShare ((dat2 V c).after 12 t) from by
      unfold Dat.leavesExact; rw [liveAt2_12 t ((hcond2_1 t).mpr h1)], after2_12]
    unfold out2_12; rw [dif_pos h1, scr2_C V c t h1]
    rw [PhiS2_castSucc V c t, PhiS2_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runC2 V c t h1 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, H12, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [Dat.leavesExact_idle (dat2 V c) 12 t (idleAt2_12 t (fun h => h1 ((hcond2_1 t).mp h))) (noFlush2_12 t (fun h => h1 ((hcond2_1 t).mp h)))]
    by_cases h0 : t.val % 8 = 0
    · rw [scr2_A V c t h0]
      by_cases hz : t.val = 0
      · rw [PhiS2_castSucc V c t, PhiS2_zero V c _ _ hz, PhiA2_eq]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
        iapply ((runA2 V c t h0).2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
        iapply ((runA2 V c t h0).2 Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
    · have hz : t.val ≠ 0 := fun h => h0 (by rw [h])
      rw [scr2_B V c t h0 h1]
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
      iapply ((runB2 V c t h0 h1 _).2 Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem Φ_in2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  rw [show (dat2 V c).Φ 0 = PhiS2 V c 0 (Nat.zero_le _) from rfl, PhiS2_zero V c 0 _ rfl]; unfold Pipeline.ΦA
  iintro ⟨Hg, Hs⟩
  isplitl [Hs]; · iexact Hs
  iexact Hg

/-- After the last point the invariant gives the scoped memory back, the slab's contents forgotten. -/
theorem Φ_out2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), scopedRest2_split]
  simp only [scM2_0, owns_whole]
  iintro ⟨⟨HS, Hrest⟩, Hg⟩
  isplitl [Hg]; · iexact Hg
  isplitl [HS]; · iexists _; iexact HS
  iexact Hrest

end Cert.KernelIdeal.KBody

end
-- ==== Proof.KBody3Defs.lean ====
/-
  Region 3 of the kernel program (the third dense layer, its skip pre-activation added, with the per-node
  perceptron fused in), shared definitions: the windows' blocks, the two conditions the body branches on as
  functions of the grid point (the micro step is 0; the micro step is the last, 3), where the output window is
  idle, and the scratch slab the body carries from one micro step to the next.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point: where it is not fetched again its block index has
    not moved.  One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The body's first condition, "the micro step is 0", as the program computes it from the grid point. -/
abbrev cond3_0 (i : grid3.Coords) : Prop := (Scalar.cmpi .ne (Scalar.extui (Scalar.cmpi .eq (BitVec.ofNat 32 (i 1).val) 0#32)) 0#32) = 1#1
/-- It holds at the points congruent to 0 modulo 4. -/
theorem hcond3_0 : ∀ t : Fin cfg3.N, cond3_0 (grid3.coords t) ↔ t.val % 4 = 0 :=
  (by decide +kernel : ∀ t : Fin grid3.N, cond3_0 (grid3.coords t) ↔ t.val % 4 = 0)

/-- The body's second condition, "the micro step is the last". -/
abbrev cond3_1 (i : grid3.Coords) : Prop := k3_cond2 i = 1#1
/-- It holds at the points congruent to 3 modulo 4. -/
theorem hcond3_1 : ∀ t : Fin cfg3.N, cond3_1 (grid3.coords t) ↔ t.val % 4 = 3 :=
  (by decide +kernel : ∀ t : Fin grid3.N, cond3_1 (grid3.coords t) ↔ t.val % 4 = 3)

/-- The input windows are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel
theorem liveAt3_9 : ∀ t : Fin cfg3.N, cfg3.idle 9 (grid3.coords t) = false := by decide +kernel
/-- Before the last micro step the body stores nothing into the output window, and the pipeline does not write it back. -/
theorem idleAt3_10 : ∀ t : Fin cfg3.N, ¬cond3_1 (grid3.coords t) → cfg3.idle 10 (grid3.coords t) = true := by decide +kernel
theorem noFlush3_10 : ∀ t : Fin cfg3.N, ¬cond3_1 (grid3.coords t) → (cfg3.win 10).flush t = false := by decide +kernel
/-- At the last micro step the output window is live. -/
theorem liveAt3_10 : ∀ t : Fin cfg3.N, cond3_1 (grid3.coords t) → cfg3.idle 10 (grid3.coords t) = false := by decide +kernel

/-- Each window's current staging buffer at point `t`, as the pipeline passes it to the body, with its wholeness. -/
abbrev ms3_0 (t : Fin cfg3.N) : Memref sig .tc .vmem S512x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x1024 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S256x120 .bf16 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S120x64 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x8 .bf16 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x120 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x64 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x8 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S512x128 .f32 := win3_10.stage (cfg3.slots t 10)
abbrev hs3_10 (t : Fin cfg3.N) : (ms3_10 t).IsWhole := hstage3_10 ((cfg3.slots t 10).cast nbuf3_10)

/-- The scratch slab (512 x 4096) the body carries between micro steps, as a whole memref and as a view. -/
abbrev scM3_0 : Memref sig .tc .vmem S512x4096 .f32 := Memref.whole cc3_scratch0
abbrev VS3_0 : View sig .tc .vmem S512x4096 .f32 := scM3_0.view
/-- One staging buffer of the output window, through which its contents are stated. -/
abbrev VO3_10 : View sig .tc .vmem S512x128 .f32 := (ms3_10 ⟨0, by rw [show cfg3.N = 32 from N_3]; decide⟩).view

/-- The untouched scoped memory with the scratch slab taken out and owned at some contents. -/
theorem PhiA3_eq (c : Dev nD) :
    (Pipeline.ΦA spec3 c : sProp 𝕄)
      = iprop(iprop((∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.KBody

end
-- ==== Proof.KBody3RunA.lean ====
/-
  Region 3, the body run in its three cases.  At micro step 0 the scratch slab is cleared and the first
  slice of  h * Wblock^T + bias + skip  is stored into it; at a middle micro step one more slice is stored
  over what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.KBody3Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offset vector, as the whole-buffer rectangles spell it. -/
theorem hz00_3 : (![0, 0] : Fin 2 → Nat) = fun _ => 0 := funext fun a => by fin_cases a <;> rfl

set_option maxHeartbeats 4000000 in
/-- Micro step 0: the slab ends at a value `Y` that does not depend on what it held before. -/
noncomputable def kernelRun3_A (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole)
    (hc0 : cond3_0 i) (hc1 : ¬cond3_1 i)
    (x2 : Vec F S512x1024 .bf16) (x3 : Vec F S1024x1024 .f32) (x4 : Vec F S1x1024 .f32) (x5 : Vec F S512x1024 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ (∃ d, owns (c : Thread nD τ) arg13 fullShare d)
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg13 fullShare Y) -∗ K ⟨⟩))
          ⊢ wp frame (wpE (defs₀ (F := F)) Variants.none c none) E (cc3__dan_linear2_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc3__dan_linear2_kernel_eq_skeleton]; unfold cc3__dan_linear2_kernel_skel
    unfold owns
    iintro ⟨⟨%f2, %hf2, H2⟩, ⟨%f3, %hf3, H3⟩, ⟨%f4, %hf4, H4⟩, ⟨%f5, %hf5, H5⟩, ⟨%ds, %fs, -, HS⟩, Hk⟩
    obtain rfl := harg2.eq_unread hf2; obtain rfl := harg3.eq_unread hf3; obtain rfl := harg4.eq_unread hf4
    obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; isplitr
    swap; · iexact HS
    ipureintro
    refine View.read_writes_eq_canon (Val := Elt F) arg13.view _ _ (fun y => ?_)
    refine ⟨_, List.mem_cons_of_mem _ (List.mem_cons_self ..), ?_⟩
    exact View.mem_set_unit_zero hz00_3 inb_S512x4096_S512x4096_0_0 y

end Cert.KernelIdeal.KBody

end
-- ==== Proof.KBody3RunB.lean ====
/-
  Region 3, the body run in its three cases.  At micro step 0 the scratch slab is cleared and the first
  slice of  h * Wblock^T + bias + skip  is stored into it; at a middle micro step one more slice is stored
  over what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.KBody3Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 4000000 in
/-- A middle micro step: the slab, found at `xs`, ends at a value `Y` of `xs` and the four input blocks. -/
noncomputable def kernelRun3_B (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole)
    (hc0 : ¬cond3_0 i) (hc1 : ¬cond3_1 i)
    (x2 : Vec F S512x1024 .bf16) (x3 : Vec F S1024x1024 .f32) (x4 : Vec F S1x1024 .f32) (x5 : Vec F S512x1024 .f32) (xs : Vec F S512x4096 .f32) :
    { Y : Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg13 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg13 fullShare Y) -∗ K ⟨⟩))
          ⊢ wp frame (wpE (defs₀ (F := F)) Variants.none c none) E (cc3__dan_linear2_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc3__dan_linear2_kernel_eq_skeleton]; unfold cc3__dan_linear2_kernel_skel
    unfold owns
    iintro ⟨⟨%f2, %hf2, H2⟩, ⟨%f3, %hf3, H3⟩, ⟨%f4, %hf4, H4⟩, ⟨%f5, %hf5, H5⟩, ⟨%fs, %hfs, HS⟩, Hk⟩
    obtain rfl := harg2.eq_unread hf2; obtain rfl := harg3.eq_unread hf3; obtain rfl := harg4.eq_unread hf4
    obtain rfl := harg5.eq_unread hf5; obtain rfl := harg13.eq_unread hfs
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists _; isplitr; · ipureintro; rfl
    iexact HS

end Cert.KernelIdeal.KBody

end
-- ==== Proof.KBody3RunC.lean ====
/-
  Region 3, the body run in its three cases.  At micro step 0 the scratch slab is cleared and the first
  slice of  h * Wblock^T + bias + skip  is stored into it; at a middle micro step one more slice is stored
  over what the slab held; at the last micro step the last slice is stored, the slab is read back in sixteen
  strips and the per-node perceptron's three small products are applied to each, the concatenation going
  to the output block.  Each run states what the slab (and, in the last case, the output block) holds
  afterwards as a value the run itself determines.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value
import proofs.«120596_j16338055594194_2_alg».proof.Proof.KBody3Defs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 16000000 in
/-- The last micro step: the slab, found at `xs`, ends at `Y.2`; the output block, found at anything, ends at `Y.1`,
    a value of `xs` and the ten input blocks only. -/
noncomputable def kernelRun3_C (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole)
    (hc0 : ¬cond3_0 i) (hc1 : cond3_1 i)
    (x2 : Vec F S512x1024 .bf16) (x3 : Vec F S1024x1024 .f32) (x4 : Vec F S1x1024 .f32) (x5 : Vec F S512x1024 .f32)
    (x6 : Vec F S256x120 .bf16) (x7 : Vec F S120x64 .bf16) (x8 : Vec F S64x8 .bf16)
    (x9 : Vec F S1x120 .f32) (x10 : Vec F S1x64 .f32) (x11 : Vec F S1x8 .f32) (xs : Vec F S512x4096 .f32) :
    { Y : Vec F S512x128 .f32 × Vec F S512x4096 .f32 //
      ∀ (E : Set ℕ) (K : PUnit → sProp 𝕄),
        iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ owns (c : Thread nD τ) arg8 fullShare x8 ∗ owns (c : Thread nD τ) arg9 fullShare x9 ∗ owns (c : Thread nD τ) arg10 fullShare x10
            ∗ owns (c : Thread nD τ) arg11 fullShare x11
            ∗ (∃ d, owns (c : Thread nD τ) arg12 fullShare d) ∗ owns (c : Thread nD τ) arg13 fullShare xs
            ∗ (iprop(owns (c : Thread nD τ) arg2 fullShare x2 ∗ owns (c : Thread nD τ) arg3 fullShare x3 ∗ owns (c : Thread nD τ) arg4 fullShare x4
                ∗ owns (c : Thread nD τ) arg5 fullShare x5 ∗ owns (c : Thread nD τ) arg6 fullShare x6 ∗ owns (c : Thread nD τ) arg7 fullShare x7
                ∗ owns (c : Thread nD τ) arg8 fullShare x8 ∗ owns (c : Thread nD τ) arg9 fullShare x9 ∗ owns (c : Thread nD τ) arg10 fullShare x10
                ∗ owns (c : Thread nD τ) arg11 fullShare x11
                ∗ owns (c : Thread nD τ) arg12 fullShare Y.1 ∗ owns (c : Thread nD τ) arg13 fullShare Y.2) -∗ K ⟨⟩))
          ⊢ wp frame (wpE (defs₀ (F := F)) Variants.none c none) E (cc3__dan_linear2_kernel i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    simp only [cc3__dan_linear2_kernel_eq_skeleton]; unfold cc3__dan_linear2_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs, %hfs, HS⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    obtain rfl := harg8.eq_unread hf8; obtain rfl := harg9.eq_unread hf9; obtain rfl := harg10.eq_unread hf10
    obtain rfl := harg11.eq_unread hf11; obtain rfl := harg13.eq_unread hfs
    sl_exec_parts! (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; rfl
      iexact H12
    iexists _; isplitr; · ipureintro; rfl
    iexact HS

end Cert.KernelIdeal.KBody

end
-- ==== Proof.KBody3Runs.lean ====
/-
  Region 3: the body's three runs (micro step 0, a middle micro step, the last micro step), one module each.
-/
import proofs.«120596_j16338055594194_2_alg».proof.Proof.KBody3RunA
import proofs.«120596_j16338055594194_2_alg».proof.Proof.KBody3RunB
import proofs.«120596_j16338055594194_2_alg».proof.Proof.KBody3RunC
-- ==== Proof.KBody3.lean ====
/-
  Region 3: the proof data and the body obligation.  What the scratch slab holds after each grid point is
  defined by recursion on the point (cleared and first slice at micro step 0, one more slice at each later
  micro step); the output block is named only at the last micro step of each macro tile, where the body
  stores it and the pipeline writes it back; elsewhere the output window is idle.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«120596_j16338055594194_2_alg».proof.Proof.KBody3Runs

set_option maxRecDepth 16384

noncomputable section

namespace Cert.KernelIdeal.KBody

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three runs at grid point `t`, on the buffers the pipeline passes there and the windows' blocks. -/
abbrev runA3 (c : Dev nD) (t : Fin cfg3.N) (h0 : t.val % 4 = 0) :=
  kernelRun3_A (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _)
    ((hcond3_0 t).mpr h0) (fun h => by have h3 := (hcond3_1 t).mp h; omega)
    (iblk3 V c 0 t) (iblk3 V c 1 t) (iblk3 V c 2 t) (iblk3 V c 3 t)
abbrev runB3 (c : Dev nD) (t : Fin cfg3.N) (h0 : ¬t.val % 4 = 0) (h1 : ¬t.val % 4 = 3) (xs : Vec F S512x4096 .f32) :=
  kernelRun3_B (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _)
    (fun h => h0 ((hcond3_0 t).mp h)) (fun h => h1 ((hcond3_1 t).mp h))
    (iblk3 V c 0 t) (iblk3 V c 1 t) (iblk3 V c 2 t) (iblk3 V c 3 t) xs
abbrev runC3 (c : Dev nD) (t : Fin cfg3.N) (h1 : t.val % 4 = 3) (xs : Vec F S512x4096 .f32) :=
  kernelRun3_C (F := F) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) scM3_0 (Memref.isWhole_whole _)
    (fun h => by have h3 := (hcond3_0 t).mp h; omega) ((hcond3_1 t).mpr h1)
    (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) xs

/-- What the scratch slab holds after the body at position `n`, by recursion on the position. -/
def scr3 (c : Dev nD) : (n : ℕ) → n < cfg3.N → Vec F S512x4096 .f32
  | 0, hn => (runA3 V c ⟨0, hn⟩ (Nat.zero_mod _)).1
  | n + 1, hn =>
    if h0 : (n + 1) % 4 = 0 then (runA3 V c ⟨n + 1, hn⟩ h0).1
    else if h1 : (n + 1) % 4 = 3 then (runC3 V c ⟨n + 1, hn⟩ h1 (scr3 c n (Nat.lt_of_succ_lt hn))).1.2
    else (runB3 V c ⟨n + 1, hn⟩ h0 h1 (scr3 c n (Nat.lt_of_succ_lt hn))).1

theorem scr3_A (c : Dev nD) (t : Fin cfg3.N) (h0 : t.val % 4 = 0) : scr3 V c t.val t.isLt = (runA3 V c t h0).1 := by
  obtain ⟨n, hn⟩ := t
  cases n with
  | zero => exact rfl
  | succ n => exact (dif_pos h0).trans rfl

theorem scr3_B (c : Dev nD) (t : Fin cfg3.N) (h0 : ¬t.val % 4 = 0) (h1 : ¬t.val % 4 = 3) :
    scr3 V c t.val t.isLt = (runB3 V c t h0 h1 (scr3 V c (t.val - 1) (Nat.lt_of_le_of_lt (Nat.sub_le _ _) t.isLt))).1 := by
  obtain ⟨n, hn⟩ := t
  cases n with
  | zero => exact absurd (Nat.zero_mod _) h0
  | succ n => exact (dif_neg h0).trans ((dif_neg h1).trans rfl)

theorem scr3_C (c : Dev nD) (t : Fin cfg3.N) (h1 : t.val % 4 = 3) :
    scr3 V c t.val t.isLt = (runC3 V c t h1 (scr3 V c (t.val - 1) (Nat.lt_of_le_of_lt (Nat.sub_le _ _) t.isLt))).1.2 := by
  obtain ⟨n, hn⟩ := t
  cases n with
  | zero => exact absurd (show (0 : ℕ) % 4 = 3 from h1) (by decide)
  | succ n =>
    have h0 : ¬(n + 1) % 4 = 0 := fun h => by
      have h1' : (n + 1) % 4 = 3 := h1
      omega
    exact (dif_neg h0).trans ((dif_pos h1).trans rfl)

/-- What the output block holds after the body at point `t`: at the last micro step of a macro tile the epilogue's
    value; at the other points, where the window is idle, a placeholder nothing reads. -/
def out3_10 (c : Dev nD) (t : Fin cfg3.N) : Vec F S512x128 .f32 :=
  if h1 : t.val % 4 = 3 then (runC3 V c t h1 (scr3 V c (t.val - 1) (Nat.lt_of_le_of_lt (Nat.sub_le _ _) t.isLt))).1.1
  else VO3_10.read (Elt F) VO3_10.junk

/-- The invariant before position `n`: before the first point the untouched scoped memory and generator register;
    afterwards the same with the scratch slab at what the point before left in it. -/
def PhiS3 (c : Dev nD) : (n : ℕ) → n ≤ cfg3.N → sProp 𝕄
  | 0, _ => Pipeline.ΦA spec3 c
  | n + 1, hn => iprop(iprop(owns (c : Thread nD τ) scM3_0 fullShare (scr3 V c n hn) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare (scr3 V c n hn) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (scr3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of region 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t ∗ (dat3 V c).leavesExact 5 t
    ∗ (dat3 V c).leavesExact 6 t ∗ (dat3 V c).leavesExact 7 t ∗ (dat3 V c).leavesExact 8 t
    ∗ (dat3 V c).leavesExact 9 t ∗ (dat3 V c).leavesExact 10 t)

/-- At every point the input windows are live: the body hands each back at its block. -/
theorem leaves3_in (c : Dev nD) (t : Fin cfg3.N) :
    (dat3 V c).leavesExact 0 t = owns (c : Thread nD τ) (ms3_0 t) fullShare (iblk3 V c 0 t)
    ∧ (dat3 V c).leavesExact 1 t = owns (c : Thread nD τ) (ms3_1 t) fullShare (iblk3 V c 1 t)
    ∧ (dat3 V c).leavesExact 2 t = owns (c : Thread nD τ) (ms3_2 t) fullShare (iblk3 V c 2 t)
    ∧ (dat3 V c).leavesExact 3 t = owns (c : Thread nD τ) (ms3_3 t) fullShare (iblk3 V c 3 t)
    ∧ (dat3 V c).leavesExact 4 t = owns (c : Thread nD τ) (ms3_4 t) fullShare (iblk3 V c 4 t)
    ∧ (dat3 V c).leavesExact 5 t = owns (c : Thread nD τ) (ms3_5 t) fullShare (iblk3 V c 5 t)
    ∧ (dat3 V c).leavesExact 6 t = owns (c : Thread nD τ) (ms3_6 t) fullShare (iblk3 V c 6 t)
    ∧ (dat3 V c).leavesExact 7 t = owns (c : Thread nD τ) (ms3_7 t) fullShare (iblk3 V c 7 t)
    ∧ (dat3 V c).leavesExact 8 t = owns (c : Thread nD τ) (ms3_8 t) fullShare (iblk3 V c 8 t)
    ∧ (dat3 V c).leavesExact 9 t = owns (c : Thread nD τ) (ms3_9 t) fullShare (iblk3 V c 9 t) := by
  refine ⟨?_, ?_, ?_, ?_, ?_, ?_, ?_, ?_, ?_, ?_⟩
  · unfold Dat.leavesExact; rw [liveAt3_0 t, after3_0]
  · unfold Dat.leavesExact; rw [liveAt3_1 t, after3_1]
  · unfold Dat.leavesExact; rw [liveAt3_2 t, after3_2]
  · unfold Dat.leavesExact; rw [liveAt3_3 t, after3_3]
  · unfold Dat.leavesExact; rw [liveAt3_4 t, after3_4]
  · unfold Dat.leavesExact; rw [liveAt3_5 t, after3_5]
  · unfold Dat.leavesExact; rw [liveAt3_6 t, after3_6]
  · unfold Dat.leavesExact; rw [liveAt3_7 t, after3_7]
  · unfold Dat.leavesExact; rw [liveAt3_8 t, after3_8]
  · unfold Dat.leavesExact; rw [liveAt3_9 t, after3_9]

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).owesAt () t.succ = (dat3 V c).owesAt () t.castSucc from rfl]
  rw [show (dat3 V c).Φ t.succ = PhiS3 V c (t.val + 1) t.isLt from rfl, PhiS3_succ]
  obtain ⟨hl0, hl1, hl2, hl3, hl4, hl5, hl6, hl7, hl8, hl9⟩ := leaves3_in V c t
  rw [hl0, hl1, hl2, hl3, hl4, hl5, hl6, hl7, hl8, hl9]
  have hN : t.val < 32 := lt_of_lt_of_eq t.isLt (show cfg3.N = 32 from N_3)
  by_cases h1 : t.val % 4 = 3
  · have hz : t.val ≠ 0 := by omega
    rw [show (dat3 V c).leavesExact 10 t = owns (c : Thread nD τ) (ms3_10 t) fullShare ((dat3 V c).after 10 t) from by
      unfold Dat.leavesExact; rw [liveAt3_10 t ((hcond3_1 t).mpr h1)], after3_10]
    unfold out3_10; rw [dif_pos h1, scr3_C V c t h1]
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runC3 V c t h1 _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dat3 V c) 10 t (idleAt3_10 t (fun h => h1 ((hcond3_1 t).mp h))) (noFlush3_10 t (fun h => h1 ((hcond3_1 t).mp h)))]
    by_cases h0 : t.val % 4 = 0
    · rw [scr3_A V c t h0]
      by_cases hz : t.val = 0
      · rw [PhiS3_castSucc V c t, PhiS3_zero V c _ _ hz, PhiA3_eq]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
        iapply ((runA3 V c t h0).2 Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
        iapply ((runA3 V c t h0).2 Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · have hz : t.val ≠ 0 := fun h => h0 (by rw [h])
      rw [scr3_B V c t h0 h1]
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply ((runB3 V c t h0 h1 _).2 Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

/-- The body obligation of region 3, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem Φ_in3 (c : Dev nD) :
    iprop((∃ r, prngReg c r) ∗ Pipeline.scopedRest (Ix := Unit) (Name := ℕ) (U := UR sig nD τ) (Lvl := ℕ) (Val := Elt F) spec3 c)
      ⊢ (dat3 V c).Φ 0 := by
  rw [show (dat3 V c).Φ 0 = PhiS3 V c 0 (Nat.zero_le _) from rfl, PhiS3_zero V c 0 _ rfl]; unfold Pipeline.ΦA
  iintro ⟨Hg, Hs⟩
  isplitl [Hs]; · iexact Hs
  iexact Hg

/-- After the last point the invariant gives the scoped memory back, the slab's contents forgotten. -/
theorem Φ_out3 (c : Dev nD) :
    (dat3 V c).Φ (Fin.last cfg3.N)
      ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 32 := N_3; omega), scopedRest3_split]
  simp only [scM3_0, owns_whole]
  iintro ⟨⟨HS, Hrest⟩, Hg⟩
  isplitl [Hg]; · iexact Hg
  isplitl [HS]; · iexists _; iexact HS
  iexact Hrest

end Cert.KernelIdeal.KBody

end
-- ==== Proof.KBody.lean ====
/-
  The four kernel regions' proof data and body obligations: what each window's staging buffer holds after the
  body at each grid point, the invariant carried from point to point (for regions 0, 2 and 3 it holds the
  512 x 4096 pre-activation slab at named contents), and that the body, run at a point from the invariant and
  the windows' blocks, leaves the next point's invariant.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«120596_j16338055594194_2_alg».proof.Proof.KBody0
import proofs.«120596_j16338055594194_2_alg».proof.Proof.KBody1
import proofs.«120596_j16338055594194_2_alg».proof.Proof.KBody2
import proofs.«120596_j16338055594194_2_alg».proof.Proof.KBody3

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

end Cert.KernelIdeal.KBody

end
-- ==== Proof.KRunVals.lean ====
/-
  The buffers' contents at each boundary of the kernel program's @main, as a fold: the launch memory, then
  alternately a stretch of host operations applied to it and a kernel region's arrays replaced by what the
  region's pipeline leaves in them (an input array as entered, an output array with every block written back
  folded in), every other buffer untouched.  Eight steps: four host stretches, four regions.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KBody

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth host stretch: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: the end of @main. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.KernelIdeal.KRun

end
-- ==== Proof.KRunRegs.lean ====
/-
  The kernel program's @main as segments over one thread state: between segments every unscoped buffer of the
  core is held whole at the boundary's contents, beside the generator register and the statement that the core
  owes no other core anything.  A host stretch runs its operations over those buffers.  A kernel region takes
  its windows' arrays out of them, runs its pipeline, and puts the arrays back at what the pipeline leaves.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KRunVals
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KBody

variable (m : (ℓ : Loc nD τ sig) → Buf (Elt F) ℓ) (ρ : Dev nD → PrngReg)

/-- No pipeline reads a prefetched table. -/
abbrev adm : (p : Fin 4) → (pcfgs (F := F) p).Adm := fun p => (cfgs p).toPCfg_adm

/-- Every pipeline's proof data, each at its own region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state, and the core
    owing nothing. -/
abbrev R (c : Dev nD) : sProp 𝕄 := iprop((∃ r, prngReg c r) ∗ ∃ W, owes (c : Thread nD τ) (0 : CellTallies nD τ sig Unit) W)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation of @main allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the `owes`. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 over the thread state: entered from every unscoped buffer at `W1`, left at `W2`.  Its arrays are
    split out of the unscoped buffers at entry and put back at their final contents at exit; the generator
    register goes into the body's invariant and comes back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed_eq0 (V1 m ρ) c 0]
      icases HO with ⟨%W, HO⟩; iexists W; isplitr
      · ipureintro; exact fun x _ => Or.inl (show x ∈ (dat0 (V1 m ρ) c).recorded 0 from by rw [recorded_eq0 (V1 m ρ) c 0]; trivial)
      iexact HO
    isplitl [Hp]; · iexact Hp
    iexact Hrest
  hin c := by
    show iprop((∃ r, prngReg c r) ∗ _ ∗ Pipeline.scopedRest spec0 c) ⊢ (dat0 (V1 m ρ) c).Φ 0
    iintro ⟨Hp, -, Hr⟩
    iapply (Φ_in0 (V1 m ρ) c)
    isplitl [Hp]; · iexact Hp
    iexact Hr
  hout c := by
    rw [Pipeline.ownSems0_none]
    show (dat0 (V1 m ρ) c).Φ (Fin.last cfg0.N) ⊢ iprop((∃ r, prngReg c r) ∗ emp ∗ Pipeline.scopedRest spec0 c)
    iintro H
    ihave H' := (Φ_out0 (V1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last (Pipeline.pin (pcfgs (F := F)) adm 0).N) = 0 from owed_eq0 (V1 m ρ) c _]
    icases HO with ⟨%W, -, HO⟩; iexists W; iexact HO

set_option backward.isDefEq.respectTransparency.types false in
/-- Region 1 over the thread state: entered at `W3`, left at `W4`; the same steps as region 0. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed_eq1 (V3 m ρ) c 0]
      icases HO with ⟨%W, HO⟩; iexists W; isplitr
      · ipureintro; exact fun x _ => Or.inl (show x ∈ (dat1 (V3 m ρ) c).recorded 0 from by rw [recorded_eq1 (V3 m ρ) c 0]; trivial)
      iexact HO
    isplitl [Hp]; · iexact Hp
    iexact Hrest
  hin c := by
    show iprop((∃ r, prngReg c r) ∗ _ ∗ Pipeline.scopedRest spec1 c) ⊢ (dat1 (V3 m ρ) c).Φ 0
    iintro ⟨Hp, -, Hr⟩
    iapply (Φ_in1 (V3 m ρ) c)
    isplitl [Hp]; · iexact Hp
    iexact Hr
  hout c := by
    rw [Pipeline.ownSems0_none]
    show (dat1 (V3 m ρ) c).Φ (Fin.last cfg1.N) ⊢ iprop((∃ r, prngReg c r) ∗ emp ∗ Pipeline.scopedRest spec1 c)
    iintro H
    ihave H' := (Φ_out1 (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last (Pipeline.pin (pcfgs (F := F)) adm 1).N) = 0 from owed_eq1 (V3 m ρ) c _]
    icases HO with ⟨%W, -, HO⟩; iexists W; iexact HO

set_option backward.isDefEq.respectTransparency.types false in
/-- Region 2 over the thread state: entered at `W5`, left at `W6`; the same steps as region 0. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun c t => owed_eq2 (V5 m ρ) c t
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (V5 m ρ) c w) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 2 c).owed 0 = 0 from owed_eq2 (V5 m ρ) c 0]
      icases HO with ⟨%W, HO⟩; iexists W; isplitr
      · ipureintro; exact fun x _ => Or.inl (show x ∈ (dat2 (V5 m ρ) c).recorded 0 from by rw [recorded_eq2 (V5 m ρ) c 0]; trivial)
      iexact HO
    isplitl [Hp]; · iexact Hp
    iexact Hrest
  hin c := by
    show iprop((∃ r, prngReg c r) ∗ _ ∗ Pipeline.scopedRest spec2 c) ⊢ (dat2 (V5 m ρ) c).Φ 0
    iintro ⟨Hp, -, Hr⟩
    iapply (Φ_in2 (V5 m ρ) c)
    isplitl [Hp]; · iexact Hp
    iexact Hr
  hout c := by
    rw [Pipeline.ownSems0_none]
    show (dat2 (V5 m ρ) c).Φ (Fin.last cfg2.N) ⊢ iprop((∃ r, prngReg c r) ∗ emp ∗ Pipeline.scopedRest spec2 c)
    iintro H
    ihave H' := (Φ_out2 (V5 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V5 m ρ) c w)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 2 c).owed (Fin.last (Pipeline.pin (pcfgs (F := F)) adm 2).N) = 0 from owed_eq2 (V5 m ρ) c _]
    icases HO with ⟨%W, -, HO⟩; iexists W; iexact HO

set_option backward.isDefEq.respectTransparency.types false in
/-- Region 3 over the thread state: entered at `W7`, left at `W8`; the same steps as region 0. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun c t => owed_eq3 (V7 m ρ) c t
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun w => q_eq3 (V7 m ρ) c w) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 3 c).owed 0 = 0 from owed_eq3 (V7 m ρ) c 0]
      icases HO with ⟨%W, HO⟩; iexists W; isplitr
      · ipureintro; exact fun x _ => Or.inl (show x ∈ (dat3 (V7 m ρ) c).recorded 0 from by rw [recorded_eq3 (V7 m ρ) c 0]; trivial)
      iexact HO
    isplitl [Hp]; · iexact Hp
    iexact Hrest
  hin c := by
    show iprop((∃ r, prngReg c r) ∗ _ ∗ Pipeline.scopedRest spec3 c) ⊢ (dat3 (V7 m ρ) c).Φ 0
    iintro ⟨Hp, -, Hr⟩
    iapply (Φ_in3 (V7 m ρ) c)
    isplitl [Hp]; · iexact Hp
    iexact Hr
  hout c := by
    rw [Pipeline.ownSems0_none]
    show (dat3 (V7 m ρ) c).Φ (Fin.last cfg3.N) ⊢ iprop((∃ r, prngReg c r) ∗ emp ∗ Pipeline.scopedRest spec3 c)
    iintro H
    ihave H' := (Φ_out3 (V7 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun w => q_eq3 (V7 m ρ) c w)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 3 c).owed (Fin.last (Pipeline.pin (pcfgs (F := F)) adm 3).N) = 0 from owed_eq3 (V7 m ρ) c _]
    icases HO with ⟨%W, -, HO⟩; iexists W; iexact HO

end Cert.KernelIdeal.KRun

end
-- ==== Proof.KRunMain.lean ====
/-
  The kernel program's run: from any memory with every semaphore at zero, every weakly fair execution of @main
  on the TensorCores terminates, nothing faults, and at the end every unscoped buffer of every core holds the
  last boundary's contents — the fold of the four host stretches and the four regions over the launch memory.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KRunRegs
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KBody

variable (m : (ℓ : Loc nD τ sig) → Buf (Elt F) ℓ) (ρ : Dev nD → PrngReg)

/-- @main's eight segments in order: a host stretch from its boundary's contents, then the region it feeds. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- @main is the run of the segments. -/
theorem main_run (c : Dev nD) : main (F := F) c = Pipeline.Seg.run (segs m ρ) := (main_chain c).trans (by chain_rfl)

set_option backward.isDefEq.respectTransparency.types false in
/-- The run, with every unscoped buffer read at the end. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.KRun

end
-- ==== Proof.KRunArgs.lean ====
/-
  The seventeen argument arrays end as launched.  No host operation of @main writes an argument, and a region
  either does not touch an argument's array or reads it through an input window, which its pipeline leaves as
  entered; so the fold of the boundaries' contents, read at an argument, walks back to the launch memory.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KRunMain
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.KBody

variable (m : (ℓ : Loc nD τ sig) → Buf (Elt F) ℓ) (ρ : Dev nD → PrngReg)

/-- The seventeen argument references. -/
abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16]

/-- Which buffers an operation writes does not depend on the float instance: each host stretch's list of
    write sets is the list at the exact instance, where it is a closed term. -/
theorem writes0_eq : (hostOps0 (F := F)).map HloOp.writes = (hostOps0 (F := Ideal)).map HloOp.writes := rfl
theorem writes1_eq : (hostOps1 (F := F)).map HloOp.writes = (hostOps1 (F := Ideal)).map HloOp.writes := rfl
theorem writes2_eq : (hostOps2 (F := F)).map HloOp.writes = (hostOps2 (F := Ideal)).map HloOp.writes := rfl
theorem writes3_eq : (hostOps3 (F := F)).map HloOp.writes = (hostOps3 (F := Ideal)).map HloOp.writes := rfl

/-- No write set of a host stretch holds an argument's buffer: decided over the closed lists. -/
theorem writes0_args : ((hostOps0 (F := Ideal)).map HloOp.writes).Forall (fun W => ∀ b ∈ argRefs, Proc.devRef (τ := τ) .tc b ∉ W) := by
  decide +kernel
theorem writes1_args : ((hostOps1 (F := Ideal)).map HloOp.writes).Forall (fun W => ∀ b ∈ argRefs, Proc.devRef (τ := τ) .tc b ∉ W) := by
  decide +kernel
theorem writes2_args : ((hostOps2 (F := Ideal)).map HloOp.writes).Forall (fun W => ∀ b ∈ argRefs, Proc.devRef (τ := τ) .tc b ∉ W) := by
  decide +kernel
theorem writes3_args : ((hostOps3 (F := Ideal)).map HloOp.writes).Forall (fun W => ∀ b ∈ argRefs, Proc.devRef (τ := τ) .tc b ∉ W) := by
  decide +kernel

/-- No operation of the first host stretch writes an argument. -/
theorem hostOps0_keeps : (hostOps0 : List (HloOp τ sig (Elt F))).Forall fun op => ∀ b ∈ argRefs, Proc.devRef .tc b ∉ op.writes := by
  have h := writes0_args
  rw [← writes0_eq (F := F)] at h
  exact (List.forall_map_iff HloOp.writes).mp h
/-- Nor of the second, -/
theorem hostOps1_keeps : (hostOps1 : List (HloOp τ sig (Elt F))).Forall fun op => ∀ b ∈ argRefs, Proc.devRef .tc b ∉ op.writes := by
  have h := writes1_args
  rw [← writes1_eq (F := F)] at h
  exact (List.forall_map_iff HloOp.writes).mp h
/-- the third, -/
theorem hostOps2_keeps : (hostOps2 : List (HloOp τ sig (Elt F))).Forall fun op => ∀ b ∈ argRefs, Proc.devRef .tc b ∉ op.writes := by
  have h := writes2_args
  rw [← writes2_eq (F := F)] at h
  exact (List.forall_map_iff HloOp.writes).mp h
/-- or the fourth. -/
theorem hostOps3_keeps : (hostOps3 : List (HloOp τ sig (Elt F))).Forall fun op => ∀ b ∈ argRefs, Proc.devRef .tc b ∉ op.writes := by
  have h := writes3_args
  rw [← writes3_eq (F := F)] at h
  exact (List.forall_map_iff HloOp.writes).mp h

/-- A host stretch leaves an argument's buffer as it found it. -/
theorem W1_keep (c : Dev nD) (b : Ref sig .tc) (hb : b ∈ argRefs) : W1 m ρ c (Proc.devRef .tc b) = W0 m ρ c (Proc.devRef .tc b) :=
  StableHlo.after_of_forall_not_mem (b := Proc.devRef .tc b) _ _ fun op hop => (List.forall_iff_forall_mem.mp hostOps0_keeps) op hop b hb
theorem W3_keep (c : Dev nD) (b : Ref sig .tc) (hb : b ∈ argRefs) : W3 m ρ c (Proc.devRef .tc b) = W2 m ρ c (Proc.devRef .tc b) :=
  StableHlo.after_of_forall_not_mem (b := Proc.devRef .tc b) _ _ fun op hop => (List.forall_iff_forall_mem.mp hostOps1_keeps) op hop b hb
theorem W5_keep (c : Dev nD) (b : Ref sig .tc) (hb : b ∈ argRefs) : W5 m ρ c (Proc.devRef .tc b) = W4 m ρ c (Proc.devRef .tc b) :=
  StableHlo.after_of_forall_not_mem (b := Proc.devRef .tc b) _ _ fun op hop => (List.forall_iff_forall_mem.mp hostOps2_keeps) op hop b hb
theorem W7_keep (c : Dev nD) (b : Ref sig .tc) (hb : b ∈ argRefs) : W7 m ρ c (Proc.devRef .tc b) = W6 m ρ c (Proc.devRef .tc b) :=
  StableHlo.after_of_forall_not_mem (b := Proc.devRef .tc b) _ _ fun op hop => (List.forall_iff_forall_mem.mp hostOps3_keeps) op hop b hb

/-- A window whose array is an argument is an input window, in every region. -/
theorem arg_windows_in0 : ∀ w : Fin cfg0.W, Pipeline.arrRef spec0 w ∈ argRefs → (cfg0.win w).isOut = false := by decide
theorem arg_windows_in1 : ∀ w : Fin cfg1.W, Pipeline.arrRef spec1 w ∈ argRefs → (cfg1.win w).isOut = false := by decide
theorem arg_windows_in2 : ∀ w : Fin cfg2.W, Pipeline.arrRef spec2 w ∈ argRefs → (cfg2.win w).isOut = false := by decide
theorem arg_windows_in3 : ∀ w : Fin cfg3.W, Pipeline.arrRef spec3 w ∈ argRefs → (cfg3.win w).isOut = false := by decide

/-- A region leaves an argument's buffer as it found it: untouched, or an input window's array. -/
theorem W2_keep (c : Dev nD) (b : Ref sig .tc) (hb : b ∈ argRefs) : W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (arg_windows_in0 w hb) _).trans (A_eq0 (V1 m ρ) c w))
  · exact W2_of_ne m ρ c b fun w e => h ⟨w, e⟩
theorem W4_keep (c : Dev nD) (b : Ref sig .tc) (hb : b ∈ argRefs) : W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (arg_windows_in1 w hb) _).trans (A_eq1 (V3 m ρ) c w))
  · exact W4_of_ne m ρ c b fun w e => h ⟨w, e⟩
theorem W6_keep (c : Dev nD) (b : Ref sig .tc) (hb : b ∈ argRefs) : W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (arg_windows_in2 w hb) _).trans (A_eq2 (V5 m ρ) c w))
  · exact W6_of_ne m ρ c b fun w e => h ⟨w, e⟩
theorem W8_keep (c : Dev nD) (b : Ref sig .tc) (hb : b ∈ argRefs) : W8 m ρ c (Proc.devRef .tc b) = W7 m ρ c (Proc.devRef .tc b) := by
  by_cases h : ∃ w, Pipeline.arrRef spec3 w = b
  · obtain ⟨w, rfl⟩ := h
    exact (W8_arr m ρ c w).trans (((dat3 (V7 m ρ) c).arrAt_in w (arg_windows_in3 w hb) _).trans (A_eq3 (V7 m ρ) c w))
  · exact W8_of_ne m ρ c b fun w e => h ⟨w, e⟩

/-- At the end an argument's buffer holds what it held at launch. -/
theorem W8_arg (c : Dev nD) (b : Ref sig .tc) (hb : b ∈ argRefs) : W8 m ρ c (Proc.devRef .tc b) = m ((c : Thread nD τ).loc b) :=
  calc W8 m ρ c (Proc.devRef .tc b)
    _ = W7 m ρ c (Proc.devRef .tc b) := W8_keep m ρ c b hb
    _ = W6 m ρ c (Proc.devRef .tc b) := W7_keep m ρ c b hb
    _ = W5 m ρ c (Proc.devRef .tc b) := W6_keep m ρ c b hb
    _ = W4 m ρ c (Proc.devRef .tc b) := W5_keep m ρ c b hb
    _ = W3 m ρ c (Proc.devRef .tc b) := W4_keep m ρ c b hb
    _ = W2 m ρ c (Proc.devRef .tc b) := W3_keep m ρ c b hb
    _ = W1 m ρ c (Proc.devRef .tc b) := W2_keep m ρ c b hb
    _ = W0 m ρ c (Proc.devRef .tc b) := W1_keep m ρ c b hb
    _ = m ((c : Thread nD τ).loc b) := rfl

/-- An argument's buffer read off the final memory. -/
theorem final_arg {r : PUnit × MemSt nD τ sig (Elt F)}
    (h : ∀ c : Dev nD, ∀ b ∈ Pipeline.ucRefs τ sig, r.2.mem (((c : Thread nD τ)).1, b) = W8 m ρ c b)
    (c : Dev nD) (b : Ref sig .tc) (hb : b ∈ argRefs) (hu : ¬ (Proc.devRef .tc b : DevRef τ sig).isScoped) :
    r.2.mem ((c.tc : Thread nD τ).loc b) = m ((c.tc : Thread nD τ).loc b) :=
  (h c _ (mem_uc b hu)).trans (W8_arg m ρ c b hb)

/-- The run with the result named and the arguments kept: the result array ends at the last boundary's
    contents of its buffer, and every argument array as launched. -/
theorem run_value : θ_run defs (onTc (τ := τ) (main (F := F))) ⟨m, fun _ => 0, ρ⟩ (fun r => ∀ c : Dev nD,
      r.2.mem ((c.tc : Thread nD τ).loc main_v374) = W8 m ρ c (Proc.devRef .tc main_v374)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v374 (by decide)),
     final_arg m ρ h c main_arg0 (by decide) (by decide), final_arg m ρ h c main_arg1 (by decide) (by decide),
     final_arg m ρ h c main_arg2 (by decide) (by decide), final_arg m ρ h c main_arg3 (by decide) (by decide),
     final_arg m ρ h c main_arg4 (by decide) (by decide), final_arg m ρ h c main_arg5 (by decide) (by decide),
     final_arg m ρ h c main_arg6 (by decide) (by decide), final_arg m ρ h c main_arg7 (by decide) (by decide),
     final_arg m ρ h c main_arg8 (by decide) (by decide), final_arg m ρ h c main_arg9 (by decide) (by decide),
     final_arg m ρ h c main_arg10 (by decide) (by decide), final_arg m ρ h c main_arg11 (by decide) (by decide),
     final_arg m ρ h c main_arg12 (by decide) (by decide), final_arg m ρ h c main_arg13 (by decide) (by decide),
     final_arg m ρ h c main_arg14 (by decide) (by decide), final_arg m ρ h c main_arg15 (by decide) (by decide),
     final_arg m ρ h c main_arg16 (by decide) (by decide)⟩) (run_main m ρ)

/-- The frame: the program runs to the end and its seventeen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_value m ρ)

end Cert.KernelIdeal.KRun

end
-- ==== Proof.KCarry.lean ====
/-
  Three intermediate arrays ride unchanged across later segments: the input in the kernel's operand format (written
  before the first region, read again by the third), layer 0's output in that format (written before the second region,
  read again by the third), and the second region's output (read by the fourth).  No host operation in between writes
  them, and a region in between either does not touch them or reads them through an input window, which its pipeline
  leaves as entered.
-/
import proofs.«120596_j16338055594194_2_alg».proof.Proof.KRunArgs

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.KBody

variable (m : (ℓ : Loc nD τ sig) → Buf (Elt F) ℓ) (ρ : Dev nD → PrngReg)

/-- The carried references that each later host stretch must not write. -/
abbrev carry1 : List (Ref sig .tc) := [main_v0]
abbrev carry2 : List (Ref sig .tc) := [main_v0, main_v124, main_v126]
abbrev carry3 : List (Ref sig .tc) := [main_v126]

/-- No write set of those host stretches holds a carried buffer: decided over the closed lists. -/
theorem writes1_carry : ((hostOps1 (F := Ideal)).map HloOp.writes).Forall (fun W => ∀ b ∈ carry1, Proc.devRef (τ := τ) .tc b ∉ W) := by
  decide +kernel
theorem writes2_carry : ((hostOps2 (F := Ideal)).map HloOp.writes).Forall (fun W => ∀ b ∈ carry2, Proc.devRef (τ := τ) .tc b ∉ W) := by
  decide +kernel
theorem writes3_carry : ((hostOps3 (F := Ideal)).map HloOp.writes).Forall (fun W => ∀ b ∈ carry3, Proc.devRef (τ := τ) .tc b ∉ W) := by
  decide +kernel

theorem hostOps1_carries : (hostOps1 : List (HloOp τ sig (Elt F))).Forall fun op => ∀ b ∈ carry1, Proc.devRef .tc b ∉ op.writes := by
  have h := writes1_carry
  rw [← writes1_eq (F := F)] at h
  exact (List.forall_map_iff HloOp.writes).mp h
theorem hostOps2_carries : (hostOps2 : List (HloOp τ sig (Elt F))).Forall fun op => ∀ b ∈ carry2, Proc.devRef .tc b ∉ op.writes := by
  have h := writes2_carry
  rw [← writes2_eq (F := F)] at h
  exact (List.forall_map_iff HloOp.writes).mp h
theorem hostOps3_carries : (hostOps3 : List (HloOp τ sig (Elt F))).Forall fun op => ∀ b ∈ carry3, Proc.devRef .tc b ∉ op.writes := by
  have h := writes3_carry
  rw [← writes3_eq (F := F)] at h
  exact (List.forall_map_iff HloOp.writes).mp h

/-- A host stretch leaves a carried buffer as it found it. -/
theorem W3_carry (c : Dev nD) (b : Ref sig .tc) (hb : b ∈ carry1) : W3 m ρ c (Proc.devRef .tc b) = W2 m ρ c (Proc.devRef .tc b) :=
  StableHlo.after_of_forall_not_mem (b := Proc.devRef .tc b) _ _ fun op hop => (List.forall_iff_forall_mem.mp hostOps1_carries) op hop b hb
theorem W5_carry (c : Dev nD) (b : Ref sig .tc) (hb : b ∈ carry2) : W5 m ρ c (Proc.devRef .tc b) = W4 m ρ c (Proc.devRef .tc b) :=
  StableHlo.after_of_forall_not_mem (b := Proc.devRef .tc b) _ _ fun op hop => (List.forall_iff_forall_mem.mp hostOps2_carries) op hop b hb
theorem W7_carry (c : Dev nD) (b : Ref sig .tc) (hb : b ∈ carry3) : W7 m ρ c (Proc.devRef .tc b) = W6 m ρ c (Proc.devRef .tc b) :=
  StableHlo.after_of_forall_not_mem (b := Proc.devRef .tc b) _ _ fun op hop => (List.forall_iff_forall_mem.mp hostOps3_carries) op hop b hb

/-- A window whose array is a carried buffer is an input window, in the regions it is carried across. -/
theorem carry_windows_in0 : ∀ w : Fin cfg0.W, Pipeline.arrRef spec0 w ∈ carry1 → (cfg0.win w).isOut = false := by decide
theorem carry_windows_in1 : ∀ w : Fin cfg1.W, Pipeline.arrRef spec1 w ∈ [main_v0, main_v124] → (cfg1.win w).isOut = false := by decide
theorem carry_windows_in2 : ∀ w : Fin cfg2.W, Pipeline.arrRef spec2 w ∈ carry3 → (cfg2.win w).isOut = false := by decide

/-- A region leaves a carried buffer as it found it: untouched, or an input window's array. -/
theorem W2_carry (c : Dev nD) (b : Ref sig .tc) (hb : b ∈ carry1) : W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (carry_windows_in0 w hb) _).trans (A_eq0 (V1 m ρ) c w))
  · exact W2_of_ne m ρ c b fun w e => h ⟨w, e⟩
theorem W4_carry (c : Dev nD) (b : Ref sig .tc) (hb : b ∈ [main_v0, main_v124]) : W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (carry_windows_in1 w hb) _).trans (A_eq1 (V3 m ρ) c w))
  · exact W4_of_ne m ρ c b fun w e => h ⟨w, e⟩
theorem W6_carry (c : Dev nD) (b : Ref sig .tc) (hb : b ∈ carry3) : W6 m ρ c (Proc.devRef .tc b) = W5 m ρ c (Proc.devRef .tc b) := by
  by_cases h : ∃ w, Pipeline.arrRef spec2 w = b
  · obtain ⟨w, rfl⟩ := h
    exact (W6_arr m ρ c w).trans (((dat2 (V5 m ρ) c).arrAt_in w (carry_windows_in2 w hb) _).trans (A_eq2 (V5 m ρ) c w))
  · exact W6_of_ne m ρ c b fun w e => h ⟨w, e⟩

/-- The input in the kernel's operand format, as the third region finds it, is as the first region found it. -/
theorem carry_v0 (c : Dev nD) : W5 m ρ c (Proc.devRef .tc main_v0) = W1 m ρ c (Proc.devRef .tc main_v0) :=
  calc W5 m ρ c (Proc.devRef .tc main_v0)
    _ = W4 m ρ c (Proc.devRef .tc main_v0) := W5_carry m ρ c main_v0 (by decide)
    _ = W3 m ρ c (Proc.devRef .tc main_v0) := W4_carry m ρ c main_v0 (by decide)
    _ = W2 m ρ c (Proc.devRef .tc main_v0) := W3_carry m ρ c main_v0 (by decide)
    _ = W1 m ρ c (Proc.devRef .tc main_v0) := W2_carry m ρ c main_v0 (by decide)

/-- Layer 0's output in the kernel's operand format, as the third region finds it, is as the second region found it. -/
theorem carry_v124 (c : Dev nD) : W5 m ρ c (Proc.devRef .tc main_v124) = W3 m ρ c (Proc.devRef .tc main_v124) :=
  calc W5 m ρ c (Proc.devRef .tc main_v124)
    _ = W4 m ρ c (Proc.devRef .tc main_v124) := W5_carry m ρ c main_v124 (by decide)
    _ = W3 m ρ c (Proc.devRef .tc main_v124) := W4_carry m ρ c main_v124 (by decide)

/-- The second region's output, as the fourth region finds it, is as the second region left it. -/
theorem carry_v126 (c : Dev nD) : W7 m ρ c (Proc.devRef .tc main_v126) = W4 m ρ c (Proc.devRef .tc main_v126) :=
  calc W7 m ρ c (Proc.devRef .tc main_v126)
    _ = W6 m ρ c (Proc.devRef .tc main_v126) := W7_carry m ρ c main_v126 (by decide)
    _ = W5 m ρ c (Proc.devRef .tc main_v126) := W6_carry m ρ c main_v126 (by decide)
    _ = W4 m ρ c (Proc.devRef .tc main_v126) := W5_carry m ρ c main_v126 (by decide)

end Cert.KernelIdeal.KRun

end
-- ==== Proof.LibRowsDot.lean ====
/-
  The product of an [M, K] array by the transpose of an [N, K] array, read at an entry: contracting axis 1 of the
  left operand with axis 1 of the right one gives, at (r, c), the sum over k of x (r, k) * w (c, k).  Stated for
  the tile product accumulated into the zero tile, on the extended reals.
-/
import Idealize.ShloMosaic.Lib.ValueIdx
import Idealize.ShloMosaic.PureOps.Ideal.Laws

noncomputable section

namespace Cert.DanLib.RowsDot

open Idealize.ShloMosaic Idealize.ShloMosaic.ValueIdx

variable {M K N : ℕ}

/-- The dimension numbers of a product of an `[M, K]` array by the transpose of an `[N, K]` array: axis 1 of
    each operand contracted, the left rows then the right rows kept, no batch axis. -/
structure IsRowsT (d : DotDims ⟨2, ![M, K]⟩ ⟨2, ![N, K]⟩ ⟨2, ![M, N]⟩) : Prop where
  lc : d.lhsContracting = [⟨1, Nat.one_lt_two⟩]
  rc : d.rhsContracting = [⟨1, Nat.one_lt_two⟩]
  ln : d.lhsNonContracting = [⟨0, Nat.zero_lt_two⟩]
  rn : d.rhsNonContracting = [⟨0, Nat.zero_lt_two⟩]
  lb : d.lhsBatch = []
  rb : d.rhsBatch = []
  cr : d.contr.rank = 1
  cs : d.contr.size ⟨0, by omega⟩ = K

variable {d : DotDims ⟨2, ![M, K]⟩ ⟨2, ![N, K]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsRowsT d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row `j 1`, column the position. -/
theorem rhsIdx_eq (hd : IsRowsT d) (j : (⟨2, ![M, N]⟩ : Shape).Idx) (q : d.contr.Idx) (k : Fin K)
    (hq : (q ⟨0, by rw [hd.cr]; exact Nat.one_pos⟩).val = k.val) : d.rhsIdx j q = ix2 (j 1) k := by
  funext a
  apply Fin.ext
  match a with
  | ⟨0, h0⟩ =>
    have hb : (⟨0, h0⟩ : Fin (⟨2, ![N, K]⟩ : Shape).rank) ∉ d.rhsBatch := by rw [hd.rb]; exact List.not_mem_nil
    have hn : (⟨0, h0⟩ : Fin (⟨2, ![N, K]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)
  | ⟨1, h1⟩ => exact (d.rhsIdx_val_of_single hd.rc j q).trans hq

/-- The sum over the contraction positions is the sum over the contracted coordinate. -/
theorem sum_contr (hd : IsRowsT d) (j : (⟨2, ![M, N]⟩ : Shape).Idx) (x : (⟨2, ![M, K]⟩ : Shape).Idx → EReal)
    (w : (⟨2, ![N, K]⟩ : Shape).Idx → EReal) :
    ∑ q : d.contr.Idx, x (d.lhsIdx j q) * w (d.rhsIdx j q) = ∑ k : Fin K, x (ix2 (j 0) k) * w (ix2 (j 1) k) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The tile product accumulated into the zero tile, at `(r, c)`: `∑ k, x (r, k) · w (c, k)`. -/
theorem matmul_zero_apply (hd : IsRowsT d) {φ₁ φ₂ : FTy} (prec : Option ContractPrecision)
    (x : FVec Ideal ⟨2, ![M, K]⟩ φ₁) (w : FVec Ideal ⟨2, ![N, K]⟩ φ₂) (j : (⟨2, ![M, N]⟩ : Shape).Idx) :
    matmul d prec x w (constant ⟨2, ![M, N]⟩ .f32 0x00000000#32) j
      = ∑ k : Fin K, (x (ix2 (j 0) k) : EReal) * (w (ix2 (j 1) k) : EReal) := by
  simp only [matmul]
  rw [Ideal.matmul_constant_zero_apply]
  exact sum_contr hd j x w

end Cert.DanLib.RowsDot

end
-- ==== Proof.KVal1.lean ====
/-
  Region 1's output array: the plain dense layer.  Its array has 16 column blocks of 2048 columns; at grid point t
  the body multiplies the whole 512 x 1024 left operand by the transpose of rows 2048 t .. 2048 t + 2047 of the
  32768 x 1024 weight array and adds columns 2048 t .. of the bias row; the 16 blocks cover the array, so the
  array ends at  sum_k a0[r, k] * a1[j, k] + a2[0, j]  at every (r, j).
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody1
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KBody Cert.DanLib Idealize.ShloMosaic.ValueIdx

variable (V : (c : Dev nD) → (b : Ref sig .tc) → Buf (Elt Ideal) ((c : Thread nD τ).loc b))

theorem hz1 : (![0, 0] : Fin 2 → Nat) = fun _ => 0 := funext fun a => by fin_cases a <;> rfl

/-- The dense layer of a left operand, a weight array and a bias row, entry by entry. -/
abbrev G1 (a0 : S512x1024.Idx → Elt Ideal .bf16) (a1 : S32768x1024.Idx → Elt Ideal .f32) (a2 : S1x32768.Idx → Elt Ideal .f32) :
    S512x32768.Idx → Elt Ideal .f32 :=
  fun i => (∑ k : Fin 1024, (a0 (ix2 (i 0) k) : EReal) * (a1 (ix2 (i 1) k) : EReal)) + (a2 (ix2 (0 : Fin 1) (i 1)) : EReal)

/-- The tile product's dimension numbers contract axis 1 with axis 1. -/
theorem rowsT1 : RowsDot.IsRowsT dot_S512x1024_S2048x1024_S512x2048_1_1_0_0_n_n := ⟨rfl, rfl, rfl, rfl, rfl, rfl, rfl, rfl⟩

/-- The body's stored value at an entry of the block: the row of the left operand against the row of the weight block,
    plus the bias row's entry. -/
theorem pay1_apply (x0 : Vec Ideal S512x1024 .bf16) (x1 : Vec Ideal S2048x1024 .f32) (x2 : Vec Ideal S1x2048 .f32)
    (p : Fin 512) (q : Fin 2048) :
    k1_pay1 (F := Ideal) x0 x1 x2 (ix2 p q)
      = (∑ k : Fin 1024, (x0 (ix2 p k) : EReal) * (x1 (ix2 q k) : EReal)) + (x2 (ix2 (0 : Fin 1) q) : EReal) := by
  unfold k1_pay1
  show ((matmul (F := Ideal) dot_S512x1024_S2048x1024_S512x2048_1_1_0_0_n_n none (shapeCast S512x1024 x0 shapeCasts_S512x1024_S512x1024)
        (truncf (F := Ideal) .bf16 x1 bitsLt_bf16_f32) (constant (F := Ideal) S512x2048 .f32 0x00000000#32)) (ix2 p q) : EReal)
      + ((broadcastTo S512x2048 (shapeCast S1x2048 x2 shapeCasts_S1x2048_S1x2048) broadcasts_S1x2048_S512x2048) (ix2 p q) : EReal) = _
  rw [RowsDot.matmul_zero_apply rowsT1, broadcastTo_1b_ab_apply, shapeCast_self, shapeCast_self]
  rfl

/-- The printed index maps over the grid: the left operand's block stays at (0, 0); the weight block's row index and
    the bias block's column index are the output block's column index, which runs over 0 .. 15. -/
theorem idx_facts1 : ∀ t : Fin cfg1.N, win1_0.index t (0 : Fin 2) = 0 ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) = 0 ∧ win1_3.index t (1 : Fin 2) ≤ 15 :=
  (by decide +kernel : ∀ t : Fin grid1.N, _)

/-- Every column block of the output is some point's. -/
theorem idx_onto1 : ∀ q1 : Fin 16, ∃ t : Fin cfg1.N, win1_3.index t = ![0, q1.val] :=
  (by decide +kernel : ∀ q1 : Fin 16, ∃ t : Fin grid1.N, win1_3.index t = ![0, q1.val])

/-- If a tile's rows and a bias tile's entry are the arrays' rows and entry at an index, the tile's dense layer at
    (p, q) is the arrays' dense layer at that index. -/
theorem dense_congr (x0 : Vec Ideal S512x1024 .bf16) (x1 : Vec Ideal S2048x1024 .f32) (x2 : Vec Ideal S1x2048 .f32)
    (a0 : S512x1024.Idx → Elt Ideal .bf16) (a1 : S32768x1024.Idx → Elt Ideal .f32) (a2 : S1x32768.Idx → Elt Ideal .f32)
    (p : Fin 512) (q : Fin 2048) (i : S512x32768.Idx)
    (h0 : ∀ k : Fin 1024, x0 (ix2 p k) = a0 (ix2 (i 0) k)) (h1 : ∀ k : Fin 1024, x1 (ix2 q k) = a1 (ix2 (i 1) k))
    (h2 : x2 (ix2 (0 : Fin 1) q) = a2 (ix2 (0 : Fin 1) (i 1))) :
    (∑ k : Fin 1024, (x0 (ix2 p k) : EReal) * (x1 (ix2 q k) : EReal)) + (x2 (ix2 (0 : Fin 1) q) : EReal) = G1 a0 a1 a2 i := by
  show _ = (∑ k : Fin 1024, (a0 (ix2 (i 0) k) : EReal) * (a1 (ix2 (i 1) k) : EReal)) + (a2 (ix2 (0 : Fin 1) (i 1)) : EReal)
  rw [h2]
  refine congrArg (· + _) (Finset.sum_congr rfl fun k _ => ?_)
  rw [h0 k, h1 k]

set_option maxHeartbeats 2000000 in
/-- What point `t` writes back is block `t` of the dense layer of the arrays as the region finds them. -/
theorem flushed1_eq (c : Dev nD) (t : Fin cfg1.N) :
    (dat1 V c).flushed 3 t
      = ((cfg1.win 3).blk t).view.read (Elt Ideal) (G1 (V c main_v124) (V c main_arg9) (V c main_v125)) := by
  show (cfg1.win 3).cut (grid1.coords t) ((dat1 V c).after 3 t) = _
  rw [after1_3]
  unfold out1_3
  rw [View.canon_unit_zero hz1]
  simp only [View.ld_unit_zero (S := S512x1024) hz1, View.ld_unit_zero (S := S2048x1024) hz1, View.ld_unit_zero (S := S1x2048) hz1]
  obtain ⟨e0, e1, e2, e3, e4, e5, e6, e7⟩ := idx_facts1 t
  funext j
  obtain ⟨p, q, rfl⟩ : ∃ (p : Fin 512) (q : Fin 2048), j = ix2 p q := ⟨j 0, j 1, eq_ix2 j⟩
  show k1_pay1 (iblk1 V c 0 t) (iblk1 V c 1 t) (iblk1 V c 2 t) (ix2 p q)
    = G1 (V c main_v124) (V c main_arg9) (V c main_v125) (((cfg1.win 3).blk t).view.emb (ix2 p q))
  refine (pay1_apply (iblk1 V c 0 t) (iblk1 V c 1 t) (iblk1 V c 2 t) p q).trans ?_
  have hr0 : ∀ k : Fin 1024, iblk1 V c 0 t (ix2 p k)
      = V c main_v124 (ix2 ((((cfg1.win 3).blk t).view.emb (ix2 p q)) 0) k) := fun k => by
    show V c main_v124 (((cfg1.win 0).blk t).view.emb (ix2 p k)) = _
    refine congrArg (V c main_v124) ?_
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 1024 + 1 * k.val = k.val; omega
  have hr1 : ∀ k : Fin 1024, iblk1 V c 1 t (ix2 q k)
      = V c main_arg9 (ix2 ((((cfg1.win 3).blk t).view.emb (ix2 p q)) 1) k) := fun k => by
    show V c main_arg9 (((cfg1.win 1).blk t).view.emb (ix2 q k)) = _
    refine congrArg (V c main_arg9) ?_
    funext a; apply Fin.ext
    match a with
    | ⟨0, _⟩ => show win1_1.index t (0 : Fin 2) * 2048 + 1 * q.val = win1_3.index t (1 : Fin 2) * 2048 + 1 * q.val; omega
    | ⟨1, _⟩ => show win1_1.index t (1 : Fin 2) * 1024 + 1 * k.val = k.val; omega
  have hr2 : iblk1 V c 2 t (ix2 (0 : Fin 1) q)
      = V c main_v125 (ix2 (0 : Fin 1) ((((cfg1.win 3).blk t).view.emb (ix2 p q)) 1)) := by
    show V c main_v125 (((cfg1.win 2).blk t).view.emb (ix2 (0 : Fin 1) q)) = _
    refine congrArg (V c main_v125) ?_
    funext a; apply Fin.ext
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + 1 * q.val; omega
  exact dense_congr (iblk1 V c 0 t) (iblk1 V c 1 t) (iblk1 V c 2 t) (V c main_v124) (V c main_arg9) (V c main_v125) p q
    (((cfg1.win 3).blk t).view.emb (ix2 p q)) hr0 hr1 hr2

/-- An index of the array is in point `t`'s block iff each coordinate is in the block's range on its axis. -/
theorem mem_blk1 (t : Fin cfg1.N) (i : S512x32768.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v126).slice (win1_3.rect t)).set ↔ _
  rw [View.set_slice_whole, Rect.mem_set_unit]
  exact Iff.rfl

/-- The sixteen blocks cover the array: column j lies in block j / 2048. -/
theorem covered1 (i : S512x32768.Idx) :
    ∃ t : Fin cfg1.N, (cfg1.win 3).flush t = true ∧ i ∈ ((cfg1.win 3).blk t).view.set := by
  have hi0 : (i 0).val < 512 := (i 0).isLt
  have hi1 : (i 1).val < 32768 := (i 1).isLt
  obtain ⟨t, ht⟩ := idx_onto1 ⟨(i 1).val / 2048, by omega⟩
  have q0 : win1_3.index t (0 : Fin 2) = 0 := congrFun ht 0
  have q1 : win1_3.index t (1 : Fin 2) = (i 1).val / 2048 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- The output array after the region: the dense layer of the arrays as the region found them. -/
theorem out1_value (c : Dev nD) :
    (dat1 V c).arrAt 3 cfg1.N = G1 (V c main_v124) (V c main_arg9) (V c main_v125) :=
  (dat1 V c).arrAt_eq_of_cover 3 (G1 (V c main_v124) (V c main_arg9) (V c main_v125))
    (fun t _ => flushed1_eq V c t) (fun i => covered1 i)

end Cert.KernelIdeal.KValue

end
-- ==== Proof.KScatter.lean ====
/-
  A scatter that writes its updates (the body returns the update), read at an index.

  The scatter is a fold over the update indices, each replacing the entry at the index it lands on.  When no two update
  indices land on the same entry, an entry some update index j lands on ends holding update j, and an entry none lands
  on keeps the operand's value.  For a rank-2 update written as one window at a start (r0, c0) that keeps it inside the
  operand, update index (p, q) lands on (r0 + p, c0 + q): the result is the update on that rectangle and the operand
  elsewhere.
-/
import Idealize.ShloMosaic.PureOps.Ideal
import Idealize.ShloMosaic.Lib.ValueIdx

namespace Cert.KernelIdeal.KValue

open Idealize.ShloMosaic Idealize.ShloMosaic.ValueIdx

/-! ## Folds that overwrite -/

section Fold
variable {I J α : Type}

/-- Steps that leave entry i' alone leave it as it started. -/
theorem foldl_miss (step : (I → α) → J → (I → α)) (i' : I) (L : List J)
    (hmiss : ∀ n ∈ L, ∀ r, step r n i' = r i') (x : I → α) : L.foldl step x i' = x i' := by
  induction L generalizing x with
  | nil => rfl
  | cons m L ih =>
    rw [List.foldl_cons, ih (fun n hn => hmiss n (List.mem_cons_of_mem m hn))]
    exact hmiss m (List.mem_cons_self ..) x

/-- If exactly one step of the list sets entry i', to v, the fold ends with v there. -/
theorem foldl_hit (step : (I → α) → J → (I → α)) (i' : I) (v : α) (L : List J) (n : J) (hn : n ∈ L) (hnd : L.Nodup)
    (hhit : ∀ r, step r n i' = v) (hmiss : ∀ n' ∈ L, n' ≠ n → ∀ r, step r n' i' = r i') (x : I → α) :
    L.foldl step x i' = v := by
  induction L generalizing x with
  | nil => exact absurd hn (List.not_mem_nil)
  | cons m L ih =>
    rw [List.foldl_cons]
    have hnd' := List.nodup_cons.mp hnd
    by_cases hmn : n = m
    · subst hmn
      rw [foldl_miss step i' L (fun n' hn' => hmiss n' (List.mem_cons_of_mem _ hn') (fun e => hnd'.1 (e ▸ hn')))]
      exact hhit x
    · have hnL : n ∈ L := (List.mem_cons.mp hn).resolve_left hmn
      exact ih hnL hnd'.2 (fun n' hn' => hmiss n' (List.mem_cons_of_mem _ hn')) _

end Fold

/-! ## Where an update index lands -/

section Scatter
variable {s si u : Shape} {w : Nat} {α : Type}

/-- Update index j lands on i exactly when, on every axis, the start plus j's window coordinate is i's coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have h1 := congrArg (fun f => (f a).val) (Option.some.inj h)
      have h2 : (d.start j idx a + (d.window j a : Int)).toNat = (i a).val := h1
      have := hb a
      omega
    · exact absurd h (by simp)
  · intro h
    have hb : ∀ a, 0 ≤ d.start j idx a + (d.window j a : Int) ∧ d.start j idx a + (d.window j a : Int) < s.size a :=
      fun a => by
        have := h a
        have := (i a).isLt
        omega
    rw [dif_pos hb]
    refine congrArg some (funext fun a => Fin.ext ?_)
    show (d.start j idx a + (d.window j a : Int)).toNat = (i a).val
    have := h a
    omega

/-- An entry one update index lands on, and no other, ends holding that update. -/
theorem scatter_set_hit (d : ScatterDims s si u) (x : s.Idx → α) (idx : IVec si w) (upd : u.Idx → α)
    (i' : s.Idx) (j : u.Idx) (hj : d.resultIdx? j idx = some i')
    (hinj : ∀ j', d.resultIdx? j' idx = some i' → j' = j) :
    Host.scatter d (fun _ v => v) x idx upd i' = upd j := by
  unfold Host.scatter
  refine foldl_hit _ i' (upd j) _ (u.rowMajor j) (List.mem_finRange _) (List.nodup_finRange _) (fun r => ?_)
    (fun n' _ hne r => ?_) x
  · simp only [Equiv.symm_apply_apply, hj, if_true]
  · have hne' : d.resultIdx? (u.rowMajor.symm n') idx ≠ some i' := fun e =>
      hne (by rw [← hinj _ e, Equiv.apply_symm_apply])
    generalize d.resultIdx? (u.rowMajor.symm n') idx = q at hne' ⊢
    cases q with
    | none => rfl
    | some i =>
      have hi : i' ≠ i := fun e => hne' (congrArg some e.symm)
      show (if i' = i then _ else r i') = r i'
      rw [if_neg hi]

/-- An entry no update index lands on keeps the operand's value. -/
theorem scatter_set_miss (d : ScatterDims s si u) (x : s.Idx → α) (idx : IVec si w) (upd : u.Idx → α)
    (i' : s.Idx) (hmiss : ∀ j, d.resultIdx? j idx ≠ some i') :
    Host.scatter d (fun _ v => v) x idx upd i' = x i' := by
  unfold Host.scatter
  refine foldl_miss _ i' _ (fun n' _ r => ?_) x
  have hne' := hmiss (u.rowMajor.symm n')
  generalize d.resultIdx? (u.rowMajor.symm n') idx = q at hne' ⊢
  cases q with
  | none => rfl
  | some i =>
    have hi : i' ≠ i := fun e => hne' (congrArg some e.symm)
    show (if i' = i then _ else r i') = r i'
    rw [if_neg hi]

end Scatter

/-! ## One window written into a matrix -/

section Block
variable {A B a b : Nat} {α : Type}

/-- The dimension numbers of a rank-2 update written as one window: both axes window axes, the start read off a vector
    of two indices. -/
abbrev blockDims (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ :=
  ⟨[0, 1], [], [0, 1], 0, wf⟩

theorem blockDims_start0 (wf : ScatterDims.WF ⟨2, ![A, B]⟩ ⟨1, ![2]⟩ ⟨2, ![a, b]⟩ [0, 1] [] [0, 1] 0)
    (j : (⟨2, ![a, b]⟩ : Shape).Idx) (idx : IVec ⟨1, ![2]⟩ 32) :
    (blockDims wf).start j idx 0 = (idx (ix1 (0 : Fin 2))).toInt := by
  unfold ScatterDims.start
  rw [dif_pos (show (0 : Fin 2) ∈ [(0 : Fin 2), 1] from List.mem_cons_self ..)]
  refine congrArg (fun q => (idx q).toInt) (funext fun b => ?_)
  match b with
  | ⟨0, _⟩ => exact Fin.ext rfl
theorem blockDims_start1 (wf : ScatterDims.WF ⟨2, ![A, B]⟩ ⟨1, ![2]⟩ ⟨2, ![a, b]⟩ [0, 1] [] [0, 1] 0)
    (j : (⟨2, ![a, b]⟩ : Shape).Idx) (idx : IVec ⟨1, ![2]⟩ 32) :
    (blockDims wf).start j idx 1 = (idx (ix1 (1 : Fin 2))).toInt := by
  unfold ScatterDims.start
  rw [dif_pos (show (1 : Fin 2) ∈ [(0 : Fin 2), 1] from List.mem_cons_of_mem _ (List.mem_cons_self ..))]
  refine congrArg (fun q => (idx q).toInt) (funext fun b => ?_)
  match b with
  | ⟨0, _⟩ => exact Fin.ext rfl
theorem blockDims_window0 (wf : ScatterDims.WF ⟨2, ![A, B]⟩ ⟨1, ![2]⟩ ⟨2, ![a, b]⟩ [0, 1] [] [0, 1] 0)
    (j : (⟨2, ![a, b]⟩ : Shape).Idx) : (blockDims wf).window j 0 = (j 0).val := rfl
theorem blockDims_window1 (wf : ScatterDims.WF ⟨2, ![A, B]⟩ ⟨1, ![2]⟩ ⟨2, ![a, b]⟩ [0, 1] [] [0, 1] 0)
    (j : (⟨2, ![a, b]⟩ : Shape).Idx) : (blockDims wf).window j 1 = (j 1).val := rfl

/-- Where update index j lands: (r0 + j 0, c0 + j 1), r0 and c0 the two start indices read as integers. -/
theorem blockDims_resultIdx?_iff (wf : ScatterDims.WF ⟨2, ![A, B]⟩ ⟨1, ![2]⟩ ⟨2, ![a, b]⟩ [0, 1] [] [0, 1] 0)
    (idx : IVec ⟨1, ![2]⟩ 32) (r0 c0 : Nat) (hr : (idx (ix1 (0 : Fin 2))).toInt = r0) (hc : (idx (ix1 (1 : Fin 2))).toInt = c0)
    (j : (⟨2, ![a, b]⟩ : Shape).Idx) (i : (⟨2, ![A, B]⟩ : Shape).Idx) :
    (blockDims wf).resultIdx? j idx = some i ↔ (r0 + (j 0).val = (i 0).val ∧ c0 + (j 1).val = (i 1).val) := by
  rw [resultIdx?_eq_some_iff]
  constructor
  · intro h
    have h0 := h 0
    have h1 := h 1
    rw [blockDims_start0, blockDims_window0, hr] at h0
    rw [blockDims_start1, blockDims_window1, hc] at h1
    exact ⟨by omega, by omega⟩
  · intro h ax
    match ax with
    | ⟨0, _⟩ =>
      show (blockDims wf).start j idx 0 + ((blockDims wf).window j 0 : Int) = ((i 0).val : Int)
      rw [blockDims_start0, blockDims_window0, hr]
      omega
    | ⟨1, _⟩ =>
      show (blockDims wf).start j idx 1 + ((blockDims wf).window j 1 : Int) = ((i 1).val : Int)
      rw [blockDims_start1, blockDims_window1, hc]
      omega

/-- An a x b update written as one window at (r0, c0) into an A x B matrix, the window inside the matrix: the update on
    the rectangle of rows r0 .. r0 + a - 1 and columns c0 .. c0 + b - 1, the matrix elsewhere. -/
theorem scatter_block_apply (wf : ScatterDims.WF ⟨2, ![A, B]⟩ ⟨1, ![2]⟩ ⟨2, ![a, b]⟩ [0, 1] [] [0, 1] 0)
    (x : (⟨2, ![A, B]⟩ : Shape).Idx → α) (idx : IVec ⟨1, ![2]⟩ 32) (upd : (⟨2, ![a, b]⟩ : Shape).Idx → α)
    (r0 c0 : Nat) (hr : (idx (ix1 (0 : Fin 2))).toInt = r0) (hc : (idx (ix1 (1 : Fin 2))).toInt = c0)
    (k : Fin A) (n : Fin B) :
    Host.scatter (blockDims wf) (fun _ v => v) x idx upd (ix2 k n)
      = if h : (r0 ≤ k.val ∧ k.val < r0 + a) ∧ (c0 ≤ n.val ∧ n.val < c0 + b) then
          upd (ix2 ⟨k.val - r0, by omega⟩ ⟨n.val - c0, by omega⟩)
        else x (ix2 k n) := by
  split
  · rename_i h
    refine scatter_set_hit (blockDims wf) x idx upd (ix2 k n) _
      ((blockDims_resultIdx?_iff wf idx r0 c0 hr hc _ _).2 ⟨?_, ?_⟩) (fun j' hj' => ?_)
    · show r0 + (k.val - r0) = k.val
      omega
    · show c0 + (n.val - c0) = n.val
      omega
    · have h' := (blockDims_resultIdx?_iff wf idx r0 c0 hr hc _ _).1 hj'
      have h0 : r0 + (j' 0).val = k.val := h'.1
      have h1 : c0 + (j' 1).val = n.val := h'.2
      rw [eq_ix2 j']
      have e0 : j' 0 = (⟨k.val - r0, by omega⟩ : Fin a) := Fin.ext (by show (j' 0).val = k.val - r0; omega)
      have e1 : j' 1 = (⟨n.val - c0, by omega⟩ : Fin b) := Fin.ext (by show (j' 1).val = n.val - c0; omega)
      rw [e0, e1]
      rfl
  · rename_i h
    refine scatter_set_miss (blockDims wf) x idx upd (ix2 k n) (fun j hj => h ?_)
    have h' := (blockDims_resultIdx?_iff wf idx r0 c0 hr hc _ _).1 hj
    have h0 : r0 + (j 0).val = k.val := h'.1
    have h1 : c0 + (j 1).val = n.val := h'.2
    have := idx2_lt0 j
    have := idx2_lt1 j
    exact ⟨⟨by omega, by omega⟩, ⟨by omega, by omega⟩⟩

end Block

end Cert.KernelIdeal.KValue
-- ==== Proof.KDiag.lean ====
/-
  Copies of one small matrix written along the diagonal of a matrix of one constant.

  Starting from a matrix that is z0 everywhere, window number m of an a x b matrix U is written at row a * m and column
  b * m, for m = 0, 1, 2, ...  After m windows the matrix holds U[k % a, n % b] at (k, n) when k / a = n / b < m, and z0
  elsewhere; once the windows cover every row, the condition is k / a = n / b alone.
-/
import proofs.«120596_j16338055594194_2_alg».proof.Proof.KScatter

namespace Cert.KernelIdeal.KValue

open Idealize.ShloMosaic Idealize.ShloMosaic.ValueIdx

/-- Rows a * m .. a * m + a - 1 are the rows whose quotient by a is m. -/
theorem block_div {a m k : Nat} (ha : 0 < a) (h : a * m ≤ k ∧ k < a * m + a) : k / a = m := by
  have h1 : m ≤ k / a := (Nat.le_div_iff_mul_le ha).2 (by rw [Nat.mul_comm]; exact h.1)
  have h2 : k / a < m + 1 := (Nat.div_lt_iff_lt_mul ha).2 (by rw [Nat.add_mul, Nat.one_mul, Nat.mul_comm]; exact h.2)
  omega

/-- And conversely. -/
theorem block_of_div {a m k : Nat} (ha : 0 < a) (h : k / a = m) : a * m ≤ k ∧ k < a * m + a := by
  have h1 := Nat.div_add_mod k a
  have h2 := Nat.mod_lt k ha
  rw [h] at h1
  exact ⟨by omega, by omega⟩

section Diag
variable {A B a b : Nat} {α : Type}

/-- X holds U on the first m diagonal blocks and z0 everywhere else. -/
def DiagUpTo (ha : 0 < a) (hb : 0 < b) (U : (⟨2, ![a, b]⟩ : Shape).Idx → α) (z0 : α) (m : Nat)
    (X : (⟨2, ![A, B]⟩ : Shape).Idx → α) : Prop :=
  ∀ (k : Fin A) (n : Fin B), X (ix2 k n)
    = if k.val / a = n.val / b ∧ k.val / a < m then
        U (ix2 ⟨k.val % a, Nat.mod_lt _ ha⟩ ⟨n.val % b, Nat.mod_lt _ hb⟩)
      else z0

/-- The constant matrix holds no block yet. -/
theorem DiagUpTo.base (ha : 0 < a) (hb : 0 < b) (U : (⟨2, ![a, b]⟩ : Shape).Idx → α) (z0 : α)
    (X : (⟨2, ![A, B]⟩ : Shape).Idx → α) (hX : ∀ i, X i = z0) : DiagUpTo ha hb U z0 0 X :=
  fun k n => (hX _).trans (if_neg fun h => Nat.not_lt_zero _ h.2).symm

/-- Writing U as one window at (a * m, b * m) adds block m. -/
theorem DiagUpTo.step {ha : 0 < a} {hb : 0 < b} {U : (⟨2, ![a, b]⟩ : Shape).Idx → α} {z0 : α} {m : Nat}
    {X : (⟨2, ![A, B]⟩ : Shape).Idx → α} (hX : DiagUpTo ha hb U z0 m X)
    (wf : ScatterDims.WF ⟨2, ![A, B]⟩ ⟨1, ![2]⟩ ⟨2, ![a, b]⟩ [0, 1] [] [0, 1] 0) (idx : IVec ⟨1, ![2]⟩ 32)
    (hr : (idx (ix1 (0 : Fin 2))).toInt = ((a * m : Nat) : Int))
    (hc : (idx (ix1 (1 : Fin 2))).toInt = ((b * m : Nat) : Int)) :
    DiagUpTo ha hb U z0 (m + 1) (Host.scatter (blockDims wf) (fun _ v => v) X idx U) := by
  intro k n
  rw [scatter_block_apply wf X idx U (a * m) (b * m) hr hc k n]
  have hka : a * (k.val / a) + k.val % a = k.val := Nat.div_add_mod k.val a
  have hnb : b * (n.val / b) + n.val % b = n.val := Nat.div_add_mod n.val b
  by_cases hin : (a * m ≤ k.val ∧ k.val < a * m + a) ∧ (b * m ≤ n.val ∧ n.val < b * m + b)
  · have hk : k.val / a = m := block_div ha hin.1
    have hn : n.val / b = m := block_div hb hin.2
    rw [dif_pos hin, if_pos ⟨hk.trans hn.symm, by omega⟩]
    rw [hk] at hka
    rw [hn] at hnb
    have e0 : (⟨k.val - a * m, by omega⟩ : Fin a) = ⟨k.val % a, Nat.mod_lt _ ha⟩ := Fin.ext (by
      show k.val - a * m = k.val % a
      omega)
    have e1 : (⟨n.val - b * m, by omega⟩ : Fin b) = ⟨n.val % b, Nat.mod_lt _ hb⟩ := Fin.ext (by
      show n.val - b * m = n.val % b
      omega)
    exact congrArg₂ (fun p q => U (ix2 p q)) e0 e1
  · rw [dif_neg hin, hX k n]
    refine if_congr ⟨fun h => ⟨h.1, by omega⟩, fun h => ⟨h.1, ?_⟩⟩ rfl rfl
    by_contra hlt
    have hk : k.val / a = m := by omega
    have hn : n.val / b = m := by omega
    exact hin ⟨block_of_div ha hk, block_of_div hb hn⟩

/-- Once the windows cover every row, the blocks are all there. -/
theorem DiagUpTo.full {ha : 0 < a} {hb : 0 < b} {U : (⟨2, ![a, b]⟩ : Shape).Idx → α} {z0 : α} {m : Nat}
    {X : (⟨2, ![A, B]⟩ : Shape).Idx → α} (hX : DiagUpTo ha hb U z0 m X) (hA : A ≤ a * m) (k : Fin A) (n : Fin B) :
    X (ix2 k n)
      = if k.val / a = n.val / b then U (ix2 ⟨k.val % a, Nat.mod_lt _ ha⟩ ⟨n.val % b, Nat.mod_lt _ hb⟩) else z0 := by
  rw [hX k n]
  have hlt : k.val / a < m := Nat.div_lt_of_lt_mul (lt_of_lt_of_le k.isLt hA)
  exact if_congr ⟨fun h => h.1, fun h => ⟨h, hlt⟩⟩ rfl rfl

end Diag

end Cert.KernelIdeal.KValue
-- ==== Proof.KHostTerms.lean ====
/-
  The arrays the kernel program's host operations build for a region, read at an index, over any operands.

  The start indices of a window are two integer constants joined into a vector of two.  Eight windows of one small matrix
  U written along the diagonal of a constant matrix give, at (k, n), U[k % a, n % b] where k / a = n / b and the constant
  elsewhere.  A bias vector of b entries repeated for 8 nodes and laid out as one row of 8 * b entries reads, at column
  n, the vector's entry n % b.
-/
import proofs.«120596_j16338055594194_2_alg».proof.KernelIdeal
import proofs.«120596_j16338055594194_2_alg».proof.Proof.KDiag
import Idealize.ShloMosaic.Lib.ValueLayout
import Idealize.ShloMosaic.Lib.StableHlo.Run

noncomputable section

namespace Cert.KernelIdeal.KValue

open Cert.KernelIdeal Idealize.ShloMosaic Idealize.ShloMosaic.ValueIdx Idealize.ShloMosaic.StableHlo

/-! ## A window's start indices -/

/-- The vector of two start indices (r, c), as the program builds it: two constants, each made a vector of one, joined. -/
abbrev startPair (h1 : S_.BroadcastsInDim S1 (![] : Fin 0 → Fin S1.rank)) (hc : Shape.Concatenates [S1, S1] S2 0)
    (r c : BitVec 32) : IVec S2 32 :=
  concatenate S2 0 [⟨S1, broadcastInDim S1 ![] h1 (constantI S_ 32 r)⟩, ⟨S1, broadcastInDim S1 ![] h1 (constantI S_ 32 c)⟩] hc

/-- Its first entry is r. -/
theorem startPair_zero (h1 : S_.BroadcastsInDim S1 (![] : Fin 0 → Fin S1.rank)) (hc : Shape.Concatenates [S1, S1] S2 0)
    (r c : BitVec 32) : startPair h1 hc r c (ix1 (0 : Fin 2)) = r :=
  concatenate_pair_apply_left (0 : Fin S2.rank) _ _ hc (ix1 (0 : Fin 2)) rfl (ix1 (0 : Fin 1))
    (fun b => match b with | ⟨0, _⟩ => rfl)

/-- Its second entry is c. -/
theorem startPair_one (h1 : S_.BroadcastsInDim S1 (![] : Fin 0 → Fin S1.rank)) (hc : Shape.Concatenates [S1, S1] S2 0)
    (r c : BitVec 32) : startPair h1 hc r c (ix1 (1 : Fin 2)) = c :=
  concatenate_pair_apply_right (0 : Fin S2.rank) _ _ hc (ix1 (1 : Fin 2)) rfl rfl (ix1 (0 : Fin 1))
    (fun b => match b with | ⟨0, _⟩ => fun hb => absurd rfl hb) rfl

/-- Two arrays joined along an axis: the two-piece concatenation with the pieces as two plain arguments. -/
def join2 {α : Type} (t s₁ s₂ : Shape) (a : Fin t.rank) (h : Shape.Concatenates [s₁, s₂] t a)
    (x₁ : s₁.Idx → α) (x₂ : s₂.Idx → α) : t.Idx → α :=
  concatenate t a [⟨s₁, x₁⟩, ⟨s₂, x₂⟩] h

theorem concatenate_pair_eq_join2 {α : Type} (t s₁ s₂ : Shape) (a : Fin t.rank) (h : Shape.Concatenates [s₁, s₂] t a)
    (x₁ : s₁.Idx → α) (x₂ : s₂.Idx → α) : concatenate t a [⟨s₁, x₁⟩, ⟨s₂, x₂⟩] h = join2 t s₁ s₂ a h x₁ x₂ := rfl

/-- Reads a buffer after a stretch of host operations as the operations' composed term of the buffers before it, the
    pieces of a two-piece concatenation included. -/
macro "host_results" : tactic =>
  `(tactic| (simp (disch := decide) only [after_cons, after_nil, concatenate_pair_eq_join2,
      nullary_result', unary_result', binary_result', ternary_result', reshape_result',
      nullary_result_ne', unary_result_ne', binary_result_ne', ternary_result_ne', reshape_result_ne']))

/-- The two start indices (r, c) read as integers. -/
theorem start_pair_ints (h1 : S_.BroadcastsInDim S1 (![] : Fin 0 → Fin S1.rank)) (hc : Shape.Concatenates [S1, S1] S2 0)
    (r c : BitVec 32) (p q : Nat) (hp : r.toInt = (p : Int)) (hq : c.toInt = (q : Int)) :
    (join2 S2 S1 S1 0 hc (broadcastInDim S1 ![] h1 (constantI S_ 32 r)) (broadcastInDim S1 ![] h1 (constantI S_ 32 c))
        (ix1 (0 : Fin 2))).toInt = (p : Int)
    ∧ (join2 S2 S1 S1 0 hc (broadcastInDim S1 ![] h1 (constantI S_ 32 r)) (broadcastInDim S1 ![] h1 (constantI S_ 32 c))
        (ix1 (1 : Fin 2))).toInt = (q : Int) :=
  ⟨(congrArg BitVec.toInt (startPair_zero h1 hc r c)).trans hp, (congrArg BitVec.toInt (startPair_one h1 hc r c)).trans hq⟩

/-! ## Eight windows along the diagonal -/

section Diag8
variable {A B a b : Nat} {α : Type}

/-- Eight windows of U written at (a * m, b * m), m = 0 .. 7, into a matrix that is z0 everywhere, the matrix having at
    most 8 * a rows: U[k % a, n % b] where k / a = n / b, z0 elsewhere. -/
theorem diag8_apply (ha : 0 < a) (hb : 0 < b)
    (wf : ScatterDims.WF ⟨2, ![A, B]⟩ ⟨1, ![2]⟩ ⟨2, ![a, b]⟩ [0, 1] [] [0, 1] 0)
    (U : (⟨2, ![a, b]⟩ : Shape).Idx → α) (z0 : α) (Z : (⟨2, ![A, B]⟩ : Shape).Idx → α) (hZ : ∀ i, Z i = z0)
    (i0 i1 i2 i3 i4 i5 i6 i7 : IVec ⟨1, ![2]⟩ 32)
    (s0 : (i0 (ix1 (0 : Fin 2))).toInt = ((a * 0 : Nat) : Int) ∧ (i0 (ix1 (1 : Fin 2))).toInt = ((b * 0 : Nat) : Int))
    (s1 : (i1 (ix1 (0 : Fin 2))).toInt = ((a * 1 : Nat) : Int) ∧ (i1 (ix1 (1 : Fin 2))).toInt = ((b * 1 : Nat) : Int))
    (s2 : (i2 (ix1 (0 : Fin 2))).toInt = ((a * 2 : Nat) : Int) ∧ (i2 (ix1 (1 : Fin 2))).toInt = ((b * 2 : Nat) : Int))
    (s3 : (i3 (ix1 (0 : Fin 2))).toInt = ((a * 3 : Nat) : Int) ∧ (i3 (ix1 (1 : Fin 2))).toInt = ((b * 3 : Nat) : Int))
    (s4 : (i4 (ix1 (0 : Fin 2))).toInt = ((a * 4 : Nat) : Int) ∧ (i4 (ix1 (1 : Fin 2))).toInt = ((b * 4 : Nat) : Int))
    (s5 : (i5 (ix1 (0 : Fin 2))).toInt = ((a * 5 : Nat) : Int) ∧ (i5 (ix1 (1 : Fin 2))).toInt = ((b * 5 : Nat) : Int))
    (s6 : (i6 (ix1 (0 : Fin 2))).toInt = ((a * 6 : Nat) : Int) ∧ (i6 (ix1 (1 : Fin 2))).toInt = ((b * 6 : Nat) : Int))
    (s7 : (i7 (ix1 (0 : Fin 2))).toInt = ((a * 7 : Nat) : Int) ∧ (i7 (ix1 (1 : Fin 2))).toInt = ((b * 7 : Nat) : Int))
    (hA : A ≤ a * 8) (k : Fin A) (n : Fin B) :
    Host.scatter (blockDims wf) (fun _ v => v)
      (Host.scatter (blockDims wf) (fun _ v => v)
        (Host.scatter (blockDims wf) (fun _ v => v)
          (Host.scatter (blockDims wf) (fun _ v => v)
            (Host.scatter (blockDims wf) (fun _ v => v)
              (Host.scatter (blockDims wf) (fun _ v => v)
                (Host.scatter (blockDims wf) (fun _ v => v)
                  (Host.scatter (blockDims wf) (fun _ v => v) Z i0 U) i1 U) i2 U) i3 U) i4 U) i5 U) i6 U) i7 U (ix2 k n)
      = if k.val / a = n.val / b then U (ix2 ⟨k.val % a, Nat.mod_lt _ ha⟩ ⟨n.val % b, Nat.mod_lt _ hb⟩) else z0 :=
  (((((((((DiagUpTo.base ha hb U z0 Z hZ).step wf i0 s0.1 s0.2).step wf i1 s1.1 s1.2).step wf i2 s2.1 s2.2).step wf i3 s3.1 s3.2).step
    wf i4 s4.1 s4.2).step wf i5 s5.1 s5.2).step wf i6 s6.1 s6.2).step wf i7 s7.1 s7.2).full hA k n

end Diag8

/-! ## The small matrices as the program passes them: transposed, in the kernel's operand format -/

/-- The zero word of the kernel's operand format denotes zero. -/
theorem ofBits_zero_bf16 : Ideal.ofBits .bf16 0x0000#16 = 0 := by simp [Ideal.ofBits, Ideal.ieee]

/-- A matrix [r, c] transposed and passed in the narrower format: at (p, q) the matrix's entry (q, p). -/
theorem transposed_apply {r c : Nat} (D : FVec Ideal ⟨2, ![r, c]⟩ .f32)
    (ht : (⟨2, ![r, c]⟩ : Shape).Transposes [1, 0] ⟨2, ![c, r]⟩) (hlt : FTy.bf16.bits < FTy.f32.bits)
    (p : Fin c) (q : Fin r) :
    (truncf .bf16 (transpose ⟨2, ![c, r]⟩ [1, 0] D ht) hlt : FVec Ideal ⟨2, ![c, r]⟩ .bf16) (ix2 p q) = D (ix2 q p) :=
  transpose_ix2_apply D ht p q

/-- The leading m columns of a matrix [r, c], transposed and passed in the narrower format: at (p, q) the matrix's
    entry (q, p'), p' the column p. -/
theorem transposed_leading_apply {r c m : Nat} (D : FVec Ideal ⟨2, ![r, c]⟩ .f32)
    (hs : (⟨2, ![r, c]⟩ : Shape).Slices ![0, 0] ⟨2, ![r, m]⟩)
    (ht : (⟨2, ![r, m]⟩ : Shape).Transposes [1, 0] ⟨2, ![m, r]⟩) (hlt : FTy.bf16.bits < FTy.f32.bits)
    (p : Fin m) (q : Fin r) (p' : Fin c) (hp : p'.val = p.val) :
    (truncf .bf16 (transpose ⟨2, ![m, r]⟩ [1, 0] (extractStridedSlice ⟨2, ![r, m]⟩ ![0, 0] D hs) ht) hlt :
        FVec Ideal ⟨2, ![m, r]⟩ .bf16) (ix2 p q) = D (ix2 q p') :=
  (transpose_ix2_apply _ ht p q).trans (slice2_axis1_apply 0 D hs q p p' (hp.trans (Nat.zero_add _).symm))

/-! ## A bias repeated for 8 nodes -/

/-- A vector of b entries made one row, the row copied 8 times, the 8 rows flattened to 8 * b entries and made one row
    again: at column n the vector's entry n % b. -/
theorem tile_rows_apply {α : Type} {R b Rb : Nat} (hRb : Rb = R * b) (hb : 0 < b) (v : (⟨1, ![b]⟩ : Shape).Idx → α)
    (h1 : (⟨1, ![b]⟩ : Shape).ShapeCasts ⟨2, ![1, b]⟩)
    (h2 : (⟨2, ![1, b]⟩ : Shape).BroadcastsInDim ⟨2, ![R, b]⟩ ![0, 1])
    (h3 : (⟨2, ![R, b]⟩ : Shape).ShapeCasts ⟨1, ![Rb]⟩)
    (h4 : (⟨1, ![Rb]⟩ : Shape).ShapeCasts ⟨2, ![1, Rb]⟩) (u : Fin 1) (n : Fin Rb) :
    shapeCast ⟨2, ![1, Rb]⟩ (shapeCast ⟨1, ![Rb]⟩ (broadcastInDim ⟨2, ![R, b]⟩ ![0, 1] h2 (shapeCast ⟨2, ![1, b]⟩ v h1)) h3) h4
        (ix2 u n)
      = v (ix1 ⟨n.val % b, Nat.mod_lt _ hb⟩) := by
  have hq : n.val / b < R := Nat.div_lt_of_lt_mul (lt_of_lt_of_eq n.isLt (hRb.trans (Nat.mul_comm R b)))
  rw [shapeCast_a_1a_apply]
  refine (shapeCast_apply _ h3 (ix1 n) (ix2 (⟨n.val / b, hq⟩ : Fin R) (⟨n.val % b, Nat.mod_lt _ hb⟩ : Fin b)) ?_).trans ?_
  · rw [Shape.rowMajor_val_two, Shape.rowMajor_val_one]
    show n.val / b * b + n.val % b = n.val
    rw [Nat.mul_comm]
    exact Nat.div_add_mod n.val b
  · refine (broadcastInDim_apply _ h2 _ _ (ix2 (0 : Fin 1) (⟨n.val % b, Nat.mod_lt _ hb⟩ : Fin b)) fun ax => ?_).trans
      (shapeCast_a_1a_apply v h1 (0 : Fin 1) _)
    match ax with
    | ⟨0, _⟩ => rfl
    | ⟨1, _⟩ =>
      show n.val % b = if b = 1 then 0 else n.val % b
      split
      · have := Nat.mod_lt n.val hb; omega
      · rfl

/-- One column cut from a matrix [a, b] at offset o and flattened to a vector [a]: at i the matrix's entry (i, k),
    k the column at o. -/
theorem column_cut_apply {α : Type} {a b : Nat} (o : Nat) (D : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (i : Fin a) (k : Fin b) (hk : k.val = o) :
    shapeCast ⟨1, ![a]⟩ (extractStridedSlice ⟨2, ![a, 1]⟩ ![0, o] D hs) hc (ix1 i) = D (ix2 i k) := by
  refine (shapeCast_apply _ hc (ix1 i) (ix2 i (0 : Fin 1)) ?_).trans ?_
  · rw [Shape.rowMajor_val_two, Shape.rowMajor_val_one]
    show i.val * 1 + 0 = i.val
    rw [Nat.mul_one, Nat.add_zero]
  · exact slice2_axis1_apply o D hs i (0 : Fin 1) k (hk.trans (Nat.add_zero o).symm)

end Cert.KernelIdeal.KValue

end
-- ==== Proof.KHostTerms2.lean ====
/-
  Eight windows along the diagonal with the start indices as the program spells them: window m starts at row a * m and
  column b * m, each start a 32-bit integer constant.
-/
import proofs.«120596_j16338055594194_2_alg».proof.Proof.KHostTerms

noncomputable section

namespace Cert.KernelIdeal.KValue

open Cert.KernelIdeal Idealize.ShloMosaic Idealize.ShloMosaic.ValueIdx

/-- A natural number below 2 ^ 31 written as a 32-bit word reads back, signed, as itself. -/
theorem toInt_ofNat_small (p : Nat) (h : p < 2 ^ 31) : (BitVec.ofNat 32 p).toInt = (p : Int) := by
  have hn : (BitVec.ofNat 32 p).toNat = p := by
    rw [BitVec.toNat_ofNat]
    exact Nat.mod_eq_of_lt (by omega)
  rw [BitVec.toInt_eq_toNat_of_lt (by rw [hn]; omega), hn]

/-- The vector of the two start indices (p, q) as the program builds it. -/
abbrev startJoin (h1 : S_.BroadcastsInDim S1 (![] : Fin 0 → Fin S1.rank)) (hc : Shape.Concatenates [S1, S1] S2 0)
    (p q : Nat) : IVec S2 32 :=
  join2 S2 S1 S1 0 hc (broadcastInDim S1 ![] h1 (constantI S_ 32 (BitVec.ofNat 32 p)))
    (broadcastInDim S1 ![] h1 (constantI S_ 32 (BitVec.ofNat 32 q)))

/-- Read as integers they are p and q. -/
theorem startJoin_ints (h1 : S_.BroadcastsInDim S1 (![] : Fin 0 → Fin S1.rank)) (hc : Shape.Concatenates [S1, S1] S2 0)
    (p q : Nat) (hp : p < 2 ^ 31) (hq : q < 2 ^ 31) :
    (startJoin h1 hc p q (ix1 (0 : Fin 2))).toInt = (p : Int) ∧ (startJoin h1 hc p q (ix1 (1 : Fin 2))).toInt = (q : Int) :=
  start_pair_ints h1 hc _ _ p q (toInt_ofNat_small p hp) (toInt_ofNat_small q hq)

section
variable {A B a b : Nat} {α : Type}

/-- Eight windows of U at the starts (a * m, b * m), m = 0 .. 7, written into a matrix that is z0 everywhere and has at
    most 8 * a rows: U[k % a, n % b] where k / a = n / b, z0 elsewhere. -/
theorem diag8_program (ha : 0 < a) (hb : 0 < b) (ha7 : a * 7 < 2 ^ 31) (hb7 : b * 7 < 2 ^ 31)
    (wf : ScatterDims.WF ⟨2, ![A, B]⟩ ⟨1, ![2]⟩ ⟨2, ![a, b]⟩ [0, 1] [] [0, 1] 0)
    (h1 : S_.BroadcastsInDim S1 (![] : Fin 0 → Fin S1.rank)) (hc : Shape.Concatenates [S1, S1] S2 0)
    (U : (⟨2, ![a, b]⟩ : Shape).Idx → α) (z0 : α) (Z : (⟨2, ![A, B]⟩ : Shape).Idx → α) (hZ : ∀ i, Z i = z0)
    (hA : A ≤ a * 8) (k : Fin A) (n : Fin B) :
    Host.scatter (blockDims wf) (fun _ v => v)
      (Host.scatter (blockDims wf) (fun _ v => v)
        (Host.scatter (blockDims wf) (fun _ v => v)
          (Host.scatter (blockDims wf) (fun _ v => v)
            (Host.scatter (blockDims wf) (fun _ v => v)
              (Host.scatter (blockDims wf) (fun _ v => v)
                (Host.scatter (blockDims wf) (fun _ v => v)
                  (Host.scatter (blockDims wf) (fun _ v => v) Z (startJoin h1 hc (a * 0) (b * 0)) U)
                  (startJoin h1 hc (a * 1) (b * 1)) U)
                (startJoin h1 hc (a * 2) (b * 2)) U)
              (startJoin h1 hc (a * 3) (b * 3)) U)
            (startJoin h1 hc (a * 4) (b * 4)) U)
          (startJoin h1 hc (a * 5) (b * 5)) U)
        (startJoin h1 hc (a * 6) (b * 6)) U)
      (startJoin h1 hc (a * 7) (b * 7)) U (ix2 k n)
      = if k.val / a = n.val / b then U (ix2 ⟨k.val % a, Nat.mod_lt _ ha⟩ ⟨n.val % b, Nat.mod_lt _ hb⟩) else z0 := by
  have sa : ∀ m, m ≤ 7 → a * m < 2 ^ 31 := fun m hm => lt_of_le_of_lt (Nat.mul_le_mul_left a hm) ha7
  have sb : ∀ m, m ≤ 7 → b * m < 2 ^ 31 := fun m hm => lt_of_le_of_lt (Nat.mul_le_mul_left b hm) hb7
  exact diag8_apply ha hb wf U z0 Z hZ _ _ _ _ _ _ _ _
    (startJoin_ints h1 hc _ _ (sa 0 (by decide)) (sb 0 (by decide)))
    (startJoin_ints h1 hc _ _ (sa 1 (by decide)) (sb 1 (by decide)))
    (startJoin_ints h1 hc _ _ (sa 2 (by decide)) (sb 2 (by decide)))
    (startJoin_ints h1 hc _ _ (sa 3 (by decide)) (sb 3 (by decide)))
    (startJoin_ints h1 hc _ _ (sa 4 (by decide)) (sb 4 (by decide)))
    (startJoin_ints h1 hc _ _ (sa 5 (by decide)) (sb 5 (by decide)))
    (startJoin_ints h1 hc _ _ (sa 6 (by decide)) (sb 6 (by decide)))
    (startJoin_ints h1 hc _ _ (sa 7 (by decide)) (sb 7 (by decide))) hA k n

end

end Cert.KernelIdeal.KValue

end
-- ==== Proof.KHost0C.lean ====
/-
  What the first region's remaining operands hold when the region is entered, from any buffer contents V0 at launch:
  the 64 x 8 matrix is eight copies of the third-stage weights, transposed, along the diagonal and zero elsewhere; the
  1 x 8 row is the third-stage bias repeated for 8 nodes; the 1 x 32768 row is the layer's bias; and the input in the
  kernel's operand format is the input.
-/
import proofs.«120596_j16338055594194_2_alg».proof.Proof.Gen.KernelIdeal.Launch
import proofs.«120596_j16338055594194_2_alg».proof.Proof.KHostTerms2

noncomputable section

namespace Cert.KernelIdeal.KValue

open Cert.KernelIdeal Cert.KernelIdeal.Gen Idealize.ShloMosaic Idealize.ShloMosaic.ValueIdx Idealize.ShloMosaic.StableHlo

variable (V0 : Valuation τ sig (Elt Ideal))

/-- A buffer's contents read as an array of extended reals of shape S. -/
private abbrev arrOf (S : Shape) (x : S.Idx → EReal) : S.Idx → EReal := x

set_option maxHeartbeats 4000000 in
/-- Entry (k, n) of the 64 x 8 operand: the weight of hidden entry k % 8 when k / 8 = n. -/
theorem host0_v109 (k : Fin 64) (n : Fin 8) :
    arrOf S64x8 (StableHlo.after (hostOps0 (F := Ideal)) V0 (Proc.devRef .tc main_v109)) (ix2 k n)
      = if k.val / 8 = n.val / 1 then
          arrOf S1x8 (V0 (Proc.devRef .tc main_arg15))
            (ix2 (⟨n.val % 1, Nat.mod_lt _ (by decide)⟩ : Fin 1) (⟨k.val % 8, Nat.mod_lt _ (by decide)⟩ : Fin 8))
        else 0 := by
  host_results
  refine (diag8_program (a := 8) (b := 1) (by decide) (by decide) (by decide) (by decide)
    scatter_S64x8_S2_S8x1_01_n_01_0_wf bcast_S_S1 concatenates_S1_S1_S2_d0 _
    (FloatOps.ofBits (F := Ideal) .bf16 0x0000#16) _ (fun _ => rfl) (by decide) k n).trans ?_
  exact if_congr Iff.rfl (transposed_apply _ _ _ _ _) ofBits_zero_bf16

set_option maxHeartbeats 4000000 in
/-- Entry n of the 1 x 8 operand: the third-stage bias. -/
theorem host0_v121 (u : Fin 1) (n : Fin 8) :
    arrOf S1x8 (StableHlo.after (hostOps0 (F := Ideal)) V0 (Proc.devRef .tc main_v121)) (ix2 u n)
      = arrOf S1 (V0 (Proc.devRef .tc main_arg16)) (ix1 (⟨n.val % 1, Nat.mod_lt _ (by decide)⟩ : Fin 1)) := by
  host_results
  exact tile_rows_apply (R := 8) (b := 1) (Rb := 8) rfl (by decide) _ shapeCasts_S1_S1x1 bcast_S1x1_S8x1_0_1
    shapeCasts_S8x1_S8 shapeCasts_S8_S1x8 u n

set_option maxHeartbeats 4000000 in
/-- Entry j of the 1 x 32768 operand: the layer's bias at j. -/
theorem host0_v122 (u : Fin 1) (j : Fin 32768) :
    arrOf S1x32768 (StableHlo.after (hostOps0 (F := Ideal)) V0 (Proc.devRef .tc main_v122)) (ix2 u j)
      = arrOf S32768 (V0 (Proc.devRef .tc main_arg2)) (ix1 j) := by
  host_results
  exact shapeCast_a_1a_apply _ shapeCasts_S32768_S1x32768 u j

set_option maxHeartbeats 4000000 in
/-- The input in the kernel's operand format is the input. -/
theorem host0_v0 (i : S512x1024.Idx) :
    arrOf S512x1024 (StableHlo.after (hostOps0 (F := Ideal)) V0 (Proc.devRef .tc main_v0)) i
      = arrOf S512x1024 (V0 (Proc.devRef .tc main_arg0)) i := by
  host_results
  rfl

end Cert.KernelIdeal.KValue

end
-- ==== Proof.Spec.lean ====
/-
  The network both programs compute, as one function of the seventeen argument arrays, entry by entry,
  on the extended reals.

  Three dense layers of 1024 nodes with 32 channels each.  A layer's pre-activation at row r and
  column j (= node * 32 + channel) is  sum_k x[r,k] * W[j,k] + b[j].  Every node then goes through the same small
  perceptron 32 -> 15 -> 8 -> 1 with the leaky rectifier after each of its three stages; the first stage's bias
  is Db1 plus column 32 + l of Dw1, where l is the layer's number.  Layer 1 adds to its own pre-activation the
  skip pre-activation of the input x under (Ws02, bs02); layer 2 adds the skip pre-activation of layer 0's output
  under (Ws13, bs13).
-/
import Idealize.ShloMosaic.PureOps.Ideal
import Idealize.ShloMosaic.Lib.ValueIdx

noncomputable section

namespace Cert.DanSpec

open Idealize.ShloMosaic Idealize.ShloMosaic.ValueIdx

/-- A matrix of extended reals, indexed as the programs index a rank-2 array. -/
abbrev Mat (n0 n1 : Nat) : Type := (⟨2, ![n0, n1]⟩ : Shape).Idx → EReal
/-- A vector of extended reals, indexed as the programs index a rank-1 array. -/
abbrev Vct (n : Nat) : Type := (⟨1, ![n]⟩ : Shape).Idx → EReal

/-- The rectifier's slope, the single-precision number nearest 1/100, as both programs spell it. -/
def slope : EReal := Ideal.ofBits .f32 0x3C23D70A#32

/-- Zero, as both programs spell it. -/
def zero : EReal := Ideal.ofBits .f32 0x00000000#32

/-- The leaky rectifier: x where 0 ≤ x, slope * x elsewhere. -/
def lrelu (x : EReal) : EReal := Scalar.select (Ideal.cmp .oge x zero) x (slope * x)

/-- A dense layer's pre-activation at row r, column j:  sum_k x[r,k] * W[j,k] + b[j]. -/
def lin (x : Mat 512 1024) (W : Mat 32768 1024) (b : Vct 32768) (r : Fin 512) (j : Fin 32768) : EReal :=
  (∑ k : Fin 1024, x (ix2 r k) * W (ix2 j k)) + b (ix1 j)

/-- Channel c of node n sits at column n * 32 + c. -/
def col (n : Fin 1024) (c : Fin 32) : Fin 32768 := ⟨n.val * 32 + c.val, by omega⟩

/-- Column c < 32 of the first stage's weights. -/
def chan (c : Fin 32) : Fin 35 := ⟨c.val, by omega⟩

/-- Column 32 + l of the first stage's weights: the layer's code. -/
def code (l : Fin 3) : Fin 35 := ⟨32 + l.val, by omega⟩

/-- The perceptron every node shares, on the node's 32 channels z, in layer l. -/
def node (l : Fin 3) (Dw1 : Mat 15 35) (Db1 : Vct 15) (Dw2 : Mat 8 15) (Db2 : Vct 8) (Dw3 : Mat 1 8) (Db3 : Vct 1)
    (z : Fin 32 → EReal) : EReal :=
  let h1 : Fin 15 → EReal := fun h =>
    lrelu ((∑ c : Fin 32, z c * Dw1 (ix2 h (chan c))) + (Db1 (ix1 h) + Dw1 (ix2 h (code l))))
  let h2 : Fin 8 → EReal := fun o => lrelu ((∑ h : Fin 15, h1 h * Dw2 (ix2 o h)) + Db2 (ix1 o))
  lrelu ((∑ o : Fin 8, h2 o * Dw3 (ix2 (0 : Fin 1) o)) + Db3 (ix1 (0 : Fin 1)))

/-- A layer's output at row r, node n, from its pre-activation. -/
def dan (l : Fin 3) (Dw1 : Mat 15 35) (Db1 : Vct 15) (Dw2 : Mat 8 15) (Db2 : Vct 8) (Dw3 : Mat 1 8) (Db3 : Vct 1)
    (pre : Fin 512 → Fin 32768 → EReal) (r : Fin 512) (n : Fin 1024) : EReal :=
  node l Dw1 Db1 Dw2 Db2 Dw3 Db3 (fun c => pre r (col n c))

/-- A layer's output as a matrix. -/
def asMat (f : Fin 512 → Fin 1024 → EReal) : Mat 512 1024 := fun i => f (i 0) (i 1)

/-- Layer 0's output. -/
def h0 (x : Mat 512 1024) (W0 : Mat 32768 1024) (b0 : Vct 32768)
    (Dw1 : Mat 15 35) (Db1 : Vct 15) (Dw2 : Mat 8 15) (Db2 : Vct 8) (Dw3 : Mat 1 8) (Db3 : Vct 1) : Mat 512 1024 :=
  asMat (dan 0 Dw1 Db1 Dw2 Db2 Dw3 Db3 (lin x W0 b0))

/-- Layer 1's output: its own pre-activation of layer 0's output plus the skip pre-activation of x. -/
def h1 (x : Mat 512 1024) (W0 : Mat 32768 1024) (b0 : Vct 32768) (W1 : Mat 32768 1024) (b1 : Vct 32768)
    (Ws02 : Mat 32768 1024) (bs02 : Vct 32768)
    (Dw1 : Mat 15 35) (Db1 : Vct 15) (Dw2 : Mat 8 15) (Db2 : Vct 8) (Dw3 : Mat 1 8) (Db3 : Vct 1) : Mat 512 1024 :=
  asMat (dan 1 Dw1 Db1 Dw2 Db2 Dw3 Db3
    (fun r j => lin (h0 x W0 b0 Dw1 Db1 Dw2 Db2 Dw3 Db3) W1 b1 r j + lin x Ws02 bs02 r j))

/-- The network: layer 2's output, its own pre-activation of layer 1's output plus the skip pre-activation
    of layer 0's output.  The arguments come in the programs' order. -/
def net (x : Mat 512 1024) (W0 : Mat 32768 1024) (b0 : Vct 32768) (W1 : Mat 32768 1024) (b1 : Vct 32768)
    (W2 : Mat 32768 1024) (b2 : Vct 32768) (Ws02 : Mat 32768 1024) (bs02 : Vct 32768)
    (Ws13 : Mat 32768 1024) (bs13 : Vct 32768)
    (Dw1 : Mat 15 35) (Db1 : Vct 15) (Dw2 : Mat 8 15) (Db2 : Vct 8) (Dw3 : Mat 1 8) (Db3 : Vct 1) : Mat 512 1024 :=
  asMat (dan 2 Dw1 Db1 Dw2 Db2 Dw3 Db3
    (fun r j => lin (h1 x W0 b0 W1 b1 Ws02 bs02 Dw1 Db1 Dw2 Db2 Dw3 Db3) W2 b2 r j
      + lin (h0 x W0 b0 Dw1 Db1 Dw2 Db2 Dw3 Db3) Ws13 bs13 r j))

end Cert.DanSpec

end
-- ==== Proof.KSpec.lean ====
/-
  The form in which the kernel computes a layer.  A layer's 1024 nodes are handled eight at a time: the eight
  nodes' 256 pre-activation columns are multiplied by a 256 x 120 matrix, the result (after bias and the leaky
  rectifier) by a 120 x 64 matrix, and that (after bias and rectifier) by a 64 x 8 matrix, bias and rectifier
  once more; column j of the last result is node j of the eight.  When the three matrices hold the shared
  perceptron's weights in their eight diagonal blocks and zero elsewhere, and the bias rows repeat the
  perceptron's biases eight times, this is the specification's layer: a product with an off-block zero adds
  nothing, so each wide sum collapses to the one block's sum.
-/
import proofs.«120596_j16338055594194_2_alg».proof.Proof.Spec

noncomputable section

namespace Cert.DanSpec

open Idealize.ShloMosaic Idealize.ShloMosaic.ValueIdx

/-- Column `k` of the eight nodes' slice that holds node `n`: columns (n / 8) * 256 .. + 255. -/
def wideCol (n : Fin 1024) (k : Fin 256) : Fin 32768 := ⟨n.val / 8 * 256 + k.val, by omega⟩

/-- A layer's output at row r, node n, computed eight nodes at a time through the three wide matrices. -/
def kdan (B1 : Mat 256 120) (c1 : Mat 1 120) (B2 : Mat 120 64) (c2 : Mat 1 64) (B3 : Mat 64 8) (c3 : Mat 1 8)
    (pre : Fin 512 → Fin 32768 → EReal) (r : Fin 512) (n : Fin 1024) : EReal :=
  let g1 : Fin 120 → EReal := fun a =>
    lrelu ((∑ k : Fin 256, pre r (wideCol n k) * B1 (ix2 k a)) + c1 (ix2 (0 : Fin 1) a))
  let g2 : Fin 64 → EReal := fun a => lrelu ((∑ k : Fin 120, g1 k * B2 (ix2 k a)) + c2 (ix2 (0 : Fin 1) a))
  lrelu ((∑ k : Fin 64, g2 k * B3 (ix2 k (⟨n.val % 8, by omega⟩ : Fin 8))) + c3 (ix2 (0 : Fin 1) (⟨n.val % 8, by omega⟩ : Fin 8)))

/-- The three wide matrices and bias rows are the shared perceptron's, laid out block-diagonally for layer l. -/
structure Wide (l : Fin 3) (Dw1 : Mat 15 35) (Db1 : Vct 15) (Dw2 : Mat 8 15) (Db2 : Vct 8) (Dw3 : Mat 1 8) (Db3 : Vct 1)
    (B1 : Mat 256 120) (c1 : Mat 1 120) (B2 : Mat 120 64) (c2 : Mat 1 64) (B3 : Mat 64 8) (c3 : Mat 1 8) : Prop where
  hB1 : ∀ (k : Fin 256) (a : Fin 120), B1 (ix2 k a)
    = if k.val / 32 = a.val / 15 then Dw1 (ix2 (⟨a.val % 15, by omega⟩ : Fin 15) (chan ⟨k.val % 32, by omega⟩)) else 0
  hc1 : ∀ a : Fin 120, c1 (ix2 (0 : Fin 1) a)
    = Db1 (ix1 (⟨a.val % 15, by omega⟩ : Fin 15)) + Dw1 (ix2 (⟨a.val % 15, by omega⟩ : Fin 15) (code l))
  hB2 : ∀ (k : Fin 120) (a : Fin 64), B2 (ix2 k a)
    = if k.val / 15 = a.val / 8 then Dw2 (ix2 (⟨a.val % 8, by omega⟩ : Fin 8) (⟨k.val % 15, by omega⟩ : Fin 15)) else 0
  hc2 : ∀ a : Fin 64, c2 (ix2 (0 : Fin 1) a) = Db2 (ix1 (⟨a.val % 8, by omega⟩ : Fin 8))
  hB3 : ∀ (k : Fin 64) (a : Fin 8), B3 (ix2 k a)
    = if k.val / 8 = a.val then Dw3 (ix2 (0 : Fin 1) (⟨k.val % 8, by omega⟩ : Fin 8)) else 0
  hc3 : ∀ a : Fin 8, c3 (ix2 (0 : Fin 1) a) = Db3 (ix1 (0 : Fin 1))

end Cert.DanSpec

end
-- ==== Proof.KHost0A.lean ====
/-
  What the first region's first-stage operands hold when the region is entered, from any buffer contents V0 at launch:
  the 256 x 120 matrix is eight copies of the leading 32 columns of the first-stage weights, transposed, along the diagonal
  and zero elsewhere; the 1 x 120 row is the first-stage bias plus the weights' column 32, repeated for 8 nodes.
-/
import proofs.«120596_j16338055594194_2_alg».proof.Proof.Gen.KernelIdeal.Launch
import proofs.«120596_j16338055594194_2_alg».proof.Proof.KHostTerms2

noncomputable section

namespace Cert.KernelIdeal.KValue

open Cert.KernelIdeal Cert.KernelIdeal.Gen Idealize.ShloMosaic Idealize.ShloMosaic.ValueIdx Idealize.ShloMosaic.StableHlo

variable (V0 : Valuation τ sig (Elt Ideal))

/-- A buffer's contents read as an array of extended reals of shape S. -/
private abbrev arrOf (S : Shape) (x : S.Idx → EReal) : S.Idx → EReal := x

set_option maxHeartbeats 4000000 in
/-- Entry (k, n) of the 256 x 120 operand: the weight of channel k % 32 in hidden entry n % 15 when k / 32 = n / 15. -/
theorem host0_v39 (k : Fin 256) (n : Fin 120) :
    arrOf S256x120 (StableHlo.after (hostOps0 (F := Ideal)) V0 (Proc.devRef .tc main_v39)) (ix2 k n)
      = if k.val / 32 = n.val / 15 then
          arrOf S15x35 (V0 (Proc.devRef .tc main_arg11))
            (ix2 (⟨n.val % 15, Nat.mod_lt _ (by decide)⟩ : Fin 15) (⟨k.val % 32, by omega⟩ : Fin 35))
        else 0 := by
  host_results
  refine (diag8_program (a := 32) (b := 15) (by decide) (by decide) (by decide) (by decide)
    scatter_S256x120_S2_S32x15_01_n_01_0_wf bcast_S_S1 concatenates_S1_S1_S2_d0 _
    (FloatOps.ofBits (F := Ideal) .bf16 0x0000#16) _ (fun _ => rfl) (by decide) k n).trans ?_
  exact if_congr Iff.rfl (transposed_leading_apply _ _ _ _ _ _ _ rfl) ofBits_zero_bf16

set_option maxHeartbeats 4000000 in
/-- Entry n of the 1 x 120 operand: the bias of hidden entry n % 15 plus its weight in column 32. -/
theorem host0_v113 (u : Fin 1) (n : Fin 120) :
    arrOf S1x120 (StableHlo.after (hostOps0 (F := Ideal)) V0 (Proc.devRef .tc main_v113)) (ix2 u n)
      = arrOf S15 (V0 (Proc.devRef .tc main_arg12)) (ix1 (⟨n.val % 15, Nat.mod_lt _ (by decide)⟩ : Fin 15))
        + arrOf S15x35 (V0 (Proc.devRef .tc main_arg11))
            (ix2 (⟨n.val % 15, Nat.mod_lt _ (by decide)⟩ : Fin 15) (⟨32, by decide⟩ : Fin 35)) := by
  host_results
  refine (tile_rows_apply (R := 8) (b := 15) (Rb := 120) rfl (by decide) _ shapeCasts_S15_S1x15 bcast_S1x15_S8x15_0_1
    shapeCasts_S8x15_S120 shapeCasts_S120_S1x120 u n).trans ?_
  rw [addf_apply]
  exact congrArg (fun t : EReal => arrOf S15 (V0 (Proc.devRef .tc main_arg12))
      (ix1 (⟨n.val % 15, Nat.mod_lt _ (by decide)⟩ : Fin 15)) + t)
    (column_cut_apply 32 _ slices_S15x35_S15x1_0_32 shapeCasts_S15x1_S15 _ _ rfl)

end Cert.KernelIdeal.KValue

end
-- ==== Proof.KHost0B.lean ====
/-
  What the first region's second-stage operands hold when the region is entered, from any buffer contents V0 at launch:
  the 120 x 64 matrix is eight copies of the second-stage weights, transposed, along the diagonal and zero elsewhere; the
  1 x 64 row is the second-stage bias repeated for 8 nodes.
-/
import proofs.«120596_j16338055594194_2_alg».proof.Proof.Gen.KernelIdeal.Launch
import proofs.«120596_j16338055594194_2_alg».proof.Proof.KHostTerms2

noncomputable section

namespace Cert.KernelIdeal.KValue

open Cert.KernelIdeal Cert.KernelIdeal.Gen Idealize.ShloMosaic Idealize.ShloMosaic.ValueIdx Idealize.ShloMosaic.StableHlo

variable (V0 : Valuation τ sig (Elt Ideal))

/-- A buffer's contents read as an array of extended reals of shape S. -/
private abbrev arrOf (S : Shape) (x : S.Idx → EReal) : S.Idx → EReal := x

set_option maxHeartbeats 4000000 in
/-- Entry (k, n) of the 120 x 64 operand: the weight of hidden entry k % 15 in output n % 8 when k / 15 = n / 8. -/
theorem host0_v74 (k : Fin 120) (n : Fin 64) :
    arrOf S120x64 (StableHlo.after (hostOps0 (F := Ideal)) V0 (Proc.devRef .tc main_v74)) (ix2 k n)
      = if k.val / 15 = n.val / 8 then
          arrOf S8x15 (V0 (Proc.devRef .tc main_arg13))
            (ix2 (⟨n.val % 8, Nat.mod_lt _ (by decide)⟩ : Fin 8) (⟨k.val % 15, Nat.mod_lt _ (by decide)⟩ : Fin 15))
        else 0 := by
  host_results
  refine (diag8_program (a := 15) (b := 8) (by decide) (by decide) (by decide) (by decide)
    scatter_S120x64_S2_S15x8_01_n_01_0_wf bcast_S_S1 concatenates_S1_S1_S2_d0 _
    (FloatOps.ofBits (F := Ideal) .bf16 0x0000#16) _ (fun _ => rfl) (by decide) k n).trans ?_
  exact if_congr Iff.rfl (transposed_apply _ _ _ _ _) ofBits_zero_bf16

set_option maxHeartbeats 4000000 in
/-- Entry n of the 1 x 64 operand: the bias of output n % 8. -/
theorem host0_v117 (u : Fin 1) (n : Fin 64) :
    arrOf S1x64 (StableHlo.after (hostOps0 (F := Ideal)) V0 (Proc.devRef .tc main_v117)) (ix2 u n)
      = arrOf S8 (V0 (Proc.devRef .tc main_arg14)) (ix1 (⟨n.val % 8, Nat.mod_lt _ (by decide)⟩ : Fin 8)) := by
  host_results
  exact tile_rows_apply (R := 8) (b := 8) (Rb := 64) rfl (by decide) _ shapeCasts_S8_S1x8 bcast_S1x8_S8x8_0_1
    shapeCasts_S8x8_S64 shapeCasts_S64_S1x64 u n

end Cert.KernelIdeal.KValue

end
-- ==== Proof.KHost0.lean ====
/-
  What the first region finds in its operands, in the terms of the layer's wide form: the three wide matrices and bias
  rows built by the host operations before the region are the shared perceptron's weights and biases of layer 0 laid out
  block-diagonally; the input in the kernel's operand format is the input; the bias row is the layer's bias.
-/
import proofs.«120596_j16338055594194_2_alg».proof.Proof.KRunVals
import proofs.«120596_j16338055594194_2_alg».proof.Proof.KSpec
import proofs.«120596_j16338055594194_2_alg».proof.Proof.KHost0A
import proofs.«120596_j16338055594194_2_alg».proof.Proof.KHost0B
import proofs.«120596_j16338055594194_2_alg».proof.Proof.KHost0C

noncomputable section

namespace Cert.KernelIdeal.KValue

open Cert.KernelIdeal Cert.KernelIdeal.Gen Cert.KernelIdeal.KRun
open Idealize.ShloMosaic Idealize.ShloMosaic.TcCoe Idealize.ShloMosaic.ValueIdx Idealize.SL.Sem

variable (m : (ℓ : Loc nD τ sig) → Buf (Elt Ideal) ℓ) (ρ : Dev nD → PrngReg)

/-- At the first region's entry the wide matrices and bias rows are layer 0's. -/
theorem wide0 (c : Dev nD) :
    Cert.DanSpec.Wide 0 (m ((c.tc : Thread nD τ).loc main_arg11)) (m ((c.tc : Thread nD τ).loc main_arg12))
      (m ((c.tc : Thread nD τ).loc main_arg13)) (m ((c.tc : Thread nD τ).loc main_arg14))
      (m ((c.tc : Thread nD τ).loc main_arg15)) (m ((c.tc : Thread nD τ).loc main_arg16))
      (V1 (F := Ideal) m ρ c main_v39) (V1 (F := Ideal) m ρ c main_v113) (V1 (F := Ideal) m ρ c main_v74)
      (V1 (F := Ideal) m ρ c main_v117) (V1 (F := Ideal) m ρ c main_v109) (V1 (F := Ideal) m ρ c main_v121) where
  hB1 := fun k a => host0_v39 (W0 (F := Ideal) m ρ c) k a
  hc1 := fun a => host0_v113 (W0 (F := Ideal) m ρ c) 0 a
  hB2 := fun k a => host0_v74 (W0 (F := Ideal) m ρ c) k a
  hc2 := fun a => host0_v117 (W0 (F := Ideal) m ρ c) 0 a
  hB3 := fun k a => (host0_v109 (W0 (F := Ideal) m ρ c) k a).trans
    (if_congr (by rw [Nat.div_one])
      (congrArg (fun p : Fin 1 => (m ((c.tc : Thread nD τ).loc main_arg15) : Cert.DanSpec.Mat 1 8)
        (ix2 p (⟨k.val % 8, Nat.mod_lt _ (by decide)⟩ : Fin 8))) (Fin.ext (Nat.mod_one a.val))) rfl)
  hc3 := fun a => (host0_v121 (W0 (F := Ideal) m ρ c) 0 a).trans
    (congrArg (fun p : Fin 1 => (m ((c.tc : Thread nD τ).loc main_arg16) : Cert.DanSpec.Vct 1) (ix1 p))
      (Fin.ext (Nat.mod_one a.val)))

/-- The input in the kernel's operand format is the input. -/
theorem x_bf (c : Dev nD) :
    (V1 (F := Ideal) m ρ c main_v0 : Cert.DanSpec.Mat 512 1024) = m ((c.tc : Thread nD τ).loc main_arg0) :=
  funext fun i => host0_v0 (W0 (F := Ideal) m ρ c) i

/-- The first region's bias row is the layer's bias. -/
theorem b0_row (c : Dev nD) (j : Fin 32768) :
    (V1 (F := Ideal) m ρ c main_v122 : Cert.DanSpec.Mat 1 32768) (ix2 (0 : Fin 1) j)
      = (m ((c.tc : Thread nD τ).loc main_arg2) : Cert.DanSpec.Vct 32768) (ix1 j) :=
  host0_v122 (W0 (F := Ideal) m ρ c) 0 j

end Cert.KernelIdeal.KValue

end
-- ==== Proof.KHost1.lean ====
/-
  What the second region finds in its operands, from any buffer contents V0 before the two host operations that precede
  it: layer 0's output in the kernel's operand format is that output, and the 1 x 32768 row is the skip term's bias.
-/
import proofs.«120596_j16338055594194_2_alg».proof.Proof.Gen.KernelIdeal.Launch
import proofs.«120596_j16338055594194_2_alg».proof.Proof.KHostTerms2

noncomputable section

namespace Cert.KernelIdeal.KValue

open Cert.KernelIdeal Cert.KernelIdeal.Gen Idealize.ShloMosaic Idealize.ShloMosaic.ValueIdx Idealize.ShloMosaic.StableHlo

variable (V0 : Valuation τ sig (Elt Ideal))

/-- A buffer's contents read as an array of extended reals of shape S. -/
private abbrev arrOf (S : Shape) (x : S.Idx → EReal) : S.Idx → EReal := x

/-- Layer 0's output in the kernel's operand format is that output. -/
theorem host1_v124 (i : S512x1024.Idx) :
    arrOf S512x1024 (StableHlo.after (hostOps1 (F := Ideal)) V0 (Proc.devRef .tc main_v124)) i
      = arrOf S512x1024 (V0 (Proc.devRef .tc main_v123)) i := by
  host_results
  rfl

/-- Entry j of the 1 x 32768 operand: the skip term's bias at j. -/
theorem host1_v125 (u : Fin 1) (j : Fin 32768) :
    arrOf S1x32768 (StableHlo.after (hostOps1 (F := Ideal)) V0 (Proc.devRef .tc main_v125)) (ix2 u j)
      = arrOf S32768 (V0 (Proc.devRef .tc main_arg10)) (ix1 j) := by
  host_results
  exact shapeCast_a_1a_apply _ shapeCasts_S32768_S1x32768 u j

end Cert.KernelIdeal.KValue

end
-- ==== Proof.KHost2B.lean ====
/-
  What the third region's remaining operands hold when the region is entered, from any buffer contents V0 before the
  host operations that precede it: the 120 x 64 and 64 x 8 matrices are eight copies of the second- and third-stage
  weights, transposed, along the diagonal and zero elsewhere; the 1 x 64 and 1 x 8 rows are those stages' biases repeated
  for 8 nodes; the two 1 x 32768 rows are the layer's bias and the skip term's bias.
-/
import proofs.«120596_j16338055594194_2_alg».proof.Proof.Gen.KernelIdeal.Launch
import proofs.«120596_j16338055594194_2_alg».proof.Proof.KHostTerms2

noncomputable section

namespace Cert.KernelIdeal.KValue

open Cert.KernelIdeal Cert.KernelIdeal.Gen Idealize.ShloMosaic Idealize.ShloMosaic.ValueIdx Idealize.ShloMosaic.StableHlo

variable (V0 : Valuation τ sig (Elt Ideal))

/-- A buffer's contents read as an array of extended reals of shape S. -/
private abbrev arrOf (S : Shape) (x : S.Idx → EReal) : S.Idx → EReal := x

set_option maxHeartbeats 4000000 in
/-- Entry (k, n) of the 120 x 64 operand: the weight of hidden entry k % 15 in output n % 8 when k / 15 = n / 8. -/
theorem host2_v200 (k : Fin 120) (n : Fin 64) :
    arrOf S120x64 (StableHlo.after (hostOps2 (F := Ideal)) V0 (Proc.devRef .tc main_v200)) (ix2 k n)
      = if k.val / 15 = n.val / 8 then
          arrOf S8x15 (V0 (Proc.devRef .tc main_arg13))
            (ix2 (⟨n.val % 8, Nat.mod_lt _ (by decide)⟩ : Fin 8) (⟨k.val % 15, Nat.mod_lt _ (by decide)⟩ : Fin 15))
        else 0 := by
  host_results
  refine (diag8_program (a := 15) (b := 8) (by decide) (by decide) (by decide) (by decide)
    scatter_S120x64_S2_S15x8_01_n_01_0_wf bcast_S_S1 concatenates_S1_S1_S2_d0 _
    (FloatOps.ofBits (F := Ideal) .bf16 0x0000#16) _ (fun _ => rfl) (by decide) k n).trans ?_
  exact if_congr Iff.rfl (transposed_apply _ _ _ _ _) ofBits_zero_bf16

set_option maxHeartbeats 4000000 in
/-- Entry n of the 1 x 64 operand: the bias of output n % 8. -/
theorem host2_v243 (u : Fin 1) (n : Fin 64) :
    arrOf S1x64 (StableHlo.after (hostOps2 (F := Ideal)) V0 (Proc.devRef .tc main_v243)) (ix2 u n)
      = arrOf S8 (V0 (Proc.devRef .tc main_arg14)) (ix1 (⟨n.val % 8, Nat.mod_lt _ (by decide)⟩ : Fin 8)) := by
  host_results
  exact tile_rows_apply (R := 8) (b := 8) (Rb := 64) rfl (by decide) _ shapeCasts_S8_S1x8 bcast_S1x8_S8x8_0_1
    shapeCasts_S8x8_S64 shapeCasts_S64_S1x64 u n

set_option maxHeartbeats 4000000 in
/-- Entry (k, n) of the 64 x 8 operand: the weight of hidden entry k % 8 when k / 8 = n. -/
theorem host2_v235 (k : Fin 64) (n : Fin 8) :
    arrOf S64x8 (StableHlo.after (hostOps2 (F := Ideal)) V0 (Proc.devRef .tc main_v235)) (ix2 k n)
      = if k.val / 8 = n.val / 1 then
          arrOf S1x8 (V0 (Proc.devRef .tc main_arg15))
            (ix2 (⟨n.val % 1, Nat.mod_lt _ (by decide)⟩ : Fin 1) (⟨k.val % 8, Nat.mod_lt _ (by decide)⟩ : Fin 8))
        else 0 := by
  host_results
  refine (diag8_program (a := 8) (b := 1) (by decide) (by decide) (by decide) (by decide)
    scatter_S64x8_S2_S8x1_01_n_01_0_wf bcast_S_S1 concatenates_S1_S1_S2_d0 _
    (FloatOps.ofBits (F := Ideal) .bf16 0x0000#16) _ (fun _ => rfl) (by decide) k n).trans ?_
  exact if_congr Iff.rfl (transposed_apply _ _ _ _ _) ofBits_zero_bf16

set_option maxHeartbeats 4000000 in
/-- Entry n of the 1 x 8 operand: the third-stage bias. -/
theorem host2_v247 (u : Fin 1) (n : Fin 8) :
    arrOf S1x8 (StableHlo.after (hostOps2 (F := Ideal)) V0 (Proc.devRef .tc main_v247)) (ix2 u n)
      = arrOf S1 (V0 (Proc.devRef .tc main_arg16)) (ix1 (⟨n.val % 1, Nat.mod_lt _ (by decide)⟩ : Fin 1)) := by
  host_results
  exact tile_rows_apply (R := 8) (b := 1) (Rb := 8) rfl (by decide) _ shapeCasts_S1_S1x1 bcast_S1x1_S8x1_0_1
    shapeCasts_S8x1_S8 shapeCasts_S8_S1x8 u n

set_option maxHeartbeats 4000000 in
/-- Entry j of the first 1 x 32768 operand: the layer's bias at j. -/
theorem host2_v248 (u : Fin 1) (j : Fin 32768) :
    arrOf S1x32768 (StableHlo.after (hostOps2 (F := Ideal)) V0 (Proc.devRef .tc main_v248)) (ix2 u j)
      = arrOf S32768 (V0 (Proc.devRef .tc main_arg4)) (ix1 j) := by
  host_results
  exact shapeCast_a_1a_apply _ shapeCasts_S32768_S1x32768 u j

set_option maxHeartbeats 4000000 in
/-- Entry j of the second 1 x 32768 operand: the skip term's bias at j. -/
theorem host2_v249 (u : Fin 1) (j : Fin 32768) :
    arrOf S1x32768 (StableHlo.after (hostOps2 (F := Ideal)) V0 (Proc.devRef .tc main_v249)) (ix2 u j)
      = arrOf S32768 (V0 (Proc.devRef .tc main_arg8)) (ix1 j) := by
  host_results
  exact shapeCast_a_1a_apply _ shapeCasts_S32768_S1x32768 u j

end Cert.KernelIdeal.KValue

end
-- ==== Proof.KHost3B.lean ====
/-
  What the fourth region's remaining operands hold when the region is entered, from any buffer contents V0 before the
  host operations that precede it: the 120 x 64 and 64 x 8 matrices are eight copies of the second- and third-stage
  weights, transposed, along the diagonal and zero elsewhere; the 1 x 64 and 1 x 8 rows are those stages' biases repeated
  for 8 nodes; the 1 x 32768 row is the layer's bias; and the previous layer's output in the kernel's operand format is
  that output.
-/
import proofs.«120596_j16338055594194_2_alg».proof.Proof.Gen.KernelIdeal.Launch
import proofs.«120596_j16338055594194_2_alg».proof.Proof.KHostTerms2

noncomputable section

namespace Cert.KernelIdeal.KValue

open Cert.KernelIdeal Cert.KernelIdeal.Gen Idealize.ShloMosaic Idealize.ShloMosaic.ValueIdx Idealize.ShloMosaic.StableHlo

variable (V0 : Valuation τ sig (Elt Ideal))

/-- A buffer's contents read as an array of extended reals of shape S. -/
private abbrev arrOf (S : Shape) (x : S.Idx → EReal) : S.Idx → EReal := x

set_option maxHeartbeats 4000000 in
/-- Entry (k, n) of the 120 x 64 operand: the weight of hidden entry k % 15 in output n % 8 when k / 15 = n / 8. -/
theorem host3_v325 (k : Fin 120) (n : Fin 64) :
    arrOf S120x64 (StableHlo.after (hostOps3 (F := Ideal)) V0 (Proc.devRef .tc main_v325)) (ix2 k n)
      = if k.val / 15 = n.val / 8 then
          arrOf S8x15 (V0 (Proc.devRef .tc main_arg13))
            (ix2 (⟨n.val % 8, Nat.mod_lt _ (by decide)⟩ : Fin 8) (⟨k.val % 15, Nat.mod_lt _ (by decide)⟩ : Fin 15))
        else 0 := by
  host_results
  refine (diag8_program (a := 15) (b := 8) (by decide) (by decide) (by decide) (by decide)
    scatter_S120x64_S2_S15x8_01_n_01_0_wf bcast_S_S1 concatenates_S1_S1_S2_d0 _
    (FloatOps.ofBits (F := Ideal) .bf16 0x0000#16) _ (fun _ => rfl) (by decide) k n).trans ?_
  exact if_congr Iff.rfl (transposed_apply _ _ _ _ _) ofBits_zero_bf16

set_option maxHeartbeats 4000000 in
/-- Entry n of the 1 x 64 operand: the bias of output n % 8. -/
theorem host3_v368 (u : Fin 1) (n : Fin 64) :
    arrOf S1x64 (StableHlo.after (hostOps3 (F := Ideal)) V0 (Proc.devRef .tc main_v368)) (ix2 u n)
      = arrOf S8 (V0 (Proc.devRef .tc main_arg14)) (ix1 (⟨n.val % 8, Nat.mod_lt _ (by decide)⟩ : Fin 8)) := by
  host_results
  exact tile_rows_apply (R := 8) (b := 8) (Rb := 64) rfl (by decide) _ shapeCasts_S8_S1x8 bcast_S1x8_S8x8_0_1
    shapeCasts_S8x8_S64 shapeCasts_S64_S1x64 u n

set_option maxHeartbeats 4000000 in
/-- Entry (k, n) of the 64 x 8 operand: the weight of hidden entry k % 8 when k / 8 = n. -/
theorem host3_v360 (k : Fin 64) (n : Fin 8) :
    arrOf S64x8 (StableHlo.after (hostOps3 (F := Ideal)) V0 (Proc.devRef .tc main_v360)) (ix2 k n)
      = if k.val / 8 = n.val / 1 then
          arrOf S1x8 (V0 (Proc.devRef .tc main_arg15))
            (ix2 (⟨n.val % 1, Nat.mod_lt _ (by decide)⟩ : Fin 1) (⟨k.val % 8, Nat.mod_lt _ (by decide)⟩ : Fin 8))
        else 0 := by
  host_results
  refine (diag8_program (a := 8) (b := 1) (by decide) (by decide) (by decide) (by decide)
    scatter_S64x8_S2_S8x1_01_n_01_0_wf bcast_S_S1 concatenates_S1_S1_S2_d0 _
    (FloatOps.ofBits (F := Ideal) .bf16 0x0000#16) _ (fun _ => rfl) (by decide) k n).trans ?_
  exact if_congr Iff.rfl (transposed_apply _ _ _ _ _) ofBits_zero_bf16

set_option maxHeartbeats 4000000 in
/-- Entry n of the 1 x 8 operand: the third-stage bias. -/
theorem host3_v372 (u : Fin 1) (n : Fin 8) :
    arrOf S1x8 (StableHlo.after (hostOps3 (F := Ideal)) V0 (Proc.devRef .tc main_v372)) (ix2 u n)
      = arrOf S1 (V0 (Proc.devRef .tc main_arg16)) (ix1 (⟨n.val % 1, Nat.mod_lt _ (by decide)⟩ : Fin 1)) := by
  host_results
  exact tile_rows_apply (R := 8) (b := 1) (Rb := 8) rfl (by decide) _ shapeCasts_S1_S1x1 bcast_S1x1_S8x1_0_1
    shapeCasts_S8x1_S8 shapeCasts_S8_S1x8 u n

set_option maxHeartbeats 4000000 in
/-- Entry j of the 1 x 32768 operand: the layer's bias at j. -/
theorem host3_v373 (u : Fin 1) (j : Fin 32768) :
    arrOf S1x32768 (StableHlo.after (hostOps3 (F := Ideal)) V0 (Proc.devRef .tc main_v373)) (ix2 u j)
      = arrOf S32768 (V0 (Proc.devRef .tc main_arg6)) (ix1 j) := by
  host_results
  exact shapeCast_a_1a_apply _ shapeCasts_S32768_S1x32768 u j

set_option maxHeartbeats 4000000 in
/-- The previous layer's output in the kernel's operand format is that output. -/
theorem host3_v251 (i : S512x1024.Idx) :
    arrOf S512x1024 (StableHlo.after (hostOps3 (F := Ideal)) V0 (Proc.devRef .tc main_v251)) i
      = arrOf S512x1024 (V0 (Proc.devRef .tc main_v250)) i := by
  host_results
  rfl

end Cert.KernelIdeal.KValue

end
-- ==== Proof.KHost2A.lean ====
/-
  What the third region's first-stage operands hold when the region is entered, from any buffer contents V0 before the
  host operations that precede it: the 256 x 120 matrix is eight copies of the leading 32 columns of the first-stage
  weights, transposed, along the diagonal and zero elsewhere; the 1 x 120 row is the first-stage bias plus the weights'
  column 33, repeated for 8 nodes.
-/
import proofs.«120596_j16338055594194_2_alg».proof.Proof.Gen.KernelIdeal.Launch
import proofs.«120596_j16338055594194_2_alg».proof.Proof.KHostTerms2

noncomputable section

namespace Cert.KernelIdeal.KValue

open Cert.KernelIdeal Cert.KernelIdeal.Gen Idealize.ShloMosaic Idealize.ShloMosaic.ValueIdx Idealize.ShloMosaic.StableHlo

variable (V0 : Valuation τ sig (Elt Ideal))

/-- A buffer's contents read as an array of extended reals of shape S. -/
private abbrev arrOf (S : Shape) (x : S.Idx → EReal) : S.Idx → EReal := x

set_option maxHeartbeats 4000000 in
/-- Entry (k, n) of the 256 x 120 operand: the weight of channel k % 32 in hidden entry n % 15 when k / 32 = n / 15. -/
theorem host2_v165 (k : Fin 256) (n : Fin 120) :
    arrOf S256x120 (StableHlo.after (hostOps2 (F := Ideal)) V0 (Proc.devRef .tc main_v165)) (ix2 k n)
      = if k.val / 32 = n.val / 15 then
          arrOf S15x35 (V0 (Proc.devRef .tc main_arg11))
            (ix2 (⟨n.val % 15, Nat.mod_lt _ (by decide)⟩ : Fin 15) (⟨k.val % 32, by omega⟩ : Fin 35))
        else 0 := by
  host_results
  refine (diag8_program (a := 32) (b := 15) (by decide) (by decide) (by decide) (by decide)
    scatter_S256x120_S2_S32x15_01_n_01_0_wf bcast_S_S1 concatenates_S1_S1_S2_d0 _
    (FloatOps.ofBits (F := Ideal) .bf16 0x0000#16) _ (fun _ => rfl) (by decide) k n).trans ?_
  exact if_congr Iff.rfl (transposed_leading_apply _ _ _ _ _ _ _ rfl) ofBits_zero_bf16

set_option maxHeartbeats 4000000 in
/-- Entry n of the 1 x 120 operand: the bias of hidden entry n % 15 plus its weight in column 33. -/
theorem host2_v239 (u : Fin 1) (n : Fin 120) :
    arrOf S1x120 (StableHlo.after (hostOps2 (F := Ideal)) V0 (Proc.devRef .tc main_v239)) (ix2 u n)
      = arrOf S15 (V0 (Proc.devRef .tc main_arg12)) (ix1 (⟨n.val % 15, Nat.mod_lt _ (by decide)⟩ : Fin 15))
        + arrOf S15x35 (V0 (Proc.devRef .tc main_arg11))
            (ix2 (⟨n.val % 15, Nat.mod_lt _ (by decide)⟩ : Fin 15) (⟨33, by decide⟩ : Fin 35)) := by
  host_results
  refine (tile_rows_apply (R := 8) (b := 15) (Rb := 120) rfl (by decide) _ shapeCasts_S15_S1x15 bcast_S1x15_S8x15_0_1
    shapeCasts_S8x15_S120 shapeCasts_S120_S1x120 u n).trans ?_
  rw [addf_apply]
  exact congrArg (fun t : EReal => arrOf S15 (V0 (Proc.devRef .tc main_arg12))
      (ix1 (⟨n.val % 15, Nat.mod_lt _ (by decide)⟩ : Fin 15)) + t)
    (column_cut_apply 33 _ slices_S15x35_S15x1_0_33 shapeCasts_S15x1_S15 _ _ rfl)

end Cert.KernelIdeal.KValue

end
-- ==== Proof.KHost3A.lean ====
/-
  What the fourth region's first-stage operands hold when the region is entered, from any buffer contents V0 before the
  host operations that precede it: the 256 x 120 matrix is eight copies of the leading 32 columns of the first-stage
  weights, transposed, along the diagonal and zero elsewhere; the 1 x 120 row is the first-stage bias plus the weights'
  column 34, repeated for 8 nodes.
-/
import proofs.«120596_j16338055594194_2_alg».proof.Proof.Gen.KernelIdeal.Launch
import proofs.«120596_j16338055594194_2_alg».proof.Proof.KHostTerms2

noncomputable section

namespace Cert.KernelIdeal.KValue

open Cert.KernelIdeal Cert.KernelIdeal.Gen Idealize.ShloMosaic Idealize.ShloMosaic.ValueIdx Idealize.ShloMosaic.StableHlo

variable (V0 : Valuation τ sig (Elt Ideal))

/-- A buffer's contents read as an array of extended reals of shape S. -/
private abbrev arrOf (S : Shape) (x : S.Idx → EReal) : S.Idx → EReal := x

set_option maxHeartbeats 4000000 in
/-- Entry (k, n) of the 256 x 120 operand: the weight of channel k % 32 in hidden entry n % 15 when k / 32 = n / 15. -/
theorem host3_v290 (k : Fin 256) (n : Fin 120) :
    arrOf S256x120 (StableHlo.after (hostOps3 (F := Ideal)) V0 (Proc.devRef .tc main_v290)) (ix2 k n)
      = if k.val / 32 = n.val / 15 then
          arrOf S15x35 (V0 (Proc.devRef .tc main_arg11))
            (ix2 (⟨n.val % 15, Nat.mod_lt _ (by decide)⟩ : Fin 15) (⟨k.val % 32, by omega⟩ : Fin 35))
        else 0 := by
  host_results
  refine (diag8_program (a := 32) (b := 15) (by decide) (by decide) (by decide) (by decide)
    scatter_S256x120_S2_S32x15_01_n_01_0_wf bcast_S_S1 concatenates_S1_S1_S2_d0 _
    (FloatOps.ofBits (F := Ideal) .bf16 0x0000#16) _ (fun _ => rfl) (by decide) k n).trans ?_
  exact if_congr Iff.rfl (transposed_leading_apply _ _ _ _ _ _ _ rfl) ofBits_zero_bf16

set_option maxHeartbeats 4000000 in
/-- Entry n of the 1 x 120 operand: the bias of hidden entry n % 15 plus its weight in column 34. -/
theorem host3_v364 (u : Fin 1) (n : Fin 120) :
    arrOf S1x120 (StableHlo.after (hostOps3 (F := Ideal)) V0 (Proc.devRef .tc main_v364)) (ix2 u n)
      = arrOf S15 (V0 (Proc.devRef .tc main_arg12)) (ix1 (⟨n.val % 15, Nat.mod_lt _ (by decide)⟩ : Fin 15))
        + arrOf S15x35 (V0 (Proc.devRef .tc main_arg11))
            (ix2 (⟨n.val % 15, Nat.mod_lt _ (by decide)⟩ : Fin 15) (⟨34, by decide⟩ : Fin 35)) := by
  host_results
  refine (tile_rows_apply (R := 8) (b := 15) (Rb := 120) rfl (by decide) _ shapeCasts_S15_S1x15 bcast_S1x15_S8x15_0_1
    shapeCasts_S8x15_S120 shapeCasts_S120_S1x120 u n).trans ?_
  rw [addf_apply]
  exact congrArg (fun t : EReal => arrOf S15 (V0 (Proc.devRef .tc main_arg12))
      (ix1 (⟨n.val % 15, Nat.mod_lt _ (by decide)⟩ : Fin 15)) + t)
    (column_cut_apply 34 _ slices_S15x35_S15x1_0_34 shapeCasts_S15x1_S15 _ _ rfl)

end Cert.KernelIdeal.KValue

end
-- ==== Proof.KWide.lean ====
/-
  The operands of the three layer regions in the terms of the layer's wide form, from any buffer contents V0 before the
  host operations that precede each region: the wide matrices and bias rows those operations build are the shared
  perceptron's weights and biases laid out block-diagonally, with the code column of layer 0, 1 and 2 respectively.
-/
import proofs.«120596_j16338055594194_2_alg».proof.Proof.KSpec
import proofs.«120596_j16338055594194_2_alg».proof.Proof.KHost0A
import proofs.«120596_j16338055594194_2_alg».proof.Proof.KHost0B
import proofs.«120596_j16338055594194_2_alg».proof.Proof.KHost0C
import proofs.«120596_j16338055594194_2_alg».proof.Proof.KHost2A
import proofs.«120596_j16338055594194_2_alg».proof.Proof.KHost2B
import proofs.«120596_j16338055594194_2_alg».proof.Proof.KHost3A
import proofs.«120596_j16338055594194_2_alg».proof.Proof.KHost3B

noncomputable section

namespace Cert.KernelIdeal.KValue

open Cert.KernelIdeal Cert.KernelIdeal.Gen Cert.DanSpec
open Idealize.ShloMosaic Idealize.ShloMosaic.ValueIdx Idealize.ShloMosaic.StableHlo

variable (V0 : Valuation τ sig (Elt Ideal))

/-- The first layer region's operands are layer 0's. -/
theorem wide_host0 :
    Wide 0 (V0 (Proc.devRef .tc main_arg11)) (V0 (Proc.devRef .tc main_arg12)) (V0 (Proc.devRef .tc main_arg13))
      (V0 (Proc.devRef .tc main_arg14)) (V0 (Proc.devRef .tc main_arg15)) (V0 (Proc.devRef .tc main_arg16))
      (StableHlo.after (hostOps0 (F := Ideal)) V0 (Proc.devRef .tc main_v39))
      (StableHlo.after (hostOps0 (F := Ideal)) V0 (Proc.devRef .tc main_v113))
      (StableHlo.after (hostOps0 (F := Ideal)) V0 (Proc.devRef .tc main_v74))
      (StableHlo.after (hostOps0 (F := Ideal)) V0 (Proc.devRef .tc main_v117))
      (StableHlo.after (hostOps0 (F := Ideal)) V0 (Proc.devRef .tc main_v109))
      (StableHlo.after (hostOps0 (F := Ideal)) V0 (Proc.devRef .tc main_v121)) where
  hB1 := fun k a => host0_v39 V0 k a
  hc1 := fun a => host0_v113 V0 0 a
  hB2 := fun k a => host0_v74 V0 k a
  hc2 := fun a => host0_v117 V0 0 a
  hB3 := fun k a => (host0_v109 V0 k a).trans
    (if_congr (by rw [Nat.div_one])
      (congrArg (fun p : Fin 1 => (V0 (Proc.devRef .tc main_arg15) : Mat 1 8)
        (ix2 p (⟨k.val % 8, Nat.mod_lt _ (by decide)⟩ : Fin 8))) (Fin.ext (Nat.mod_one a.val))) rfl)
  hc3 := fun a => (host0_v121 V0 0 a).trans
    (congrArg (fun p : Fin 1 => (V0 (Proc.devRef .tc main_arg16) : Vct 1) (ix1 p)) (Fin.ext (Nat.mod_one a.val)))

/-- The third region's operands are layer 1's. -/
theorem wide_host2 :
    Wide 1 (V0 (Proc.devRef .tc main_arg11)) (V0 (Proc.devRef .tc main_arg12)) (V0 (Proc.devRef .tc main_arg13))
      (V0 (Proc.devRef .tc main_arg14)) (V0 (Proc.devRef .tc main_arg15)) (V0 (Proc.devRef .tc main_arg16))
      (StableHlo.after (hostOps2 (F := Ideal)) V0 (Proc.devRef .tc main_v165))
      (StableHlo.after (hostOps2 (F := Ideal)) V0 (Proc.devRef .tc main_v239))
      (StableHlo.after (hostOps2 (F := Ideal)) V0 (Proc.devRef .tc main_v200))
      (StableHlo.after (hostOps2 (F := Ideal)) V0 (Proc.devRef .tc main_v243))
      (StableHlo.after (hostOps2 (F := Ideal)) V0 (Proc.devRef .tc main_v235))
      (StableHlo.after (hostOps2 (F := Ideal)) V0 (Proc.devRef .tc main_v247)) where
  hB1 := fun k a => host2_v165 V0 k a
  hc1 := fun a => host2_v239 V0 0 a
  hB2 := fun k a => host2_v200 V0 k a
  hc2 := fun a => host2_v243 V0 0 a
  hB3 := fun k a => (host2_v235 V0 k a).trans
    (if_congr (by rw [Nat.div_one])
      (congrArg (fun p : Fin 1 => (V0 (Proc.devRef .tc main_arg15) : Mat 1 8)
        (ix2 p (⟨k.val % 8, Nat.mod_lt _ (by decide)⟩ : Fin 8))) (Fin.ext (Nat.mod_one a.val))) rfl)
  hc3 := fun a => (host2_v247 V0 0 a).trans
    (congrArg (fun p : Fin 1 => (V0 (Proc.devRef .tc main_arg16) : Vct 1) (ix1 p)) (Fin.ext (Nat.mod_one a.val)))

/-- The fourth region's operands are layer 2's. -/
theorem wide_host3 :
    Wide 2 (V0 (Proc.devRef .tc main_arg11)) (V0 (Proc.devRef .tc main_arg12)) (V0 (Proc.devRef .tc main_arg13))
      (V0 (Proc.devRef .tc main_arg14)) (V0 (Proc.devRef .tc main_arg15)) (V0 (Proc.devRef .tc main_arg16))
      (StableHlo.after (hostOps3 (F := Ideal)) V0 (Proc.devRef .tc main_v290))
      (StableHlo.after (hostOps3 (F := Ideal)) V0 (Proc.devRef .tc main_v364))
      (StableHlo.after (hostOps3 (F := Ideal)) V0 (Proc.devRef .tc main_v325))
      (StableHlo.after (hostOps3 (F := Ideal)) V0 (Proc.devRef .tc main_v368))
      (StableHlo.after (hostOps3 (F := Ideal)) V0 (Proc.devRef .tc main_v360))
      (StableHlo.after (hostOps3 (F := Ideal)) V0 (Proc.devRef .tc main_v372)) where
  hB1 := fun k a => host3_v290 V0 k a
  hc1 := fun a => host3_v364 V0 0 a
  hB2 := fun k a => host3_v325 V0 k a
  hc2 := fun a => host3_v368 V0 0 a
  hB3 := fun k a => (host3_v360 V0 k a).trans
    (if_congr (by rw [Nat.div_one])
      (congrArg (fun p : Fin 1 => (V0 (Proc.devRef .tc main_arg15) : Mat 1 8)
        (ix2 p (⟨k.val % 8, Nat.mod_lt _ (by decide)⟩ : Fin 8))) (Fin.ext (Nat.mod_one a.val))) rfl)
  hc3 := fun a => (host3_v372 V0 0 a).trans
    (congrArg (fun p : Fin 1 => (V0 (Proc.devRef .tc main_arg16) : Vct 1) (ix1 p)) (Fin.ext (Nat.mod_one a.val)))

end Cert.KernelIdeal.KValue

end
-- ==== Proof.KAlgebra.lean ====
/-
  Sums against a block-diagonal matrix, on the extended reals.

  A vector z of R * a entries is multiplied by a matrix with R * a rows whose column n is zero outside the block of
  rows q * a .. q * a + a - 1 and holds d there.  The product's entry is then the sum over that one block:
      sum_k z k * w k = sum_c z (q * a + c) * d c.
  Only x * 0 = 0 and the splitting of a sum over R * a indices into R blocks of a are used; no entry need be finite.
  With q = n / b and d = row n % b of a small matrix D this is the contraction of R copies of D laid along the diagonal.
-/
import Idealize.ShloMosaic.PureOps.Ideal
import Mathlib.Logic.Equiv.Fin.Basic

namespace Cert.KernelIdeal.KValue

open scoped BigOperators

/-- Entry c of block q lies below R * a. -/
theorem block_lt {R a q c : Nat} (hq : q < R) (hc : c < a) : q * a + c < R * a :=
  calc q * a + c < q * a + a := Nat.add_lt_add_left hc _
    _ = (q + 1) * a := (Nat.succ_mul q a).symm
    _ ≤ R * a := Nat.mul_le_mul_right a hq

/-- A sum against a column that is d on block q and zero on every other block is the sum over block q. -/
theorem sum_block {R a : Nat} (z w : Fin (R * a) → EReal) (q : Fin R) (d : Fin a → EReal)
    (hin : ∀ c : Fin a, w ⟨q.val * a + c.val, block_lt q.isLt c.isLt⟩ = d c)
    (hout : ∀ k : Fin (R * a), k.val / a ≠ q.val → w k = 0) :
    ∑ k : Fin (R * a), z k * w k = ∑ c : Fin a, z ⟨q.val * a + c.val, block_lt q.isLt c.isLt⟩ * d c := by
  rw [← Equiv.sum_comp (finProdFinEquiv (m := R) (n := a)), Fintype.sum_prod_type, Finset.sum_eq_single q]
  · refine Finset.sum_congr rfl fun c _ => ?_
    have hk : finProdFinEquiv (q, c) = (⟨q.val * a + c.val, block_lt q.isLt c.isLt⟩ : Fin (R * a)) :=
      Fin.ext (show c.val + a * q.val = q.val * a + c.val by rw [Nat.mul_comm, Nat.add_comm])
    rw [hk, hin]
  · intro i _ hi
    refine Finset.sum_eq_zero fun c _ => ?_
    have ha : 0 < a := Nat.pos_of_ne_zero fun h => by have := c.isLt; omega
    have hne : (finProdFinEquiv (i, c) : Fin (R * a)).val / a ≠ q.val := by
      show (c.val + a * i.val) / a ≠ q.val
      rw [Nat.add_mul_div_left _ _ ha, Nat.div_eq_of_lt c.isLt, Nat.zero_add]
      exact fun h => hi (Fin.ext h)
    rw [hout _ hne, mul_zero]
  · intro h
    exact absurd (Finset.mem_univ q) h

/-- The same with the column given by cases: column n of R copies of D laid along the diagonal, D having b rows and a
    columns, is row n % b of D on block n / b and zero elsewhere. -/
theorem sum_block_ite {R a b : Nat} (ha : 0 < a) (hb : 0 < b) (z w : Fin (R * a) → EReal) (D : Fin b → Fin a → EReal)
    (n : Fin (R * b))
    (hw : ∀ k : Fin (R * a), w k
      = if k.val / a = n.val / b then D ⟨n.val % b, Nat.mod_lt _ hb⟩ ⟨k.val % a, Nat.mod_lt _ ha⟩ else 0) :
    ∑ k : Fin (R * a), z k * w k
      = ∑ c : Fin a, z ⟨n.val / b * a + c.val,
            block_lt (Nat.div_lt_of_lt_mul (lt_of_lt_of_eq n.isLt (Nat.mul_comm R b))) c.isLt⟩
          * D ⟨n.val % b, Nat.mod_lt _ hb⟩ c :=
  sum_block z w ⟨n.val / b, Nat.div_lt_of_lt_mul (lt_of_lt_of_eq n.isLt (Nat.mul_comm R b))⟩ (D ⟨n.val % b, Nat.mod_lt _ hb⟩)
    (fun c => by
      have hd : (n.val / b * a + c.val) / a = n.val / b := by
        rw [Nat.add_comm, Nat.add_mul_div_right _ _ ha, Nat.div_eq_of_lt c.isLt, Nat.zero_add]
      have hm : (n.val / b * a + c.val) % a = c.val := by
        rw [Nat.add_comm, Nat.add_mul_mod_self_right, Nat.mod_eq_of_lt c.isLt]
      exact (hw _).trans ((if_pos hd).trans (congrArg (D _) (Fin.ext hm))))
    (fun k hk => (hw k).trans (if_neg hk))

/-! ## The three contractions of the node network: 8 nodes at a time -/

/-- 8 nodes of 32 channels against 8 copies of a 15 x 32 matrix: column n = node * 15 + h reads the node's channels
    against row h. -/
theorem sum_block_256_120 (z w : Fin 256 → EReal) (D : Fin 15 → Fin 32 → EReal) (n : Fin 120)
    (hw : ∀ k : Fin 256, w k
      = if k.val / 32 = n.val / 15 then D ⟨n.val % 15, Nat.mod_lt _ (by decide)⟩ ⟨k.val % 32, Nat.mod_lt _ (by decide)⟩
        else 0) :
    ∑ k : Fin 256, z k * w k
      = ∑ c : Fin 32, z ⟨n.val / 15 * 32 + c.val, by have := n.isLt; have := c.isLt; omega⟩
          * D ⟨n.val % 15, Nat.mod_lt _ (by decide)⟩ c :=
  sum_block_ite (R := 8) (a := 32) (b := 15) (by decide) (by decide) z w D n hw

/-- 8 nodes of 15 hidden entries against 8 copies of an 8 x 15 matrix. -/
theorem sum_block_120_64 (z w : Fin 120 → EReal) (D : Fin 8 → Fin 15 → EReal) (n : Fin 64)
    (hw : ∀ k : Fin 120, w k
      = if k.val / 15 = n.val / 8 then D ⟨n.val % 8, Nat.mod_lt _ (by decide)⟩ ⟨k.val % 15, Nat.mod_lt _ (by decide)⟩
        else 0) :
    ∑ k : Fin 120, z k * w k
      = ∑ c : Fin 15, z ⟨n.val / 8 * 15 + c.val, by have := n.isLt; have := c.isLt; omega⟩
          * D ⟨n.val % 8, Nat.mod_lt _ (by decide)⟩ c :=
  sum_block_ite (R := 8) (a := 15) (b := 8) (by decide) (by decide) z w D n hw

/-- 8 nodes of 8 hidden entries against 8 copies of a 1 x 8 matrix. -/
theorem sum_block_64_8 (z w : Fin 64 → EReal) (D : Fin 1 → Fin 8 → EReal) (n : Fin 8)
    (hw : ∀ k : Fin 64, w k
      = if k.val / 8 = n.val / 1 then D ⟨n.val % 1, Nat.mod_lt _ (by decide)⟩ ⟨k.val % 8, Nat.mod_lt _ (by decide)⟩
        else 0) :
    ∑ k : Fin 64, z k * w k
      = ∑ c : Fin 8, z ⟨n.val / 1 * 8 + c.val, by have := n.isLt; have := c.isLt; omega⟩
          * D ⟨n.val % 1, Nat.mod_lt _ (by decide)⟩ c :=
  sum_block_ite (R := 8) (a := 8) (b := 1) (by decide) (by decide) z w D n hw

/-! ## Regrouping sums -/

/-- Two products summed before their two biases are added, against each product with its own bias. -/
theorem add_regroup (y1 y2 b1 bs : EReal) : ((y1 + y2) + b1) + bs = (y1 + b1) + (y2 + bs) := by
  rw [add_assoc, add_add_add_comm]

end Cert.KernelIdeal.KValue
-- ==== Proof.KAlgebra2.lean ====
/-
  A layer computed eight nodes at a time through block-diagonal matrices is the specification's layer.

  Node n is node n % 8 of its group of eight.  Column a of the first wide matrix is zero outside block a / 15, so the
  sum over the group's 256 pre-activation columns is the sum over the 32 channels of node a / 15 of the group; for the
  columns of node n's own block that is node n's first-stage sum.  The second and third wide sums collapse the same way,
  each using only the entries of node n's own block of the stage before.
-/
import proofs.«120596_j16338055594194_2_alg».proof.Proof.KSpec
import proofs.«120596_j16338055594194_2_alg».proof.Proof.KAlgebra

noncomputable section

namespace Cert.KernelIdeal.KValue

open Idealize.ShloMosaic Idealize.ShloMosaic.ValueIdx Cert.DanSpec

/-- The wide form of a layer is the specification's, when the wide matrices and bias rows are the shared perceptron's
    laid out block-diagonally. -/
theorem kdan_eq_dan {l : Fin 3} {Dw1 : Mat 15 35} {Db1 : Vct 15} {Dw2 : Mat 8 15} {Db2 : Vct 8} {Dw3 : Mat 1 8} {Db3 : Vct 1}
    {B1 : Mat 256 120} {c1 : Mat 1 120} {B2 : Mat 120 64} {c2 : Mat 1 64} {B3 : Mat 64 8} {c3 : Mat 1 8}
    (h : Wide l Dw1 Db1 Dw2 Db2 Dw3 Db3 B1 c1 B2 c2 B3 c3) (pre : Fin 512 → Fin 32768 → EReal) (r : Fin 512)
    (n : Fin 1024) :
    kdan B1 c1 B2 c2 B3 c3 pre r n = dan l Dw1 Db1 Dw2 Db2 Dw3 Db3 pre r n := by
  have hq : n.val % 8 < 8 := Nat.mod_lt _ (by decide)
  let G1 : Fin 120 → EReal := fun a =>
    lrelu ((∑ k : Fin 256, pre r (wideCol n k) * B1 (ix2 k a)) + c1 (ix2 (0 : Fin 1) a))
  let G2 : Fin 64 → EReal := fun a => lrelu ((∑ k : Fin 120, G1 k * B2 (ix2 k a)) + c2 (ix2 (0 : Fin 1) a))
  let H1 : Fin 15 → EReal := fun j =>
    lrelu ((∑ c : Fin 32, pre r (col n c) * Dw1 (ix2 j (chan c))) + (Db1 (ix1 j) + Dw1 (ix2 j (code l))))
  let H2 : Fin 8 → EReal := fun o => lrelu ((∑ j : Fin 15, H1 j * Dw2 (ix2 o j)) + Db2 (ix1 o))
  -- the first stage on node n's own block
  have s1 : ∀ j : Fin 15, G1 (⟨n.val % 8 * 15 + j.val, by omega⟩ : Fin 120) = H1 j := by
    intro j
    have ej : (⟨(n.val % 8 * 15 + j.val) % 15, by omega⟩ : Fin 15) = j :=
      Fin.ext (by show (n.val % 8 * 15 + j.val) % 15 = j.val; omega)
    refine congrArg lrelu (congrArg₂ (· + ·) ?_ ?_)
    · refine (sum_block (R := 8) (a := 32) (fun k => pre r (wideCol n k))
        (fun k => B1 (ix2 k (⟨n.val % 8 * 15 + j.val, by omega⟩ : Fin 120))) ⟨n.val % 8, hq⟩
        (fun c => Dw1 (ix2 j (chan c))) (fun c => ?_) (fun k hk => ?_)).trans ?_
      · refine (h.hB1 _ _).trans ((if_pos ?_).trans ?_)
        · show (n.val % 8 * 32 + c.val) / 32 = (n.val % 8 * 15 + j.val) / 15
          omega
        · exact congrArg₂ (fun p q => Dw1 (ix2 p (chan q))) ej
            (Fin.ext (by show (n.val % 8 * 32 + c.val) % 32 = c.val; omega))
      · refine (h.hB1 _ _).trans (if_neg fun e => hk (e.trans ?_))
        show (n.val % 8 * 15 + j.val) / 15 = n.val % 8
        omega
      · refine Finset.sum_congr rfl fun c _ => congrArg (fun p => pre r p * Dw1 (ix2 j (chan c))) (Fin.ext ?_)
        show n.val / 8 * 256 + (n.val % 8 * 32 + c.val) = n.val * 32 + c.val
        omega
    · exact (h.hc1 _).trans (congrArg (fun p => Db1 (ix1 p) + Dw1 (ix2 p (code l))) ej)
  -- the second stage on node n's own block
  have s2 : ∀ o : Fin 8, G2 (⟨n.val % 8 * 8 + o.val, by omega⟩ : Fin 64) = H2 o := by
    intro o
    have eo : (⟨(n.val % 8 * 8 + o.val) % 8, by omega⟩ : Fin 8) = o :=
      Fin.ext (by show (n.val % 8 * 8 + o.val) % 8 = o.val; omega)
    refine congrArg lrelu (congrArg₂ (· + ·) ?_ ?_)
    · refine (sum_block (R := 8) (a := 15) G1
        (fun k => B2 (ix2 k (⟨n.val % 8 * 8 + o.val, by omega⟩ : Fin 64))) ⟨n.val % 8, hq⟩
        (fun j => Dw2 (ix2 o j)) (fun j => ?_) (fun k hk => ?_)).trans ?_
      · refine (h.hB2 _ _).trans ((if_pos ?_).trans ?_)
        · show (n.val % 8 * 15 + j.val) / 15 = (n.val % 8 * 8 + o.val) / 8
          omega
        · exact congrArg₂ (fun p q => Dw2 (ix2 p q)) eo
            (Fin.ext (by show (n.val % 8 * 15 + j.val) % 15 = j.val; omega))
      · refine (h.hB2 _ _).trans (if_neg fun e => hk (e.trans ?_))
        show (n.val % 8 * 8 + o.val) / 8 = n.val % 8
        omega
      · exact Finset.sum_congr rfl fun j _ => congrArg (· * Dw2 (ix2 o j)) (s1 j)
    · exact (h.hc2 _).trans (congrArg (fun p => Db2 (ix1 p)) eo)
  -- the third stage
  show lrelu ((∑ k : Fin 64, G2 k * B3 (ix2 k (⟨n.val % 8, by omega⟩ : Fin 8)))
      + c3 (ix2 (0 : Fin 1) (⟨n.val % 8, by omega⟩ : Fin 8)))
    = lrelu ((∑ o : Fin 8, H2 o * Dw3 (ix2 (0 : Fin 1) o)) + Db3 (ix1 (0 : Fin 1)))
  refine congrArg lrelu (congrArg₂ (· + ·) ?_ (h.hc3 _))
  refine (sum_block (R := 8) (a := 8) G2 (fun k => B3 (ix2 k (⟨n.val % 8, by omega⟩ : Fin 8))) ⟨n.val % 8, hq⟩
    (fun o => Dw3 (ix2 (0 : Fin 1) o)) (fun o => ?_) (fun k hk => ?_)).trans ?_
  · refine (h.hB3 _ _).trans ((if_pos ?_).trans ?_)
    · show (n.val % 8 * 8 + o.val) / 8 = n.val % 8
      omega
    · exact congrArg (fun q => Dw3 (ix2 (0 : Fin 1) q)) (Fin.ext (by show (n.val % 8 * 8 + o.val) % 8 = o.val; omega))
  · exact (h.hB3 _ _).trans (if_neg hk)
  · exact Finset.sum_congr rfl fun o _ => congrArg (· * Dw3 (ix2 (0 : Fin 1) o)) (s2 o)

end Cert.KernelIdeal.KValue

end
-- ==== Proof.KPre.lean ====
/-
  The pre-activations as the three layer regions compute them, entry by entry, from the arrays they find: a row of the
  left operand against a row of the weight array, summed over the 1024 input columns, plus bias rows and, in the last
  region, the skip array's entry; each in the kernel's own order of additions.
-/
import proofs.«120596_j16338055594194_2_alg».proof.Proof.KSpec

noncomputable section

namespace Cert.DanSpec

open Idealize.ShloMosaic Idealize.ShloMosaic.ValueIdx

/-- Row r of x against row j of W. -/
def dotRows (x : Mat 512 1024) (W : Mat 32768 1024) (r : Fin 512) (j : Fin 32768) : EReal :=
  ∑ k : Fin 1024, x (ix2 r k) * W (ix2 j k)

/-- Region 0: the product plus the bias row. -/
def pre0K (x : Mat 512 1024) (W : Mat 32768 1024) (b : Mat 1 32768) : Fin 512 → Fin 32768 → EReal :=
  fun r j => dotRows x W r j + b (ix2 (0 : Fin 1) j)

/-- Region 2: the two products, then the two bias rows. -/
def pre2K (h x : Mat 512 1024) (W1 Ws : Mat 32768 1024) (b1 bs : Mat 1 32768) : Fin 512 → Fin 32768 → EReal :=
  fun r j => ((dotRows h W1 r j + dotRows x Ws r j) + b1 (ix2 (0 : Fin 1) j)) + bs (ix2 (0 : Fin 1) j)

/-- Region 3: the product plus the bias row, plus the skip array's entry. -/
def pre3K (h : Mat 512 1024) (W : Mat 32768 1024) (b : Mat 1 32768) (s : Mat 512 32768) : Fin 512 → Fin 32768 → EReal :=
  fun r j => (dotRows h W r j + b (ix2 (0 : Fin 1) j)) + s (ix2 r j)

end Cert.DanSpec

end
-- ==== Proof.KNet.lean ====
/-
  The kernel program's result is the specification's network.  Layer by layer: a layer region's output array is the
  kernel-form layer of the arrays it finds (hypotheses h0, h2, h3 below, one per region); the arrays it finds are, by
  the host stretch before it, the block-diagonal copies of the shared perceptron's weights, the tiled biases, and the
  layer's inputs, so the kernel-form layer is the specification's layer; the plain region between gives the skip
  pre-activation; buffers produced early and read late ride through the segments between unchanged.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KRunArgs
import proofs.«120596_j16338055594194_2_alg».proof.Proof.KCarry
import proofs.«120596_j16338055594194_2_alg».proof.Proof.KVal1
import proofs.«120596_j16338055594194_2_alg».proof.Proof.KHost0C
import proofs.«120596_j16338055594194_2_alg».proof.Proof.KHost0
import proofs.«120596_j16338055594194_2_alg».proof.Proof.KHost1
import proofs.«120596_j16338055594194_2_alg».proof.Proof.KHost2B
import proofs.«120596_j16338055594194_2_alg».proof.Proof.KHost3B
import proofs.«120596_j16338055594194_2_alg».proof.Proof.KWide
import proofs.«120596_j16338055594194_2_alg».proof.Proof.KAlgebra2
import proofs.«120596_j16338055594194_2_alg».proof.Proof.KAlgebra
import proofs.«120596_j16338055594194_2_alg».proof.Proof.KSpec
import proofs.«120596_j16338055594194_2_alg».proof.Proof.KPre
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KBody Cert.KernelIdeal.KRun Cert.DanSpec
open Idealize.ShloMosaic.ValueIdx Idealize.ShloMosaic.StableHlo

variable (m : (ℓ : Loc nD τ sig) → Buf (Elt Ideal) ℓ) (ρ : Dev nD → PrngReg)

/-! ## The arguments at every boundary -/

theorem W1_arg (c : Dev nD) (b : Ref sig .tc) (hb : b ∈ argRefs) : W1 m ρ c (Proc.devRef .tc b) = m ((c : Thread nD τ).loc b) :=
  (W1_keep m ρ c b hb).trans rfl
theorem W2_arg (c : Dev nD) (b : Ref sig .tc) (hb : b ∈ argRefs) : W2 m ρ c (Proc.devRef .tc b) = m ((c : Thread nD τ).loc b) :=
  (W2_keep m ρ c b hb).trans (W1_arg m ρ c b hb)
theorem W3_arg (c : Dev nD) (b : Ref sig .tc) (hb : b ∈ argRefs) : W3 m ρ c (Proc.devRef .tc b) = m ((c : Thread nD τ).loc b) :=
  (W3_keep m ρ c b hb).trans (W2_arg m ρ c b hb)
theorem W4_arg (c : Dev nD) (b : Ref sig .tc) (hb : b ∈ argRefs) : W4 m ρ c (Proc.devRef .tc b) = m ((c : Thread nD τ).loc b) :=
  (W4_keep m ρ c b hb).trans (W3_arg m ρ c b hb)
theorem W5_arg (c : Dev nD) (b : Ref sig .tc) (hb : b ∈ argRefs) : W5 m ρ c (Proc.devRef .tc b) = m ((c : Thread nD τ).loc b) :=
  (W5_keep m ρ c b hb).trans (W4_arg m ρ c b hb)
theorem W6_arg (c : Dev nD) (b : Ref sig .tc) (hb : b ∈ argRefs) : W6 m ρ c (Proc.devRef .tc b) = m ((c : Thread nD τ).loc b) :=
  (W6_keep m ρ c b hb).trans (W5_arg m ρ c b hb)
theorem W7_arg (c : Dev nD) (b : Ref sig .tc) (hb : b ∈ argRefs) : W7 m ρ c (Proc.devRef .tc b) = m ((c : Thread nD τ).loc b) :=
  (W7_keep m ρ c b hb).trans (W6_arg m ρ c b hb)

/-! ## A layer's pre-activation from its operands -/

/-- A dense pre-activation whose operands are, entry by entry, an input array, a weight array and a bias vector. -/
theorem lin_of_reads (x : Mat 512 1024) (W : Mat 32768 1024) (b : Vct 32768)
    (xo : Mat 512 1024) (Wo : Mat 32768 1024) (bo : Mat 1 32768)
    (hx : ∀ i, xo i = x i) (hW : ∀ i, Wo i = W i) (hb : ∀ j : Fin 32768, bo (ix2 (0 : Fin 1) j) = b (ix1 j))
    (r : Fin 512) (j : Fin 32768) :
    dotRows xo Wo r j + bo (ix2 (0 : Fin 1) j) = lin x W b r j := by
  unfold lin dotRows
  rw [hb j]
  refine congrArg (· + _) (Finset.sum_congr rfl fun k _ => ?_)
  rw [hx, hW]

/-! ## The three layer regions' outputs, as hypotheses: each is the kernel-form layer of the arrays the region finds -/

/-- Region 0's output array, in the kernel's form. -/
def Out0 : Prop := ∀ (V : (c : Dev nD) → (b : Ref sig .tc) → Buf (Elt Ideal) ((c : Thread nD τ).loc b)) (c : Dev nD),
  (dat0 (F := Ideal) V c).arrAt 9 cfg0.N
    = asMat (kdan (V c main_v39) (V c main_v113) (V c main_v74) (V c main_v117) (V c main_v109) (V c main_v121)
        (pre0K (V c main_v0) (V c main_arg1) (V c main_v122)))

/-- Region 2's output array, in the kernel's form. -/
def Out2 : Prop := ∀ (V : (c : Dev nD) → (b : Ref sig .tc) → Buf (Elt Ideal) ((c : Thread nD τ).loc b)) (c : Dev nD),
  (dat2 (F := Ideal) V c).arrAt 12 cfg2.N
    = asMat (kdan (V c main_v165) (V c main_v239) (V c main_v200) (V c main_v243) (V c main_v235) (V c main_v247)
        (pre2K (V c main_v124) (V c main_v0) (V c main_arg3) (V c main_arg7) (V c main_v248) (V c main_v249)))

/-- Region 3's output array, in the kernel's form. -/
def Out3 : Prop := ∀ (V : (c : Dev nD) → (b : Ref sig .tc) → Buf (Elt Ideal) ((c : Thread nD τ).loc b)) (c : Dev nD),
  (dat3 (F := Ideal) V c).arrAt 10 cfg3.N
    = asMat (kdan (V c main_v290) (V c main_v364) (V c main_v325) (V c main_v368) (V c main_v360) (V c main_v372)
        (pre3K (V c main_v251) (V c main_arg5) (V c main_v373) (V c main_v126)))

/-! ## The wide operands at each layer region's entry are the shared perceptron's -/

theorem wideAt0 (c : Dev nD) : Wide 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (V1 m ρ c main_v39) (V1 m ρ c main_v113) (V1 m ρ c main_v74) (V1 m ρ c main_v117) (V1 m ρ c main_v109) (V1 m ρ c main_v121) :=
  wide_host0 (W0 m ρ c)

set_option maxHeartbeats 4000000 in
theorem wideAt2 (c : Dev nD) : Wide 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (V5 m ρ c main_v165) (V5 m ρ c main_v239) (V5 m ρ c main_v200) (V5 m ρ c main_v243) (V5 m ρ c main_v235) (V5 m ρ c main_v247) := by
  have h := wide_host2 (W4 m ρ c)
  have e11 := W4_arg m ρ c main_arg11 (by decide)
  have e12 := W4_arg m ρ c main_arg12 (by decide)
  have e13 := W4_arg m ρ c main_arg13 (by decide)
  have e14 := W4_arg m ρ c main_arg14 (by decide)
  have e15 := W4_arg m ρ c main_arg15 (by decide)
  have e16 := W4_arg m ρ c main_arg16 (by decide)
  refine ⟨fun k a => ?_, fun a => ?_, fun k a => ?_, fun a => ?_, fun k a => ?_, fun a => ?_⟩
  · rw [← e11]; exact h.hB1 k a
  · rw [← e12, ← e11]; exact h.hc1 a
  · rw [← e13]; exact h.hB2 k a
  · rw [← e14]; exact h.hc2 a
  · rw [← e15]; exact h.hB3 k a
  · rw [← e16]; exact h.hc3 a

set_option maxHeartbeats 4000000 in
theorem wideAt3 (c : Dev nD) : Wide 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (V7 m ρ c main_v290) (V7 m ρ c main_v364) (V7 m ρ c main_v325) (V7 m ρ c main_v368) (V7 m ρ c main_v360) (V7 m ρ c main_v372) := by
  have h := wide_host3 (W6 m ρ c)
  have e11 := W6_arg m ρ c main_arg11 (by decide)
  have e12 := W6_arg m ρ c main_arg12 (by decide)
  have e13 := W6_arg m ρ c main_arg13 (by decide)
  have e14 := W6_arg m ρ c main_arg14 (by decide)
  have e15 := W6_arg m ρ c main_arg15 (by decide)
  have e16 := W6_arg m ρ c main_arg16 (by decide)
  refine ⟨fun k a => ?_, fun a => ?_, fun k a => ?_, fun a => ?_, fun k a => ?_, fun a => ?_⟩
  · rw [← e11]; exact h.hB1 k a
  · rw [← e12, ← e11]; exact h.hc1 a
  · rw [← e13]; exact h.hB2 k a
  · rw [← e14]; exact h.hc2 a
  · rw [← e15]; exact h.hB3 k a
  · rw [← e16]; exact h.hc3 a

/-! ## Layer 0 -/

set_option maxHeartbeats 4000000 in
theorem layer0 (hv0 : Out0) (c : Dev nD) :
    W2 m ρ c (Proc.devRef .tc main_v123) = h0 (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine ((W2_arr m ρ c 9).trans (hv0 (V1 m ρ) c)).trans ?_
  funext i
  unfold h0 asMat
  refine (kdan_eq_dan (wideAt0 m ρ c) _ (i 0) (i 1)).trans ?_
  refine congrArg (fun pre => dan 0 _ _ _ _ _ _ pre (i 0) (i 1)) ?_
  funext r j
  unfold pre0K
  exact lin_of_reads _ _ _ _ _ _ (fun i => host0_v0 (W0 m ρ c) i)
    (fun i => congrFun (W1_arg m ρ c main_arg1 (by decide)) i) (fun j => host0_v122 (W0 m ρ c) 0 j) r j

/-- Layer 0's output as region 1 and region 2 find it, in the kernel's operand format. -/
theorem h0_at3 (hv0 : Out0) (c : Dev nD) (i : S512x1024.Idx) :
    W3 m ρ c (Proc.devRef .tc main_v124) i = h0 (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) i :=
  (host1_v124 (W2 m ρ c) i).trans (congrFun (layer0 m ρ hv0 c) i)

/-! ## The skip pre-activation: region 1 -/

set_option maxHeartbeats 4000000 in
theorem skip13 (hv0 : Out0) (c : Dev nD) :
    W4 m ρ c (Proc.devRef .tc main_v126)
      = fun i => lin (h0 (m ((c : Thread nD τ).loc main_arg0)) (m ((c : Thread nD τ).loc main_arg1)) (m ((c : Thread nD τ).loc main_arg2)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg9)) (m ((c : Thread nD τ).loc main_arg10)) (i 0) (i 1) := by
  refine ((W4_arr m ρ c 3).trans (out1_value (V3 m ρ) c)).trans ?_
  funext i
  show dotRows (V3 m ρ c main_v124) (V3 m ρ c main_arg9) (i 0) (i 1) + (V3 m ρ c main_v125 : Mat 1 32768) (ix2 (0 : Fin 1) (i 1)) = _
  exact lin_of_reads _ _ _ _ _ _ (fun i => h0_at3 m ρ hv0 c i)
    (fun i => congrFun (W3_arg m ρ c main_arg9 (by decide)) i)
    (fun j => (host1_v125 (W2 m ρ c) 0 j).trans (congrFun (W2_arg m ρ c main_arg10 (by decide)) (ix1 j))) (i 0) (i 1)

/-! ## Layer 1: region 2 -/

set_option maxHeartbeats 4000000 in
theorem layer1 (hv0 : Out0) (hv2 : Out2) (c : Dev nD) :
    W6 m ρ c (Proc.devRef .tc main_v250) = h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine ((W6_arr m ρ c 12).trans (hv2 (V5 m ρ) c)).trans ?_
  funext i
  unfold h1 asMat
  refine (kdan_eq_dan (wideAt2 m ρ c) _ (i 0) (i 1)).trans ?_
  refine congrArg (fun pre => dan 1 _ _ _ _ _ _ pre (i 0) (i 1)) ?_
  funext r j
  unfold pre2K
  refine (add_regroup _ _ _ _).trans ?_
  refine congrArg₂ (· + ·) ?_ ?_
  · exact lin_of_reads _ _ _ _ _ _
      (fun i => (congrFun (carry_v124 m ρ c) i).trans (h0_at3 m ρ hv0 c i))
      (fun i => congrFun (W5_arg m ρ c main_arg3 (by decide)) i)
      (fun j => (host2_v248 (W4 m ρ c) 0 j).trans (congrFun (W4_arg m ρ c main_arg4 (by decide)) (ix1 j))) r j
  · exact lin_of_reads _ _ _ _ _ _
      (fun i => (congrFun (carry_v0 m ρ c) i).trans (host0_v0 (W0 m ρ c) i))
      (fun i => congrFun (W5_arg m ρ c main_arg7 (by decide)) i)
      (fun j => (host2_v249 (W4 m ρ c) 0 j).trans (congrFun (W4_arg m ρ c main_arg8 (by decide)) (ix1 j))) r j

/-! ## Layer 2: region 3, the result -/

set_option maxHeartbeats 4000000 in
theorem result_eq_net_of (hv0 : Out0) (hv2 : Out2) (hv3 : Out3) (c : Dev nD) :
    W8 m ρ c (Proc.devRef .tc main_v374) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine ((W8_arr m ρ c 10).trans (hv3 (V7 m ρ) c)).trans ?_
  funext i
  unfold net asMat
  refine (kdan_eq_dan (wideAt3 m ρ c) _ (i 0) (i 1)).trans ?_
  refine congrArg (fun pre => dan 2 _ _ _ _ _ _ pre (i 0) (i 1)) ?_
  funext r j
  unfold pre3K
  refine congrArg₂ (· + ·) ?_ ?_
  · exact lin_of_reads _ _ _ _ _ _
      (fun i => (host3_v251 (W6 m ρ c) i).trans (congrFun (layer1 m ρ hv0 hv2 c) i))
      (fun i => congrFun (W7_arg m ρ c main_arg5 (by decide)) i)
      (fun j => (host3_v373 (W6 m ρ c) 0 j).trans (congrFun (W6_arg m ρ c main_arg6 (by decide)) (ix1 j))) r j
  · exact ((congrFun (carry_v126 m ρ c) (ix2 r j)).trans (congrFun (skip13 m ρ hv0 c) (ix2 r j)))

end Cert.KernelIdeal.KValue

end
-- ==== Proof.KVal2Slab.lean ====
/-
  Region 2's scratch slab, read at an index.  Each run's witness for the slab is opened once: after micro step 0
  the slab is the slice's payload over the cleared slab; after a later micro step it is the slice's payload over
  what it held.  A store through a rectangle reads its payload under the rectangle and the old contents off it.
-/
import proofs.«120596_j16338055594194_2_alg».proof.Proof.KBody2Runs
import Idealize.ShloMosaic.Lib.Pipeline.Value
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KBody

variable {F : FTy → Type} [FloatOps F]

/-- The 512 x 512 slice of the slab a micro step stores, at the column offset the body computes. -/
abbrev slice2 (i : grid2.Coords) : Rect S512x4096 := Rect.unit (s := S512x4096) (k2_off1 i) S512x512.size (k2_off1_inb i)

/-- The whole slab, as the clearing store names it. -/
abbrev whole2 : Rect S512x4096 := Rect.unit (s := S512x4096) ![0, 0] S512x4096.size inb_S512x4096_S512x4096_0_0

/-- At grid point t the slice starts at column 512 * (t mod 8). -/
theorem off2_eq : ∀ t : Fin cfg2.N, k2_off1 (grid2.coords t) = ![0, 512 * (t.val % 8)] :=
  (by decide +kernel : ∀ t : Fin grid2.N, k2_off1 (grid2.coords t) = ![0, 512 * (t.val % 8)])

/-- A store through a rectangle into a whole buffer found at `xs`: under the rectangle the payload, -/
theorem store_emb2 {M : Memref sig .tc .vmem S512x4096 .f32} (h : M.IsWhole) (xs : Vec F S512x4096 .f32) (R : Rect S512x4096)
    (P : R.shape.Idx → Elt F .f32) (x : R.shape.Idx) :
    M.view.read (Elt F) (M.view.writes (Elt F) (h.unread xs) [⟨R, P⟩]) (R.emb x) = P x :=
  View.read_writes_cons_emb _ _ R P [] x

/-- off it what the buffer held. -/
theorem store_not_mem2 {M : Memref sig .tc .vmem S512x4096 .f32} (h : M.IsWhole) (xs : Vec F S512x4096 .f32) (R : Rect S512x4096)
    (P : R.shape.Idx → Elt F .f32) (y : S512x4096.Idx) (hy : y ∉ R.set) :
    M.view.read (Elt F) (M.view.writes (Elt F) (h.unread xs) [⟨R, P⟩]) y = xs y := by
  rw [View.writes_cons, View.writes_nil, View.read_slice_write_of_not_mem R _ _ _ (by rwa [Rect.map_emb_univ]), h.read_unread]

/-- The middle run's slab: the slice's payload stored over what the slab held. -/
theorem runB2_eq (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : ¬cond2_0 i) (hc1 : ¬cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32) (xs : Vec F S512x4096 .f32) :
    (kernelRun2_B (F := F) c i arg2 harg2 arg3 harg3 arg4 harg4 arg5 harg5 arg6 harg6 arg7 harg7 arg8 harg8 arg9 harg9 arg10 harg10
        arg11 harg11 arg12 harg12 arg13 harg13 arg14 harg14 arg15 harg15 hc0 hc1 x2 x3 x4 x5 x6 x7 xs).1
      = arg15.view.read (Elt F) (arg15.view.writes (Elt F) (harg15.unread xs) [⟨slice2 i, k2_pay2 x2 x3 x4 x5 x6 x7⟩]) := by
  unfold kernelRun2_B
  dsimp only
  simp only [View.readAt_eq_ld, Memref.IsWhole.read_unread, View.ld_unit_zero (S := S512x1024) hz00_2,
    View.ld_unit_zero (S := S1x512) hz00_2]
  all_goals rfl

/-- The first run's slab: the slice's payload over the cleared slab. -/
theorem runA2_eq (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : cond2_0 i) (hc1 : ¬cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32) :
    (kernelRun2_A (F := F) c i arg2 harg2 arg3 harg3 arg4 harg4 arg5 harg5 arg6 harg6 arg7 harg7 arg8 harg8 arg9 harg9 arg10 harg10
        arg11 harg11 arg12 harg12 arg13 harg13 arg14 harg14 arg15 harg15 hc0 hc1 x2 x3 x4 x5 x6 x7).1
      = View.canon [⟨slice2 i, k2_pay2 x2 x3 x4 x5 x6 x7⟩, ⟨whole2, k2_pay1 (F := F)⟩] := by
  unfold kernelRun2_A
  dsimp only
  simp only [View.readAt_eq_ld, Memref.IsWhole.read_unread, View.ld_unit_zero (S := S512x1024) hz00_2,
    View.ld_unit_zero (S := S1x512) hz00_2]
  all_goals rfl

/-- The last run's slab: as a middle run's. -/
theorem runC2_snd_eq (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : ¬cond2_0 i) (hc1 : cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32)
    (x8 : Vec F S256x120 .bf16) (x9 : Vec F S120x64 .bf16) (x10 : Vec F S64x8 .bf16)
    (x11 : Vec F S1x120 .f32) (x12 : Vec F S1x64 .f32) (x13 : Vec F S1x8 .f32) (xs : Vec F S512x4096 .f32) :
    (kernelRun2_C (F := F) c i arg2 harg2 arg3 harg3 arg4 harg4 arg5 harg5 arg6 harg6 arg7 harg7 arg8 harg8 arg9 harg9 arg10 harg10
        arg11 harg11 arg12 harg12 arg13 harg13 arg14 harg14 arg15 harg15 hc0 hc1 x2 x3 x4 x5 x6 x7 x8 x9 x10 x11 x12 x13 xs).1.2
      = arg15.view.read (Elt F) (arg15.view.writes (Elt F) (harg15.unread xs) [⟨slice2 i, k2_pay2 x2 x3 x4 x5 x6 x7⟩]) := by
  unfold kernelRun2_C
  dsimp only
  sl_unfold_run_names
  simp only [View.readAt_eq_ld, Memref.IsWhole.read_unread, View.ld_unit_zero (S := S512x1024) hz00_2,
    View.ld_unit_zero (S := S1x512) hz00_2]
  all_goals rfl

end Cert.KernelIdeal.KValue

end
-- ==== Proof.KVal2Pay.lean ====
/-
  Region 2's slice payload at an entry.  At each micro step the body stores a 512 x 512 slice of the layer's
  pre-activation: the row of the first left operand against the row of the first weight block, plus the row of
  the second left operand against the row of the second weight block, plus the two bias rows' entries, added in
  that order.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Cert.DanLib Idealize.ShloMosaic.ValueIdx

/-- The slice products' dimension numbers contract axis 1 with axis 1. -/
theorem rowsT2 : RowsDot.IsRowsT dot_S512x1024_S512x1024_S512x512_1_1_0_0_n_n := ⟨rfl, rfl, rfl, rfl, rfl, rfl, rfl, rfl⟩

set_option maxHeartbeats 4000000 in
/-- The stored slice at (p, q): the two row-against-row products and the two bias entries, in the body's order. -/
theorem pay2_apply (x2 : Vec Ideal S512x1024 .bf16) (x3 : Vec Ideal S512x1024 .bf16) (x4 : Vec Ideal S512x1024 .f32)
    (x5 : Vec Ideal S512x1024 .f32) (x6 : Vec Ideal S1x512 .f32) (x7 : Vec Ideal S1x512 .f32) (p : Fin 512) (q : Fin 512) :
    k2_pay2 (F := Ideal) x2 x3 x4 x5 x6 x7 (ix2 p q)
      = (((∑ k : Fin 1024, (x2 (ix2 p k) : EReal) * (x4 (ix2 q k) : EReal))
            + (∑ k : Fin 1024, (x3 (ix2 p k) : EReal) * (x5 (ix2 q k) : EReal)))
          + (x6 (ix2 (0 : Fin 1) q) : EReal)) + (x7 (ix2 (0 : Fin 1) q) : EReal) := by
  unfold k2_pay2
  simp only [shapeCast_self]
  show ((((matmul (F := Ideal) dot_S512x1024_S512x1024_S512x512_1_1_0_0_n_n none x2
              (truncf (F := Ideal) .bf16 x4 bitsLt_bf16_f32) (constant (F := Ideal) S512x512 .f32 0x00000000#32)) (ix2 p q) : EReal)
          + ((matmul (F := Ideal) dot_S512x1024_S512x1024_S512x512_1_1_0_0_n_n none x3
              (truncf (F := Ideal) .bf16 x5 bitsLt_bf16_f32) (constant (F := Ideal) S512x512 .f32 0x00000000#32)) (ix2 p q) : EReal))
        + ((broadcastTo S512x512 x6 broadcasts_S1x512_S512x512) (ix2 p q) : EReal))
      + ((broadcastTo S512x512 x7 broadcasts_S1x512_S512x512) (ix2 p q) : EReal) = _
  rw [RowsDot.matmul_zero_apply rowsT2, RowsDot.matmul_zero_apply rowsT2, broadcastTo_1b_ab_apply, broadcastTo_1b_ab_apply]
  rfl

end Cert.KernelIdeal.KValue

end
-- ==== Proof.KVal2Tile.lean ====
/-
  Region 2's scratch slab after a macro tile.  Grid point t = 8 * ma + mi stores into columns 512 * mi .. of the
  slab the 512 x 512 slice whose entry (p, q) is the layer's pre-activation at row p, column 512 * t + q: the first
  left operand (layer 0's output) against row 512 * t + q of the first weight array, plus the second left operand
  (the input) against that row of the skip weight array, plus the two bias rows there.  Since 512 * t + q
  = 4096 * ma + (512 * mi + q), after micro step mi the slab's columns below 512 * (mi + 1) hold the pre-activation
  of columns 4096 * ma .. .
-/
import proofs.«120596_j16338055594194_2_alg».proof.Proof.KBody2
import proofs.«120596_j16338055594194_2_alg».proof.Proof.KVal2Slab
import proofs.«120596_j16338055594194_2_alg».proof.Proof.KVal2Pay
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KBody Cert.DanLib Idealize.ShloMosaic.ValueIdx

variable (V : (c : Dev nD) → (b : Ref sig .tc) → Buf (Elt Ideal) ((c : Thread nD τ).loc b))

/-- The printed index maps over the grid: the two left operands' blocks stay at (0, 0); the two weight blocks' row
    index and the two bias blocks' column index are the point's position. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = t.val
    ∧ win2_5.index t (0 : Fin 2) = 0 ∧ win2_5.index t (1 : Fin 2) = t.val :=
  (by decide +kernel : ∀ t : Fin grid2.N, _)

/-- The layer's pre-activation at row r, column j, of two left operands, two weight arrays and two bias rows: the rows'
    products and the bias entries, added in the body's order. -/
abbrev G2 (a0 a1 : S512x1024.Idx → Elt Ideal .bf16) (w0 w1 : S32768x1024.Idx → Elt Ideal .f32)
    (b0 b1 : S1x32768.Idx → Elt Ideal .f32) (r : Fin 512) (j : Fin 32768) : EReal :=
  (((∑ k : Fin 1024, (a0 (ix2 r k) : EReal) * (w0 (ix2 j k) : EReal))
      + (∑ k : Fin 1024, (a1 (ix2 r k) : EReal) * (w1 (ix2 j k) : EReal)))
    + (b0 (ix2 (0 : Fin 1) j) : EReal)) + (b1 (ix2 (0 : Fin 1) j) : EReal)

/-- The layer's pre-activation of the arrays as the region finds them. -/
def pre2 (c : Dev nD) (r : Fin 512) (j : Fin 32768) : EReal :=
  G2 (V c main_v124) (V c main_v0) (V c main_arg3) (V c main_arg7) (V c main_v248) (V c main_v249) r j

/-- If a slice's operand tiles read the arrays' rows and entries at an index, the stored slice at (p, q) is the arrays'
    pre-activation there. -/
theorem pre_congr2 (x2 x3 : Vec Ideal S512x1024 .bf16) (x4 x5 : Vec Ideal S512x1024 .f32) (x6 x7 : Vec Ideal S1x512 .f32)
    (a0 a1 : S512x1024.Idx → Elt Ideal .bf16) (w0 w1 : S32768x1024.Idx → Elt Ideal .f32)
    (b0 b1 : S1x32768.Idx → Elt Ideal .f32) (p q : Fin 512) (j : Fin 32768)
    (h2 : ∀ k : Fin 1024, x2 (ix2 p k) = a0 (ix2 p k)) (h3 : ∀ k : Fin 1024, x3 (ix2 p k) = a1 (ix2 p k))
    (h4 : ∀ k : Fin 1024, x4 (ix2 q k) = w0 (ix2 j k)) (h5 : ∀ k : Fin 1024, x5 (ix2 q k) = w1 (ix2 j k))
    (h6 : x6 (ix2 (0 : Fin 1) q) = b0 (ix2 (0 : Fin 1) j)) (h7 : x7 (ix2 (0 : Fin 1) q) = b1 (ix2 (0 : Fin 1) j)) :
    k2_pay2 (F := Ideal) x2 x3 x4 x5 x6 x7 (ix2 p q) = G2 a0 a1 w0 w1 b0 b1 p j := by
  have e1 : (∑ k : Fin 1024, (x2 (ix2 p k) : EReal) * (x4 (ix2 q k) : EReal))
      = ∑ k : Fin 1024, (a0 (ix2 p k) : EReal) * (w0 (ix2 j k) : EReal) :=
    Finset.sum_congr rfl fun k _ => by rw [h2 k, h4 k]
  have e2 : (∑ k : Fin 1024, (x3 (ix2 p k) : EReal) * (x5 (ix2 q k) : EReal))
      = ∑ k : Fin 1024, (a1 (ix2 p k) : EReal) * (w1 (ix2 j k) : EReal) :=
    Finset.sum_congr rfl fun k _ => by rw [h3 k, h5 k]
  rw [pay2_apply, e1, e2, h6, h7]

/-- The left operands' blocks are the whole arrays. -/
theorem blk2_0 (c : Dev nD) (t : Fin cfg2.N) (p : Fin 512) (k : Fin 1024) :
    iblk2 V c 0 t (ix2 p k) = V c main_v124 (ix2 p k) := by
  obtain ⟨e0, e1, -⟩ := idx_facts2 t
  show V c main_v124 (((cfg2.win 0).blk t).view.emb (ix2 p k)) = _
  refine congrArg (V c main_v124) ?_
  funext a; apply Fin.ext
  match a with
  | ⟨0, _⟩ => show win2_0.index t (0 : Fin 2) * 512 + 1 * p.val = p.val; omega
  | ⟨1, _⟩ => show win2_0.index t (1 : Fin 2) * 1024 + 1 * k.val = k.val; omega

theorem blk2_1 (c : Dev nD) (t : Fin cfg2.N) (p : Fin 512) (k : Fin 1024) :
    iblk2 V c 1 t (ix2 p k) = V c main_v0 (ix2 p k) := by
  obtain ⟨-, -, e0, e1, -⟩ := idx_facts2 t
  show V c main_v0 (((cfg2.win 1).blk t).view.emb (ix2 p k)) = _
  refine congrArg (V c main_v0) ?_
  funext a; apply Fin.ext
  match a with
  | ⟨0, _⟩ => show win2_1.index t (0 : Fin 2) * 512 + 1 * p.val = p.val; omega
  | ⟨1, _⟩ => show win2_1.index t (1 : Fin 2) * 1024 + 1 * k.val = k.val; omega

/-- The weight blocks are rows 512 * t .. of the weight arrays. -/
theorem blk2_2 (c : Dev nD) (t : Fin cfg2.N) (q : Fin 512) (k : Fin 1024) (j : Fin 32768) (hj : j.val = 512 * t.val + q.val) :
    iblk2 V c 2 t (ix2 q k) = V c main_arg3 (ix2 j k) := by
  obtain ⟨-, -, -, -, e0, e1, -⟩ := idx_facts2 t
  show V c main_arg3 (((cfg2.win 2).blk t).view.emb (ix2 q k)) = _
  refine congrArg (V c main_arg3) ?_
  funext a; apply Fin.ext
  match a with
  | ⟨0, _⟩ => show win2_2.index t (0 : Fin 2) * 512 + 1 * q.val = j.val; omega
  | ⟨1, _⟩ => show win2_2.index t (1 : Fin 2) * 1024 + 1 * k.val = k.val; omega

theorem blk2_3 (c : Dev nD) (t : Fin cfg2.N) (q : Fin 512) (k : Fin 1024) (j : Fin 32768) (hj : j.val = 512 * t.val + q.val) :
    iblk2 V c 3 t (ix2 q k) = V c main_arg7 (ix2 j k) := by
  obtain ⟨-, -, -, -, -, -, e0, e1, -⟩ := idx_facts2 t
  show V c main_arg7 (((cfg2.win 3).blk t).view.emb (ix2 q k)) = _
  refine congrArg (V c main_arg7) ?_
  funext a; apply Fin.ext
  match a with
  | ⟨0, _⟩ => show win2_3.index t (0 : Fin 2) * 512 + 1 * q.val = j.val; omega
  | ⟨1, _⟩ => show win2_3.index t (1 : Fin 2) * 1024 + 1 * k.val = k.val; omega

/-- The bias blocks are columns 512 * t .. of the bias rows. -/
theorem blk2_4 (c : Dev nD) (t : Fin cfg2.N) (q : Fin 512) (j : Fin 32768) (hj : j.val = 512 * t.val + q.val) :
    iblk2 V c 4 t (ix2 (0 : Fin 1) q) = V c main_v248 (ix2 (0 : Fin 1) j) := by
  obtain ⟨-, -, -, -, -, -, -, -, e0, e1, -⟩ := idx_facts2 t
  show V c main_v248 (((cfg2.win 4).blk t).view.emb (ix2 (0 : Fin 1) q)) = _
  refine congrArg (V c main_v248) ?_
  funext a; apply Fin.ext
  match a with
  | ⟨0, _⟩ => show win2_4.index t (0 : Fin 2) * 1 + 1 * 0 = 0; omega
  | ⟨1, _⟩ => show win2_4.index t (1 : Fin 2) * 512 + 1 * q.val = j.val; omega

theorem blk2_5 (c : Dev nD) (t : Fin cfg2.N) (q : Fin 512) (j : Fin 32768) (hj : j.val = 512 * t.val + q.val) :
    iblk2 V c 5 t (ix2 (0 : Fin 1) q) = V c main_v249 (ix2 (0 : Fin 1) j) := by
  obtain ⟨-, -, -, -, -, -, -, -, -, -, e0, e1⟩ := idx_facts2 t
  show V c main_v249 (((cfg2.win 5).blk t).view.emb (ix2 (0 : Fin 1) q)) = _
  refine congrArg (V c main_v249) ?_
  funext a; apply Fin.ext
  match a with
  | ⟨0, _⟩ => show win2_5.index t (0 : Fin 2) * 1 + 1 * 0 = 0; omega
  | ⟨1, _⟩ => show win2_5.index t (1 : Fin 2) * 512 + 1 * q.val = j.val; omega

/-- The slice stored at point t, at (p, q): the pre-activation at row p, column 512 * t + q. -/
theorem tile2_entry (c : Dev nD) (t : Fin cfg2.N) (p q : Fin 512) (j : Fin 32768) (hj : j.val = 512 * t.val + q.val) :
    k2_pay2 (F := Ideal) (iblk2 V c 0 t) (iblk2 V c 1 t) (iblk2 V c 2 t) (iblk2 V c 3 t) (iblk2 V c 4 t) (iblk2 V c 5 t) (ix2 p q)
      = pre2 V c p j := by
  unfold pre2
  exact pre_congr2 (iblk2 V c 0 t) (iblk2 V c 1 t) (iblk2 V c 2 t) (iblk2 V c 3 t) (iblk2 V c 4 t) (iblk2 V c 5 t)
    (V c main_v124) (V c main_v0) (V c main_arg3) (V c main_arg7) (V c main_v248) (V c main_v249) p q j
    (fun k => blk2_0 V c t p k) (fun k => blk2_1 V c t p k) (fun k => blk2_2 V c t q k j hj) (fun k => blk2_3 V c t q k j hj)
    (blk2_4 V c t q j hj) (blk2_5 V c t q j hj)

/-- Index (r, col) of the slab lies under point t's slice, at local index (r, q), when col = 512 * (t mod 8) + q. -/
theorem slice2_emb (t : Fin cfg2.N) (r : Fin 512) (col : Fin 4096) (q : Fin 512) (h : col.val = 512 * (t.val % 8) + q.val) :
    (slice2 (grid2.coords t)).emb (ix2 r q) = ix2 r col := by
  have ho := off2_eq t
  funext a; apply Fin.ext
  match a with
  | ⟨0, _⟩ =>
    show k2_off1 (grid2.coords t) (0 : Fin 2) + 1 * r.val = r.val
    rw [ho]; show 0 + 1 * r.val = r.val; omega
  | ⟨1, _⟩ =>
    show k2_off1 (grid2.coords t) (1 : Fin 2) + 1 * q.val = col.val
    rw [ho]; show 512 * (t.val % 8) + 1 * q.val = col.val; omega

/-- A column before the slice's first is not under it. -/
theorem slice2_not_mem (t : Fin cfg2.N) (r : Fin 512) (col : Fin 4096) (h : col.val < 512 * (t.val % 8)) :
    ix2 r col ∉ (slice2 (grid2.coords t)).set := by
  intro hm
  have h1 := (Rect.mem_set_unit.mp hm (1 : Fin 2)).1
  rw [off2_eq t] at h1
  have h1' : 512 * (t.val % 8) ≤ col.val := h1
  omega

/-- Micro step 0 of a macro tile: the slab's first 512 columns hold the pre-activation of columns 4096 * (t / 8) .. . -/
theorem slab2_A (c : Dev nD) (t : Fin cfg2.N) (h0 : t.val % 8 = 0) (r : Fin 512) (col : Fin 4096) (j : Fin 32768)
    (hcol : col.val < 512) (hj : j.val = t.val / 8 * 4096 + col.val) :
    scr2 V c t.val t.isLt (ix2 r col) = pre2 V c r j := by
  rw [scr2_A V c t h0]
  unfold runA2
  rw [runA2_eq]
  rw [← slice2_emb t r col ⟨col.val, hcol⟩ (by show col.val = 512 * (t.val % 8) + col.val; omega)]
  rw [View.canon_cons_emb]
  exact tile2_entry V c t r ⟨col.val, hcol⟩ j (by show j.val = 512 * t.val + col.val; omega)

/-- A later micro step: the columns below the slice keep what the step before left, the slice's columns take the
    pre-activation. -/
theorem slab2_step (c : Dev nD) (t : Fin cfg2.N) (h0 : ¬t.val % 8 = 0)
    (ih : ∀ (r : Fin 512) (col : Fin 4096) (j : Fin 32768), col.val < 512 * (t.val % 8) → j.val = t.val / 8 * 4096 + col.val →
      scr2 V c (t.val - 1) (Nat.lt_of_le_of_lt (Nat.sub_le _ _) t.isLt) (ix2 r col) = pre2 V c r j)
    (r : Fin 512) (col : Fin 4096) (j : Fin 32768) (hcol : col.val < 512 * (t.val % 8 + 1))
    (hj : j.val = t.val / 8 * 4096 + col.val) :
    scr2 V c t.val t.isLt (ix2 r col) = pre2 V c r j := by
  have key : ∀ xs : Vec Ideal S512x4096 .f32,
      (∀ (r : Fin 512) (col : Fin 4096) (j : Fin 32768), col.val < 512 * (t.val % 8) → j.val = t.val / 8 * 4096 + col.val →
        xs (ix2 r col) = pre2 V c r j) →
      scM2_0.view.read (Elt Ideal) (scM2_0.view.writes (Elt Ideal) ((Memref.isWhole_whole cc2_scratch0).unread xs)
        [⟨slice2 (grid2.coords t), k2_pay2 (F := Ideal) (iblk2 V c 0 t) (iblk2 V c 1 t) (iblk2 V c 2 t) (iblk2 V c 3 t)
            (iblk2 V c 4 t) (iblk2 V c 5 t)⟩]) (ix2 r col) = pre2 V c r j := by
    intro xs hxs
    by_cases hlo : col.val < 512 * (t.val % 8)
    · rw [store_not_mem2 _ xs _ _ _ (slice2_not_mem t r col hlo)]
      exact hxs r col j hlo hj
    · have hq : col.val - 512 * (t.val % 8) < 512 := by omega
      rw [← slice2_emb t r col ⟨col.val - 512 * (t.val % 8), hq⟩
        (by show col.val = 512 * (t.val % 8) + (col.val - 512 * (t.val % 8)); omega)]
      rw [store_emb2]
      exact tile2_entry V c t r ⟨col.val - 512 * (t.val % 8), hq⟩ j
        (by show j.val = 512 * t.val + (col.val - 512 * (t.val % 8)); omega)
  by_cases h1 : t.val % 8 = 7
  · rw [scr2_C V c t h1]
    unfold runC2
    rw [runC2_snd_eq]
    exact key _ ih
  · rw [scr2_B V c t h0 h1]
    unfold runB2
    rw [runB2_eq]
    exact key _ ih

/-- After the body at position n = 8 * ma + mi, the slab's columns below 512 * (mi + 1) hold the layer's pre-activation
    of columns 4096 * ma .. : by induction over the positions. -/
theorem slab2 (c : Dev nD) : ∀ (n : ℕ) (hn : n < cfg2.N) (r : Fin 512) (col : Fin 4096) (j : Fin 32768),
    col.val < 512 * (n % 8 + 1) → j.val = n / 8 * 4096 + col.val → scr2 V c n hn (ix2 r col) = pre2 V c r j := by
  intro n
  induction n with
  | zero =>
    intro hn r col j hcol hj
    exact slab2_A V c ⟨0, hn⟩ (Nat.zero_mod _) r col j (by omega) hj
  | succ n ih =>
    intro hn r col j hcol hj
    by_cases h0 : (n + 1) % 8 = 0
    · exact slab2_A V c ⟨n + 1, hn⟩ h0 r col j (by omega) hj
    · refine slab2_step V c ⟨n + 1, hn⟩ h0 (fun r' col' j' hc' hj' => ?_) r col j hcol hj
      have hc'' : col'.val < 512 * ((n + 1) % 8) := hc'
      have hj'' : j'.val = (n + 1) / 8 * 4096 + col'.val := hj'
      exact ih (Nat.lt_of_succ_lt hn) r' col' j' (by omega) (by omega)

/-- At the last micro step of macro tile ma the whole slab holds the pre-activation of columns 4096 * ma .. + 4095. -/
theorem slab2_last (c : Dev nD) (t : Fin cfg2.N) (h7 : t.val % 8 = 7) (r : Fin 512) (col : Fin 4096) (j : Fin 32768)
    (hj : j.val = t.val / 8 * 4096 + col.val) : scr2 V c t.val t.isLt (ix2 r col) = pre2 V c r j :=
  slab2 V c t.val t.isLt r col j (by have := col.isLt; omega) hj

end Cert.KernelIdeal.KValue

end
-- ==== Proof.KVal2.lean ====
/-
  Region 2's output array.  Its array has 8 column blocks of 128 columns (nodes); the body writes block ma at the last
  micro step of macro tile ma, and the pipeline writes it back there.  If the block stored at point t = 8 * ma + 7 is,
  at (p, q), the layer's value at row p, node 128 * ma + q, then the eight blocks cover the array and the array ends at
  the layer.  The layer is the specification's wide form over the region's pre-activation, which the slab holds
  (KVal2Tile).
-/
import proofs.«120596_j16338055594194_2_alg».proof.Proof.KVal2Tile
import proofs.«120596_j16338055594194_2_alg».proof.Proof.KPre
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KBody Cert.DanLib Idealize.ShloMosaic.ValueIdx

variable (V : (c : Dev nD) → (b : Ref sig .tc) → Buf (Elt Ideal) ((c : Thread nD τ).loc b))

/-- The slab's pre-activation is the specification-side one of the arrays the region finds. -/
theorem pre2_eq_pre2K (c : Dev nD) :
    pre2 V c = Cert.DanSpec.pre2K (V c main_v124) (V c main_v0) (V c main_arg3) (V c main_arg7) (V c main_v248) (V c main_v249) :=
  rfl

/-- Region 2's layer of the arrays it finds, row by node. -/
abbrev L2 (c : Dev nD) : Fin 512 → Fin 1024 → EReal :=
  Cert.DanSpec.kdan (V c main_v165) (V c main_v239) (V c main_v200) (V c main_v243) (V c main_v235) (V c main_v247)
    (Cert.DanSpec.pre2K (V c main_v124) (V c main_v0) (V c main_arg3) (V c main_arg7) (V c main_v248) (V c main_v249))

/-- The output block's column index is the macro tile. -/
theorem idx_out2 : ∀ t : Fin cfg2.N, win2_12.index t (0 : Fin 2) = 0 ∧ win2_12.index t (1 : Fin 2) = t.val / 8 :=
  (by decide +kernel : ∀ t : Fin grid2.N, _)

/-- Every column block of the output is written at some last micro step. -/
theorem idx_onto2 : ∀ q1 : Fin 8, ∃ t : Fin cfg2.N, t.val % 8 = 7 ∧ win2_12.index t = ![0, q1.val] :=
  (by decide +kernel : ∀ q1 : Fin 8, ∃ t : Fin grid2.N, t.val % 8 = 7 ∧ win2_12.index t = ![0, q1.val])

/-- An index of the array is in point t's block iff each coordinate is in the block's range on its axis. -/
theorem mem_blk2 (t : Fin cfg2.N) (i : S512x1024.Idx) :
    i ∈ ((cfg2.win 12).blk t).view.set ↔ ∀ a : Fin 2, win2_12.index t a * S512x128.size a ≤ (i a).val
      ∧ (i a).val < win2_12.index t a * S512x128.size a + S512x128.size a := by
  show i ∈ ((View.whole main_v250).slice (win2_12.rect t)).set ↔ _
  rw [View.set_slice_whole, Rect.mem_set_unit]
  exact Iff.rfl

/-- The eight blocks cover the array: node n lies in block n / 128. -/
theorem covered2 (i : S512x1024.Idx) :
    ∃ t : Fin cfg2.N, (cfg2.win 12).flush t = true ∧ i ∈ ((cfg2.win 12).blk t).view.set := by
  have hi0 : (i 0).val < 512 := (i 0).isLt
  have hi1 : (i 1).val < 1024 := (i 1).isLt
  obtain ⟨t, h7, ht⟩ := idx_onto2 ⟨(i 1).val / 128, by omega⟩
  have q0 : win2_12.index t (0 : Fin 2) = 0 := congrFun ht 0
  have q1 : win2_12.index t (1 : Fin 2) = (i 1).val / 128 := congrFun ht 1
  refine ⟨t, (flush2_12 t).mpr h7, ?_⟩
  rw [mem_blk2]
  intro a
  match a with
  | ⟨0, _⟩ => show win2_12.index t (0 : Fin 2) * 512 ≤ (i 0).val ∧ (i 0).val < win2_12.index t (0 : Fin 2) * 512 + 512; omega
  | ⟨1, _⟩ => show win2_12.index t (1 : Fin 2) * 128 ≤ (i 1).val ∧ (i 1).val < win2_12.index t (1 : Fin 2) * 128 + 128; omega

/-- What a last micro step writes back is its block of the layer, PROVIDED the block it stored is the layer there. -/
theorem flushed2_eq (c : Dev nD)
    (hblock : ∀ (t : Fin cfg2.N), t.val % 8 = 7 → ∀ (p : Fin 512) (q : Fin 128) (n : Fin 1024), n.val = 128 * (t.val / 8) + q.val →
      out2_12 V c t (ix2 p q) = L2 V c p n)
    (t : Fin cfg2.N) (hf : (cfg2.win 12).flush t = true) :
    (dat2 V c).flushed 12 t = ((cfg2.win 12).blk t).view.read (Elt Ideal) (Cert.DanSpec.asMat (L2 V c)) := by
  have h7 : t.val % 8 = 7 := (flush2_12 t).mp hf
  obtain ⟨e0, e1⟩ := idx_out2 t
  show (cfg2.win 12).cut (grid2.coords t) ((dat2 V c).after 12 t) = _
  rw [after2_12]
  funext j
  obtain ⟨p, q, rfl⟩ : ∃ (p : Fin 512) (q : Fin 128), j = ix2 p q := ⟨j 0, j 1, eq_ix2 j⟩
  show out2_12 V c t (ix2 p q) = Cert.DanSpec.asMat (L2 V c) (((cfg2.win 12).blk t).view.emb (ix2 p q))
  have hq : q.val < 128 := q.isLt
  have hN : t.val < 64 := lt_of_lt_of_eq t.isLt (show cfg2.N = 64 from N_2)
  rw [hblock t h7 p q ⟨128 * (t.val / 8) + q.val, by omega⟩ rfl]
  show L2 V c p _ = L2 V c ((((cfg2.win 12).blk t).view.emb (ix2 p q)) 0) ((((cfg2.win 12).blk t).view.emb (ix2 p q)) 1)
  congr 1
  · apply Fin.ext
    show p.val = win2_12.index t (0 : Fin 2) * 512 + 1 * p.val
    omega
  · apply Fin.ext
    show 128 * (t.val / 8) + q.val = win2_12.index t (1 : Fin 2) * 128 + 1 * q.val
    omega

/-- The output array after the region is the layer of the arrays the region found, PROVIDED each last micro step's stored
    block is the layer there. -/
theorem out2_value_of (c : Dev nD)
    (hblock : ∀ (t : Fin cfg2.N), t.val % 8 = 7 → ∀ (p : Fin 512) (q : Fin 128) (n : Fin 1024), n.val = 128 * (t.val / 8) + q.val →
      out2_12 V c t (ix2 p q) = L2 V c p n) :
    (dat2 V c).arrAt 12 cfg2.N = Cert.DanSpec.asMat (L2 V c) :=
  (dat2 V c).arrAt_eq_of_cover 12 (Cert.DanSpec.asMat (L2 V c))
    (fun t hf => flushed2_eq V c hblock t hf) (fun i => covered2 i)

end Cert.KernelIdeal.KValue

end
-- ==== Proof.KVal2Out.lean ====
/-
  Region 2's output block as the epilogue computes it.  The slab's sixteen 256-column strips each go through the
  three wide products with bias and rectifier (the printed payloads cut some strips' chains in two or three pieces);
  the sixteen 512 x 8 results are concatenated along the columns.  The last run's witness for the output block is
  this function of the six small operands' blocks and of the slab as the run's own last store left it.
-/
import proofs.«120596_j16338055594194_2_alg».proof.Proof.KVal2Slab
import Idealize.ShloMosaic.Lib.Pipeline.Value
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KBody

variable {F : FTy → Type} [FloatOps F]

/-- The epilogue's output block from the six small operands and the slab `S`: strip k is columns 256 k .. of `S`. -/
def epiOut2 (x8 : Vec F S256x120 .bf16) (x9 : Vec F S120x64 .bf16) (x10 : Vec F S64x8 .bf16) (x11 : Vec F S1x120 .f32)
    (x12 : Vec F S1x64 .f32) (x13 : Vec F S1x8 .f32) (S : Vec F S512x4096 .f32) : FVec F S512x128 .f32 :=
  k2_pay35
    (k2_pay11
      (k2_pay9 x8 x9 x10 x11 x12 x13 (View.ld S (Rect.unit (s := S512x4096) ![0, 0] S512x256.size inb_S512x4096_S512x256_0_0)))
      (k2_pay10 x8 x9 x10 x11 x12 x13 (View.ld S (Rect.unit (s := S512x4096) ![0, 0] S512x256.size inb_S512x4096_S512x256_0_0)))
      (Scalar.ofBits .f32 0x3C23D70A#32))
    (k2_pay12 (k2_pay3 x8) (k2_pay4 x9) (k2_pay5 x10) (k2_pay6 x11) (k2_pay7 x12) (k2_pay8 x13)
      (View.ld S (Rect.unit (s := S512x4096) ![0, 256] S512x256.size inb_S512x4096_S512x256_0_256)))
    (k2_pay14 (k2_pay5 x10) (k2_pay7 x12) (k2_pay8 x13)
      (k2_pay13 (k2_pay3 x8) (k2_pay4 x9) (k2_pay6 x11)
        (View.ld S (Rect.unit (s := S512x4096) ![0, 512] S512x256.size inb_S512x4096_S512x256_0_512))))
    (k2_pay15 (k2_pay3 x8) (k2_pay4 x9) (k2_pay5 x10) (k2_pay6 x11) (k2_pay7 x12) (k2_pay8 x13)
      (View.ld S (Rect.unit (s := S512x4096) ![0, 768] S512x256.size inb_S512x4096_S512x256_0_768)))
    (k2_pay16 (k2_pay3 x8) (k2_pay4 x9) (k2_pay5 x10) (k2_pay6 x11) (k2_pay7 x12) (k2_pay8 x13)
      (View.ld S (Rect.unit (s := S512x4096) ![0, 1024] S512x256.size inb_S512x4096_S512x256_0_1024)))
    (k2_pay18 (k2_pay5 x10) (k2_pay8 x13)
      (k2_pay17 (k2_pay3 x8) (k2_pay4 x9) (k2_pay6 x11) (k2_pay7 x12)
        (View.ld S (Rect.unit (s := S512x4096) ![0, 1280] S512x256.size inb_S512x4096_S512x256_0_1280)))
      (Scalar.ofBits .f32 0x00000000#32))
    (k2_pay19 (k2_pay3 x8) (k2_pay4 x9) (k2_pay5 x10) (k2_pay6 x11) (k2_pay7 x12) (k2_pay8 x13)
      (View.ld S (Rect.unit (s := S512x4096) ![0, 1536] S512x256.size inb_S512x4096_S512x256_0_1536)))
    (k2_pay20 (k2_pay3 x8) (k2_pay4 x9) (k2_pay5 x10) (k2_pay6 x11) (k2_pay7 x12) (k2_pay8 x13)
      (View.ld S (Rect.unit (s := S512x4096) ![0, 1792] S512x256.size inb_S512x4096_S512x256_0_1792)))
    (k2_pay23 (k2_pay5 x10) (k2_pay8 x13)
      (k2_pay21 (k2_pay3 x8) (k2_pay4 x9) (k2_pay6 x11) (k2_pay7 x12)
        (View.ld S (Rect.unit (s := S512x4096) ![0, 2048] S512x256.size inb_S512x4096_S512x256_0_2048)))
      (k2_pay22 (k2_pay3 x8) (k2_pay4 x9) (k2_pay6 x11) (k2_pay7 x12)
        (View.ld S (Rect.unit (s := S512x4096) ![0, 2048] S512x256.size inb_S512x4096_S512x256_0_2048)))
      (Scalar.ofBits .f32 0x3C23D70A#32))
    (k2_pay24 (k2_pay3 x8) (k2_pay4 x9) (k2_pay5 x10) (k2_pay6 x11) (k2_pay7 x12) (k2_pay8 x13)
      (View.ld S (Rect.unit (s := S512x4096) ![0, 2304] S512x256.size inb_S512x4096_S512x256_0_2304)))
    (k2_pay26 (k2_pay4 x9) (k2_pay5 x10) (k2_pay6 x11) (k2_pay7 x12) (k2_pay8 x13)
      (k2_pay25 (k2_pay3 x8)
        (View.ld S (Rect.unit (s := S512x4096) ![0, 2560] S512x256.size inb_S512x4096_S512x256_0_2560))))
    (k2_pay28 (k2_pay5 x10) (k2_pay8 x13)
      (k2_pay27 (k2_pay3 x8) (k2_pay4 x9) (k2_pay6 x11) (k2_pay7 x12)
        (View.ld S (Rect.unit (s := S512x4096) ![0, 2816] S512x256.size inb_S512x4096_S512x256_0_2816))))
    (k2_pay29 (k2_pay3 x8) (k2_pay4 x9) (k2_pay5 x10) (k2_pay6 x11) (k2_pay7 x12) (k2_pay8 x13)
      (View.ld S (Rect.unit (s := S512x4096) ![0, 3072] S512x256.size inb_S512x4096_S512x256_0_3072)))
    (k2_pay31 (k2_pay4 x9) (k2_pay5 x10) (k2_pay7 x12) (k2_pay8 x13)
      (k2_pay30 (k2_pay3 x8) (k2_pay6 x11)
        (View.ld S (Rect.unit (s := S512x4096) ![0, 3328] S512x256.size inb_S512x4096_S512x256_0_3328)))
      (Scalar.ofBits .f32 0x00000000#32))
    (k2_pay33 (k2_pay8 x13)
      (k2_pay32 (k2_pay3 x8) (k2_pay4 x9) (k2_pay5 x10) (k2_pay6 x11) (k2_pay7 x12)
        (View.ld S (Rect.unit (s := S512x4096) ![0, 3584] S512x256.size inb_S512x4096_S512x256_0_3584))))
    (k2_pay34 (k2_pay3 x8) (k2_pay4 x9) (k2_pay5 x10) (k2_pay6 x11) (k2_pay7 x12) (k2_pay8 x13)
      (View.ld S (Rect.unit (s := S512x4096) ![0, 3840] S512x256.size inb_S512x4096_S512x256_0_3840)))

set_option maxHeartbeats 4000000 in
/-- The last run's output block is the epilogue's function of the six small operands and of the slab as the run's own
    store left it. -/
theorem runC2_fst_eq (c : Dev nD) (i : grid2.Coords)
    (arg2 : Memref sig .tc .vmem S512x1024 .bf16) (harg2 : arg2.IsWhole) (arg3 : Memref sig .tc .vmem S512x1024 .bf16) (harg3 : arg3.IsWhole)
    (arg4 : Memref sig .tc .vmem S512x1024 .f32) (harg4 : arg4.IsWhole) (arg5 : Memref sig .tc .vmem S512x1024 .f32) (harg5 : arg5.IsWhole)
    (arg6 : Memref sig .tc .vmem S1x512 .f32) (harg6 : arg6.IsWhole) (arg7 : Memref sig .tc .vmem S1x512 .f32) (harg7 : arg7.IsWhole)
    (arg8 : Memref sig .tc .vmem S256x120 .bf16) (harg8 : arg8.IsWhole) (arg9 : Memref sig .tc .vmem S120x64 .bf16) (harg9 : arg9.IsWhole)
    (arg10 : Memref sig .tc .vmem S64x8 .bf16) (harg10 : arg10.IsWhole) (arg11 : Memref sig .tc .vmem S1x120 .f32) (harg11 : arg11.IsWhole)
    (arg12 : Memref sig .tc .vmem S1x64 .f32) (harg12 : arg12.IsWhole) (arg13 : Memref sig .tc .vmem S1x8 .f32) (harg13 : arg13.IsWhole)
    (arg14 : Memref sig .tc .vmem S512x128 .f32) (harg14 : arg14.IsWhole) (arg15 : Memref sig .tc .vmem S512x4096 .f32) (harg15 : arg15.IsWhole)
    (hc0 : ¬cond2_0 i) (hc1 : cond2_1 i)
    (x2 : Vec F S512x1024 .bf16) (x3 : Vec F S512x1024 .bf16) (x4 : Vec F S512x1024 .f32) (x5 : Vec F S512x1024 .f32)
    (x6 : Vec F S1x512 .f32) (x7 : Vec F S1x512 .f32)
    (x8 : Vec F S256x120 .bf16) (x9 : Vec F S120x64 .bf16) (x10 : Vec F S64x8 .bf16)
    (x11 : Vec F S1x120 .f32) (x12 : Vec F S1x64 .f32) (x13 : Vec F S1x8 .f32) (xs : Vec F S512x4096 .f32) :
    (kernelRun2_C (F := F) c i arg2 harg2 arg3 harg3 arg4 harg4 arg5 harg5 arg6 harg6 arg7 harg7 arg8 harg8 arg9 harg9 arg10 harg10
        arg11 harg11 arg12 harg12 arg13 harg13 arg14 harg14 arg15 harg15 hc0 hc1 x2 x3 x4 x5 x6 x7 x8 x9 x10 x11 x12 x13 xs).1.1
      = epiOut2 x8 x9 x10 x11 x12 x13
          (arg15.view.read (Elt F) (arg15.view.writes (Elt F) (harg15.unread xs) [⟨slice2 i, k2_pay2 x2 x3 x4 x5 x6 x7⟩])) := by
  unfold kernelRun2_C
  dsimp only
  sl_unfold_run_names
  rw [View.read_writes_junk_eq_canon, View.canon_unit_zero hz00_2]
  simp only [View.readAt_eq_ld, Memref.IsWhole.read_unread, View.ld_unit_zero (S := S512x1024) hz00_2,
    View.ld_unit_zero (S := S1x512) hz00_2, View.ld_unit_zero (S := S256x120) hz00_2, View.ld_unit_zero (S := S120x64) hz00_2,
    View.ld_unit_zero (S := S64x8) hz00_2, View.ld_unit_zero (S := S1x120) hz00_2, View.ld_unit_zero (S := S1x64) hz00_2,
    View.ld_unit_zero (S := S1x8) hz00_2]
  all_goals rfl

end Cert.KernelIdeal.KValue

end
-- ==== Proof.LibPlainDot.lean ====
/-
  A plain matrix product — rows × contraction times contraction × columns, one contracted axis, no batch axis — read at
  an index, for arbitrary extents and any record of dimension numbers of that form (the form is a hypothesis,
  `IsPlain`, which a literal record meets by `rfl`s). At the exact values both the host's product and a tile product
  accumulated into zero are the plain sum over the contracted coordinate, `∑ k, x (r, k) · w (k, c)`. Consequence: a
  block of rows of a product is the product of that block of rows (`matmul_rows_eq_dotGeneral`).
-/
import Idealize.ShloMosaic.Lib.ValueIdx
import Idealize.ShloMosaic.PureOps.Ideal.Laws

noncomputable section

open scoped BigOperators

namespace Cert.Gcn.PlainDot

open Idealize.ShloMosaic Idealize.ShloMosaic.ValueIdx

variable {M K N : ℕ}

/-- The dimension numbers of a plain product of an `[M, K]` by a `[K, N]` array: axis 1 of the left operand contracted
    with axis 0 of the right one, the rows and the columns kept in that order, no batch axis. -/
structure IsPlain (d : DotDims ⟨2, ![M, K]⟩ ⟨2, ![K, N]⟩ ⟨2, ![M, N]⟩) : Prop where
  lc : d.lhsContracting = [⟨1, Nat.one_lt_two⟩]
  rc : d.rhsContracting = [⟨0, Nat.zero_lt_two⟩]
  ln : d.lhsNonContracting = [⟨0, Nat.zero_lt_two⟩]
  rn : d.rhsNonContracting = [⟨1, Nat.one_lt_two⟩]
  lb : d.lhsBatch = []
  rb : d.rhsBatch = []
  cr : d.contr.rank = 1
  cs : d.contr.size ⟨0, by omega⟩ = K

variable {d : DotDims ⟨2, ![M, K]⟩ ⟨2, ![K, N]⟩ ⟨2, ![M, N]⟩}

private theorem coord_congr {s : Shape} (j : s.Idx) (p p' : ℕ) (hp : p < s.rank) (hp' : p' < s.rank) (h : p = p') :
    (j ⟨p, hp⟩).val = (j ⟨p', hp'⟩).val := by subst h; rfl

/-- The left operand's index at result index `j` and contraction position `q`: row `j 0`, column the position. -/
theorem lhsIdx_eq (hd : IsPlain d) (j : (⟨2, ![M, N]⟩ : Shape).Idx) (q : d.contr.Idx) (k : Fin K)
    (hq : (q ⟨0, by rw [hd.cr]; exact Nat.one_pos⟩).val = k.val) : d.lhsIdx j q = ix2 (j 0) k := by
  funext a
  apply Fin.ext
  match a with
  | ⟨0, h0⟩ =>
    have hb : (⟨0, h0⟩ : Fin (⟨2, ![M, K]⟩ : Shape).rank) ∉ d.lhsBatch := by rw [hd.lb]; exact List.not_mem_nil
    have hn : (⟨0, h0⟩ : Fin (⟨2, ![M, K]⟩ : Shape).rank) ∈ d.lhsNonContracting := by
      rw [hd.ln]; exact List.mem_singleton.mpr rfl
    unfold DotDims.lhsIdx
    rw [dif_neg hb, dif_pos hn]
    simp only [Fin.val_cast]
    exact coord_congr j _ _ _ _ (by rw [hd.lb, hd.ln]; rfl)
  | ⟨1, h1⟩ => exact (d.lhsIdx_val_of_single hd.lc j q).trans hq

/-- The right operand's index at result index `j` and contraction position `q`: row the position, column `j 1`. -/
theorem rhsIdx_eq (hd : IsPlain d) (j : (⟨2, ![M, N]⟩ : Shape).Idx) (q : d.contr.Idx) (k : Fin K)
    (hq : (q ⟨0, by rw [hd.cr]; exact Nat.one_pos⟩).val = k.val) : d.rhsIdx j q = ix2 k (j 1) := by
  funext a
  apply Fin.ext
  match a with
  | ⟨0, h0⟩ => exact (d.rhsIdx_val_of_single hd.rc j q).trans hq
  | ⟨1, h1⟩ =>
    have hb : (⟨1, h1⟩ : Fin (⟨2, ![K, N]⟩ : Shape).rank) ∉ d.rhsBatch := by rw [hd.rb]; exact List.not_mem_nil
    have hn : (⟨1, h1⟩ : Fin (⟨2, ![K, N]⟩ : Shape).rank) ∈ d.rhsNonContracting := by
      rw [hd.rn]; exact List.mem_singleton.mpr rfl
    unfold DotDims.rhsIdx
    rw [dif_neg hb, dif_pos hn]
    simp only [Fin.val_cast]
    exact coord_congr j _ _ _ _ (by rw [hd.lb, hd.ln, hd.rn]; rfl)

/-- The sum over the contraction positions of a plain product is the sum over the contracted coordinate. -/
theorem sum_contr (hd : IsPlain d) (j : (⟨2, ![M, N]⟩ : Shape).Idx) (x : (⟨2, ![M, K]⟩ : Shape).Idx → EReal)
    (w : (⟨2, ![K, N]⟩ : Shape).Idx → EReal) :
    ∑ q : d.contr.Idx, x (d.lhsIdx j q) * w (d.rhsIdx j q) = ∑ k : Fin K, x (ix2 (j 0) k) * w (ix2 k (j 1)) := by
  rw [← Equiv.sum_comp (contrEquiv1 d K hd.cr hd.cs).symm]
  refine Finset.sum_congr rfl fun k _ => ?_
  have hk := contrEquiv1_symm_val d K hd.cr hd.cs k
  rw [lhsIdx_eq hd j _ k hk, rhsIdx_eq hd j _ k hk]
  rfl

/-- The host's plain product at `(r, c)`, exactly: `∑ k, x (r, k) · w (k, c)`. -/
theorem dotGeneral_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    Host.dotGeneral d prec x w j = ∑ k : Fin K, (x (ix2 (j 0) k) : EReal) * (w (ix2 k (j 1)) : EReal) := by
  simp only [Host.dotGeneral]
  rw [Ideal.dotGeneral_apply]
  exact sum_contr hd j x w

/-- A tile product accumulated into the zero tile, at `(r, c)`, exactly: the same sum. -/
theorem matmul_zero_apply (hd : IsPlain d) {φ₁ φ₂ : FTy} (prec : Option ContractPrecision)
    (x : FVec Ideal ⟨2, ![M, K]⟩ φ₁) (w : FVec Ideal ⟨2, ![K, N]⟩ φ₂) (j : (⟨2, ![M, N]⟩ : Shape).Idx) :
    matmul d prec x w (constant ⟨2, ![M, N]⟩ .f32 0x00000000#32) j
      = ∑ k : Fin K, (x (ix2 (j 0) k) : EReal) * (w (ix2 k (j 1)) : EReal) := by
  simp only [matmul]
  rw [Ideal.matmul_constant_zero_apply]
  exact sum_contr hd j x w

/-- A BLOCK OF ROWS OF A PRODUCT IS THE PRODUCT OF THE BLOCK OF ROWS: if row `p` of the tile `xb` is row `r` of the
    array `x`, and the tile `wb` is the array `w`, then the tile product into zero at `(p, c)` is the host's product
    of the whole arrays at `(r, c)` — the contraction runs over the whole shared axis on both sides. -/
theorem matmul_rows_eq_dotGeneral {B : ℕ} {dB : DotDims ⟨2, ![B, K]⟩ ⟨2, ![K, N]⟩ ⟨2, ![B, N]⟩} (hB : IsPlain dB)
    (hd : IsPlain d) {φ₁ φ₂ ψ₁ ψ₂ : FTy} (prec prec' : Option ContractPrecision)
    (xb : FVec Ideal ⟨2, ![B, K]⟩ φ₁) (wb : FVec Ideal ⟨2, ![K, N]⟩ φ₂)
    (x : FVec Ideal ⟨2, ![M, K]⟩ ψ₁) (w : FVec Ideal ⟨2, ![K, N]⟩ ψ₂) (p : Fin B) (r : Fin M) (c : Fin N)
    (hx : ∀ k : Fin K, (xb (ix2 p k) : EReal) = x (ix2 r k)) (hw : ∀ k : Fin K, (wb (ix2 k c) : EReal) = w (ix2 k c)) :
    matmul dB prec xb wb (constant ⟨2, ![B, N]⟩ .f32 0x00000000#32) (ix2 p c) = Host.dotGeneral d prec' x w (ix2 r c) := by
  rw [matmul_zero_apply hB, dotGeneral_apply hd]
  exact Finset.sum_congr rfl fun k _ => by
    show (xb (ix2 p k) : EReal) * wb (ix2 k c) = x (ix2 r k) * w (ix2 k c)
    rw [hx k, hw k]

end Cert.Gcn.PlainDot
-- ==== Proof.KEpi.lean ====
/-
  The last step of a layer region on one slice of 256 columns, at an entry.

  The slice's rows are taken to the kernel's operand format, multiplied by the 256 x 120 matrix into zero, the 1 x 120
  bias row added to every row and the rectifier applied; the same with the 120 x 64 matrix and the 1 x 64 row, and with the
  64 x 8 matrix and the 1 x 8 row.  Entry (p, j) of the result is the wide form of a layer (the specification's kdan) on
  row p of the slice, at column j of the last stage.
-/
import proofs.«120596_j16338055594194_2_alg».proof.Proof.Gen.KernelIdeal.Skeleton
import proofs.«120596_j16338055594194_2_alg».proof.Proof.KSpec
import proofs.«120596_j16338055594194_2_alg».proof.Proof.LibPlainDot
import Idealize.ShloMosaic.Lib.ValueLayout

noncomputable section

namespace Cert.KernelIdeal.KValue

open Cert.KernelIdeal Cert.KernelIdeal.Gen Idealize.ShloMosaic Idealize.ShloMosaic.ValueIdx Cert.DanSpec

/-! ## The operations, as the kernel's body spells them -/

/-- The rectifier: x where x is at least the zero splat, the slope splat times x elsewhere. -/
def krelu {S : Shape} (x : FVec Ideal S .f32) : FVec Ideal S .f32 :=
  select (cmpf .oge x (broadcast S (Scalar.ofBits (F := Ideal) .f32 0x00000000#32))) x
    (mulf (broadcast S (Scalar.ofBits (F := Ideal) .f32 0x3C23D70A#32)) x)

/-- The first stage before its rectifier: the slice against the 256 x 120 matrix, plus the bias row on every row. -/
def wide1 (z : FVec Ideal S512x256 .f32) (B1 : FVec Ideal S256x120 .bf16) (c1 : FVec Ideal S1x120 .f32) :
    FVec Ideal S512x120 .f32 :=
  addf (matmul dot_S512x256_S256x120_S512x120_1_0_0_1_n_n none (truncf .bf16 z bitsLt_bf16_f32) B1
      (constant S512x120 .f32 0x00000000#32))
    (broadcastTo S512x120 c1 broadcasts_S1x120_S512x120)

/-- The second stage before its rectifier. -/
def wide2 (y : FVec Ideal S512x120 .f32) (B2 : FVec Ideal S120x64 .bf16) (c2 : FVec Ideal S1x64 .f32) :
    FVec Ideal S512x64 .f32 :=
  addf (matmul dot_S512x120_S120x64_S512x64_1_0_0_1_n_n none (truncf .bf16 y bitsLt_bf16_f32) B2
      (constant S512x64 .f32 0x00000000#32))
    (broadcastTo S512x64 c2 broadcasts_S1x64_S512x64)

/-- The third stage before its rectifier. -/
def wide3 (y : FVec Ideal S512x64 .f32) (B3 : FVec Ideal S64x8 .bf16) (c3 : FVec Ideal S1x8 .f32) :
    FVec Ideal S512x8 .f32 :=
  addf (matmul dot_S512x64_S64x8_S512x8_1_0_0_1_n_n none (truncf .bf16 y bitsLt_bf16_f32) B3
      (constant S512x8 .f32 0x00000000#32))
    (broadcastTo S512x8 c3 broadcasts_S1x8_S512x8)

/-- The whole step on one slice. -/
def epi (z : FVec Ideal S512x256 .f32) (B1 : FVec Ideal S256x120 .bf16) (c1 : FVec Ideal S1x120 .f32)
    (B2 : FVec Ideal S120x64 .bf16) (c2 : FVec Ideal S1x64 .f32) (B3 : FVec Ideal S64x8 .bf16) (c3 : FVec Ideal S1x8 .f32) :
    FVec Ideal S512x8 .f32 :=
  krelu (wide3 (krelu (wide2 (krelu (wide1 z B1 c1)) B2 c2)) B3 c3)

/-! ## At an entry -/

/-- The rectifier at an index is the specification's rectifier of the entry. -/
theorem krelu_apply {S : Shape} (x : FVec Ideal S .f32) (i : S.Idx) : krelu x i = lrelu (x i) := rfl

/-- The first stage at (p, a). -/
theorem wide1_apply (z : FVec Ideal S512x256 .f32) (B1 : FVec Ideal S256x120 .bf16) (c1 : FVec Ideal S1x120 .f32)
    (p : Fin 512) (a : Fin 120) :
    wide1 z B1 c1 (ix2 p a) = (∑ k : Fin 256, z (ix2 p k) * B1 (ix2 k a)) + c1 (ix2 (0 : Fin 1) a) := by
  unfold wide1
  rw [addf_apply, broadcastTo_1b_ab_apply,
    Cert.Gcn.PlainDot.matmul_zero_apply (d := dot_S512x256_S256x120_S512x120_1_0_0_1_n_n) ⟨rfl, rfl, rfl, rfl, rfl, rfl, rfl, rfl⟩]
  rfl

/-- The second stage at (p, a). -/
theorem wide2_apply (y : FVec Ideal S512x120 .f32) (B2 : FVec Ideal S120x64 .bf16) (c2 : FVec Ideal S1x64 .f32)
    (p : Fin 512) (a : Fin 64) :
    wide2 y B2 c2 (ix2 p a) = (∑ k : Fin 120, y (ix2 p k) * B2 (ix2 k a)) + c2 (ix2 (0 : Fin 1) a) := by
  unfold wide2
  rw [addf_apply, broadcastTo_1b_ab_apply,
    Cert.Gcn.PlainDot.matmul_zero_apply (d := dot_S512x120_S120x64_S512x64_1_0_0_1_n_n) ⟨rfl, rfl, rfl, rfl, rfl, rfl, rfl, rfl⟩]
  rfl

/-- The third stage at (p, a). -/
theorem wide3_apply (y : FVec Ideal S512x64 .f32) (B3 : FVec Ideal S64x8 .bf16) (c3 : FVec Ideal S1x8 .f32)
    (p : Fin 512) (a : Fin 8) :
    wide3 y B3 c3 (ix2 p a) = (∑ k : Fin 64, y (ix2 p k) * B3 (ix2 k a)) + c3 (ix2 (0 : Fin 1) a) := by
  unfold wide3
  rw [addf_apply, broadcastTo_1b_ab_apply,
    Cert.Gcn.PlainDot.matmul_zero_apply (d := dot_S512x64_S64x8_S512x8_1_0_0_1_n_n) ⟨rfl, rfl, rfl, rfl, rfl, rfl, rfl, rfl⟩]
  rfl

/-- The whole step at (p, j): the three stages on row p of the slice. -/
theorem epi_apply (z : FVec Ideal S512x256 .f32) (B1 : FVec Ideal S256x120 .bf16) (c1 : FVec Ideal S1x120 .f32)
    (B2 : FVec Ideal S120x64 .bf16) (c2 : FVec Ideal S1x64 .f32) (B3 : FVec Ideal S64x8 .bf16) (c3 : FVec Ideal S1x8 .f32)
    (p : Fin 512) (j : Fin 8) :
    epi z B1 c1 B2 c2 B3 c3 (ix2 p j)
      = lrelu ((∑ k : Fin 64,
            lrelu ((∑ k' : Fin 120,
                lrelu ((∑ k'' : Fin 256, z (ix2 p k'') * B1 (ix2 k'' k')) + c1 (ix2 (0 : Fin 1) k')) * B2 (ix2 k' k))
              + c2 (ix2 (0 : Fin 1) k)) * B3 (ix2 k j))
          + c3 (ix2 (0 : Fin 1) j)) := by
  unfold epi
  rw [krelu_apply, wide3_apply]
  simp only [krelu_apply, wide2_apply, wide1_apply]

/-- The whole step at (p, n % 8) is the wide form of a layer at node n, when row p of the slice holds the
    pre-activation's columns of node n's group of eight. -/
theorem epi_eq_kdan (z : FVec Ideal S512x256 .f32) (B1 : Mat 256 120) (c1 : Mat 1 120) (B2 : Mat 120 64) (c2 : Mat 1 64)
    (B3 : Mat 64 8) (c3 : Mat 1 8) (pre : Fin 512 → Fin 32768 → EReal) (p r : Fin 512) (n : Fin 1024)
    (hz : ∀ k : Fin 256, z (ix2 p k) = pre r (wideCol n k)) :
    epi z B1 c1 B2 c2 B3 c3 (ix2 p (⟨n.val % 8, Nat.mod_lt _ (by decide)⟩ : Fin 8)) = kdan B1 c1 B2 c2 B3 c3 pre r n := by
  rw [epi_apply]
  simp only [hz]
  rfl

/-! ## A slice the body computes in one piece -/

/-- The payload that computes a whole slice is the step. -/
theorem k0_pay12_eq (v22 : FVec Ideal S256x120 .bf16) (v24 : FVec Ideal S120x64 .bf16) (v26 : FVec Ideal S64x8 .bf16)
    (v28 : FVec Ideal S1x120 .f32) (v30 : FVec Ideal S1x64 .f32) (v32 : FVec Ideal S1x8 .f32)
    (v61 : Vec Ideal S512x256 .f32) :
    k0_pay12 (F := Ideal) v22 v24 v26 v28 v30 v32 v61 = epi v61 v22 v28 v24 v30 v26 v32 := rfl

/-- A slice cut after its second product: the two payloads together are the step. -/
theorem k0_pay14_pay13_eq (v22 : FVec Ideal S256x120 .bf16) (v24 : FVec Ideal S120x64 .bf16) (v26 : FVec Ideal S64x8 .bf16)
    (v28 : FVec Ideal S1x120 .f32) (v30 : FVec Ideal S1x64 .f32) (v32 : FVec Ideal S1x8 .f32)
    (v89 : Vec Ideal S512x256 .f32) :
    k0_pay14 (F := Ideal) v26 v30 v32 (k0_pay13 (F := Ideal) v22 v24 v28 v89) = epi v89 v22 v28 v24 v30 v26 v32 := rfl

end Cert.KernelIdeal.KValue

end
-- ==== Proof.KVal2Strips.lean ====
/-
  Region 2's output block is the concatenation of sixteen whole steps.  Whatever way the printed payloads cut a strip's
  chain (one payload; two, after the first or the second product; three, the rectifier's comparison apart; the last
  two strips' final rectifier inside the concatenating payload), strip k of the output is the whole step on columns
  256 k .. of the slab, with the six small operands as the body casts them.
-/
import proofs.«120596_j16338055594194_2_alg».proof.Proof.KVal2Out
import proofs.«120596_j16338055594194_2_alg».proof.Proof.KEpi

set_option maxRecDepth 16384

noncomputable section

namespace Cert.KernelIdeal.KValue

open Cert.KernelIdeal Cert.KernelIdeal.Gen
open Idealize.ShloMosaic Idealize.ShloMosaic.TcCoe Idealize.ShloMosaic.Tactic
open Cert.KernelIdeal.KBody Idealize.ShloMosaic.ValueIdx

/-- The whole step on the 256 columns of the slab `S` from column `off 1`, with the six small operands as the body
    casts them. -/
def strip2 (x8 : Vec Ideal S256x120 .bf16) (x9 : Vec Ideal S120x64 .bf16) (x10 : Vec Ideal S64x8 .bf16)
    (x11 : Vec Ideal S1x120 .f32) (x12 : Vec Ideal S1x64 .f32) (x13 : Vec Ideal S1x8 .f32) (S : Vec Ideal S512x4096 .f32)
    (off : Fin 2 → Nat) (inb : ∀ a, off a + S512x256.size a ≤ S512x4096.size a) : FVec Ideal S512x8 .f32 :=
  epi (View.ld S (Rect.unit (s := S512x4096) off S512x256.size inb)) (k2_pay3 (F := Ideal) x8) (k2_pay6 (F := Ideal) x11)
    (k2_pay4 (F := Ideal) x9) (k2_pay7 (F := Ideal) x12) (k2_pay5 (F := Ideal) x10) (k2_pay8 (F := Ideal) x13)

set_option maxHeartbeats 4000000 in
/-- The epilogue's output is the sixteen steps side by side. -/
theorem epiOut2_eq (x8 : Vec Ideal S256x120 .bf16) (x9 : Vec Ideal S120x64 .bf16) (x10 : Vec Ideal S64x8 .bf16)
    (x11 : Vec Ideal S1x120 .f32) (x12 : Vec Ideal S1x64 .f32) (x13 : Vec Ideal S1x8 .f32) (S : Vec Ideal S512x4096 .f32) :
    epiOut2 (F := Ideal) x8 x9 x10 x11 x12 x13 S
      = concatenate S512x128 1
          [⟨S512x8, strip2 x8 x9 x10 x11 x12 x13 S ![0, 0] inb_S512x4096_S512x256_0_0⟩,
           ⟨S512x8, strip2 x8 x9 x10 x11 x12 x13 S ![0, 256] inb_S512x4096_S512x256_0_256⟩,
           ⟨S512x8, strip2 x8 x9 x10 x11 x12 x13 S ![0, 512] inb_S512x4096_S512x256_0_512⟩,
           ⟨S512x8, strip2 x8 x9 x10 x11 x12 x13 S ![0, 768] inb_S512x4096_S512x256_0_768⟩,
           ⟨S512x8, strip2 x8 x9 x10 x11 x12 x13 S ![0, 1024] inb_S512x4096_S512x256_0_1024⟩,
           ⟨S512x8, strip2 x8 x9 x10 x11 x12 x13 S ![0, 1280] inb_S512x4096_S512x256_0_1280⟩,
           ⟨S512x8, strip2 x8 x9 x10 x11 x12 x13 S ![0, 1536] inb_S512x4096_S512x256_0_1536⟩,
           ⟨S512x8, strip2 x8 x9 x10 x11 x12 x13 S ![0, 1792] inb_S512x4096_S512x256_0_1792⟩,
           ⟨S512x8, strip2 x8 x9 x10 x11 x12 x13 S ![0, 2048] inb_S512x4096_S512x256_0_2048⟩,
           ⟨S512x8, strip2 x8 x9 x10 x11 x12 x13 S ![0, 2304] inb_S512x4096_S512x256_0_2304⟩,
           ⟨S512x8, strip2 x8 x9 x10 x11 x12 x13 S ![0, 2560] inb_S512x4096_S512x256_0_2560⟩,
           ⟨S512x8, strip2 x8 x9 x10 x11 x12 x13 S ![0, 2816] inb_S512x4096_S512x256_0_2816⟩,
           ⟨S512x8, strip2 x8 x9 x10 x11 x12 x13 S ![0, 3072] inb_S512x4096_S512x256_0_3072⟩,
           ⟨S512x8, strip2 x8 x9 x10 x11 x12 x13 S ![0, 3328] inb_S512x4096_S512x256_0_3328⟩,
           ⟨S512x8, strip2 x8 x9 x10 x11 x12 x13 S ![0, 3584] inb_S512x4096_S512x256_0_3584⟩,
           ⟨S512x8, strip2 x8 x9 x10 x11 x12 x13 S ![0, 3840] inb_S512x4096_S512x256_0_3840⟩]
          concatenates_S512x8_S512x8_S512x8_S512x8_S512x8_S512x8_S512x8_S512x8_S512x8_S512x8_S512x8_S512x8_S512x8_S512x8_S512x8_S512x8_S512x128_d1 := rfl

end Cert.KernelIdeal.KValue

end
-- ==== Proof.KVal2Block.lean ====
/-
  Region 2: the block stored at a last micro step is the layer.  The stored block is the epilogue's output on the six
  small operands' blocks and the slab; the slab holds the pre-activation of the macro tile's 4096 columns (KVal2Tile);
  the output is sixteen whole steps side by side (KVal2Strips), so its entry (p, q) is step q / 8 at (p, q mod 8); that
  step reads columns 256 * (q / 8) .. of the slab, which are the pre-activation's columns of node n's group of eight
  for n = 128 * ma + q; and a whole step on such a row is the wide form of the layer at node n.
-/
import proofs.«120596_j16338055594194_2_alg».proof.Proof.KVal2
import proofs.«120596_j16338055594194_2_alg».proof.Proof.KVal2Strips
import Idealize.ShloMosaic.Lib.Pipeline.Value
import Idealize.ShloMosaic.Lib.ValueLayout
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KBody Cert.DanLib Idealize.ShloMosaic.ValueIdx

variable (V : (c : Dev nD) → (b : Ref sig .tc) → Buf (Elt Ideal) ((c : Thread nD τ).loc b))

/-- At a last micro step the stored block is the epilogue's output on the six small operands' blocks and the slab as
    that step leaves it. -/
theorem out2_12_eq (c : Dev nD) (t : Fin cfg2.N) (h7 : t.val % 8 = 7) :
    out2_12 V c t = epiOut2 (F := Ideal) (iblk2 V c 6 t) (iblk2 V c 7 t) (iblk2 V c 8 t) (iblk2 V c 9 t) (iblk2 V c 10 t)
      (iblk2 V c 11 t) (scr2 V c t.val t.isLt) := by
  unfold out2_12
  rw [dif_pos h7, scr2_C V c t h7]
  unfold runC2
  rw [runC2_fst_eq, runC2_snd_eq]

/-- The six small operands' blocks stay at (0, 0). -/
theorem idx_small2 : ∀ t : Fin cfg2.N, win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0 :=
  (by decide +kernel : ∀ t : Fin grid2.N, _)

/-- Each small operand, as the body casts it, is the whole array the region finds. -/
theorem op2_6 (c : Dev nD) (t : Fin cfg2.N) : k2_pay3 (F := Ideal) (iblk2 V c 6 t) = V c main_v165 := by
  obtain ⟨e0, e1, -⟩ := idx_small2 t
  unfold k2_pay3
  simp only [shapeCast_self]
  funext j
  obtain ⟨a, b, rfl⟩ : ∃ (a : Fin 256) (b : Fin 120), j = ix2 a b := ⟨j 0, j 1, eq_ix2 j⟩
  show V c main_v165 (((cfg2.win 6).blk t).view.emb (ix2 a b)) = V c main_v165 (ix2 a b)
  refine congrArg (V c main_v165) ?_
  funext d; apply Fin.ext
  match d with
  | ⟨0, _⟩ => show win2_6.index t (0 : Fin 2) * 256 + 1 * a.val = a.val; omega
  | ⟨1, _⟩ => show win2_6.index t (1 : Fin 2) * 120 + 1 * b.val = b.val; omega

theorem op2_7 (c : Dev nD) (t : Fin cfg2.N) : k2_pay4 (F := Ideal) (iblk2 V c 7 t) = V c main_v200 := by
  obtain ⟨-, -, e0, e1, -⟩ := idx_small2 t
  unfold k2_pay4
  simp only [shapeCast_self]
  funext j
  obtain ⟨a, b, rfl⟩ : ∃ (a : Fin 120) (b : Fin 64), j = ix2 a b := ⟨j 0, j 1, eq_ix2 j⟩
  show V c main_v200 (((cfg2.win 7).blk t).view.emb (ix2 a b)) = V c main_v200 (ix2 a b)
  refine congrArg (V c main_v200) ?_
  funext d; apply Fin.ext
  match d with
  | ⟨0, _⟩ => show win2_7.index t (0 : Fin 2) * 120 + 1 * a.val = a.val; omega
  | ⟨1, _⟩ => show win2_7.index t (1 : Fin 2) * 64 + 1 * b.val = b.val; omega

theorem op2_8 (c : Dev nD) (t : Fin cfg2.N) : k2_pay5 (F := Ideal) (iblk2 V c 8 t) = V c main_v235 := by
  obtain ⟨-, -, -, -, e0, e1, -⟩ := idx_small2 t
  unfold k2_pay5
  simp only [shapeCast_self]
  funext j
  obtain ⟨a, b, rfl⟩ : ∃ (a : Fin 64) (b : Fin 8), j = ix2 a b := ⟨j 0, j 1, eq_ix2 j⟩
  show V c main_v235 (((cfg2.win 8).blk t).view.emb (ix2 a b)) = V c main_v235 (ix2 a b)
  refine congrArg (V c main_v235) ?_
  funext d; apply Fin.ext
  match d with
  | ⟨0, _⟩ => show win2_8.index t (0 : Fin 2) * 64 + 1 * a.val = a.val; omega
  | ⟨1, _⟩ => show win2_8.index t (1 : Fin 2) * 8 + 1 * b.val = b.val; omega

theorem op2_9 (c : Dev nD) (t : Fin cfg2.N) : k2_pay6 (F := Ideal) (iblk2 V c 9 t) = V c main_v239 := by
  obtain ⟨-, -, -, -, -, -, e0, e1, -⟩ := idx_small2 t
  unfold k2_pay6
  simp only [shapeCast_self]
  funext j
  obtain ⟨a, b, rfl⟩ : ∃ (a : Fin 1) (b : Fin 120), j = ix2 a b := ⟨j 0, j 1, eq_ix2 j⟩
  show V c main_v239 (((cfg2.win 9).blk t).view.emb (ix2 a b)) = V c main_v239 (ix2 a b)
  refine congrArg (V c main_v239) ?_
  funext d; apply Fin.ext
  match d with
  | ⟨0, _⟩ => show win2_9.index t (0 : Fin 2) * 1 + 1 * a.val = a.val; omega
  | ⟨1, _⟩ => show win2_9.index t (1 : Fin 2) * 120 + 1 * b.val = b.val; omega

theorem op2_10 (c : Dev nD) (t : Fin cfg2.N) : k2_pay7 (F := Ideal) (iblk2 V c 10 t) = V c main_v243 := by
  obtain ⟨-, -, -, -, -, -, -, -, e0, e1, -⟩ := idx_small2 t
  unfold k2_pay7
  simp only [shapeCast_self]
  funext j
  obtain ⟨a, b, rfl⟩ : ∃ (a : Fin 1) (b : Fin 64), j = ix2 a b := ⟨j 0, j 1, eq_ix2 j⟩
  show V c main_v243 (((cfg2.win 10).blk t).view.emb (ix2 a b)) = V c main_v243 (ix2 a b)
  refine congrArg (V c main_v243) ?_
  funext d; apply Fin.ext
  match d with
  | ⟨0, _⟩ => show win2_10.index t (0 : Fin 2) * 1 + 1 * a.val = a.val; omega
  | ⟨1, _⟩ => show win2_10.index t (1 : Fin 2) * 64 + 1 * b.val = b.val; omega

theorem op2_11 (c : Dev nD) (t : Fin cfg2.N) : k2_pay8 (F := Ideal) (iblk2 V c 11 t) = V c main_v247 := by
  obtain ⟨-, -, -, -, -, -, -, -, -, -, e0, e1⟩ := idx_small2 t
  unfold k2_pay8
  simp only [shapeCast_self]
  funext j
  obtain ⟨a, b, rfl⟩ : ∃ (a : Fin 1) (b : Fin 8), j = ix2 a b := ⟨j 0, j 1, eq_ix2 j⟩
  show V c main_v247 (((cfg2.win 11).blk t).view.emb (ix2 a b)) = V c main_v247 (ix2 a b)
  refine congrArg (V c main_v247) ?_
  funext d; apply Fin.ext
  match d with
  | ⟨0, _⟩ => show win2_11.index t (0 : Fin 2) * 1 + 1 * a.val = a.val; omega
  | ⟨1, _⟩ => show win2_11.index t (1 : Fin 2) * 8 + 1 * b.val = b.val; omega

/-- Strip k's 256 columns lie inside the slab. -/
theorem inb_strip2 (k : Fin 16) : ∀ a : Fin 2, (![0, 256 * k.val] : Fin 2 → Nat) a + S512x256.size a ≤ S512x4096.size a := by
  intro a
  have hk := k.isLt
  match a with
  | ⟨0, _⟩ => show 0 + 512 ≤ 512; omega
  | ⟨1, _⟩ => show 256 * k.val + 256 ≤ 4096; omega

/-- Row p of strip k of the slab at a last micro step is the pre-activation's columns of node n's group of eight, when
    n = 128 * ma + q and k = q / 8. -/
theorem strip_row2 (c : Dev nD) (t : Fin cfg2.N) (h7 : t.val % 8 = 7) (p : Fin 512) (s : Fin 16) (n : Fin 1024)
    (hs : n.val / 8 = 16 * (t.val / 8) + s.val) (k : Fin 256) :
    View.ld (scr2 V c t.val t.isLt) (Rect.unit (s := S512x4096) ![0, 256 * s.val] S512x256.size (inb_strip2 s)) (ix2 p k)
      = pre2 V c p (Cert.DanSpec.wideCol n k) := by
  have hs' := s.isLt
  have hk := k.isLt
  have hcol : 256 * s.val + k.val < 4096 := by omega
  have e : (Rect.unit (s := S512x4096) ![0, 256 * s.val] S512x256.size (inb_strip2 s)).idx (ix2 p k)
      = ix2 p (⟨256 * s.val + k.val, hcol⟩ : Fin 4096) := by
    funext a; apply Fin.ext
    match a with
    | ⟨0, _⟩ => show 0 + 1 * p.val = p.val; omega
    | ⟨1, _⟩ => show 256 * s.val + 1 * k.val = 256 * s.val + k.val; omega
  show scr2 V c t.val t.isLt ((Rect.unit (s := S512x4096) ![0, 256 * s.val] S512x256.size (inb_strip2 s)).idx (ix2 p k)) = _
  rw [e]
  exact slab2_last V c t h7 p ⟨256 * s.val + k.val, hcol⟩ (Cert.DanSpec.wideCol n k)
    (by show n.val / 8 * 256 + k.val = t.val / 8 * 4096 + (256 * s.val + k.val); omega)

set_option maxHeartbeats 2000000 in
/-- The block stored at a last micro step is the layer there. -/
theorem hblock2 (c : Dev nD) (t : Fin cfg2.N) (h7 : t.val % 8 = 7) (p : Fin 512) (q : Fin 128) (n : Fin 1024)
    (hn : n.val = 128 * (t.val / 8) + q.val) : out2_12 V c t (ix2 p q) = L2 V c p n := by
  have hq := q.isLt
  rw [out2_12_eq V c t h7, epiOut2_eq]
  show concatenate S512x128 (1 : Fin 2)
      (List.ofFn fun k : Fin 16 => (⟨S512x8, strip2 (iblk2 V c 6 t) (iblk2 V c 7 t) (iblk2 V c 8 t) (iblk2 V c 9 t) (iblk2 V c 10 t)
        (iblk2 V c 11 t) (scr2 V c t.val t.isLt) ![0, 256 * k.val] (inb_strip2 k)⟩ : (s : Shape) × (s.Idx → Elt Ideal .f32)))
      concatenates_S512x8_S512x8_S512x8_S512x8_S512x8_S512x8_S512x8_S512x8_S512x8_S512x8_S512x8_S512x8_S512x8_S512x8_S512x8_S512x8_S512x128_d1
      (ix2 p q) = _
  refine (concatenate_ofFn_apply (t := S512x128) (s₁ := S512x8) (1 : Fin 2)
    (fun k : Fin 16 => strip2 (iblk2 V c 6 t) (iblk2 V c 7 t) (iblk2 V c 8 t) (iblk2 V c 9 t) (iblk2 V c 10 t) (iblk2 V c 11 t)
      (scr2 V c t.val t.isLt) ![0, 256 * k.val] (inb_strip2 k))
    concatenates_S512x8_S512x8_S512x8_S512x8_S512x8_S512x8_S512x8_S512x8_S512x8_S512x8_S512x8_S512x8_S512x8_S512x8_S512x8_S512x8_S512x128_d1
    rfl 8 rfl (ix2 p q) (⟨q.val / 8, by omega⟩ : Fin 16) rfl (ix2 p (⟨q.val % 8, by omega⟩ : Fin 8)) rfl
    (fun b hb => by
      match b with
      | ⟨0, _⟩ => rfl
      | ⟨1, _⟩ => exact absurd rfl hb)).trans ?_
  dsimp only
  unfold strip2
  rw [op2_6, op2_7, op2_8, op2_9, op2_10, op2_11]
  have hidx : (⟨q.val % 8, by omega⟩ : Fin 8) = ⟨n.val % 8, Nat.mod_lt _ (by decide)⟩ := Fin.ext (by show q.val % 8 = n.val % 8; omega)
  rw [hidx]
  exact epi_eq_kdan _ (V c main_v165) (V c main_v239) (V c main_v200) (V c main_v243) (V c main_v235) (V c main_v247)
    (Cert.DanSpec.pre2K (V c main_v124) (V c main_v0) (V c main_arg3) (V c main_arg7) (V c main_v248) (V c main_v249)) p p n
    (fun k => by
      rw [← pre2_eq_pre2K V c]
      exact strip_row2 V c t h7 p ⟨q.val / 8, by omega⟩ n (by show n.val / 8 = 16 * (t.val / 8) + q.val / 8; omega) k)

/-- Region 2's output array after the region is the layer of the arrays the region found. -/
theorem out2_value (c : Dev nD) :
    (dat2 (F := Ideal) V c).arrAt 12 cfg2.N
      = Cert.DanSpec.asMat (Cert.DanSpec.kdan (V c main_v165) (V c main_v239) (V c main_v200) (V c main_v243) (V c main_v235)
          (V c main_v247)
          (Cert.DanSpec.pre2K (V c main_v124) (V c main_v0) (V c main_arg3) (V c main_arg7) (V c main_v248) (V c main_v249))) :=
  out2_value_of V c (fun t h7 p q n hn => hblock2 V c t h7 p q n hn)

end Cert.KernelIdeal.KValue

end
-- ==== Proof.KVal0Flush.lean ====
/-
  Region 0's output array.  Its array has 8 column blocks of 128 columns (nodes); the body writes block ma at the last
  micro step of macro tile ma, and the pipeline writes it back there.  If the block stored at point t = 4 ma + 3 is,
  at (p, q), the layer's value at row p, node 128 ma + q, then the eight blocks cover the array and the array ends at
  the layer: the specification's wide form over the region's pre-activation.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody0
import proofs.«120596_j16338055594194_2_alg».proof.Proof.KPre
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable (V : (c : Dev nD) → (b : Ref sig .tc) → Buf (Elt Ideal) ((c : Thread nD τ).loc b))

/-- Region 0's layer of the arrays it finds, row by node. -/
abbrev L0 (c : Dev nD) : Fin 512 → Fin 1024 → EReal :=
  Cert.DanSpec.kdan (V c main_v39) (V c main_v113) (V c main_v74) (V c main_v117) (V c main_v109) (V c main_v121)
    (Cert.DanSpec.pre0K (V c main_v0) (V c main_arg1) (V c main_v122))

/-- The output block's column index is the macro tile. -/
theorem idx_out0 : ∀ t : Fin cfg0.N, win0_9.index t (0 : Fin 2) = 0 ∧ win0_9.index t (1 : Fin 2) = t.val / 4 :=
  (by decide +kernel : ∀ t : Fin grid0.N, _)

/-- Every column block of the output is written at some last micro step. -/
theorem idx_onto0 : ∀ q1 : Fin 8, ∃ t : Fin cfg0.N, t.val % 4 = 3 ∧ win0_9.index t = ![0, q1.val] :=
  (by decide +kernel : ∀ q1 : Fin 8, ∃ t : Fin grid0.N, t.val % 4 = 3 ∧ win0_9.index t = ![0, q1.val])

/-- An index of the array is in point t's block iff each coordinate is in the block's range on its axis. -/
theorem mem_blk0 (t : Fin cfg0.N) (i : S512x1024.Idx) :
    i ∈ ((cfg0.win 9).blk t).view.set ↔ ∀ a : Fin 2, win0_9.index t a * S512x128.size a ≤ (i a).val
      ∧ (i a).val < win0_9.index t a * S512x128.size a + S512x128.size a := by
  show i ∈ ((View.whole main_v123).slice (win0_9.rect t)).set ↔ _
  rw [View.set_slice_whole, Rect.mem_set_unit]
  exact Iff.rfl

/-- The eight blocks cover the array: node n lies in block n / 128. -/
theorem covered0 (i : S512x1024.Idx) :
    ∃ t : Fin cfg0.N, (cfg0.win 9).flush t = true ∧ i ∈ ((cfg0.win 9).blk t).view.set := by
  have hi0 : (i 0).val < 512 := (i 0).isLt
  have hi1 : (i 1).val < 1024 := (i 1).isLt
  obtain ⟨t, h3, ht⟩ := idx_onto0 ⟨(i 1).val / 128, by omega⟩
  have q0 : win0_9.index t (0 : Fin 2) = 0 := congrFun ht 0
  have q1 : win0_9.index t (1 : Fin 2) = (i 1).val / 128 := congrFun ht 1
  refine ⟨t, (flush0_9 t).mpr h3, ?_⟩
  rw [mem_blk0]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 128 ≤ (i 1).val ∧ (i 1).val < win0_9.index t (1 : Fin 2) * 128 + 128; omega

/-- What a last micro step writes back is its block of the layer, PROVIDED the block it stored is the layer there. -/
theorem flushed0_eq (c : Dev nD)
    (hblock : ∀ (t : Fin cfg0.N), t.val % 4 = 3 → ∀ (p : Fin 512) (q : Fin 128) (n : Fin 1024), n.val = 128 * (t.val / 4) + q.val →
      out0_9 V c t (ix2 p q) = L0 V c p n)
    (t : Fin cfg0.N) (hf : (cfg0.win 9).flush t = true) :
    (dat0 V c).flushed 9 t = ((cfg0.win 9).blk t).view.read (Elt Ideal) (Cert.DanSpec.asMat (L0 V c)) := by
  have h3 : t.val % 4 = 3 := (flush0_9 t).mp hf
  obtain ⟨e0, e1⟩ := idx_out0 t
  show (cfg0.win 9).cut (grid0.coords t) ((dat0 V c).after 9 t) = _
  rw [after0_9]
  funext j
  obtain ⟨p, q, rfl⟩ : ∃ (p : Fin 512) (q : Fin 128), j = ix2 p q := ⟨j 0, j 1, eq_ix2 j⟩
  show out0_9 V c t (ix2 p q) = Cert.DanSpec.asMat (L0 V c) (((cfg0.win 9).blk t).view.emb (ix2 p q))
  have hq : q.val < 128 := q.isLt
  have hN : t.val < 32 := lt_of_lt_of_eq t.isLt (show cfg0.N = 32 from N_0)
  rw [hblock t h3 p q ⟨128 * (t.val / 4) + q.val, by omega⟩ rfl]
  show L0 V c p _ = L0 V c ((((cfg0.win 9).blk t).view.emb (ix2 p q)) 0) ((((cfg0.win 9).blk t).view.emb (ix2 p q)) 1)
  congr 1
  · apply Fin.ext
    show p.val = win0_9.index t (0 : Fin 2) * 512 + 1 * p.val
    omega
  · apply Fin.ext
    show 128 * (t.val / 4) + q.val = win0_9.index t (1 : Fin 2) * 128 + 1 * q.val
    omega

/-- The output array after the region is the layer of the arrays the region found, PROVIDED each last micro step's stored
    block is the layer there. -/
theorem out0_value_of (c : Dev nD)
    (hblock : ∀ (t : Fin cfg0.N), t.val % 4 = 3 → ∀ (p : Fin 512) (q : Fin 128) (n : Fin 1024), n.val = 128 * (t.val / 4) + q.val →
      out0_9 V c t (ix2 p q) = L0 V c p n) :
    (dat0 V c).arrAt 9 cfg0.N = Cert.DanSpec.asMat (L0 V c) :=
  (dat0 V c).arrAt_eq_of_cover 9 (Cert.DanSpec.asMat (L0 V c))
    (fun t hf => flushed0_eq V c hblock t hf) (fun i => covered0 i)

end Cert.KernelIdeal.KValue

end
-- ==== Proof.KVal0Wit.lean ====
/-
  Region 0: the values the first two runs determine for the scratch slab, written out.  After micro step 0 the slab is
  the overlay of the stored slice on the zero tile; after a middle micro step it is the slab as found with the stored
  slice written over it.  The slice is the micro step's tile of the three input blocks.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody0
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable {F : FTy → Type} [FloatOps F]

/-- The middle run's value: the slab as found, the slice written over it. -/
theorem kernelRun0_B_val (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : ¬cond0_0 i) (hc1 : ¬cond0_1 i)
    (x2 : Vec F S512x1024 .bf16) (x3 : Vec F S1024x1024 .f32) (x4 : Vec F S1x1024 .f32) (xs : Vec F S512x4096 .f32) :
    (kernelRun0_B c i arg2 harg2 arg3 harg3 arg4 harg4 arg5 harg5 arg6 harg6 arg7 harg7 arg8 harg8 arg9 harg9 arg10 harg10 arg11 harg11 arg12 harg12 hc0 hc1 x2 x3 x4 xs).1
      = arg12.view.read (Elt F) (arg12.view.writes (Elt F) (harg12.unread xs)
          [⟨Rect.unit (s := S512x4096) (k0_off1 i) S512x1024.size (k0_off1_inb i), k0_pay2 x2 x3 x4⟩]) := by
  unfold kernelRun0_B; dsimp only
  simp only [View.readAt_eq_ld, Memref.IsWhole.read_unread, View.ld_unit_zero (S := S512x1024) hz00,
    View.ld_unit_zero (S := S1024x1024) hz00, View.ld_unit_zero (S := S1x1024) hz00]
  all_goals rfl

/-- The first run's value: the slice overlaid on the zero tile. -/
theorem kernelRun0_A_val (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : cond0_0 i) (hc1 : ¬cond0_1 i)
    (x2 : Vec F S512x1024 .bf16) (x3 : Vec F S1024x1024 .f32) (x4 : Vec F S1x1024 .f32) :
    (kernelRun0_A c i arg2 harg2 arg3 harg3 arg4 harg4 arg5 harg5 arg6 harg6 arg7 harg7 arg8 harg8 arg9 harg9 arg10 harg10 arg11 harg11 arg12 harg12 hc0 hc1 x2 x3 x4).1
      = View.canon [⟨Rect.unit (s := S512x4096) (k0_off1 i) S512x1024.size (k0_off1_inb i), k0_pay2 x2 x3 x4⟩,
          ⟨Rect.unit (s := S512x4096) ![0, 0] S512x4096.size inb_S512x4096_S512x4096_0_0, k0_pay1 (F := F)⟩] := by
  unfold kernelRun0_A; dsimp only
  simp only [View.readAt_eq_ld, Memref.IsWhole.read_unread, View.ld_unit_zero (S := S512x1024) hz00,
    View.ld_unit_zero (S := S1024x1024) hz00, View.ld_unit_zero (S := S1x1024) hz00]
  all_goals rfl

end Cert.KernelIdeal.KValue

end
-- ==== Proof.KVal0WitC.lean ====
/-
  Region 0: the value the last run determines for the scratch slab: the slab as found with the last slice written
  over it (the epilogue only reads the slab).
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody0
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable {F : FTy → Type} [FloatOps F]

set_option maxHeartbeats 4000000 in
/-- The last run's slab: the slab as found, the slice written over it. -/
theorem kernelRun0_C_slab (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : ¬cond0_0 i) (hc1 : cond0_1 i)
    (x2 : Vec F S512x1024 .bf16) (x3 : Vec F S1024x1024 .f32) (x4 : Vec F S1x1024 .f32)
    (x5 : Vec F S256x120 .bf16) (x6 : Vec F S120x64 .bf16) (x7 : Vec F S64x8 .bf16)
    (x8 : Vec F S1x120 .f32) (x9 : Vec F S1x64 .f32) (x10 : Vec F S1x8 .f32) (xs : Vec F S512x4096 .f32) :
    (kernelRun0_C c i arg2 harg2 arg3 harg3 arg4 harg4 arg5 harg5 arg6 harg6 arg7 harg7 arg8 harg8 arg9 harg9 arg10 harg10 arg11 harg11 arg12 harg12 hc0 hc1 x2 x3 x4 x5 x6 x7 x8 x9 x10 xs).1.2
      = arg12.view.read (Elt F) (arg12.view.writes (Elt F) (harg12.unread xs)
          [⟨Rect.unit (s := S512x4096) (k0_off1 i) S512x1024.size (k0_off1_inb i), k0_pay2 x2 x3 x4⟩]) := by
  unfold kernelRun0_C; dsimp only
  sl_unfold_run_names
  simp only [View.readAt_eq_ld, Memref.IsWhole.read_unread, View.ld_unit_zero (S := S512x1024) hz00,
    View.ld_unit_zero (S := S1024x1024) hz00, View.ld_unit_zero (S := S1x1024) hz00]
  all_goals rfl

end Cert.KernelIdeal.KValue

end
-- ==== Proof.KVal0Pay.lean ====
/-
  Region 0: what one micro step stores into the scratch slab, entry by entry.  The stored tile is the product of
  the 512 x 1024 left block with the transpose of the 1024 x 1024 weight block, plus the bias row: at (p, q) it
  is  sum_k x[p, k] * w[q, k] + b[0, q].  The clearing store's tile is zero everywhere.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

/-- The tile product's dimension numbers contract axis 1 with axis 1. -/
theorem rowsT0 : RowsDot.IsRowsT dot_S512x1024_S1024x1024_S512x1024_1_1_0_0_n_n := ⟨rfl, rfl, rfl, rfl, rfl, rfl, rfl, rfl⟩

set_option maxHeartbeats 4000000 in
/-- The slice a micro step stores, at an entry. -/
theorem pay0_2_apply (x0 : Vec Ideal S512x1024 .bf16) (x1 : Vec Ideal S1024x1024 .f32) (x2 : Vec Ideal S1x1024 .f32)
    (p : Fin 512) (q : Fin 1024) :
    k0_pay2 (F := Ideal) x0 x1 x2 (ix2 p q)
      = (∑ k : Fin 1024, (x0 (ix2 p k) : EReal) * (x1 (ix2 q k) : EReal)) + (x2 (ix2 (0 : Fin 1) q) : EReal) := by
  unfold k0_pay2
  simp only [shapeCast_self]
  show ((matmul (F := Ideal) dot_S512x1024_S1024x1024_S512x1024_1_1_0_0_n_n none x0
        (truncf (F := Ideal) .bf16 x1 bitsLt_bf16_f32) (constant (F := Ideal) S512x1024 .f32 0x00000000#32)) (ix2 p q) : EReal)
      + ((broadcastTo S512x1024 x2 broadcasts_S1x1024_S512x1024) (ix2 p q) : EReal) = _
  rw [RowsDot.matmul_zero_apply rowsT0, broadcastTo_1b_ab_apply]
  rfl

end Cert.KernelIdeal.KValue

end
-- ==== Proof.KVal0Slab.lean ====
/-
  Region 0: what one micro step's stored slice is, in terms of the arrays the region finds.  At grid point t the
  left block is the whole 512 x 1024 activation, the weight block is rows 1024 t .. 1024 t + 1023 of the weight
  array and the bias block is columns 1024 t .. of the bias row; so the slice's entry (r, q) is the dense layer's
  pre-activation at row r, column 1024 t + q.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody0
import proofs.«120596_j16338055594194_2_alg».proof.Proof.KVal0Pay
import proofs.«120596_j16338055594194_2_alg».proof.Proof.KPre
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable (V : (c : Dev nD) → (b : Ref sig .tc) → Buf (Elt Ideal) ((c : Thread nD τ).loc b))

/-- The first layer's pre-activation at row r, column j, from the arrays as region 0 finds them. -/
abbrev pre0 (c : Dev nD) : Fin 512 → Fin 32768 → EReal :=
  Cert.DanSpec.pre0K (V c main_v0) (V c main_arg1) (V c main_v122)

/-- The printed index maps over the grid: the activation block stays at (0, 0); the weight block's row index and the
    bias block's column index are the point's number; the slice's column offset is 1024 times the micro step. -/
theorem idx_facts0 : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ k0_off1 (grid0.coords t) (0 : Fin 2) = 0 ∧ k0_off1 (grid0.coords t) (1 : Fin 2) = t.val % 4 * 1024 :=
  (by decide +kernel : ∀ t : Fin grid0.N, _)

set_option maxHeartbeats 2000000 in
/-- The slice stored at point t, at (r, q): the pre-activation at row r, column 1024 t + q. -/
theorem slice0_value (c : Dev nD) (t : Fin cfg0.N) (r : Fin 512) (q : Fin 1024) (hj : t.val * 1024 + q.val < 32768) :
    k0_pay2 (F := Ideal) (iblk0 V c 0 t) (iblk0 V c 1 t) (iblk0 V c 2 t) (ix2 r q) = pre0 V c r ⟨t.val * 1024 + q.val, hj⟩ := by
  obtain ⟨e0, e1, e2, e3, e4, e5, -, -⟩ := idx_facts0 t
  refine (pay0_2_apply (iblk0 V c 0 t) (iblk0 V c 1 t) (iblk0 V c 2 t) r q).trans ?_
  have hr0 : ∀ k : Fin 1024, iblk0 V c 0 t (ix2 r k) = V c main_v0 (ix2 r k) := fun k => by
    show V c main_v0 (((cfg0.win 0).blk t).view.emb (ix2 r k)) = _
    refine congrArg (V c main_v0) ?_
    funext a; apply Fin.ext
    match a with
    | ⟨0, _⟩ => show win0_0.index t (0 : Fin 2) * 512 + 1 * r.val = r.val; omega
    | ⟨1, _⟩ => show win0_0.index t (1 : Fin 2) * 1024 + 1 * k.val = k.val; omega
  have hr1 : ∀ k : Fin 1024, iblk0 V c 1 t (ix2 q k) = V c main_arg1 (ix2 (⟨t.val * 1024 + q.val, hj⟩ : Fin 32768) k) := fun k => by
    show V c main_arg1 (((cfg0.win 1).blk t).view.emb (ix2 q k)) = _
    refine congrArg (V c main_arg1) ?_
    funext a; apply Fin.ext
    match a with
    | ⟨0, _⟩ => show win0_1.index t (0 : Fin 2) * 1024 + 1 * q.val = t.val * 1024 + q.val; omega
    | ⟨1, _⟩ => show win0_1.index t (1 : Fin 2) * 1024 + 1 * k.val = k.val; omega
  have hr2 : iblk0 V c 2 t (ix2 (0 : Fin 1) q) = V c main_v122 (ix2 (0 : Fin 1) (⟨t.val * 1024 + q.val, hj⟩ : Fin 32768)) := by
    show V c main_v122 (((cfg0.win 2).blk t).view.emb (ix2 (0 : Fin 1) q)) = _
    refine congrArg (V c main_v122) ?_
    funext a; apply Fin.ext
    match a with
    | ⟨0, _⟩ => show win0_2.index t (0 : Fin 2) * 1 + 1 * 0 = 0; omega
    | ⟨1, _⟩ => show win0_2.index t (1 : Fin 2) * 1024 + 1 * q.val = t.val * 1024 + q.val; omega
  show _ = Cert.DanSpec.pre0K (V c main_v0) (V c main_arg1) (V c main_v122) r ⟨t.val * 1024 + q.val, hj⟩
  unfold Cert.DanSpec.pre0K Cert.DanSpec.dotRows
  rw [hr2]
  refine congrArg (· + _) (Finset.sum_congr rfl fun k _ => ?_)
  rw [hr0 k, hr1 k]

end Cert.KernelIdeal.KValue

end
-- ==== Proof.KVal0Tile.lean ====
/-
  Region 0: the scratch slab after each grid point, entry by entry.  Within a macro tile (four consecutive points)
  micro step s stores columns 1024 s .. 1024 s + 1023 of the tile's 4096 pre-activation columns; so after micro
  step s the slab's columns below 1024 (s + 1) hold the first layer's pre-activation at columns 4096 (t / 4) + col.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody0
import proofs.«120596_j16338055594194_2_alg».proof.Proof.KVal0Wit
import proofs.«120596_j16338055594194_2_alg».proof.Proof.KVal0WitC
import proofs.«120596_j16338055594194_2_alg».proof.Proof.KVal0Slab
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable (V : (c : Dev nD) → (b : Ref sig .tc) → Buf (Elt Ideal) ((c : Thread nD τ).loc b))

/-- The rectangle a micro step stores its slice through, at the column offset the body computes. -/
abbrev slice0R (i : grid0.Coords) : Rect S512x4096 := Rect.unit (s := S512x4096) (k0_off1 i) S512x1024.size (k0_off1_inb i)

/-- A store through a rectangle into a whole buffer found at `xs`: under the rectangle the payload, -/
theorem store_emb0 {M : Memref sig .tc .vmem S512x4096 .f32} (h : M.IsWhole) (xs : Vec Ideal S512x4096 .f32) (R : Rect S512x4096)
    (P : R.shape.Idx → Elt Ideal .f32) (x : R.shape.Idx) :
    M.view.read (Elt Ideal) (M.view.writes (Elt Ideal) (h.unread xs) [⟨R, P⟩]) (R.emb x) = P x :=
  View.read_writes_cons_emb _ _ R P [] x

/-- off it what the buffer held. -/
theorem store_not_mem0 {M : Memref sig .tc .vmem S512x4096 .f32} (h : M.IsWhole) (xs : Vec Ideal S512x4096 .f32) (R : Rect S512x4096)
    (P : R.shape.Idx → Elt Ideal .f32) (y : S512x4096.Idx) (hy : y ∉ R.set) :
    M.view.read (Elt Ideal) (M.view.writes (Elt Ideal) (h.unread xs) [⟨R, P⟩]) y = xs y := by
  rw [View.writes_cons, View.writes_nil, View.read_slice_write_of_not_mem R _ _ _ (by rwa [Rect.map_emb_univ]), h.read_unread]

/-- The slice stored at point t, at (p, q): the pre-activation at column j = 1024 t + q. -/
theorem tile0_entry (c : Dev nD) (t : Fin cfg0.N) (p : Fin 512) (q : Fin 1024) (j : Fin 32768) (hj : j.val = 1024 * t.val + q.val) :
    k0_pay2 (F := Ideal) (iblk0 V c 0 t) (iblk0 V c 1 t) (iblk0 V c 2 t) (ix2 p q) = pre0 V c p j := by
  have hlt : t.val * 1024 + q.val < 32768 := by have := j.isLt; omega
  have hje : j = ⟨t.val * 1024 + q.val, hlt⟩ := Fin.ext (by show j.val = t.val * 1024 + q.val; omega)
  rw [hje]
  exact slice0_value V c t p q hlt

/-- Index (r, col) of the slab lies under point t's slice, at local index (r, q), when col = 1024 (t mod 4) + q. -/
theorem slice0_emb (t : Fin cfg0.N) (r : Fin 512) (col : Fin 4096) (q : Fin 1024) (h : col.val = 1024 * (t.val % 4) + q.val) :
    (slice0R (grid0.coords t)).emb (ix2 r q) = ix2 r col := by
  obtain ⟨-, -, -, -, -, -, o0, o1⟩ := idx_facts0 t
  funext a; apply Fin.ext
  match a with
  | ⟨0, _⟩ =>
    show k0_off1 (grid0.coords t) (0 : Fin 2) + 1 * r.val = r.val
    rw [o0]; omega
  | ⟨1, _⟩ =>
    show k0_off1 (grid0.coords t) (1 : Fin 2) + 1 * q.val = col.val
    rw [o1]; omega

/-- A column before the slice's first is not under it. -/
theorem slice0_not_mem (t : Fin cfg0.N) (r : Fin 512) (col : Fin 4096) (h : col.val < 1024 * (t.val % 4)) :
    ix2 r col ∉ (slice0R (grid0.coords t)).set := by
  obtain ⟨-, -, -, -, -, -, o0, o1⟩ := idx_facts0 t
  intro hm
  have h1 := (Rect.mem_set_unit.mp hm (1 : Fin 2)).1
  rw [o1] at h1
  have h1' : t.val % 4 * 1024 ≤ col.val := h1
  omega

/-- Micro step 0 of a macro tile: the slab's first 1024 columns hold the pre-activation of columns 4096 (t / 4) .. . -/
theorem slab0_A (c : Dev nD) (t : Fin cfg0.N) (h0 : t.val % 4 = 0) (r : Fin 512) (col : Fin 4096) (j : Fin 32768)
    (hcol : col.val < 1024) (hj : j.val = t.val / 4 * 4096 + col.val) :
    scr0 V c t.val t.isLt (ix2 r col) = pre0 V c r j := by
  rw [scr0_A V c t h0]
  unfold runA0
  rw [kernelRun0_A_val]
  rw [← slice0_emb t r col ⟨col.val, hcol⟩ (by show col.val = 1024 * (t.val % 4) + col.val; omega)]
  rw [View.canon_cons_emb]
  exact tile0_entry V c t r ⟨col.val, hcol⟩ j (by show j.val = 1024 * t.val + col.val; omega)

/-- A later micro step: the columns below the slice keep what the step before left, the slice's columns take the
    pre-activation. -/
theorem slab0_step (c : Dev nD) (t : Fin cfg0.N) (h0 : ¬t.val % 4 = 0)
    (ih : ∀ (r : Fin 512) (col : Fin 4096) (j : Fin 32768), col.val < 1024 * (t.val % 4) → j.val = t.val / 4 * 4096 + col.val →
      scr0 V c (t.val - 1) (Nat.lt_of_le_of_lt (Nat.sub_le _ _) t.isLt) (ix2 r col) = pre0 V c r j)
    (r : Fin 512) (col : Fin 4096) (j : Fin 32768) (hcol : col.val < 1024 * (t.val % 4 + 1))
    (hj : j.val = t.val / 4 * 4096 + col.val) :
    scr0 V c t.val t.isLt (ix2 r col) = pre0 V c r j := by
  have key : ∀ xs : Vec Ideal S512x4096 .f32,
      (∀ (r : Fin 512) (col : Fin 4096) (j : Fin 32768), col.val < 1024 * (t.val % 4) → j.val = t.val / 4 * 4096 + col.val →
        xs (ix2 r col) = pre0 V c r j) →
      scM0_0.view.read (Elt Ideal) (scM0_0.view.writes (Elt Ideal) ((Memref.isWhole_whole cc0_scratch0).unread xs)
        [⟨slice0R (grid0.coords t), k0_pay2 (F := Ideal) (iblk0 V c 0 t) (iblk0 V c 1 t) (iblk0 V c 2 t)⟩]) (ix2 r col) = pre0 V c r j := by
    intro xs hxs
    by_cases hlo : col.val < 1024 * (t.val % 4)
    · rw [store_not_mem0 _ xs _ _ _ (slice0_not_mem t r col hlo)]
      exact hxs r col j hlo hj
    · have hq : col.val - 1024 * (t.val % 4) < 1024 := by omega
      rw [← slice0_emb t r col ⟨col.val - 1024 * (t.val % 4), hq⟩
        (by show col.val = 1024 * (t.val % 4) + (col.val - 1024 * (t.val % 4)); omega)]
      rw [store_emb0]
      exact tile0_entry V c t r ⟨col.val - 1024 * (t.val % 4), hq⟩ j
        (by show j.val = 1024 * t.val + (col.val - 1024 * (t.val % 4)); omega)
  by_cases h1 : t.val % 4 = 3
  · rw [scr0_C V c t h1]
    unfold runC0
    rw [kernelRun0_C_slab]
    exact key _ ih
  · rw [scr0_B V c t h0 h1]
    unfold runB0
    rw [kernelRun0_B_val]
    exact key _ ih

/-- After the body at position n = 4 ma + mi, the slab's columns below 1024 (mi + 1) hold the layer's pre-activation
    of columns 4096 ma .. : by induction over the positions. -/
theorem slab0 (c : Dev nD) : ∀ (n : ℕ) (hn : n < cfg0.N) (r : Fin 512) (col : Fin 4096) (j : Fin 32768),
    col.val < 1024 * (n % 4 + 1) → j.val = n / 4 * 4096 + col.val → scr0 V c n hn (ix2 r col) = pre0 V c r j := by
  intro n
  induction n with
  | zero =>
    intro hn r col j hcol hj
    exact slab0_A V c ⟨0, hn⟩ (Nat.zero_mod _) r col j (by omega) hj
  | succ n ih =>
    intro hn r col j hcol hj
    by_cases h0 : (n + 1) % 4 = 0
    · exact slab0_A V c ⟨n + 1, hn⟩ h0 r col j (by omega) hj
    · refine slab0_step V c ⟨n + 1, hn⟩ h0 (fun r' col' j' hc' hj' => ?_) r col j hcol hj
      have hc'' : col'.val < 1024 * ((n + 1) % 4) := hc'
      have hj'' : j'.val = (n + 1) / 4 * 4096 + col'.val := hj'
      exact ih (Nat.lt_of_succ_lt hn) r' col' j' (by omega) (by omega)

/-- At the last micro step of macro tile ma the whole slab holds the pre-activation of columns 4096 ma .. + 4095. -/
theorem slab0_last (c : Dev nD) (t : Fin cfg0.N) (h3 : t.val % 4 = 3) (r : Fin 512) (col : Fin 4096) (j : Fin 32768)
    (hj : j.val = t.val / 4 * 4096 + col.val) : scr0 V c t.val t.isLt (ix2 r col) = pre0 V c r j :=
  slab0 V c t.val t.isLt r col j (by have := col.isLt; omega) hj

end Cert.KernelIdeal.KValue

end
-- ==== Proof.KVal0Out.lean ====
/-
  Region 0's output block as the epilogue computes it.  The slab's sixteen 256-column strips each go through the
  three wide products with bias and rectifier (the printed payloads cut some strips' chains in two or three pieces);
  the sixteen 512 x 8 results are concatenated along the columns.  The last run's witness for the output block is
  this function of the six small operands' blocks and of the slab as the run's own last store left it.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody0
import proofs.«120596_j16338055594194_2_alg».proof.Proof.KVal0Tile
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable {F : FTy → Type} [FloatOps F]

/-- The epilogue's output block from the six small operands and the slab `S`: strip k is columns 256 k .. of `S`. -/
def epiOut0 (x5 : Vec F S256x120 .bf16) (x6 : Vec F S120x64 .bf16) (x7 : Vec F S64x8 .bf16) (x8 : Vec F S1x120 .f32)
    (x9 : Vec F S1x64 .f32) (x10 : Vec F S1x8 .f32) (S : Vec F S512x4096 .f32) : FVec F S512x128 .f32 :=
  k0_pay35
    (k0_pay11
      (k0_pay9 x5 x6 x7 x8 x9 x10 (View.ld S (Rect.unit (s := S512x4096) ![0, 0] S512x256.size inb_S512x4096_S512x256_0_0)))
      (k0_pay10 x5 x6 x7 x8 x9 x10 (View.ld S (Rect.unit (s := S512x4096) ![0, 0] S512x256.size inb_S512x4096_S512x256_0_0)))
      (Scalar.ofBits .f32 0x3C23D70A#32))
    (k0_pay12 (k0_pay3 x5) (k0_pay4 x6) (k0_pay5 x7) (k0_pay6 x8) (k0_pay7 x9) (k0_pay8 x10)
      (View.ld S (Rect.unit (s := S512x4096) ![0, 256] S512x256.size inb_S512x4096_S512x256_0_256)))
    (k0_pay14 (k0_pay5 x7) (k0_pay7 x9) (k0_pay8 x10)
      (k0_pay13 (k0_pay3 x5) (k0_pay4 x6) (k0_pay6 x8)
        (View.ld S (Rect.unit (s := S512x4096) ![0, 512] S512x256.size inb_S512x4096_S512x256_0_512))))
    (k0_pay15 (k0_pay3 x5) (k0_pay4 x6) (k0_pay5 x7) (k0_pay6 x8) (k0_pay7 x9) (k0_pay8 x10)
      (View.ld S (Rect.unit (s := S512x4096) ![0, 768] S512x256.size inb_S512x4096_S512x256_0_768)))
    (k0_pay16 (k0_pay3 x5) (k0_pay4 x6) (k0_pay5 x7) (k0_pay6 x8) (k0_pay7 x9) (k0_pay8 x10)
      (View.ld S (Rect.unit (s := S512x4096) ![0, 1024] S512x256.size inb_S512x4096_S512x256_0_1024)))
    (k0_pay18 (k0_pay5 x7) (k0_pay8 x10)
      (k0_pay17 (k0_pay3 x5) (k0_pay4 x6) (k0_pay6 x8) (k0_pay7 x9)
        (View.ld S (Rect.unit (s := S512x4096) ![0, 1280] S512x256.size inb_S512x4096_S512x256_0_1280)))
      (Scalar.ofBits .f32 0x00000000#32))
    (k0_pay19 (k0_pay3 x5) (k0_pay4 x6) (k0_pay5 x7) (k0_pay6 x8) (k0_pay7 x9) (k0_pay8 x10)
      (View.ld S (Rect.unit (s := S512x4096) ![0, 1536] S512x256.size inb_S512x4096_S512x256_0_1536)))
    (k0_pay20 (k0_pay3 x5) (k0_pay4 x6) (k0_pay5 x7) (k0_pay6 x8) (k0_pay7 x9) (k0_pay8 x10)
      (View.ld S (Rect.unit (s := S512x4096) ![0, 1792] S512x256.size inb_S512x4096_S512x256_0_1792)))
    (k0_pay23 (k0_pay5 x7) (k0_pay8 x10)
      (k0_pay21 (k0_pay3 x5) (k0_pay4 x6) (k0_pay6 x8) (k0_pay7 x9)
        (View.ld S (Rect.unit (s := S512x4096) ![0, 2048] S512x256.size inb_S512x4096_S512x256_0_2048)))
      (k0_pay22 (k0_pay3 x5) (k0_pay4 x6) (k0_pay6 x8) (k0_pay7 x9)
        (View.ld S (Rect.unit (s := S512x4096) ![0, 2048] S512x256.size inb_S512x4096_S512x256_0_2048)))
      (Scalar.ofBits .f32 0x3C23D70A#32))
    (k0_pay24 (k0_pay3 x5) (k0_pay4 x6) (k0_pay5 x7) (k0_pay6 x8) (k0_pay7 x9) (k0_pay8 x10)
      (View.ld S (Rect.unit (s := S512x4096) ![0, 2304] S512x256.size inb_S512x4096_S512x256_0_2304)))
    (k0_pay26 (k0_pay4 x6) (k0_pay5 x7) (k0_pay6 x8) (k0_pay7 x9) (k0_pay8 x10)
      (k0_pay25 (k0_pay3 x5)
        (View.ld S (Rect.unit (s := S512x4096) ![0, 2560] S512x256.size inb_S512x4096_S512x256_0_2560))))
    (k0_pay28 (k0_pay5 x7) (k0_pay8 x10)
      (k0_pay27 (k0_pay3 x5) (k0_pay4 x6) (k0_pay6 x8) (k0_pay7 x9)
        (View.ld S (Rect.unit (s := S512x4096) ![0, 2816] S512x256.size inb_S512x4096_S512x256_0_2816))))
    (k0_pay29 (k0_pay3 x5) (k0_pay4 x6) (k0_pay5 x7) (k0_pay6 x8) (k0_pay7 x9) (k0_pay8 x10)
      (View.ld S (Rect.unit (s := S512x4096) ![0, 3072] S512x256.size inb_S512x4096_S512x256_0_3072)))
    (k0_pay31 (k0_pay4 x6) (k0_pay5 x7) (k0_pay7 x9) (k0_pay8 x10)
      (k0_pay30 (k0_pay3 x5) (k0_pay6 x8)
        (View.ld S (Rect.unit (s := S512x4096) ![0, 3328] S512x256.size inb_S512x4096_S512x256_0_3328)))
      (Scalar.ofBits .f32 0x00000000#32))
    (k0_pay33 (k0_pay8 x10)
      (k0_pay32 (k0_pay3 x5) (k0_pay4 x6) (k0_pay5 x7) (k0_pay6 x8) (k0_pay7 x9)
        (View.ld S (Rect.unit (s := S512x4096) ![0, 3584] S512x256.size inb_S512x4096_S512x256_0_3584))))
    (k0_pay34 (k0_pay3 x5) (k0_pay4 x6) (k0_pay5 x7) (k0_pay6 x8) (k0_pay7 x9) (k0_pay8 x10)
      (View.ld S (Rect.unit (s := S512x4096) ![0, 3840] S512x256.size inb_S512x4096_S512x256_0_3840)))

set_option maxHeartbeats 4000000 in
/-- The last run's output block is the epilogue's function of the six small operands and of the slab as the run's own
    store left it. -/
theorem runC0_fst_eq (c : Dev nD) (i : grid0.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S256x120 .bf16) (harg5 : arg5.IsWhole)
    (arg6 : Memref sig .tc .vmem S120x64 .bf16) (harg6 : arg6.IsWhole) (arg7 : Memref sig .tc .vmem S64x8 .bf16) (harg7 : arg7.IsWhole)
    (arg8 : Memref sig .tc .vmem S1x120 .f32) (harg8 : arg8.IsWhole) (arg9 : Memref sig .tc .vmem S1x64 .f32) (harg9 : arg9.IsWhole)
    (arg10 : Memref sig .tc .vmem S1x8 .f32) (harg10 : arg10.IsWhole) (arg11 : Memref sig .tc .vmem S512x128 .f32) (harg11 : arg11.IsWhole)
    (arg12 : Memref sig .tc .vmem S512x4096 .f32) (harg12 : arg12.IsWhole) (hc0 : ¬cond0_0 i) (hc1 : cond0_1 i)
    (x2 : Vec F S512x1024 .bf16) (x3 : Vec F S1024x1024 .f32) (x4 : Vec F S1x1024 .f32)
    (x5 : Vec F S256x120 .bf16) (x6 : Vec F S120x64 .bf16) (x7 : Vec F S64x8 .bf16)
    (x8 : Vec F S1x120 .f32) (x9 : Vec F S1x64 .f32) (x10 : Vec F S1x8 .f32) (xs : Vec F S512x4096 .f32) :
    (kernelRun0_C (F := F) c i arg2 harg2 arg3 harg3 arg4 harg4 arg5 harg5 arg6 harg6 arg7 harg7 arg8 harg8 arg9 harg9 arg10 harg10
        arg11 harg11 arg12 harg12 hc0 hc1 x2 x3 x4 x5 x6 x7 x8 x9 x10 xs).1.1
      = epiOut0 x5 x6 x7 x8 x9 x10
          (arg12.view.read (Elt F) (arg12.view.writes (Elt F) (harg12.unread xs) [⟨slice0R i, k0_pay2 x2 x3 x4⟩])) := by
  unfold kernelRun0_C
  dsimp only
  sl_unfold_run_names
  rw [View.read_writes_junk_eq_canon, View.canon_unit_zero hz00]
  simp only [View.readAt_eq_ld, Memref.IsWhole.read_unread, View.ld_unit_zero (S := S512x1024) hz00,
    View.ld_unit_zero (S := S1024x1024) hz00, View.ld_unit_zero (S := S1x1024) hz00,
    View.ld_unit_zero (S := S256x120) hz00, View.ld_unit_zero (S := S120x64) hz00,
    View.ld_unit_zero (S := S64x8) hz00, View.ld_unit_zero (S := S1x120) hz00, View.ld_unit_zero (S := S1x64) hz00,
    View.ld_unit_zero (S := S1x8) hz00]
  all_goals rfl

end Cert.KernelIdeal.KValue

end
-- ==== Proof.KVal0Strips.lean ====
/-
  Region 0's output block is sixteen applications of one step — a strip of 256 slab columns through the three wide
  products, each followed by bias and rectifier — side by side: however the printed payloads cut a strip's chain, the
  pieces compose to the same step, by unfolding.
-/
import proofs.«120596_j16338055594194_2_alg».proof.Proof.KVal0Out
import proofs.«120596_j16338055594194_2_alg».proof.Proof.KEpi

set_option maxRecDepth 16384

noncomputable section

namespace Cert.KernelIdeal.KValue

open Cert.KernelIdeal Cert.KernelIdeal.Gen
open Idealize.ShloMosaic Idealize.ShloMosaic.TcCoe Idealize.ShloMosaic.Tactic
open Cert.KernelIdeal.KBody Idealize.ShloMosaic.ValueIdx

/-- The whole step on the 256 columns of the slab `S` from column `off 1`, with the six small operands as the body
    casts them. -/
def strip0 (x5 : Vec Ideal S256x120 .bf16) (x6 : Vec Ideal S120x64 .bf16) (x7 : Vec Ideal S64x8 .bf16)
    (x8 : Vec Ideal S1x120 .f32) (x9 : Vec Ideal S1x64 .f32) (x10 : Vec Ideal S1x8 .f32) (S : Vec Ideal S512x4096 .f32)
    (off : Fin 2 → Nat) (inb : ∀ a, off a + S512x256.size a ≤ S512x4096.size a) : FVec Ideal S512x8 .f32 :=
  epi (View.ld S (Rect.unit (s := S512x4096) off S512x256.size inb)) (k0_pay3 (F := Ideal) x5) (k0_pay6 (F := Ideal) x8)
    (k0_pay4 (F := Ideal) x6) (k0_pay7 (F := Ideal) x9) (k0_pay5 (F := Ideal) x7) (k0_pay8 (F := Ideal) x10)

set_option maxHeartbeats 4000000 in
/-- The epilogue's output is the sixteen steps side by side. -/
theorem epiOut0_eq (x5 : Vec Ideal S256x120 .bf16) (x6 : Vec Ideal S120x64 .bf16) (x7 : Vec Ideal S64x8 .bf16)
    (x8 : Vec Ideal S1x120 .f32) (x9 : Vec Ideal S1x64 .f32) (x10 : Vec Ideal S1x8 .f32) (S : Vec Ideal S512x4096 .f32) :
    epiOut0 (F := Ideal) x5 x6 x7 x8 x9 x10 S
      = concatenate S512x128 1
          [⟨S512x8, strip0 x5 x6 x7 x8 x9 x10 S ![0, 0] inb_S512x4096_S512x256_0_0⟩,
           ⟨S512x8, strip0 x5 x6 x7 x8 x9 x10 S ![0, 256] inb_S512x4096_S512x256_0_256⟩,
           ⟨S512x8, strip0 x5 x6 x7 x8 x9 x10 S ![0, 512] inb_S512x4096_S512x256_0_512⟩,
           ⟨S512x8, strip0 x5 x6 x7 x8 x9 x10 S ![0, 768] inb_S512x4096_S512x256_0_768⟩,
           ⟨S512x8, strip0 x5 x6 x7 x8 x9 x10 S ![0, 1024] inb_S512x4096_S512x256_0_1024⟩,
           ⟨S512x8, strip0 x5 x6 x7 x8 x9 x10 S ![0, 1280] inb_S512x4096_S512x256_0_1280⟩,
           ⟨S512x8, strip0 x5 x6 x7 x8 x9 x10 S ![0, 1536] inb_S512x4096_S512x256_0_1536⟩,
           ⟨S512x8, strip0 x5 x6 x7 x8 x9 x10 S ![0, 1792] inb_S512x4096_S512x256_0_1792⟩,
           ⟨S512x8, strip0 x5 x6 x7 x8 x9 x10 S ![0, 2048] inb_S512x4096_S512x256_0_2048⟩,
           ⟨S512x8, strip0 x5 x6 x7 x8 x9 x10 S ![0, 2304] inb_S512x4096_S512x256_0_2304⟩,
           ⟨S512x8, strip0 x5 x6 x7 x8 x9 x10 S ![0, 2560] inb_S512x4096_S512x256_0_2560⟩,
           ⟨S512x8, strip0 x5 x6 x7 x8 x9 x10 S ![0, 2816] inb_S512x4096_S512x256_0_2816⟩,
           ⟨S512x8, strip0 x5 x6 x7 x8 x9 x10 S ![0, 3072] inb_S512x4096_S512x256_0_3072⟩,
           ⟨S512x8, strip0 x5 x6 x7 x8 x9 x10 S ![0, 3328] inb_S512x4096_S512x256_0_3328⟩,
           ⟨S512x8, strip0 x5 x6 x7 x8 x9 x10 S ![0, 3584] inb_S512x4096_S512x256_0_3584⟩,
           ⟨S512x8, strip0 x5 x6 x7 x8 x9 x10 S ![0, 3840] inb_S512x4096_S512x256_0_3840⟩]
          concatenates_S512x8_S512x8_S512x8_S512x8_S512x8_S512x8_S512x8_S512x8_S512x8_S512x8_S512x8_S512x8_S512x8_S512x8_S512x8_S512x8_S512x128_d1 := rfl

end Cert.KernelIdeal.KValue

end
-- ==== Proof.KVal0Block.lean ====
/-
  Region 0: the block stored at a last micro step is the layer.  The stored block is the epilogue's output on the six
  small operands' blocks and the slab; the slab holds the pre-activation of the macro tile's 4096 columns (KVal0Tile);
  the output is sixteen whole steps side by side (KVal0Strips), so its entry (p, q) is step q / 8 at (p, q mod 8); that
  step reads columns 256 * (q / 8) .. of the slab, which are the pre-activation's columns of node n's group of eight
  for n = 128 * ma + q; and a whole step on such a row is the wide form of the layer at node n.
-/
import proofs.«120596_j16338055594194_2_alg».proof.Proof.KVal0Flush
import proofs.«120596_j16338055594194_2_alg».proof.Proof.KVal0Tile
import proofs.«120596_j16338055594194_2_alg».proof.Proof.KVal0Strips
import Idealize.ShloMosaic.Lib.Pipeline.Value
import Idealize.ShloMosaic.Lib.ValueLayout
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KBody Cert.DanLib Idealize.ShloMosaic.ValueIdx

variable (V : (c : Dev nD) → (b : Ref sig .tc) → Buf (Elt Ideal) ((c : Thread nD τ).loc b))

/-- The slab's pre-activation is the specification-side one of the arrays the region finds. -/
theorem pre0_eq_pre0K (c : Dev nD) : pre0 V c = Cert.DanSpec.pre0K (V c main_v0) (V c main_arg1) (V c main_v122) := rfl

/-- At a last micro step the stored block is the epilogue's output on the six small operands' blocks and the slab as
    that step leaves it. -/
theorem out0_9_eq (c : Dev nD) (t : Fin cfg0.N) (h3 : t.val % 4 = 3) :
    out0_9 V c t = epiOut0 (F := Ideal) (iblk0 V c 3 t) (iblk0 V c 4 t) (iblk0 V c 5 t) (iblk0 V c 6 t) (iblk0 V c 7 t)
      (iblk0 V c 8 t) (scr0 V c t.val t.isLt) := by
  unfold out0_9
  rw [dif_pos h3, scr0_C V c t h3]
  unfold runC0
  rw [runC0_fst_eq, kernelRun0_C_slab]

/-- The six small operands' blocks stay at (0, 0). -/
theorem idx_small0 : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Each small operand, as the body casts it, is the whole array the region finds. -/
theorem op0_3 (c : Dev nD) (t : Fin cfg0.N) : k0_pay3 (F := Ideal) (iblk0 V c 3 t) = V c main_v39 := by
  obtain ⟨e0, e1, -⟩ := idx_small0 t
  unfold k0_pay3
  simp only [shapeCast_self]
  funext j
  obtain ⟨a, b, rfl⟩ : ∃ (a : Fin 256) (b : Fin 120), j = ix2 a b := ⟨j 0, j 1, eq_ix2 j⟩
  show V c main_v39 (((cfg0.win 3).blk t).view.emb (ix2 a b)) = V c main_v39 (ix2 a b)
  refine congrArg (V c main_v39) ?_
  funext d; apply Fin.ext
  match d with
  | ⟨0, _⟩ => show win0_3.index t (0 : Fin 2) * 256 + 1 * a.val = a.val; omega
  | ⟨1, _⟩ => show win0_3.index t (1 : Fin 2) * 120 + 1 * b.val = b.val; omega

theorem op0_4 (c : Dev nD) (t : Fin cfg0.N) : k0_pay4 (F := Ideal) (iblk0 V c 4 t) = V c main_v74 := by
  obtain ⟨-, -, e0, e1, -⟩ := idx_small0 t
  unfold k0_pay4
  simp only [shapeCast_self]
  funext j
  obtain ⟨a, b, rfl⟩ : ∃ (a : Fin 120) (b : Fin 64), j = ix2 a b := ⟨j 0, j 1, eq_ix2 j⟩
  show V c main_v74 (((cfg0.win 4).blk t).view.emb (ix2 a b)) = V c main_v74 (ix2 a b)
  refine congrArg (V c main_v74) ?_
  funext d; apply Fin.ext
  match d with
  | ⟨0, _⟩ => show win0_4.index t (0 : Fin 2) * 120 + 1 * a.val = a.val; omega
  | ⟨1, _⟩ => show win0_4.index t (1 : Fin 2) * 64 + 1 * b.val = b.val; omega

theorem op0_5 (c : Dev nD) (t : Fin cfg0.N) : k0_pay5 (F := Ideal) (iblk0 V c 5 t) = V c main_v109 := by
  obtain ⟨-, -, -, -, e0, e1, -⟩ := idx_small0 t
  unfold k0_pay5
  simp only [shapeCast_self]
  funext j
  obtain ⟨a, b, rfl⟩ : ∃ (a : Fin 64) (b : Fin 8), j = ix2 a b := ⟨j 0, j 1, eq_ix2 j⟩
  show V c main_v109 (((cfg0.win 5).blk t).view.emb (ix2 a b)) = V c main_v109 (ix2 a b)
  refine congrArg (V c main_v109) ?_
  funext d; apply Fin.ext
  match d with
  | ⟨0, _⟩ => show win0_5.index t (0 : Fin 2) * 64 + 1 * a.val = a.val; omega
  | ⟨1, _⟩ => show win0_5.index t (1 : Fin 2) * 8 + 1 * b.val = b.val; omega

theorem op0_6 (c : Dev nD) (t : Fin cfg0.N) : k0_pay6 (F := Ideal) (iblk0 V c 6 t) = V c main_v113 := by
  obtain ⟨-, -, -, -, -, -, e0, e1, -⟩ := idx_small0 t
  unfold k0_pay6
  simp only [shapeCast_self]
  funext j
  obtain ⟨a, b, rfl⟩ : ∃ (a : Fin 1) (b : Fin 120), j = ix2 a b := ⟨j 0, j 1, eq_ix2 j⟩
  show V c main_v113 (((cfg0.win 6).blk t).view.emb (ix2 a b)) = V c main_v113 (ix2 a b)
  refine congrArg (V c main_v113) ?_
  funext d; apply Fin.ext
  match d with
  | ⟨0, _⟩ => show win0_6.index t (0 : Fin 2) * 1 + 1 * a.val = a.val; omega
  | ⟨1, _⟩ => show win0_6.index t (1 : Fin 2) * 120 + 1 * b.val = b.val; omega

theorem op0_7 (c : Dev nD) (t : Fin cfg0.N) : k0_pay7 (F := Ideal) (iblk0 V c 7 t) = V c main_v117 := by
  obtain ⟨-, -, -, -, -, -, -, -, e0, e1, -⟩ := idx_small0 t
  unfold k0_pay7
  simp only [shapeCast_self]
  funext j
  obtain ⟨a, b, rfl⟩ : ∃ (a : Fin 1) (b : Fin 64), j = ix2 a b := ⟨j 0, j 1, eq_ix2 j⟩
  show V c main_v117 (((cfg0.win 7).blk t).view.emb (ix2 a b)) = V c main_v117 (ix2 a b)
  refine congrArg (V c main_v117) ?_
  funext d; apply Fin.ext
  match d with
  | ⟨0, _⟩ => show win0_7.index t (0 : Fin 2) * 1 + 1 * a.val = a.val; omega
  | ⟨1, _⟩ => show win0_7.index t (1 : Fin 2) * 64 + 1 * b.val = b.val; omega

theorem op0_8 (c : Dev nD) (t : Fin cfg0.N) : k0_pay8 (F := Ideal) (iblk0 V c 8 t) = V c main_v121 := by
  obtain ⟨-, -, -, -, -, -, -, -, -, -, e0, e1⟩ := idx_small0 t
  unfold k0_pay8
  simp only [shapeCast_self]
  funext j
  obtain ⟨a, b, rfl⟩ : ∃ (a : Fin 1) (b : Fin 8), j = ix2 a b := ⟨j 0, j 1, eq_ix2 j⟩
  show V c main_v121 (((cfg0.win 8).blk t).view.emb (ix2 a b)) = V c main_v121 (ix2 a b)
  refine congrArg (V c main_v121) ?_
  funext d; apply Fin.ext
  match d with
  | ⟨0, _⟩ => show win0_8.index t (0 : Fin 2) * 1 + 1 * a.val = a.val; omega
  | ⟨1, _⟩ => show win0_8.index t (1 : Fin 2) * 8 + 1 * b.val = b.val; omega

/-- Strip k's 256 columns lie inside the slab. -/
theorem inb_strip0 (k : Fin 16) : ∀ a : Fin 2, (![0, 256 * k.val] : Fin 2 → Nat) a + S512x256.size a ≤ S512x4096.size a := by
  intro a
  have hk := k.isLt
  match a with
  | ⟨0, _⟩ => show 0 + 512 ≤ 512; omega
  | ⟨1, _⟩ => show 256 * k.val + 256 ≤ 4096; omega

/-- Row p of strip k of the slab at a last micro step is the pre-activation's columns of node n's group of eight, when
    n = 128 * ma + q and k = q / 8. -/
theorem strip_row0 (c : Dev nD) (t : Fin cfg0.N) (h3 : t.val % 4 = 3) (p : Fin 512) (s : Fin 16) (n : Fin 1024)
    (hs : n.val / 8 = 16 * (t.val / 4) + s.val) (k : Fin 256) :
    View.ld (scr0 V c t.val t.isLt) (Rect.unit (s := S512x4096) ![0, 256 * s.val] S512x256.size (inb_strip0 s)) (ix2 p k)
      = pre0 V c p (Cert.DanSpec.wideCol n k) := by
  have hs' := s.isLt
  have hk := k.isLt
  have hcol : 256 * s.val + k.val < 4096 := by omega
  have e : (Rect.unit (s := S512x4096) ![0, 256 * s.val] S512x256.size (inb_strip0 s)).idx (ix2 p k)
      = ix2 p (⟨256 * s.val + k.val, hcol⟩ : Fin 4096) := by
    funext a; apply Fin.ext
    match a with
    | ⟨0, _⟩ => show 0 + 1 * p.val = p.val; omega
    | ⟨1, _⟩ => show 256 * s.val + 1 * k.val = 256 * s.val + k.val; omega
  show scr0 V c t.val t.isLt ((Rect.unit (s := S512x4096) ![0, 256 * s.val] S512x256.size (inb_strip0 s)).idx (ix2 p k)) = _
  rw [e]
  exact slab0_last V c t h3 p ⟨256 * s.val + k.val, hcol⟩ (Cert.DanSpec.wideCol n k)
    (by show n.val / 8 * 256 + k.val = t.val / 4 * 4096 + (256 * s.val + k.val); omega)

set_option maxHeartbeats 2000000 in
/-- The block stored at a last micro step is the layer there. -/
theorem hblock0 (c : Dev nD) (t : Fin cfg0.N) (h3 : t.val % 4 = 3) (p : Fin 512) (q : Fin 128) (n : Fin 1024)
    (hn : n.val = 128 * (t.val / 4) + q.val) : out0_9 V c t (ix2 p q) = L0 V c p n := by
  have hq := q.isLt
  rw [out0_9_eq V c t h3, epiOut0_eq]
  show concatenate S512x128 (1 : Fin 2)
      (List.ofFn fun k : Fin 16 => (⟨S512x8, strip0 (iblk0 V c 3 t) (iblk0 V c 4 t) (iblk0 V c 5 t) (iblk0 V c 6 t) (iblk0 V c 7 t)
        (iblk0 V c 8 t) (scr0 V c t.val t.isLt) ![0, 256 * k.val] (inb_strip0 k)⟩ : (s : Shape) × (s.Idx → Elt Ideal .f32)))
      concatenates_S512x8_S512x8_S512x8_S512x8_S512x8_S512x8_S512x8_S512x8_S512x8_S512x8_S512x8_S512x8_S512x8_S512x8_S512x8_S512x8_S512x128_d1
      (ix2 p q) = _
  refine (concatenate_ofFn_apply (t := S512x128) (s₁ := S512x8) (1 : Fin 2)
    (fun k : Fin 16 => strip0 (iblk0 V c 3 t) (iblk0 V c 4 t) (iblk0 V c 5 t) (iblk0 V c 6 t) (iblk0 V c 7 t) (iblk0 V c 8 t)
      (scr0 V c t.val t.isLt) ![0, 256 * k.val] (inb_strip0 k))
    concatenates_S512x8_S512x8_S512x8_S512x8_S512x8_S512x8_S512x8_S512x8_S512x8_S512x8_S512x8_S512x8_S512x8_S512x8_S512x8_S512x8_S512x128_d1
    rfl 8 rfl (ix2 p q) (⟨q.val / 8, by omega⟩ : Fin 16) rfl (ix2 p (⟨q.val % 8, by omega⟩ : Fin 8)) rfl
    (fun b hb => by
      match b with
      | ⟨0, _⟩ => rfl
      | ⟨1, _⟩ => exact absurd rfl hb)).trans ?_
  dsimp only
  unfold strip0
  rw [op0_3, op0_4, op0_5, op0_6, op0_7, op0_8]
  have hidx : (⟨q.val % 8, by omega⟩ : Fin 8) = ⟨n.val % 8, Nat.mod_lt _ (by decide)⟩ := Fin.ext (by show q.val % 8 = n.val % 8; omega)
  rw [hidx]
  exact epi_eq_kdan _ (V c main_v39) (V c main_v113) (V c main_v74) (V c main_v117) (V c main_v109) (V c main_v121)
    (Cert.DanSpec.pre0K (V c main_v0) (V c main_arg1) (V c main_v122)) p p n
    (fun k => by
      rw [← pre0_eq_pre0K V c]
      exact strip_row0 V c t h3 p ⟨q.val / 8, by omega⟩ n (by show n.val / 8 = 16 * (t.val / 4) + q.val / 8; omega) k)

/-- Region 0's output array after the region is the layer of the arrays the region found. -/
theorem out0_value (c : Dev nD) :
    (dat0 (F := Ideal) V c).arrAt 9 cfg0.N
      = Cert.DanSpec.asMat (Cert.DanSpec.kdan (V c main_v39) (V c main_v113) (V c main_v74) (V c main_v117) (V c main_v109)
          (V c main_v121)
          (Cert.DanSpec.pre0K (V c main_v0) (V c main_arg1) (V c main_v122))) :=
  out0_value_of V c (fun t h3 p q n hn => hblock0 V c t h3 p q n hn)

end Cert.KernelIdeal.KValue

end
-- ==== Proof.KVal3Flush.lean ====
/-
  Region 3's output array.  Its array has 8 column blocks of 128 columns (nodes); the body writes block ma at the last
  micro step of macro tile ma, and the pipeline writes it back there.  If the block stored at point t = 4 ma + 3 is,
  at (p, q), the layer's value at row p, node 128 ma + q, then the eight blocks cover the array and the array ends at
  the layer: the specification's wide form over the region's pre-activation.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody3
import proofs.«120596_j16338055594194_2_alg».proof.Proof.KPre
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable (V : (c : Dev nD) → (b : Ref sig .tc) → Buf (Elt Ideal) ((c : Thread nD τ).loc b))

/-- Region 3's layer of the arrays it finds, row by node. -/
abbrev L3 (c : Dev nD) : Fin 512 → Fin 1024 → EReal :=
  Cert.DanSpec.kdan (V c main_v290) (V c main_v364) (V c main_v325) (V c main_v368) (V c main_v360) (V c main_v372)
    (Cert.DanSpec.pre3K (V c main_v251) (V c main_arg5) (V c main_v373) (V c main_v126))

/-- The output block's column index is the macro tile. -/
theorem idx_out3 : ∀ t : Fin cfg3.N, win3_10.index t (0 : Fin 2) = 0 ∧ win3_10.index t (1 : Fin 2) = t.val / 4 :=
  (by decide +kernel : ∀ t : Fin grid3.N, _)

/-- Every column block of the output is written at some last micro step. -/
theorem idx_onto3 : ∀ q1 : Fin 8, ∃ t : Fin cfg3.N, t.val % 4 = 3 ∧ win3_10.index t = ![0, q1.val] :=
  (by decide +kernel : ∀ q1 : Fin 8, ∃ t : Fin grid3.N, t.val % 4 = 3 ∧ win3_10.index t = ![0, q1.val])

/-- An index of the array is in point t's block iff each coordinate is in the block's range on its axis. -/
theorem mem_blk3 (t : Fin cfg3.N) (i : S512x1024.Idx) :
    i ∈ ((cfg3.win 10).blk t).view.set ↔ ∀ a : Fin 2, win3_10.index t a * S512x128.size a ≤ (i a).val
      ∧ (i a).val < win3_10.index t a * S512x128.size a + S512x128.size a := by
  show i ∈ ((View.whole main_v374).slice (win3_10.rect t)).set ↔ _
  rw [View.set_slice_whole, Rect.mem_set_unit]
  exact Iff.rfl

/-- The eight blocks cover the array: node n lies in block n / 128. -/
theorem covered3 (i : S512x1024.Idx) :
    ∃ t : Fin cfg3.N, (cfg3.win 10).flush t = true ∧ i ∈ ((cfg3.win 10).blk t).view.set := by
  have hi0 : (i 0).val < 512 := (i 0).isLt
  have hi1 : (i 1).val < 1024 := (i 1).isLt
  obtain ⟨t, h3, ht⟩ := idx_onto3 ⟨(i 1).val / 128, by omega⟩
  have q0 : win3_10.index t (0 : Fin 2) = 0 := congrFun ht 0
  have q1 : win3_10.index t (1 : Fin 2) = (i 1).val / 128 := congrFun ht 1
  refine ⟨t, (flush3_10 t).mpr h3, ?_⟩
  rw [mem_blk3]
  intro a
  match a with
  | ⟨0, _⟩ => show win3_10.index t (0 : Fin 2) * 512 ≤ (i 0).val ∧ (i 0).val < win3_10.index t (0 : Fin 2) * 512 + 512; omega
  | ⟨1, _⟩ => show win3_10.index t (1 : Fin 2) * 128 ≤ (i 1).val ∧ (i 1).val < win3_10.index t (1 : Fin 2) * 128 + 128; omega

/-- What a last micro step writes back is its block of the layer, PROVIDED the block it stored is the layer there. -/
theorem flushed3_eq (c : Dev nD)
    (hblock : ∀ (t : Fin cfg3.N), t.val % 4 = 3 → ∀ (p : Fin 512) (q : Fin 128) (n : Fin 1024), n.val = 128 * (t.val / 4) + q.val →
      out3_10 V c t (ix2 p q) = L3 V c p n)
    (t : Fin cfg3.N) (hf : (cfg3.win 10).flush t = true) :
    (dat3 V c).flushed 10 t = ((cfg3.win 10).blk t).view.read (Elt Ideal) (Cert.DanSpec.asMat (L3 V c)) := by
  have h3 : t.val % 4 = 3 := (flush3_10 t).mp hf
  obtain ⟨e0, e1⟩ := idx_out3 t
  show (cfg3.win 10).cut (grid3.coords t) ((dat3 V c).after 10 t) = _
  rw [after3_10]
  funext j
  obtain ⟨p, q, rfl⟩ : ∃ (p : Fin 512) (q : Fin 128), j = ix2 p q := ⟨j 0, j 1, eq_ix2 j⟩
  show out3_10 V c t (ix2 p q) = Cert.DanSpec.asMat (L3 V c) (((cfg3.win 10).blk t).view.emb (ix2 p q))
  have hq : q.val < 128 := q.isLt
  have hN : t.val < 32 := lt_of_lt_of_eq t.isLt (show cfg3.N = 32 from N_3)
  rw [hblock t h3 p q ⟨128 * (t.val / 4) + q.val, by omega⟩ rfl]
  show L3 V c p _ = L3 V c ((((cfg3.win 10).blk t).view.emb (ix2 p q)) 0) ((((cfg3.win 10).blk t).view.emb (ix2 p q)) 1)
  congr 1
  · apply Fin.ext
    show p.val = win3_10.index t (0 : Fin 2) * 512 + 1 * p.val
    omega
  · apply Fin.ext
    show 128 * (t.val / 4) + q.val = win3_10.index t (1 : Fin 2) * 128 + 1 * q.val
    omega

/-- The output array after the region is the layer of the arrays the region found, PROVIDED each last micro step's stored
    block is the layer there. -/
theorem out3_value_of (c : Dev nD)
    (hblock : ∀ (t : Fin cfg3.N), t.val % 4 = 3 → ∀ (p : Fin 512) (q : Fin 128) (n : Fin 1024), n.val = 128 * (t.val / 4) + q.val →
      out3_10 V c t (ix2 p q) = L3 V c p n) :
    (dat3 V c).arrAt 10 cfg3.N = Cert.DanSpec.asMat (L3 V c) :=
  (dat3 V c).arrAt_eq_of_cover 10 (Cert.DanSpec.asMat (L3 V c))
    (fun t hf => flushed3_eq V c hblock t hf) (fun i => covered3 i)

end Cert.KernelIdeal.KValue

end
-- ==== Proof.KVal3Wit.lean ====
/-
  Region 3: the values the three runs determine for the scratch slab, written out.  After micro step 0 the slab is
  the overlay of the stored slice on the zero tile; after a later micro step it is the slab as found with the stored
  slice written over it.  The slice is the micro step's tile of the four input blocks.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody3
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable {F : FTy → Type} [FloatOps F]

/-- The middle run's value: the slab as found, the slice written over it. -/
theorem kernelRun3_B_val (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole) (hc0 : ¬cond3_0 i) (hc1 : ¬cond3_1 i)
    (x2 : Vec F S512x1024 .bf16) (x3 : Vec F S1024x1024 .f32) (x4 : Vec F S1x1024 .f32) (x5 : Vec F S512x1024 .f32) (xs : Vec F S512x4096 .f32) :
    (kernelRun3_B c i arg2 harg2 arg3 harg3 arg4 harg4 arg5 harg5 arg6 harg6 arg7 harg7 arg8 harg8 arg9 harg9 arg10 harg10 arg11 harg11 arg12 harg12 arg13 harg13 hc0 hc1 x2 x3 x4 x5 xs).1
      = arg13.view.read (Elt F) (arg13.view.writes (Elt F) (harg13.unread xs)
          [⟨Rect.unit (s := S512x4096) (k3_off1 i) S512x1024.size (k3_off1_inb i), k3_pay2 x2 x3 x4 x5⟩]) := by
  unfold kernelRun3_B; dsimp only
  simp only [View.readAt_eq_ld, Memref.IsWhole.read_unread, View.ld_unit_zero (S := S512x1024) hz00_3,
    View.ld_unit_zero (S := S1024x1024) hz00_3, View.ld_unit_zero (S := S1x1024) hz00_3]
  all_goals rfl

/-- The first run's value: the slice overlaid on the zero tile. -/
theorem kernelRun3_A_val (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole) (hc0 : cond3_0 i) (hc1 : ¬cond3_1 i)
    (x2 : Vec F S512x1024 .bf16) (x3 : Vec F S1024x1024 .f32) (x4 : Vec F S1x1024 .f32) (x5 : Vec F S512x1024 .f32) :
    (kernelRun3_A c i arg2 harg2 arg3 harg3 arg4 harg4 arg5 harg5 arg6 harg6 arg7 harg7 arg8 harg8 arg9 harg9 arg10 harg10 arg11 harg11 arg12 harg12 arg13 harg13 hc0 hc1 x2 x3 x4 x5).1
      = View.canon [⟨Rect.unit (s := S512x4096) (k3_off1 i) S512x1024.size (k3_off1_inb i), k3_pay2 x2 x3 x4 x5⟩,
          ⟨Rect.unit (s := S512x4096) ![0, 0] S512x4096.size inb_S512x4096_S512x4096_0_0, k3_pay1 (F := F)⟩] := by
  unfold kernelRun3_A; dsimp only
  simp only [View.readAt_eq_ld, Memref.IsWhole.read_unread, View.ld_unit_zero (S := S512x1024) hz00_3,
    View.ld_unit_zero (S := S1024x1024) hz00_3, View.ld_unit_zero (S := S1x1024) hz00_3]
  all_goals rfl

set_option maxHeartbeats 4000000 in
/-- The last run's slab: the slab as found, the slice written over it. -/
theorem kernelRun3_C_slab (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole) (hc0 : ¬cond3_0 i) (hc1 : cond3_1 i)
    (x2 : Vec F S512x1024 .bf16) (x3 : Vec F S1024x1024 .f32) (x4 : Vec F S1x1024 .f32) (x5 : Vec F S512x1024 .f32)
    (x6 : Vec F S256x120 .bf16) (x7 : Vec F S120x64 .bf16) (x8 : Vec F S64x8 .bf16)
    (x9 : Vec F S1x120 .f32) (x10 : Vec F S1x64 .f32) (x11 : Vec F S1x8 .f32) (xs : Vec F S512x4096 .f32) :
    (kernelRun3_C c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x9 x10 x11 xs).1.2
      = arg13.view.read (Elt F) (arg13.view.writes (Elt F) (harg13.unread xs)
          [⟨Rect.unit (s := S512x4096) (k3_off1 i) S512x1024.size (k3_off1_inb i), k3_pay2 x2 x3 x4 x5⟩]) := by
  unfold kernelRun3_C; dsimp only
  sl_unfold_run_names
  simp only [View.readAt_eq_ld, Memref.IsWhole.read_unread, View.ld_unit_zero (S := S512x1024) hz00_3,
    View.ld_unit_zero (S := S1024x1024) hz00_3, View.ld_unit_zero (S := S1x1024) hz00_3]
  all_goals rfl

end Cert.KernelIdeal.KValue

end
-- ==== Proof.KVal3Pay.lean ====
/-
  Region 3: what one micro step stores into the scratch slab, entry by entry.  The stored tile is the product of
  the 512 x 1024 left block with the transpose of the 1024 x 1024 weight block, plus the bias row, plus the skip
  block: at (p, q) it is  (sum_k h[p, k] * w[q, k] + b[0, q]) + s[p, q].
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

/-- The tile product's dimension numbers contract axis 1 with axis 1. -/
theorem rowsT3 : RowsDot.IsRowsT dot_S512x1024_S1024x1024_S512x1024_1_1_0_0_n_n := ⟨rfl, rfl, rfl, rfl, rfl, rfl, rfl, rfl⟩

set_option maxHeartbeats 4000000 in
/-- The slice a micro step stores, at an entry. -/
theorem pay3_2_apply (x0 : Vec Ideal S512x1024 .bf16) (x1 : Vec Ideal S1024x1024 .f32) (x2 : Vec Ideal S1x1024 .f32)
    (x3 : Vec Ideal S512x1024 .f32) (p : Fin 512) (q : Fin 1024) :
    k3_pay2 (F := Ideal) x0 x1 x2 x3 (ix2 p q)
      = ((∑ k : Fin 1024, (x0 (ix2 p k) : EReal) * (x1 (ix2 q k) : EReal)) + (x2 (ix2 (0 : Fin 1) q) : EReal)) + (x3 (ix2 p q) : EReal) := by
  unfold k3_pay2
  simp only [shapeCast_self]
  show (((matmul (F := Ideal) dot_S512x1024_S1024x1024_S512x1024_1_1_0_0_n_n none x0
        (truncf (F := Ideal) .bf16 x1 bitsLt_bf16_f32) (constant (F := Ideal) S512x1024 .f32 0x00000000#32)) (ix2 p q) : EReal)
      + ((broadcastTo S512x1024 x2 broadcasts_S1x1024_S512x1024) (ix2 p q) : EReal)) + (x3 (ix2 p q) : EReal) = _
  rw [RowsDot.matmul_zero_apply rowsT3, broadcastTo_1b_ab_apply]
  rfl

end Cert.KernelIdeal.KValue

end
-- ==== Proof.KVal3Slab.lean ====
/-
  Region 3: what one micro step's stored slice is, in terms of the arrays the region finds.  At grid point t the
  left block is the whole 512 x 1024 activation, the weight block is rows 1024 t .. 1024 t + 1023 of the weight
  array, the bias block is columns 1024 t .. of the bias row and the skip block is columns 1024 t .. of the skip
  array; so the slice's entry (r, q) is the third layer's pre-activation at row r, column 1024 t + q.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody3
import proofs.«120596_j16338055594194_2_alg».proof.Proof.KVal3Pay
import proofs.«120596_j16338055594194_2_alg».proof.Proof.KPre
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable (V : (c : Dev nD) → (b : Ref sig .tc) → Buf (Elt Ideal) ((c : Thread nD τ).loc b))

/-- The third layer's pre-activation at row r, column j, from the arrays as region 3 finds them. -/
abbrev pre3 (c : Dev nD) : Fin 512 → Fin 32768 → EReal :=
  Cert.DanSpec.pre3K (V c main_v251) (V c main_arg5) (V c main_v373) (V c main_v126)

/-- The printed index maps over the grid: the activation block stays at (0, 0); the weight block's row index, the bias
    block's and the skip block's column index are the point's number; the slice's column offset is 1024 times the
    micro step. -/
theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val
    ∧ k3_off1 (grid3.coords t) (0 : Fin 2) = 0 ∧ k3_off1 (grid3.coords t) (1 : Fin 2) = t.val % 4 * 1024 :=
  (by decide +kernel : ∀ t : Fin grid3.N, _)

set_option maxHeartbeats 2000000 in
/-- The slice stored at point t, at (r, q): the pre-activation at row r, column 1024 t + q. -/
theorem slice3_value (c : Dev nD) (t : Fin cfg3.N) (r : Fin 512) (q : Fin 1024) (hj : t.val * 1024 + q.val < 32768) :
    k3_pay2 (F := Ideal) (iblk3 V c 0 t) (iblk3 V c 1 t) (iblk3 V c 2 t) (iblk3 V c 3 t) (ix2 r q) = pre3 V c r ⟨t.val * 1024 + q.val, hj⟩ := by
  obtain ⟨e0, e1, e2, e3, e4, e5, e6, e7, -, -⟩ := idx_facts3 t
  refine (pay3_2_apply (iblk3 V c 0 t) (iblk3 V c 1 t) (iblk3 V c 2 t) (iblk3 V c 3 t) r q).trans ?_
  have hr0 : ∀ k : Fin 1024, iblk3 V c 0 t (ix2 r k) = V c main_v251 (ix2 r k) := fun k => by
    show V c main_v251 (((cfg3.win 0).blk t).view.emb (ix2 r k)) = _
    refine congrArg (V c main_v251) ?_
    funext a; apply Fin.ext
    match a with
    | ⟨0, _⟩ => show win3_0.index t (0 : Fin 2) * 512 + 1 * r.val = r.val; omega
    | ⟨1, _⟩ => show win3_0.index t (1 : Fin 2) * 1024 + 1 * k.val = k.val; omega
  have hr1 : ∀ k : Fin 1024, iblk3 V c 1 t (ix2 q k) = V c main_arg5 (ix2 (⟨t.val * 1024 + q.val, hj⟩ : Fin 32768) k) := fun k => by
    show V c main_arg5 (((cfg3.win 1).blk t).view.emb (ix2 q k)) = _
    refine congrArg (V c main_arg5) ?_
    funext a; apply Fin.ext
    match a with
    | ⟨0, _⟩ => show win3_1.index t (0 : Fin 2) * 1024 + 1 * q.val = t.val * 1024 + q.val; omega
    | ⟨1, _⟩ => show win3_1.index t (1 : Fin 2) * 1024 + 1 * k.val = k.val; omega
  have hr2 : iblk3 V c 2 t (ix2 (0 : Fin 1) q) = V c main_v373 (ix2 (0 : Fin 1) (⟨t.val * 1024 + q.val, hj⟩ : Fin 32768)) := by
    show V c main_v373 (((cfg3.win 2).blk t).view.emb (ix2 (0 : Fin 1) q)) = _
    refine congrArg (V c main_v373) ?_
    funext a; apply Fin.ext
    match a with
    | ⟨0, _⟩ => show win3_2.index t (0 : Fin 2) * 1 + 1 * 0 = 0; omega
    | ⟨1, _⟩ => show win3_2.index t (1 : Fin 2) * 1024 + 1 * q.val = t.val * 1024 + q.val; omega
  have hr3 : iblk3 V c 3 t (ix2 r q) = V c main_v126 (ix2 r (⟨t.val * 1024 + q.val, hj⟩ : Fin 32768)) := by
    show V c main_v126 (((cfg3.win 3).blk t).view.emb (ix2 r q)) = _
    refine congrArg (V c main_v126) ?_
    funext a; apply Fin.ext
    match a with
    | ⟨0, _⟩ => show win3_3.index t (0 : Fin 2) * 512 + 1 * r.val = r.val; omega
    | ⟨1, _⟩ => show win3_3.index t (1 : Fin 2) * 1024 + 1 * q.val = t.val * 1024 + q.val; omega
  show _ = Cert.DanSpec.pre3K (V c main_v251) (V c main_arg5) (V c main_v373) (V c main_v126) r ⟨t.val * 1024 + q.val, hj⟩
  unfold Cert.DanSpec.pre3K Cert.DanSpec.dotRows
  rw [hr2, hr3]
  refine congrArg (· + _) (congrArg (· + _) (Finset.sum_congr rfl fun k _ => ?_))
  rw [hr0 k, hr1 k]

end Cert.KernelIdeal.KValue

end
-- ==== Proof.KVal3Tile.lean ====
/-
  Region 3: the scratch slab after each grid point, entry by entry.  Within a macro tile (four consecutive points)
  micro step s stores columns 1024 s .. 1024 s + 1023 of the tile's 4096 pre-activation columns; so after micro
  step s the slab's columns below 1024 (s + 1) hold the third layer's pre-activation at columns 4096 (t / 4) + col.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody3
import proofs.«120596_j16338055594194_2_alg».proof.Proof.KVal3Wit
import proofs.«120596_j16338055594194_2_alg».proof.Proof.KVal3Slab
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable (V : (c : Dev nD) → (b : Ref sig .tc) → Buf (Elt Ideal) ((c : Thread nD τ).loc b))

/-- The rectangle a micro step stores its slice through, at the column offset the body computes. -/
abbrev slice3R (i : grid3.Coords) : Rect S512x4096 := Rect.unit (s := S512x4096) (k3_off1 i) S512x1024.size (k3_off1_inb i)

/-- A store through a rectangle into a whole buffer found at `xs`: under the rectangle the payload, -/
theorem store_emb3 {M : Memref sig .tc .vmem S512x4096 .f32} (h : M.IsWhole) (xs : Vec Ideal S512x4096 .f32) (R : Rect S512x4096)
    (P : R.shape.Idx → Elt Ideal .f32) (x : R.shape.Idx) :
    M.view.read (Elt Ideal) (M.view.writes (Elt Ideal) (h.unread xs) [⟨R, P⟩]) (R.emb x) = P x :=
  View.read_writes_cons_emb _ _ R P [] x

/-- off it what the buffer held. -/
theorem store_not_mem3 {M : Memref sig .tc .vmem S512x4096 .f32} (h : M.IsWhole) (xs : Vec Ideal S512x4096 .f32) (R : Rect S512x4096)
    (P : R.shape.Idx → Elt Ideal .f32) (y : S512x4096.Idx) (hy : y ∉ R.set) :
    M.view.read (Elt Ideal) (M.view.writes (Elt Ideal) (h.unread xs) [⟨R, P⟩]) y = xs y := by
  rw [View.writes_cons, View.writes_nil, View.read_slice_write_of_not_mem R _ _ _ (by rwa [Rect.map_emb_univ]), h.read_unread]

/-- The slice stored at point t, at (p, q): the pre-activation at column j = 1024 t + q. -/
theorem tile3_entry (c : Dev nD) (t : Fin cfg3.N) (p : Fin 512) (q : Fin 1024) (j : Fin 32768) (hj : j.val = 1024 * t.val + q.val) :
    k3_pay2 (F := Ideal) (iblk3 V c 0 t) (iblk3 V c 1 t) (iblk3 V c 2 t) (iblk3 V c 3 t) (ix2 p q) = pre3 V c p j := by
  have hlt : t.val * 1024 + q.val < 32768 := by have := j.isLt; omega
  have hje : j = ⟨t.val * 1024 + q.val, hlt⟩ := Fin.ext (by show j.val = t.val * 1024 + q.val; omega)
  rw [hje]
  exact slice3_value V c t p q hlt

/-- Index (r, col) of the slab lies under point t's slice, at local index (r, q), when col = 1024 (t mod 4) + q. -/
theorem slice3_emb (t : Fin cfg3.N) (r : Fin 512) (col : Fin 4096) (q : Fin 1024) (h : col.val = 1024 * (t.val % 4) + q.val) :
    (slice3R (grid3.coords t)).emb (ix2 r q) = ix2 r col := by
  obtain ⟨-, -, -, -, -, -, -, -, o0, o1⟩ := idx_facts3 t
  funext a; apply Fin.ext
  match a with
  | ⟨0, _⟩ =>
    show k3_off1 (grid3.coords t) (0 : Fin 2) + 1 * r.val = r.val
    rw [o0]; omega
  | ⟨1, _⟩ =>
    show k3_off1 (grid3.coords t) (1 : Fin 2) + 1 * q.val = col.val
    rw [o1]; omega

/-- A column before the slice's first is not under it. -/
theorem slice3_not_mem (t : Fin cfg3.N) (r : Fin 512) (col : Fin 4096) (h : col.val < 1024 * (t.val % 4)) :
    ix2 r col ∉ (slice3R (grid3.coords t)).set := by
  obtain ⟨-, -, -, -, -, -, -, -, o0, o1⟩ := idx_facts3 t
  intro hm
  have h1 := (Rect.mem_set_unit.mp hm (1 : Fin 2)).1
  rw [o1] at h1
  have h1' : t.val % 4 * 1024 ≤ col.val := h1
  omega

/-- Micro step 0 of a macro tile: the slab's first 1024 columns hold the pre-activation of columns 4096 (t / 4) .. . -/
theorem slab3_A (c : Dev nD) (t : Fin cfg3.N) (h0 : t.val % 4 = 0) (r : Fin 512) (col : Fin 4096) (j : Fin 32768)
    (hcol : col.val < 1024) (hj : j.val = t.val / 4 * 4096 + col.val) :
    scr3 V c t.val t.isLt (ix2 r col) = pre3 V c r j := by
  rw [scr3_A V c t h0]
  unfold runA3
  rw [kernelRun3_A_val]
  rw [← slice3_emb t r col ⟨col.val, hcol⟩ (by show col.val = 1024 * (t.val % 4) + col.val; omega)]
  rw [View.canon_cons_emb]
  exact tile3_entry V c t r ⟨col.val, hcol⟩ j (by show j.val = 1024 * t.val + col.val; omega)

/-- A later micro step: the columns below the slice keep what the step before left, the slice's columns take the
    pre-activation. -/
theorem slab3_step (c : Dev nD) (t : Fin cfg3.N) (h0 : ¬t.val % 4 = 0)
    (ih : ∀ (r : Fin 512) (col : Fin 4096) (j : Fin 32768), col.val < 1024 * (t.val % 4) → j.val = t.val / 4 * 4096 + col.val →
      scr3 V c (t.val - 1) (Nat.lt_of_le_of_lt (Nat.sub_le _ _) t.isLt) (ix2 r col) = pre3 V c r j)
    (r : Fin 512) (col : Fin 4096) (j : Fin 32768) (hcol : col.val < 1024 * (t.val % 4 + 1))
    (hj : j.val = t.val / 4 * 4096 + col.val) :
    scr3 V c t.val t.isLt (ix2 r col) = pre3 V c r j := by
  have key : ∀ xs : Vec Ideal S512x4096 .f32,
      (∀ (r : Fin 512) (col : Fin 4096) (j : Fin 32768), col.val < 1024 * (t.val % 4) → j.val = t.val / 4 * 4096 + col.val →
        xs (ix2 r col) = pre3 V c r j) →
      scM3_0.view.read (Elt Ideal) (scM3_0.view.writes (Elt Ideal) ((Memref.isWhole_whole cc3_scratch0).unread xs)
        [⟨slice3R (grid3.coords t), k3_pay2 (F := Ideal) (iblk3 V c 0 t) (iblk3 V c 1 t) (iblk3 V c 2 t) (iblk3 V c 3 t)⟩]) (ix2 r col) = pre3 V c r j := by
    intro xs hxs
    by_cases hlo : col.val < 1024 * (t.val % 4)
    · rw [store_not_mem3 _ xs _ _ _ (slice3_not_mem t r col hlo)]
      exact hxs r col j hlo hj
    · have hq : col.val - 1024 * (t.val % 4) < 1024 := by omega
      rw [← slice3_emb t r col ⟨col.val - 1024 * (t.val % 4), hq⟩
        (by show col.val = 1024 * (t.val % 4) + (col.val - 1024 * (t.val % 4)); omega)]
      rw [store_emb3]
      exact tile3_entry V c t r ⟨col.val - 1024 * (t.val % 4), hq⟩ j
        (by show j.val = 1024 * t.val + (col.val - 1024 * (t.val % 4)); omega)
  by_cases h1 : t.val % 4 = 3
  · rw [scr3_C V c t h1]
    unfold runC3
    rw [kernelRun3_C_slab]
    exact key _ ih
  · rw [scr3_B V c t h0 h1]
    unfold runB3
    rw [kernelRun3_B_val]
    exact key _ ih

/-- After the body at position n = 4 ma + mi, the slab's columns below 1024 (mi + 1) hold the layer's pre-activation
    of columns 4096 ma .. : by induction over the positions. -/
theorem slab3 (c : Dev nD) : ∀ (n : ℕ) (hn : n < cfg3.N) (r : Fin 512) (col : Fin 4096) (j : Fin 32768),
    col.val < 1024 * (n % 4 + 1) → j.val = n / 4 * 4096 + col.val → scr3 V c n hn (ix2 r col) = pre3 V c r j := by
  intro n
  induction n with
  | zero =>
    intro hn r col j hcol hj
    exact slab3_A V c ⟨0, hn⟩ (Nat.zero_mod _) r col j (by omega) hj
  | succ n ih =>
    intro hn r col j hcol hj
    by_cases h0 : (n + 1) % 4 = 0
    · exact slab3_A V c ⟨n + 1, hn⟩ h0 r col j (by omega) hj
    · refine slab3_step V c ⟨n + 1, hn⟩ h0 (fun r' col' j' hc' hj' => ?_) r col j hcol hj
      have hc'' : col'.val < 1024 * ((n + 1) % 4) := hc'
      have hj'' : j'.val = (n + 1) / 4 * 4096 + col'.val := hj'
      exact ih (Nat.lt_of_succ_lt hn) r' col' j' (by omega) (by omega)

/-- At the last micro step of macro tile ma the whole slab holds the pre-activation of columns 4096 ma .. + 4095. -/
theorem slab3_last (c : Dev nD) (t : Fin cfg3.N) (h3 : t.val % 4 = 3) (r : Fin 512) (col : Fin 4096) (j : Fin 32768)
    (hj : j.val = t.val / 4 * 4096 + col.val) : scr3 V c t.val t.isLt (ix2 r col) = pre3 V c r j :=
  slab3 V c t.val t.isLt r col j (by have := col.isLt; omega) hj

end Cert.KernelIdeal.KValue

end
-- ==== Proof.KVal3Out.lean ====
/-
  Region 3's output block as the epilogue computes it.  The slab's sixteen 256-column strips each go through the
  three wide products with bias and rectifier (the printed payloads cut some strips' chains in two or three pieces);
  the sixteen 512 x 8 results are concatenated along the columns.  The last run's witness for the output block is
  this function of the six small operands' blocks and of the slab as the run's own last store left it.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KBody3
import proofs.«120596_j16338055594194_2_alg».proof.Proof.KVal3Tile
import proofs.«120596_j16338055594194_2_alg».proof.Proof.LibRowsDot
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.DanLib Idealize.ShloMosaic.ValueIdx

open Cert.KernelIdeal.KBody

variable {F : FTy → Type} [FloatOps F]

/-- The epilogue's output block from the six small operands and the slab `S`: strip k is columns 256 k .. of `S`. -/
def epiOut3 (x6 : Vec F S256x120 .bf16) (x7 : Vec F S120x64 .bf16) (x8 : Vec F S64x8 .bf16) (x9 : Vec F S1x120 .f32)
    (x10 : Vec F S1x64 .f32) (x11 : Vec F S1x8 .f32) (S : Vec F S512x4096 .f32) : FVec F S512x128 .f32 :=
  k3_pay35
    (k3_pay11
      (k3_pay9 x6 x7 x8 x9 x10 x11 (View.ld S (Rect.unit (s := S512x4096) ![0, 0] S512x256.size inb_S512x4096_S512x256_0_0)))
      (k3_pay10 x6 x7 x8 x9 x10 x11 (View.ld S (Rect.unit (s := S512x4096) ![0, 0] S512x256.size inb_S512x4096_S512x256_0_0)))
      (Scalar.ofBits .f32 0x3C23D70A#32))
    (k3_pay12 (k3_pay3 x6) (k3_pay4 x7) (k3_pay5 x8) (k3_pay6 x9) (k3_pay7 x10) (k3_pay8 x11)
      (View.ld S (Rect.unit (s := S512x4096) ![0, 256] S512x256.size inb_S512x4096_S512x256_0_256)))
    (k3_pay14 (k3_pay5 x8) (k3_pay7 x10) (k3_pay8 x11)
      (k3_pay13 (k3_pay3 x6) (k3_pay4 x7) (k3_pay6 x9)
        (View.ld S (Rect.unit (s := S512x4096) ![0, 512] S512x256.size inb_S512x4096_S512x256_0_512))))
    (k3_pay15 (k3_pay3 x6) (k3_pay4 x7) (k3_pay5 x8) (k3_pay6 x9) (k3_pay7 x10) (k3_pay8 x11)
      (View.ld S (Rect.unit (s := S512x4096) ![0, 768] S512x256.size inb_S512x4096_S512x256_0_768)))
    (k3_pay16 (k3_pay3 x6) (k3_pay4 x7) (k3_pay5 x8) (k3_pay6 x9) (k3_pay7 x10) (k3_pay8 x11)
      (View.ld S (Rect.unit (s := S512x4096) ![0, 1024] S512x256.size inb_S512x4096_S512x256_0_1024)))
    (k3_pay18 (k3_pay5 x8) (k3_pay8 x11)
      (k3_pay17 (k3_pay3 x6) (k3_pay4 x7) (k3_pay6 x9) (k3_pay7 x10)
        (View.ld S (Rect.unit (s := S512x4096) ![0, 1280] S512x256.size inb_S512x4096_S512x256_0_1280)))
      (Scalar.ofBits .f32 0x00000000#32))
    (k3_pay19 (k3_pay3 x6) (k3_pay4 x7) (k3_pay5 x8) (k3_pay6 x9) (k3_pay7 x10) (k3_pay8 x11)
      (View.ld S (Rect.unit (s := S512x4096) ![0, 1536] S512x256.size inb_S512x4096_S512x256_0_1536)))
    (k3_pay20 (k3_pay3 x6) (k3_pay4 x7) (k3_pay5 x8) (k3_pay6 x9) (k3_pay7 x10) (k3_pay8 x11)
      (View.ld S (Rect.unit (s := S512x4096) ![0, 1792] S512x256.size inb_S512x4096_S512x256_0_1792)))
    (k3_pay23 (k3_pay5 x8) (k3_pay8 x11)
      (k3_pay21 (k3_pay3 x6) (k3_pay4 x7) (k3_pay6 x9) (k3_pay7 x10)
        (View.ld S (Rect.unit (s := S512x4096) ![0, 2048] S512x256.size inb_S512x4096_S512x256_0_2048)))
      (k3_pay22 (k3_pay3 x6) (k3_pay4 x7) (k3_pay6 x9) (k3_pay7 x10)
        (View.ld S (Rect.unit (s := S512x4096) ![0, 2048] S512x256.size inb_S512x4096_S512x256_0_2048)))
      (Scalar.ofBits .f32 0x3C23D70A#32))
    (k3_pay24 (k3_pay3 x6) (k3_pay4 x7) (k3_pay5 x8) (k3_pay6 x9) (k3_pay7 x10) (k3_pay8 x11)
      (View.ld S (Rect.unit (s := S512x4096) ![0, 2304] S512x256.size inb_S512x4096_S512x256_0_2304)))
    (k3_pay26 (k3_pay4 x7) (k3_pay5 x8) (k3_pay6 x9) (k3_pay7 x10) (k3_pay8 x11)
      (k3_pay25 (k3_pay3 x6)
        (View.ld S (Rect.unit (s := S512x4096) ![0, 2560] S512x256.size inb_S512x4096_S512x256_0_2560))))
    (k3_pay28 (k3_pay5 x8) (k3_pay8 x11)
      (k3_pay27 (k3_pay3 x6) (k3_pay4 x7) (k3_pay6 x9) (k3_pay7 x10)
        (View.ld S (Rect.unit (s := S512x4096) ![0, 2816] S512x256.size inb_S512x4096_S512x256_0_2816))))
    (k3_pay29 (k3_pay3 x6) (k3_pay4 x7) (k3_pay5 x8) (k3_pay6 x9) (k3_pay7 x10) (k3_pay8 x11)
      (View.ld S (Rect.unit (s := S512x4096) ![0, 3072] S512x256.size inb_S512x4096_S512x256_0_3072)))
    (k3_pay31 (k3_pay4 x7) (k3_pay5 x8) (k3_pay7 x10) (k3_pay8 x11)
      (k3_pay30 (k3_pay3 x6) (k3_pay6 x9)
        (View.ld S (Rect.unit (s := S512x4096) ![0, 3328] S512x256.size inb_S512x4096_S512x256_0_3328)))
      (Scalar.ofBits .f32 0x00000000#32))
    (k3_pay33 (k3_pay8 x11)
      (k3_pay32 (k3_pay3 x6) (k3_pay4 x7) (k3_pay5 x8) (k3_pay6 x9) (k3_pay7 x10)
        (View.ld S (Rect.unit (s := S512x4096) ![0, 3584] S512x256.size inb_S512x4096_S512x256_0_3584))))
    (k3_pay34 (k3_pay3 x6) (k3_pay4 x7) (k3_pay5 x8) (k3_pay6 x9) (k3_pay7 x10) (k3_pay8 x11)
      (View.ld S (Rect.unit (s := S512x4096) ![0, 3840] S512x256.size inb_S512x4096_S512x256_0_3840)))

set_option maxHeartbeats 4000000 in
/-- The last run's output block is the epilogue's function of the six small operands and of the slab as the run's own
    store left it. -/
theorem runC3_fst_eq (c : Dev nD) (i : grid3.Coords)
    (arg2 : Memref sig .tc .vmem S512x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S512x1024 .f32) (harg5 : arg5.IsWhole)
    (arg6 : Memref sig .tc .vmem S256x120 .bf16) (harg6 : arg6.IsWhole) (arg7 : Memref sig .tc .vmem S120x64 .bf16) (harg7 : arg7.IsWhole)
    (arg8 : Memref sig .tc .vmem S64x8 .bf16) (harg8 : arg8.IsWhole) (arg9 : Memref sig .tc .vmem S1x120 .f32) (harg9 : arg9.IsWhole)
    (arg10 : Memref sig .tc .vmem S1x64 .f32) (harg10 : arg10.IsWhole) (arg11 : Memref sig .tc .vmem S1x8 .f32) (harg11 : arg11.IsWhole)
    (arg12 : Memref sig .tc .vmem S512x128 .f32) (harg12 : arg12.IsWhole) (arg13 : Memref sig .tc .vmem S512x4096 .f32) (harg13 : arg13.IsWhole) (hc0 : ¬cond3_0 i) (hc1 : cond3_1 i)
    (x2 : Vec F S512x1024 .bf16) (x3 : Vec F S1024x1024 .f32) (x4 : Vec F S1x1024 .f32) (x5 : Vec F S512x1024 .f32)
    (x6 : Vec F S256x120 .bf16) (x7 : Vec F S120x64 .bf16) (x8 : Vec F S64x8 .bf16)
    (x9 : Vec F S1x120 .f32) (x10 : Vec F S1x64 .f32) (x11 : Vec F S1x8 .f32) (xs : Vec F S512x4096 .f32) :
    (kernelRun3_C (F := F) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 x8 x9 x10 x11 xs).1.1
      = epiOut3 x6 x7 x8 x9 x10 x11
          (arg13.view.read (Elt F) (arg13.view.writes (Elt F) (harg13.unread xs) [⟨slice3R i, k3_pay2 x2 x3 x4 x5⟩])) := by
  unfold kernelRun3_C
  dsimp only
  sl_unfold_run_names
  rw [View.read_writes_junk_eq_canon, View.canon_unit_zero hz00_3]
  simp only [View.readAt_eq_ld, Memref.IsWhole.read_unread, View.ld_unit_zero (S := S512x1024) hz00_3,
    View.ld_unit_zero (S := S1024x1024) hz00_3, View.ld_unit_zero (S := S1x1024) hz00_3,
    View.ld_unit_zero (S := S256x120) hz00_3, View.ld_unit_zero (S := S120x64) hz00_3,
    View.ld_unit_zero (S := S64x8) hz00_3, View.ld_unit_zero (S := S1x120) hz00_3, View.ld_unit_zero (S := S1x64) hz00_3,
    View.ld_unit_zero (S := S1x8) hz00_3]
  all_goals rfl

end Cert.KernelIdeal.KValue

end
-- ==== Proof.KVal3Strips.lean ====
/-
  Region 3's output block is the concatenation of sixteen whole steps.  Whatever way the printed payloads cut a strip's
  chain, strip k of the output is the whole step on columns 256 k .. of the slab, with the six small operands as the
  body casts them.
-/
import proofs.«120596_j16338055594194_2_alg».proof.Proof.KVal3Out
import proofs.«120596_j16338055594194_2_alg».proof.Proof.KEpi

set_option maxRecDepth 16384

noncomputable section

namespace Cert.KernelIdeal.KValue

open Cert.KernelIdeal Cert.KernelIdeal.Gen
open Idealize.ShloMosaic Idealize.ShloMosaic.TcCoe Idealize.ShloMosaic.Tactic
open Cert.KernelIdeal.KBody Idealize.ShloMosaic.ValueIdx

/-- The whole step on the 256 columns of the slab `S` from column `off 1`, with the six small operands as the body
    casts them. -/
def strip3 (x6 : Vec Ideal S256x120 .bf16) (x7 : Vec Ideal S120x64 .bf16) (x8 : Vec Ideal S64x8 .bf16)
    (x9 : Vec Ideal S1x120 .f32) (x10 : Vec Ideal S1x64 .f32) (x11 : Vec Ideal S1x8 .f32) (S : Vec Ideal S512x4096 .f32)
    (off : Fin 2 → Nat) (inb : ∀ a, off a + S512x256.size a ≤ S512x4096.size a) : FVec Ideal S512x8 .f32 :=
  epi (View.ld S (Rect.unit (s := S512x4096) off S512x256.size inb)) (k3_pay3 (F := Ideal) x6) (k3_pay6 (F := Ideal) x9)
    (k3_pay4 (F := Ideal) x7) (k3_pay7 (F := Ideal) x10) (k3_pay5 (F := Ideal) x8) (k3_pay8 (F := Ideal) x11)

set_option maxHeartbeats 4000000 in
/-- The epilogue's output is the sixteen steps side by side. -/
theorem epiOut3_eq (x6 : Vec Ideal S256x120 .bf16) (x7 : Vec Ideal S120x64 .bf16) (x8 : Vec Ideal S64x8 .bf16)
    (x9 : Vec Ideal S1x120 .f32) (x10 : Vec Ideal S1x64 .f32) (x11 : Vec Ideal S1x8 .f32) (S : Vec Ideal S512x4096 .f32) :
    epiOut3 (F := Ideal) x6 x7 x8 x9 x10 x11 S
      = concatenate S512x128 1
          [⟨S512x8, strip3 x6 x7 x8 x9 x10 x11 S ![0, 0] inb_S512x4096_S512x256_0_0⟩,
           ⟨S512x8, strip3 x6 x7 x8 x9 x10 x11 S ![0, 256] inb_S512x4096_S512x256_0_256⟩,
           ⟨S512x8, strip3 x6 x7 x8 x9 x10 x11 S ![0, 512] inb_S512x4096_S512x256_0_512⟩,
           ⟨S512x8, strip3 x6 x7 x8 x9 x10 x11 S ![0, 768] inb_S512x4096_S512x256_0_768⟩,
           ⟨S512x8, strip3 x6 x7 x8 x9 x10 x11 S ![0, 1024] inb_S512x4096_S512x256_0_1024⟩,
           ⟨S512x8, strip3 x6 x7 x8 x9 x10 x11 S ![0, 1280] inb_S512x4096_S512x256_0_1280⟩,
           ⟨S512x8, strip3 x6 x7 x8 x9 x10 x11 S ![0, 1536] inb_S512x4096_S512x256_0_1536⟩,
           ⟨S512x8, strip3 x6 x7 x8 x9 x10 x11 S ![0, 1792] inb_S512x4096_S512x256_0_1792⟩,
           ⟨S512x8, strip3 x6 x7 x8 x9 x10 x11 S ![0, 2048] inb_S512x4096_S512x256_0_2048⟩,
           ⟨S512x8, strip3 x6 x7 x8 x9 x10 x11 S ![0, 2304] inb_S512x4096_S512x256_0_2304⟩,
           ⟨S512x8, strip3 x6 x7 x8 x9 x10 x11 S ![0, 2560] inb_S512x4096_S512x256_0_2560⟩,
           ⟨S512x8, strip3 x6 x7 x8 x9 x10 x11 S ![0, 2816] inb_S512x4096_S512x256_0_2816⟩,
           ⟨S512x8, strip3 x6 x7 x8 x9 x10 x11 S ![0, 3072] inb_S512x4096_S512x256_0_3072⟩,
           ⟨S512x8, strip3 x6 x7 x8 x9 x10 x11 S ![0, 3328] inb_S512x4096_S512x256_0_3328⟩,
           ⟨S512x8, strip3 x6 x7 x8 x9 x10 x11 S ![0, 3584] inb_S512x4096_S512x256_0_3584⟩,
           ⟨S512x8, strip3 x6 x7 x8 x9 x10 x11 S ![0, 3840] inb_S512x4096_S512x256_0_3840⟩]
          concatenates_S512x8_S512x8_S512x8_S512x8_S512x8_S512x8_S512x8_S512x8_S512x8_S512x8_S512x8_S512x8_S512x8_S512x8_S512x8_S512x8_S512x128_d1 := rfl

end Cert.KernelIdeal.KValue

end
-- ==== Proof.KVal3Block.lean ====
/-
  Region 3: the block stored at a last micro step is the layer.  The stored block is the epilogue's output on the six
  small operands' blocks and the slab; the slab holds the pre-activation of the macro tile's 4096 columns (KVal3Tile);
  the output is sixteen whole steps side by side (KVal3Strips), so its entry (p, q) is step q / 8 at (p, q mod 8); that
  step reads columns 256 * (q / 8) .. of the slab, which are the pre-activation's columns of node n's group of eight
  for n = 128 * ma + q; and a whole step on such a row is the wide form of the layer at node n.
-/
import proofs.«120596_j16338055594194_2_alg».proof.Proof.KVal3Flush
import proofs.«120596_j16338055594194_2_alg».proof.Proof.KVal3Tile
import proofs.«120596_j16338055594194_2_alg».proof.Proof.KVal3Strips
import Idealize.ShloMosaic.Lib.Pipeline.Value
import Idealize.ShloMosaic.Lib.ValueLayout
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.KBody Cert.DanLib Idealize.ShloMosaic.ValueIdx

variable (V : (c : Dev nD) → (b : Ref sig .tc) → Buf (Elt Ideal) ((c : Thread nD τ).loc b))

/-- The slab's pre-activation is the specification-side one of the arrays the region finds. -/
theorem pre3_eq_pre3K (c : Dev nD) : pre3 V c = Cert.DanSpec.pre3K (V c main_v251) (V c main_arg5) (V c main_v373) (V c main_v126) := rfl

/-- At a last micro step the stored block is the epilogue's output on the six small operands' blocks and the slab as
    that step leaves it. -/
theorem out3_10_eq (c : Dev nD) (t : Fin cfg3.N) (h3 : t.val % 4 = 3) :
    out3_10 V c t = epiOut3 (F := Ideal) (iblk3 V c 4 t) (iblk3 V c 5 t) (iblk3 V c 6 t) (iblk3 V c 7 t) (iblk3 V c 8 t)
      (iblk3 V c 9 t) (scr3 V c t.val t.isLt) := by
  unfold out3_10
  rw [dif_pos h3, scr3_C V c t h3]
  unfold runC3
  rw [runC3_fst_eq, kernelRun3_C_slab]

/-- The six small operands' blocks stay at (0, 0). -/
theorem idx_small3 : ∀ t : Fin cfg3.N, win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0 :=
  (by decide +kernel : ∀ t : Fin grid3.N, _)

/-- Each small operand, as the body casts it, is the whole array the region finds. -/
theorem op3_4 (c : Dev nD) (t : Fin cfg3.N) : k3_pay3 (F := Ideal) (iblk3 V c 4 t) = V c main_v290 := by
  obtain ⟨e0, e1, -⟩ := idx_small3 t
  unfold k3_pay3
  simp only [shapeCast_self]
  funext j
  obtain ⟨a, b, rfl⟩ : ∃ (a : Fin 256) (b : Fin 120), j = ix2 a b := ⟨j 0, j 1, eq_ix2 j⟩
  show V c main_v290 (((cfg3.win 4).blk t).view.emb (ix2 a b)) = V c main_v290 (ix2 a b)
  refine congrArg (V c main_v290) ?_
  funext d; apply Fin.ext
  match d with
  | ⟨0, _⟩ => show win3_4.index t (0 : Fin 2) * 256 + 1 * a.val = a.val; omega
  | ⟨1, _⟩ => show win3_4.index t (1 : Fin 2) * 120 + 1 * b.val = b.val; omega

theorem op3_5 (c : Dev nD) (t : Fin cfg3.N) : k3_pay4 (F := Ideal) (iblk3 V c 5 t) = V c main_v325 := by
  obtain ⟨-, -, e0, e1, -⟩ := idx_small3 t
  unfold k3_pay4
  simp only [shapeCast_self]
  funext j
  obtain ⟨a, b, rfl⟩ : ∃ (a : Fin 120) (b : Fin 64), j = ix2 a b := ⟨j 0, j 1, eq_ix2 j⟩
  show V c main_v325 (((cfg3.win 5).blk t).view.emb (ix2 a b)) = V c main_v325 (ix2 a b)
  refine congrArg (V c main_v325) ?_
  funext d; apply Fin.ext
  match d with
  | ⟨0, _⟩ => show win3_5.index t (0 : Fin 2) * 120 + 1 * a.val = a.val; omega
  | ⟨1, _⟩ => show win3_5.index t (1 : Fin 2) * 64 + 1 * b.val = b.val; omega

theorem op3_6 (c : Dev nD) (t : Fin cfg3.N) : k3_pay5 (F := Ideal) (iblk3 V c 6 t) = V c main_v360 := by
  obtain ⟨-, -, -, -, e0, e1, -⟩ := idx_small3 t
  unfold k3_pay5
  simp only [shapeCast_self]
  funext j
  obtain ⟨a, b, rfl⟩ : ∃ (a : Fin 64) (b : Fin 8), j = ix2 a b := ⟨j 0, j 1, eq_ix2 j⟩
  show V c main_v360 (((cfg3.win 6).blk t).view.emb (ix2 a b)) = V c main_v360 (ix2 a b)
  refine congrArg (V c main_v360) ?_
  funext d; apply Fin.ext
  match d with
  | ⟨0, _⟩ => show win3_6.index t (0 : Fin 2) * 64 + 1 * a.val = a.val; omega
  | ⟨1, _⟩ => show win3_6.index t (1 : Fin 2) * 8 + 1 * b.val = b.val; omega

theorem op3_7 (c : Dev nD) (t : Fin cfg3.N) : k3_pay6 (F := Ideal) (iblk3 V c 7 t) = V c main_v364 := by
  obtain ⟨-, -, -, -, -, -, e0, e1, -⟩ := idx_small3 t
  unfold k3_pay6
  simp only [shapeCast_self]
  funext j
  obtain ⟨a, b, rfl⟩ : ∃ (a : Fin 1) (b : Fin 120), j = ix2 a b := ⟨j 0, j 1, eq_ix2 j⟩
  show V c main_v364 (((cfg3.win 7).blk t).view.emb (ix2 a b)) = V c main_v364 (ix2 a b)
  refine congrArg (V c main_v364) ?_
  funext d; apply Fin.ext
  match d with
  | ⟨0, _⟩ => show win3_7.index t (0 : Fin 2) * 1 + 1 * a.val = a.val; omega
  | ⟨1, _⟩ => show win3_7.index t (1 : Fin 2) * 120 + 1 * b.val = b.val; omega

theorem op3_8 (c : Dev nD) (t : Fin cfg3.N) : k3_pay7 (F := Ideal) (iblk3 V c 8 t) = V c main_v368 := by
  obtain ⟨-, -, -, -, -, -, -, -, e0, e1, -⟩ := idx_small3 t
  unfold k3_pay7
  simp only [shapeCast_self]
  funext j
  obtain ⟨a, b, rfl⟩ : ∃ (a : Fin 1) (b : Fin 64), j = ix2 a b := ⟨j 0, j 1, eq_ix2 j⟩
  show V c main_v368 (((cfg3.win 8).blk t).view.emb (ix2 a b)) = V c main_v368 (ix2 a b)
  refine congrArg (V c main_v368) ?_
  funext d; apply Fin.ext
  match d with
  | ⟨0, _⟩ => show win3_8.index t (0 : Fin 2) * 1 + 1 * a.val = a.val; omega
  | ⟨1, _⟩ => show win3_8.index t (1 : Fin 2) * 64 + 1 * b.val = b.val; omega

theorem op3_9 (c : Dev nD) (t : Fin cfg3.N) : k3_pay8 (F := Ideal) (iblk3 V c 9 t) = V c main_v372 := by
  obtain ⟨-, -, -, -, -, -, -, -, -, -, e0, e1⟩ := idx_small3 t
  unfold k3_pay8
  simp only [shapeCast_self]
  funext j
  obtain ⟨a, b, rfl⟩ : ∃ (a : Fin 1) (b : Fin 8), j = ix2 a b := ⟨j 0, j 1, eq_ix2 j⟩
  show V c main_v372 (((cfg3.win 9).blk t).view.emb (ix2 a b)) = V c main_v372 (ix2 a b)
  refine congrArg (V c main_v372) ?_
  funext d; apply Fin.ext
  match d with
  | ⟨0, _⟩ => show win3_9.index t (0 : Fin 2) * 1 + 1 * a.val = a.val; omega
  | ⟨1, _⟩ => show win3_9.index t (1 : Fin 2) * 8 + 1 * b.val = b.val; omega

/-- Strip k's 256 columns lie inside the slab. -/
theorem inb_strip3 (k : Fin 16) : ∀ a : Fin 2, (![0, 256 * k.val] : Fin 2 → Nat) a + S512x256.size a ≤ S512x4096.size a := by
  intro a
  have hk := k.isLt
  match a with
  | ⟨0, _⟩ => show 0 + 512 ≤ 512; omega
  | ⟨1, _⟩ => show 256 * k.val + 256 ≤ 4096; omega

/-- Row p of strip k of the slab at a last micro step is the pre-activation's columns of node n's group of eight, when
    n = 128 * ma + q and k = q / 8. -/
theorem strip_row3 (c : Dev nD) (t : Fin cfg3.N) (h3 : t.val % 4 = 3) (p : Fin 512) (s : Fin 16) (n : Fin 1024)
    (hs : n.val / 8 = 16 * (t.val / 4) + s.val) (k : Fin 256) :
    View.ld (scr3 V c t.val t.isLt) (Rect.unit (s := S512x4096) ![0, 256 * s.val] S512x256.size (inb_strip3 s)) (ix2 p k)
      = pre3 V c p (Cert.DanSpec.wideCol n k) := by
  have hs' := s.isLt
  have hk := k.isLt
  have hcol : 256 * s.val + k.val < 4096 := by omega
  have e : (Rect.unit (s := S512x4096) ![0, 256 * s.val] S512x256.size (inb_strip3 s)).idx (ix2 p k)
      = ix2 p (⟨256 * s.val + k.val, hcol⟩ : Fin 4096) := by
    funext a; apply Fin.ext
    match a with
    | ⟨0, _⟩ => show 0 + 1 * p.val = p.val; omega
    | ⟨1, _⟩ => show 256 * s.val + 1 * k.val = 256 * s.val + k.val; omega
  show scr3 V c t.val t.isLt ((Rect.unit (s := S512x4096) ![0, 256 * s.val] S512x256.size (inb_strip3 s)).idx (ix2 p k)) = _
  rw [e]
  exact slab3_last V c t h3 p ⟨256 * s.val + k.val, hcol⟩ (Cert.DanSpec.wideCol n k)
    (by show n.val / 8 * 256 + k.val = t.val / 4 * 4096 + (256 * s.val + k.val); omega)

set_option maxHeartbeats 2000000 in
/-- The block stored at a last micro step is the layer there. -/
theorem hblock3 (c : Dev nD) (t : Fin cfg3.N) (h3 : t.val % 4 = 3) (p : Fin 512) (q : Fin 128) (n : Fin 1024)
    (hn : n.val = 128 * (t.val / 4) + q.val) : out3_10 V c t (ix2 p q) = L3 V c p n := by
  have hq := q.isLt
  rw [out3_10_eq V c t h3, epiOut3_eq]
  show concatenate S512x128 (1 : Fin 2)
      (List.ofFn fun k : Fin 16 => (⟨S512x8, strip3 (iblk3 V c 4 t) (iblk3 V c 5 t) (iblk3 V c 6 t) (iblk3 V c 7 t) (iblk3 V c 8 t)
        (iblk3 V c 9 t) (scr3 V c t.val t.isLt) ![0, 256 * k.val] (inb_strip3 k)⟩ : (s : Shape) × (s.Idx → Elt Ideal .f32)))
      concatenates_S512x8_S512x8_S512x8_S512x8_S512x8_S512x8_S512x8_S512x8_S512x8_S512x8_S512x8_S512x8_S512x8_S512x8_S512x8_S512x8_S512x128_d1
      (ix2 p q) = _
  refine (concatenate_ofFn_apply (t := S512x128) (s₁ := S512x8) (1 : Fin 2)
    (fun k : Fin 16 => strip3 (iblk3 V c 4 t) (iblk3 V c 5 t) (iblk3 V c 6 t) (iblk3 V c 7 t) (iblk3 V c 8 t) (iblk3 V c 9 t)
      (scr3 V c t.val t.isLt) ![0, 256 * k.val] (inb_strip3 k))
    concatenates_S512x8_S512x8_S512x8_S512x8_S512x8_S512x8_S512x8_S512x8_S512x8_S512x8_S512x8_S512x8_S512x8_S512x8_S512x8_S512x8_S512x128_d1
    rfl 8 rfl (ix2 p q) (⟨q.val / 8, by omega⟩ : Fin 16) rfl (ix2 p (⟨q.val % 8, by omega⟩ : Fin 8)) rfl
    (fun b hb => by
      match b with
      | ⟨0, _⟩ => rfl
      | ⟨1, _⟩ => exact absurd rfl hb)).trans ?_
  dsimp only
  unfold strip3
  rw [op3_4, op3_5, op3_6, op3_7, op3_8, op3_9]
  have hidx : (⟨q.val % 8, by omega⟩ : Fin 8) = ⟨n.val % 8, Nat.mod_lt _ (by decide)⟩ := Fin.ext (by show q.val % 8 = n.val % 8; omega)
  rw [hidx]
  exact epi_eq_kdan _ (V c main_v290) (V c main_v364) (V c main_v325) (V c main_v368) (V c main_v360) (V c main_v372)
    (Cert.DanSpec.pre3K (V c main_v251) (V c main_arg5) (V c main_v373) (V c main_v126)) p p n
    (fun k => by
      rw [← pre3_eq_pre3K V c]
      exact strip_row3 V c t h3 p ⟨q.val / 8, by omega⟩ n (by show n.val / 8 = 16 * (t.val / 4) + q.val / 8; omega) k)

/-- Region 3's output array after the region is the layer of the arrays the region found. -/
theorem out3_value (c : Dev nD) :
    (dat3 (F := Ideal) V c).arrAt 10 cfg3.N
      = Cert.DanSpec.asMat (Cert.DanSpec.kdan (V c main_v290) (V c main_v364) (V c main_v325) (V c main_v368) (V c main_v360)
          (V c main_v372)
          (Cert.DanSpec.pre3K (V c main_v251) (V c main_arg5) (V c main_v373) (V c main_v126))) :=
  out3_value_of V c (fun t h3 p q n hn => hblock3 V c t h3 p q n hn)

end Cert.KernelIdeal.KValue

end
-- ==== Proof.KValue.lean ====
/-
  The kernel program's result, at the exact instance, is the network of the specification: the last boundary's
  contents of the result buffer is `Cert.DanSpec.net` of the seventeen argument arrays at launch, given that each of
  the three layer regions' output arrays is the kernel-form layer of the arrays the region finds.
-/
import proofs.«120596_j16338055594194_2_alg».proof.Proof.Gen.KernelIdeal.Launch
import proofs.«120596_j16338055594194_2_alg».proof.Proof.Gen.KernelIdeal.Skeleton
import proofs.«120596_j16338055594194_2_alg».proof.Proof.Gen.KernelIdeal.Points
import proofs.«120596_j16338055594194_2_alg».proof.Proof.KNet
import proofs.«120596_j16338055594194_2_alg».proof.Proof.KVal2Block
import proofs.«120596_j16338055594194_2_alg».proof.Proof.KVal0Block
import proofs.«120596_j16338055594194_2_alg».proof.Proof.KVal3Block
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.KBody Cert.KernelIdeal.KRun Cert.DanSpec

variable (m : (ℓ : Loc nD τ sig) → Buf (Elt Ideal) ℓ) (ρ : Dev nD → PrngReg)

/-- Region 0's output array is the kernel-form layer of the arrays it finds. -/
theorem out0 : Out0 := fun V c => out0_value V c

/-- Region 2's output array is the kernel-form layer of the arrays it finds. -/
theorem out2 : Out2 := fun V c => out2_value V c

/-- Region 3's output array is the kernel-form layer of the arrays it finds. -/
theorem out3 : Out3 := fun V c => out3_value V c

/-- The result array at the end of the run is the specification's network of the arguments. -/
theorem result_eq_net (c : Dev nD) :
    W8 (F := Ideal) m ρ c (Proc.devRef .tc main_v374)
      = Cert.DanSpec.net (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12)) (m ((c : Thread nD τ).loc main_arg13))
          (m ((c : Thread nD τ).loc main_arg14)) (m ((c : Thread nD τ).loc main_arg15))
          (m ((c : Thread nD τ).loc main_arg16)) :=
  result_eq_net_of m ρ out0 out2 out3 c

end Cert.KernelIdeal.KValue

end
-- ==== Proof.RefDefs.lean ====
/-
  The reference's network as functions of its arrays, stage by stage, in the printed operations' own spelling.

  A layer is  dan k (pre)  of a pre-activation  pre : 512 x 32768; a pre-activation is  lin x W b  (or a sum of two);
  dan is three dense stages on the last axis (32 -> 15 -> 8 -> 1) with the leaky rectifier after each.  The first stage's
  bias is Db1 plus column k of Dw1, where k = 32, 33, 34 for layers 0, 1, 2.
-/
import proofs.«120596_j16338055594194_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The leaky rectifier on a 512 x 1024 x 15 array, entry by entry: x where x ≥ 0, 0.01 * x elsewhere. -/
def lrelu15 (x : (⟨S512x1024x15, .f32⟩ : BufTy).Contents (Elt F)) : (⟨S512x1024x15, .f32⟩ : BufTy).Contents (Elt F) :=
  select (cmpf .oge x (broadcastInDim S512x1024x15 ![] bcast_S_S512x1024x15 (constant S_ .f32 0x00000000#32))) x
    (mulf (broadcastInDim S512x1024x15 ![] bcast_S_S512x1024x15 (constant S_ .f32 0x3C23D70A#32)) x)

/-- The leaky rectifier on a 512 x 1024 x 8 array. -/
def lrelu8 (x : (⟨S512x1024x8, .f32⟩ : BufTy).Contents (Elt F)) : (⟨S512x1024x8, .f32⟩ : BufTy).Contents (Elt F) :=
  select (cmpf .oge x (broadcastInDim S512x1024x8 ![] bcast_S_S512x1024x8 (constant S_ .f32 0x00000000#32))) x
    (mulf (broadcastInDim S512x1024x8 ![] bcast_S_S512x1024x8 (constant S_ .f32 0x3C23D70A#32)) x)

/-- The leaky rectifier on a 512 x 1024 matrix. -/
def lreluM (x : (⟨S512x1024, .f32⟩ : BufTy).Contents (Elt F)) : (⟨S512x1024, .f32⟩ : BufTy).Contents (Elt F) :=
  select (cmpf .oge x (broadcastInDim S512x1024 ![] bcast_S_S512x1024 (constant S_ .f32 0x00000000#32))) x
    (mulf (broadcastInDim S512x1024 ![] bcast_S_S512x1024 (constant S_ .f32 0x3C23D70A#32)) x)

/-- A dense layer's pre-activation:  x · Wᵀ + b,  the bias repeated down the rows. -/
def lin (x : (⟨S512x1024, .f32⟩ : BufTy).Contents (Elt F)) (W : (⟨S32768x1024, .f32⟩ : BufTy).Contents (Elt F))
    (b : (⟨S32768, .f32⟩ : BufTy).Contents (Elt F)) : (⟨S512x32768, .f32⟩ : BufTy).Contents (Elt F) :=
  addf (Host.dotGeneral dot_S512x1024_S1024x32768_S512x32768_1_0_0_1_n_n none x
      (transpose S1024x32768 [1, 0] W transposes_S32768x1024_S1024x32768_1_0))
    (broadcastInDim S512x32768 ![0, 1] bcast_S1x32768_S512x32768_0_1 (broadcastInDim S1x32768 ![1] bcast_S32768_S1x32768_1 b))

/-- The first stage, 32 -> 15: the pre-activation cut into 1024 nodes of 32 channels, times columns 0..31 of Dw1, plus
    the bias Db1 + column k of Dw1. -/
def stage1 (k : Nat) (hk : S15x35.Slices ![0, k] S15x1) (pre : (⟨S512x32768, .f32⟩ : BufTy).Contents (Elt F))
    (Dw1 : (⟨S15x35, .f32⟩ : BufTy).Contents (Elt F)) (Db1 : (⟨S15, .f32⟩ : BufTy).Contents (Elt F)) :
    (⟨S512x1024x15, .f32⟩ : BufTy).Contents (Elt F) :=
  addf (Host.dotGeneral dot_S512x1024x32_S15x32_S512x1024x15_2_1_01_0_n_n none
      (shapeCast S512x1024x32 pre shapeCasts_S512x32768_S512x1024x32)
      (extractStridedSlice S15x32 ![0, 0] Dw1 slices_S15x35_S15x32_0_0))
    (broadcastInDim S512x1024x15 ![0, 1, 2] bcast_S1x1x15_S512x1024x15_0_1_2
      (broadcastInDim S1x1x15 ![2] bcast_S15_S1x1x15_2
        (addf Db1 (shapeCast S15 (extractStridedSlice S15x1 ![0, k] Dw1 hk) shapeCasts_S15x1_S15))))

/-- The second stage, 15 -> 8. -/
def stage2 (z : (⟨S512x1024x15, .f32⟩ : BufTy).Contents (Elt F)) (Dw2 : (⟨S8x15, .f32⟩ : BufTy).Contents (Elt F))
    (Db2 : (⟨S8, .f32⟩ : BufTy).Contents (Elt F)) : (⟨S512x1024x8, .f32⟩ : BufTy).Contents (Elt F) :=
  addf (Host.dotGeneral dot_S512x1024x15_S8x15_S512x1024x8_2_1_01_0_n_n none z Dw2)
    (broadcastInDim S512x1024x8 ![0, 1, 2] bcast_S1x1x8_S512x1024x8_0_1_2 (broadcastInDim S1x1x8 ![2] bcast_S8_S1x1x8_2 Db2))

/-- The third stage, 8 -> 1, with the unit axis dropped. -/
def stage3 (z : (⟨S512x1024x8, .f32⟩ : BufTy).Contents (Elt F)) (Dw3 : (⟨S1x8, .f32⟩ : BufTy).Contents (Elt F))
    (Db3 : (⟨S1, .f32⟩ : BufTy).Contents (Elt F)) : (⟨S512x1024, .f32⟩ : BufTy).Contents (Elt F) :=
  shapeCast S512x1024
    (addf (Host.dotGeneral dot_S512x1024x8_S1x8_S512x1024x1_2_1_01_0_n_n none z Dw3)
      (broadcastInDim S512x1024x1 ![0, 1, 2] bcast_S1x1x1_S512x1024x1_0_1_2 (broadcastInDim S1x1x1 ![2] bcast_S1_S1x1x1_2 Db3)))
    shapeCasts_S512x1024x1_S512x1024

/-- A layer's output from its pre-activation: the three stages, the rectifier after each. -/
def dan (k : Nat) (hk : S15x35.Slices ![0, k] S15x1) (pre : (⟨S512x32768, .f32⟩ : BufTy).Contents (Elt F))
    (Dw1 : (⟨S15x35, .f32⟩ : BufTy).Contents (Elt F)) (Db1 : (⟨S15, .f32⟩ : BufTy).Contents (Elt F))
    (Dw2 : (⟨S8x15, .f32⟩ : BufTy).Contents (Elt F)) (Db2 : (⟨S8, .f32⟩ : BufTy).Contents (Elt F))
    (Dw3 : (⟨S1x8, .f32⟩ : BufTy).Contents (Elt F)) (Db3 : (⟨S1, .f32⟩ : BufTy).Contents (Elt F)) :
    (⟨S512x1024, .f32⟩ : BufTy).Contents (Elt F) :=
  lreluM (stage3 (lrelu8 (stage2 (lrelu15 (stage1 k hk pre Dw1 Db1)) Dw2 Db2)) Dw3 Db3)

/-- Layer 0's output. -/
def h0R (x : (⟨S512x1024, .f32⟩ : BufTy).Contents (Elt F)) (W0 : (⟨S32768x1024, .f32⟩ : BufTy).Contents (Elt F))
    (b0 : (⟨S32768, .f32⟩ : BufTy).Contents (Elt F))
    (Dw1 : (⟨S15x35, .f32⟩ : BufTy).Contents (Elt F)) (Db1 : (⟨S15, .f32⟩ : BufTy).Contents (Elt F))
    (Dw2 : (⟨S8x15, .f32⟩ : BufTy).Contents (Elt F)) (Db2 : (⟨S8, .f32⟩ : BufTy).Contents (Elt F))
    (Dw3 : (⟨S1x8, .f32⟩ : BufTy).Contents (Elt F)) (Db3 : (⟨S1, .f32⟩ : BufTy).Contents (Elt F)) :
    (⟨S512x1024, .f32⟩ : BufTy).Contents (Elt F) :=
  dan 32 slices_S15x35_S15x1_0_32 (lin x W0 b0) Dw1 Db1 Dw2 Db2 Dw3 Db3

/-- Layer 1's output: its own pre-activation of layer 0's output plus the skip pre-activation of x. -/
def h1R (x : (⟨S512x1024, .f32⟩ : BufTy).Contents (Elt F)) (W0 : (⟨S32768x1024, .f32⟩ : BufTy).Contents (Elt F))
    (b0 : (⟨S32768, .f32⟩ : BufTy).Contents (Elt F)) (W1 : (⟨S32768x1024, .f32⟩ : BufTy).Contents (Elt F))
    (b1 : (⟨S32768, .f32⟩ : BufTy).Contents (Elt F)) (Ws02 : (⟨S32768x1024, .f32⟩ : BufTy).Contents (Elt F))
    (bs02 : (⟨S32768, .f32⟩ : BufTy).Contents (Elt F))
    (Dw1 : (⟨S15x35, .f32⟩ : BufTy).Contents (Elt F)) (Db1 : (⟨S15, .f32⟩ : BufTy).Contents (Elt F))
    (Dw2 : (⟨S8x15, .f32⟩ : BufTy).Contents (Elt F)) (Db2 : (⟨S8, .f32⟩ : BufTy).Contents (Elt F))
    (Dw3 : (⟨S1x8, .f32⟩ : BufTy).Contents (Elt F)) (Db3 : (⟨S1, .f32⟩ : BufTy).Contents (Elt F)) :
    (⟨S512x1024, .f32⟩ : BufTy).Contents (Elt F) :=
  dan 33 slices_S15x35_S15x1_0_33
    (addf (lin (h0R x W0 b0 Dw1 Db1 Dw2 Db2 Dw3 Db3) W1 b1) (lin x Ws02 bs02)) Dw1 Db1 Dw2 Db2 Dw3 Db3

/-- The network: layer 2's output, its own pre-activation of layer 1's output plus the skip pre-activation of layer 0's
    output.  The arrays come in the order of the program's arguments. -/
def netR (x : (⟨S512x1024, .f32⟩ : BufTy).Contents (Elt F)) (W0 : (⟨S32768x1024, .f32⟩ : BufTy).Contents (Elt F))
    (b0 : (⟨S32768, .f32⟩ : BufTy).Contents (Elt F)) (W1 : (⟨S32768x1024, .f32⟩ : BufTy).Contents (Elt F))
    (b1 : (⟨S32768, .f32⟩ : BufTy).Contents (Elt F)) (W2 : (⟨S32768x1024, .f32⟩ : BufTy).Contents (Elt F))
    (b2 : (⟨S32768, .f32⟩ : BufTy).Contents (Elt F)) (Ws02 : (⟨S32768x1024, .f32⟩ : BufTy).Contents (Elt F))
    (bs02 : (⟨S32768, .f32⟩ : BufTy).Contents (Elt F)) (Ws13 : (⟨S32768x1024, .f32⟩ : BufTy).Contents (Elt F))
    (bs13 : (⟨S32768, .f32⟩ : BufTy).Contents (Elt F))
    (Dw1 : (⟨S15x35, .f32⟩ : BufTy).Contents (Elt F)) (Db1 : (⟨S15, .f32⟩ : BufTy).Contents (Elt F))
    (Dw2 : (⟨S8x15, .f32⟩ : BufTy).Contents (Elt F)) (Db2 : (⟨S8, .f32⟩ : BufTy).Contents (Elt F))
    (Dw3 : (⟨S1x8, .f32⟩ : BufTy).Contents (Elt F)) (Db3 : (⟨S1, .f32⟩ : BufTy).Contents (Elt F)) :
    (⟨S512x1024, .f32⟩ : BufTy).Contents (Elt F) :=
  dan 34 slices_S15x35_S15x1_0_34
    (addf (lin (h1R x W0 b0 W1 b1 Ws02 bs02 Dw1 Db1 Dw2 Db2 Dw3 Db3) W2 b2)
      (lin (h0R x W0 b0 Dw1 Db1 Dw2 Db2 Dw3 Db3) Ws13 bs13)) Dw1 Db1 Dw2 Db2 Dw3 Db3

/-- The network of the seventeen argument arrays as a launch memory holds them on device c: what the program's
    result array ends holding. -/
def out (m : (ℓ : Loc nD τ sig) → Buf (Elt F) ℓ) (c : Dev nD) : Buf (Elt F) ((c.tc : Thread nD τ).loc main_v89) :=
  netR (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15))
    (m ((c.tc : Thread nD τ).loc main_arg16))

end Cert.ReferenceIdeal.RefRun

end
-- ==== Proof.RefOps.lean ====
/-
  The reference's @main as ONE list of its 144 operations, in program order, each called function's operations
  written at its call over that call's own buffers (a rectifier is seven operations: the zero and its broadcast, the
  comparison, the slope and its broadcast, the product, the selection).

  The list is cut into twelve windows at the places where a value with several readers has just been written:
  w0  the first stage's pre-activation of layer 0;          w1  its rectifier and the second stage;
  w2  the second rectifier and the third stage;              w3  the third rectifier: layer 0's output;
  w4  layer 1's pre-activation, its first stage, and the skip pre-activation layer 2 will add;
  w5, w6, w7  layer 1's stages and rectifiers (w6 ends where the program's first part ends);
  w8  layer 2's pre-activation and first stage;              w9, w10, w11  its stages and rectifiers.
-/
import proofs.«120596_j16338055594194_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0: x · W0ᵀ + b0, cut into nodes, through the first stage (statements 1 … 14). -/
def w0 : List (HloOp τ sig (Elt F)) :=
  [ unary main_arg1 main_v0 ((transpose S1024x32768 [1, 0] · transposes_S32768x1024_S1024x32768_1_0) : (⟨S32768x1024, .f32⟩ : BufTy).Contents (Elt F) → (⟨S1024x32768, .f32⟩ : BufTy).Contents (Elt F)),
    binary main_arg0 main_v0 main_v1 ((fun l r => Host.dotGeneral dot_S512x1024_S1024x32768_S512x32768_1_0_0_1_n_n none l r) : (⟨S512x1024, .f32⟩ : BufTy).Contents (Elt F) → (⟨S1024x32768, .f32⟩ : BufTy).Contents (Elt F) → (⟨S512x32768, .f32⟩ : BufTy).Contents (Elt F)),
    unary main_arg2 main_v2 (broadcastInDim S1x32768 ![1] bcast_S32768_S1x32768_1 : (⟨S32768, .f32⟩ : BufTy).Contents (Elt F) → (⟨S1x32768, .f32⟩ : BufTy).Contents (Elt F)),
    unary main_v2 main_v3 (broadcastInDim S512x32768 ![0, 1] bcast_S1x32768_S512x32768_0_1 : (⟨S1x32768, .f32⟩ : BufTy).Contents (Elt F) → (⟨S512x32768, .f32⟩ : BufTy).Contents (Elt F)),
    binary main_v1 main_v3 main_v4 (addf : (⟨S512x32768, .f32⟩ : BufTy).Contents (Elt F) → (⟨S512x32768, .f32⟩ : BufTy).Contents (Elt F) → (⟨S512x32768, .f32⟩ : BufTy).Contents (Elt F)),
    reshape main_v4 main_v5 rfl shapeCasts_S512x32768_S512x1024x32,
    unary main_arg11 main_v6 ((extractStridedSlice S15x32 ![0, 0] · slices_S15x35_S15x32_0_0) : (⟨S15x35, .f32⟩ : BufTy).Contents (Elt F) → (⟨S15x32, .f32⟩ : BufTy).Contents (Elt F)),
    binary main_v5 main_v6 main_v7 ((fun l r => Host.dotGeneral dot_S512x1024x32_S15x32_S512x1024x15_2_1_01_0_n_n none l r) : (⟨S512x1024x32, .f32⟩ : BufTy).Contents (Elt F) → (⟨S15x32, .f32⟩ : BufTy).Contents (Elt F) → (⟨S512x1024x15, .f32⟩ : BufTy).Contents (Elt F)),
    unary main_arg11 main_v8 ((extractStridedSlice S15x1 ![0, 32] · slices_S15x35_S15x1_0_32) : (⟨S15x35, .f32⟩ : BufTy).Contents (Elt F) → (⟨S15x1, .f32⟩ : BufTy).Contents (Elt F)),
    reshape main_v8 main_v9 rfl shapeCasts_S15x1_S15,
    binary main_arg12 main_v9 main_v10 (addf : (⟨S15, .f32⟩ : BufTy).Contents (Elt F) → (⟨S15, .f32⟩ : BufTy).Contents (Elt F) → (⟨S15, .f32⟩ : BufTy).Contents (Elt F)),
    unary main_v10 main_v11 (broadcastInDim S1x1x15 ![2] bcast_S15_S1x1x15_2 : (⟨S15, .f32⟩ : BufTy).Contents (Elt F) → (⟨S1x1x15, .f32⟩ : BufTy).Contents (Elt F)),
    unary main_v11 main_v12 (broadcastInDim S512x1024x15 ![0, 1, 2] bcast_S1x1x15_S512x1024x15_0_1_2 : (⟨S1x1x15, .f32⟩ : BufTy).Contents (Elt F) → (⟨S512x1024x15, .f32⟩ : BufTy).Contents (Elt F)),
    binary main_v7 main_v12 main_v13 (addf : (⟨S512x1024x15, .f32⟩ : BufTy).Contents (Elt F) → (⟨S512x1024x15, .f32⟩ : BufTy).Contents (Elt F) → (⟨S512x1024x15, .f32⟩ : BufTy).Contents (Elt F)) ]

/-- Layer 0: the first rectifier (call 0) and the second stage (statements 15 … 19). -/
def w1 : List (HloOp τ sig (Elt F)) :=
  [ TRef.nullary main_call0.cst (constant S_ .f32 0x00000000#32),
    TRef.unary main_call0.cst main_call0.v0 (broadcastInDim S512x1024x15 ![] bcast_S_S512x1024x15),
    TRef.binary (.of main_v13) main_call0.v0 main_call0.v1 (cmpf .oge),
    TRef.nullary main_call0.cst_0 (constant S_ .f32 0x3C23D70A#32),
    TRef.unary main_call0.cst_0 main_call0.v2 (broadcastInDim S512x1024x15 ![] bcast_S_S512x1024x15),
    TRef.binary main_call0.v2 (.of main_v13) main_call0.v3 mulf,
    TRef.ternary main_call0.v1 (.of main_v13) main_call0.v3 main_call0.call0.v0 select,
    binary main_v14 main_arg13 main_v15 ((fun l r => Host.dotGeneral dot_S512x1024x15_S8x15_S512x1024x8_2_1_01_0_n_n none l r) : (⟨S512x1024x15, .f32⟩ : BufTy).Contents (Elt F) → (⟨S8x15, .f32⟩ : BufTy).Contents (Elt F) → (⟨S512x1024x8, .f32⟩ : BufTy).Contents (Elt F)),
    unary main_arg14 main_v16 (broadcastInDim S1x1x8 ![2] bcast_S8_S1x1x8_2 : (⟨S8, .f32⟩ : BufTy).Contents (Elt F) → (⟨S1x1x8, .f32⟩ : BufTy).Contents (Elt F)),
    unary main_v16 main_v17 (broadcastInDim S512x1024x8 ![0, 1, 2] bcast_S1x1x8_S512x1024x8_0_1_2 : (⟨S1x1x8, .f32⟩ : BufTy).Contents (Elt F) → (⟨S512x1024x8, .f32⟩ : BufTy).Contents (Elt F)),
    binary main_v15 main_v17 main_v18 (addf : (⟨S512x1024x8, .f32⟩ : BufTy).Contents (Elt F) → (⟨S512x1024x8, .f32⟩ : BufTy).Contents (Elt F) → (⟨S512x1024x8, .f32⟩ : BufTy).Contents (Elt F)) ]

/-- Layer 0: the second rectifier (call 1) and the third stage (statements 20 … 25). -/
def w2 : List (HloOp τ sig (Elt F)) :=
  [ TRef.nullary main_call1.cst (constant S_ .f32 0x00000000#32),
    TRef.unary main_call1.cst main_call1.v0 (broadcastInDim S512x1024x8 ![] bcast_S_S512x1024x8),
    TRef.binary (.of main_v18) main_call1.v0 main_call1.v1 (cmpf .oge),
    TRef.nullary main_call1.cst_0 (constant S_ .f32 0x3C23D70A#32),
    TRef.unary main_call1.cst_0 main_call1.v2 (broadcastInDim S512x1024x8 ![] bcast_S_S512x1024x8),
    TRef.binary main_call1.v2 (.of main_v18) main_call1.v3 mulf,
    TRef.ternary main_call1.v1 (.of main_v18) main_call1.v3 main_call1.call0.v0 select,
    binary main_v19 main_arg15 main_v20 ((fun l r => Host.dotGeneral dot_S512x1024x8_S1x8_S512x1024x1_2_1_01_0_n_n none l r) : (⟨S512x1024x8, .f32⟩ : BufTy).Contents (Elt F) → (⟨S1x8, .f32⟩ : BufTy).Contents (Elt F) → (⟨S512x1024x1, .f32⟩ : BufTy).Contents (Elt F)),
    unary main_arg16 main_v21 (broadcastInDim S1x1x1 ![2] bcast_S1_S1x1x1_2 : (⟨S1, .f32⟩ : BufTy).Contents (Elt F) → (⟨S1x1x1, .f32⟩ : BufTy).Contents (Elt F)),
    unary main_v21 main_v22 (broadcastInDim S512x1024x1 ![0, 1, 2] bcast_S1x1x1_S512x1024x1_0_1_2 : (⟨S1x1x1, .f32⟩ : BufTy).Contents (Elt F) → (⟨S512x1024x1, .f32⟩ : BufTy).Contents (Elt F)),
    binary main_v20 main_v22 main_v23 (addf : (⟨S512x1024x1, .f32⟩ : BufTy).Contents (Elt F) → (⟨S512x1024x1, .f32⟩ : BufTy).Contents (Elt F) → (⟨S512x1024x1, .f32⟩ : BufTy).Contents (Elt F)),
    reshape main_v23 main_v24 rfl shapeCasts_S512x1024x1_S512x1024 ]

/-- Layer 0: the third rectifier (call 2): layer 0's output (statement 26). -/
def w3 : List (HloOp τ sig (Elt F)) :=
  [ TRef.nullary main_call2.cst (constant S_ .f32 0x00000000#32),
    TRef.unary main_call2.cst main_call2.v0 (broadcastInDim S512x1024 ![] bcast_S_S512x1024),
    TRef.binary (.of main_v24) main_call2.v0 main_call2.v1 (cmpf .oge),
    TRef.nullary main_call2.cst_0 (constant S_ .f32 0x3C23D70A#32),
    TRef.unary main_call2.cst_0 main_call2.v2 (broadcastInDim S512x1024 ![] bcast_S_S512x1024),
    TRef.binary main_call2.v2 (.of main_v24) main_call2.v3 mulf,
    TRef.ternary main_call2.v1 (.of main_v24) main_call2.v3 main_call2.call0.v0 select ]

/-- Layer 1: h0 · W1ᵀ + b1 plus the skip x · Ws02ᵀ + bs02, the skip h0 · Ws13ᵀ + bs13 kept for layer 2, and the
    first stage (statements 27 … 51). -/
def w4 : List (HloOp τ sig (Elt F)) :=
  [ unary main_arg3 main_v26 ((transpose S1024x32768 [1, 0] · transposes_S32768x1024_S1024x32768_1_0) : (⟨S32768x1024, .f32⟩ : BufTy).Contents (Elt F) → (⟨S1024x32768, .f32⟩ : BufTy).Contents (Elt F)),
    binary main_v25 main_v26 main_v27 ((fun l r => Host.dotGeneral dot_S512x1024_S1024x32768_S512x32768_1_0_0_1_n_n none l r) : (⟨S512x1024, .f32⟩ : BufTy).Contents (Elt F) → (⟨S1024x32768, .f32⟩ : BufTy).Contents (Elt F) → (⟨S512x32768, .f32⟩ : BufTy).Contents (Elt F)),
    unary main_arg4 main_v28 (broadcastInDim S1x32768 ![1] bcast_S32768_S1x32768_1 : (⟨S32768, .f32⟩ : BufTy).Contents (Elt F) → (⟨S1x32768, .f32⟩ : BufTy).Contents (Elt F)),
    unary main_v28 main_v29 (broadcastInDim S512x32768 ![0, 1] bcast_S1x32768_S512x32768_0_1 : (⟨S1x32768, .f32⟩ : BufTy).Contents (Elt F) → (⟨S512x32768, .f32⟩ : BufTy).Contents (Elt F)),
    binary main_v27 main_v29 main_v30 (addf : (⟨S512x32768, .f32⟩ : BufTy).Contents (Elt F) → (⟨S512x32768, .f32⟩ : BufTy).Contents (Elt F) → (⟨S512x32768, .f32⟩ : BufTy).Contents (Elt F)),
    unary main_arg7 main_v31 ((transpose S1024x32768 [1, 0] · transposes_S32768x1024_S1024x32768_1_0) : (⟨S32768x1024, .f32⟩ : BufTy).Contents (Elt F) → (⟨S1024x32768, .f32⟩ : BufTy).Contents (Elt F)),
    binary main_arg0 main_v31 main_v32 ((fun l r => Host.dotGeneral dot_S512x1024_S1024x32768_S512x32768_1_0_0_1_n_n none l r) : (⟨S512x1024, .f32⟩ : BufTy).Contents (Elt F) → (⟨S1024x32768, .f32⟩ : BufTy).Contents (Elt F) → (⟨S512x32768, .f32⟩ : BufTy).Contents (Elt F)),
    unary main_arg8 main_v33 (broadcastInDim S1x32768 ![1] bcast_S32768_S1x32768_1 : (⟨S32768, .f32⟩ : BufTy).Contents (Elt F) → (⟨S1x32768, .f32⟩ : BufTy).Contents (Elt F)),
    unary main_v33 main_v34 (broadcastInDim S512x32768 ![0, 1] bcast_S1x32768_S512x32768_0_1 : (⟨S1x32768, .f32⟩ : BufTy).Contents (Elt F) → (⟨S512x32768, .f32⟩ : BufTy).Contents (Elt F)),
    binary main_v32 main_v34 main_v35 (addf : (⟨S512x32768, .f32⟩ : BufTy).Contents (Elt F) → (⟨S512x32768, .f32⟩ : BufTy).Contents (Elt F) → (⟨S512x32768, .f32⟩ : BufTy).Contents (Elt F)),
    binary main_v30 main_v35 main_v36 (addf : (⟨S512x32768, .f32⟩ : BufTy).Contents (Elt F) → (⟨S512x32768, .f32⟩ : BufTy).Contents (Elt F) → (⟨S512x32768, .f32⟩ : BufTy).Contents (Elt F)),
    unary main_arg9 main_v37 ((transpose S1024x32768 [1, 0] · transposes_S32768x1024_S1024x32768_1_0) : (⟨S32768x1024, .f32⟩ : BufTy).Contents (Elt F) → (⟨S1024x32768, .f32⟩ : BufTy).Contents (Elt F)),
    binary main_v25 main_v37 main_v38 ((fun l r => Host.dotGeneral dot_S512x1024_S1024x32768_S512x32768_1_0_0_1_n_n none l r) : (⟨S512x1024, .f32⟩ : BufTy).Contents (Elt F) → (⟨S1024x32768, .f32⟩ : BufTy).Contents (Elt F) → (⟨S512x32768, .f32⟩ : BufTy).Contents (Elt F)),
    unary main_arg10 main_v39 (broadcastInDim S1x32768 ![1] bcast_S32768_S1x32768_1 : (⟨S32768, .f32⟩ : BufTy).Contents (Elt F) → (⟨S1x32768, .f32⟩ : BufTy).Contents (Elt F)),
    unary main_v39 main_v40 (broadcastInDim S512x32768 ![0, 1] bcast_S1x32768_S512x32768_0_1 : (⟨S1x32768, .f32⟩ : BufTy).Contents (Elt F) → (⟨S512x32768, .f32⟩ : BufTy).Contents (Elt F)),
    binary main_v38 main_v40 main_v41 (addf : (⟨S512x32768, .f32⟩ : BufTy).Contents (Elt F) → (⟨S512x32768, .f32⟩ : BufTy).Contents (Elt F) → (⟨S512x32768, .f32⟩ : BufTy).Contents (Elt F)),
    reshape main_v36 main_v42 rfl shapeCasts_S512x32768_S512x1024x32,
    unary main_arg11 main_v43 ((extractStridedSlice S15x32 ![0, 0] · slices_S15x35_S15x32_0_0) : (⟨S15x35, .f32⟩ : BufTy).Contents (Elt F) → (⟨S15x32, .f32⟩ : BufTy).Contents (Elt F)),
    binary main_v42 main_v43 main_v44 ((fun l r => Host.dotGeneral dot_S512x1024x32_S15x32_S512x1024x15_2_1_01_0_n_n none l r) : (⟨S512x1024x32, .f32⟩ : BufTy).Contents (Elt F) → (⟨S15x32, .f32⟩ : BufTy).Contents (Elt F) → (⟨S512x1024x15, .f32⟩ : BufTy).Contents (Elt F)),
    unary main_arg11 main_v45 ((extractStridedSlice S15x1 ![0, 33] · slices_S15x35_S15x1_0_33) : (⟨S15x35, .f32⟩ : BufTy).Contents (Elt F) → (⟨S15x1, .f32⟩ : BufTy).Contents (Elt F)),
    reshape main_v45 main_v46 rfl shapeCasts_S15x1_S15,
    binary main_arg12 main_v46 main_v47 (addf : (⟨S15, .f32⟩ : BufTy).Contents (Elt F) → (⟨S15, .f32⟩ : BufTy).Contents (Elt F) → (⟨S15, .f32⟩ : BufTy).Contents (Elt F)),
    unary main_v47 main_v48 (broadcastInDim S1x1x15 ![2] bcast_S15_S1x1x15_2 : (⟨S15, .f32⟩ : BufTy).Contents (Elt F) → (⟨S1x1x15, .f32⟩ : BufTy).Contents (Elt F)),
    unary main_v48 main_v49 (broadcastInDim S512x1024x15 ![0, 1, 2] bcast_S1x1x15_S512x1024x15_0_1_2 : (⟨S1x1x15, .f32⟩ : BufTy).Contents (Elt F) → (⟨S512x1024x15, .f32⟩ : BufTy).Contents (Elt F)),
    binary main_v44 main_v49 main_v50 (addf : (⟨S512x1024x15, .f32⟩ : BufTy).Contents (Elt F) → (⟨S512x1024x15, .f32⟩ : BufTy).Contents (Elt F) → (⟨S512x1024x15, .f32⟩ : BufTy).Contents (Elt F)) ]

/-- Layer 1: the first rectifier (call 3) and the second stage (statements 52 … 56). -/
def w5 : List (HloOp τ sig (Elt F)) :=
  [ TRef.nullary main_call3.cst (constant S_ .f32 0x00000000#32),
    TRef.unary main_call3.cst main_call3.v0 (broadcastInDim S512x1024x15 ![] bcast_S_S512x1024x15),
    TRef.binary (.of main_v50) main_call3.v0 main_call3.v1 (cmpf .oge),
    TRef.nullary main_call3.cst_0 (constant S_ .f32 0x3C23D70A#32),
    TRef.unary main_call3.cst_0 main_call3.v2 (broadcastInDim S512x1024x15 ![] bcast_S_S512x1024x15),
    TRef.binary main_call3.v2 (.of main_v50) main_call3.v3 mulf,
    TRef.ternary main_call3.v1 (.of main_v50) main_call3.v3 main_call3.call0.v0 select,
    binary main_v51 main_arg13 main_v52 ((fun l r => Host.dotGeneral dot_S512x1024x15_S8x15_S512x1024x8_2_1_01_0_n_n none l r) : (⟨S512x1024x15, .f32⟩ : BufTy).Contents (Elt F) → (⟨S8x15, .f32⟩ : BufTy).Contents (Elt F) → (⟨S512x1024x8, .f32⟩ : BufTy).Contents (Elt F)),
    unary main_arg14 main_v53 (broadcastInDim S1x1x8 ![2] bcast_S8_S1x1x8_2 : (⟨S8, .f32⟩ : BufTy).Contents (Elt F) → (⟨S1x1x8, .f32⟩ : BufTy).Contents (Elt F)),
    unary main_v53 main_v54 (broadcastInDim S512x1024x8 ![0, 1, 2] bcast_S1x1x8_S512x1024x8_0_1_2 : (⟨S1x1x8, .f32⟩ : BufTy).Contents (Elt F) → (⟨S512x1024x8, .f32⟩ : BufTy).Contents (Elt F)),
    binary main_v52 main_v54 main_v55 (addf : (⟨S512x1024x8, .f32⟩ : BufTy).Contents (Elt F) → (⟨S512x1024x8, .f32⟩ : BufTy).Contents (Elt F) → (⟨S512x1024x8, .f32⟩ : BufTy).Contents (Elt F)) ]

/-- Layer 1: the second rectifier (call 4) and the third stage's product and bias (statements 57 … 60: the end of the
    program's first part). -/
def w6 : List (HloOp τ sig (Elt F)) :=
  [ TRef.nullary main_call4.cst (constant S_ .f32 0x00000000#32),
    TRef.unary main_call4.cst main_call4.v0 (broadcastInDim S512x1024x8 ![] bcast_S_S512x1024x8),
    TRef.binary (.of main_v55) main_call4.v0 main_call4.v1 (cmpf .oge),
    TRef.nullary main_call4.cst_0 (constant S_ .f32 0x3C23D70A#32),
    TRef.unary main_call4.cst_0 main_call4.v2 (broadcastInDim S512x1024x8 ![] bcast_S_S512x1024x8),
    TRef.binary main_call4.v2 (.of main_v55) main_call4.v3 mulf,
    TRef.ternary main_call4.v1 (.of main_v55) main_call4.v3 main_call4.call0.v0 select,
    binary main_v56 main_arg15 main_v57 ((fun l r => Host.dotGeneral dot_S512x1024x8_S1x8_S512x1024x1_2_1_01_0_n_n none l r) : (⟨S512x1024x8, .f32⟩ : BufTy).Contents (Elt F) → (⟨S1x8, .f32⟩ : BufTy).Contents (Elt F) → (⟨S512x1024x1, .f32⟩ : BufTy).Contents (Elt F)),
    unary main_arg16 main_v58 (broadcastInDim S1x1x1 ![2] bcast_S1_S1x1x1_2 : (⟨S1, .f32⟩ : BufTy).Contents (Elt F) → (⟨S1x1x1, .f32⟩ : BufTy).Contents (Elt F)),
    unary main_v58 main_v59 (broadcastInDim S512x1024x1 ![0, 1, 2] bcast_S1x1x1_S512x1024x1_0_1_2 : (⟨S1x1x1, .f32⟩ : BufTy).Contents (Elt F) → (⟨S512x1024x1, .f32⟩ : BufTy).Contents (Elt F)) ]

/-- Layer 1: the third stage's sum with the unit axis dropped, and the third rectifier (call 5): layer 1's output
    (statements 61 … 63). -/
def w7 : List (HloOp τ sig (Elt F)) :=
  [ binary main_v57 main_v59 main_v60 (addf : (⟨S512x1024x1, .f32⟩ : BufTy).Contents (Elt F) → (⟨S512x1024x1, .f32⟩ : BufTy).Contents (Elt F) → (⟨S512x1024x1, .f32⟩ : BufTy).Contents (Elt F)),
    reshape main_v60 main_v61 rfl shapeCasts_S512x1024x1_S512x1024,
    TRef.nullary main_call5.cst (constant S_ .f32 0x00000000#32),
    TRef.unary main_call5.cst main_call5.v0 (broadcastInDim S512x1024 ![] bcast_S_S512x1024),
    TRef.binary (.of main_v61) main_call5.v0 main_call5.v1 (cmpf .oge),
    TRef.nullary main_call5.cst_0 (constant S_ .f32 0x3C23D70A#32),
    TRef.unary main_call5.cst_0 main_call5.v2 (broadcastInDim S512x1024 ![] bcast_S_S512x1024),
    TRef.binary main_call5.v2 (.of main_v61) main_call5.v3 mulf,
    TRef.ternary main_call5.v1 (.of main_v61) main_call5.v3 main_call5.call0.v0 select ]

/-- Layer 2: h1 · W2ᵀ + b2 plus the kept skip, and the first stage (statements 64 … 78). -/
def w8 : List (HloOp τ sig (Elt F)) :=
  [ unary main_arg5 main_v63 ((transpose S1024x32768 [1, 0] · transposes_S32768x1024_S1024x32768_1_0) : (⟨S32768x1024, .f32⟩ : BufTy).Contents (Elt F) → (⟨S1024x32768, .f32⟩ : BufTy).Contents (Elt F)),
    binary main_v62 main_v63 main_v64 ((fun l r => Host.dotGeneral dot_S512x1024_S1024x32768_S512x32768_1_0_0_1_n_n none l r) : (⟨S512x1024, .f32⟩ : BufTy).Contents (Elt F) → (⟨S1024x32768, .f32⟩ : BufTy).Contents (Elt F) → (⟨S512x32768, .f32⟩ : BufTy).Contents (Elt F)),
    unary main_arg6 main_v65 (broadcastInDim S1x32768 ![1] bcast_S32768_S1x32768_1 : (⟨S32768, .f32⟩ : BufTy).Contents (Elt F) → (⟨S1x32768, .f32⟩ : BufTy).Contents (Elt F)),
    unary main_v65 main_v66 (broadcastInDim S512x32768 ![0, 1] bcast_S1x32768_S512x32768_0_1 : (⟨S1x32768, .f32⟩ : BufTy).Contents (Elt F) → (⟨S512x32768, .f32⟩ : BufTy).Contents (Elt F)),
    binary main_v64 main_v66 main_v67 (addf : (⟨S512x32768, .f32⟩ : BufTy).Contents (Elt F) → (⟨S512x32768, .f32⟩ : BufTy).Contents (Elt F) → (⟨S512x32768, .f32⟩ : BufTy).Contents (Elt F)),
    binary main_v67 main_v41 main_v68 (addf : (⟨S512x32768, .f32⟩ : BufTy).Contents (Elt F) → (⟨S512x32768, .f32⟩ : BufTy).Contents (Elt F) → (⟨S512x32768, .f32⟩ : BufTy).Contents (Elt F)),
    reshape main_v68 main_v69 rfl shapeCasts_S512x32768_S512x1024x32,
    unary main_arg11 main_v70 ((extractStridedSlice S15x32 ![0, 0] · slices_S15x35_S15x32_0_0) : (⟨S15x35, .f32⟩ : BufTy).Contents (Elt F) → (⟨S15x32, .f32⟩ : BufTy).Contents (Elt F)),
    binary main_v69 main_v70 main_v71 ((fun l r => Host.dotGeneral dot_S512x1024x32_S15x32_S512x1024x15_2_1_01_0_n_n none l r) : (⟨S512x1024x32, .f32⟩ : BufTy).Contents (Elt F) → (⟨S15x32, .f32⟩ : BufTy).Contents (Elt F) → (⟨S512x1024x15, .f32⟩ : BufTy).Contents (Elt F)),
    unary main_arg11 main_v72 ((extractStridedSlice S15x1 ![0, 34] · slices_S15x35_S15x1_0_34) : (⟨S15x35, .f32⟩ : BufTy).Contents (Elt F) → (⟨S15x1, .f32⟩ : BufTy).Contents (Elt F)),
    reshape main_v72 main_v73 rfl shapeCasts_S15x1_S15,
    binary main_arg12 main_v73 main_v74 (addf : (⟨S15, .f32⟩ : BufTy).Contents (Elt F) → (⟨S15, .f32⟩ : BufTy).Contents (Elt F) → (⟨S15, .f32⟩ : BufTy).Contents (Elt F)),
    unary main_v74 main_v75 (broadcastInDim S1x1x15 ![2] bcast_S15_S1x1x15_2 : (⟨S15, .f32⟩ : BufTy).Contents (Elt F) → (⟨S1x1x15, .f32⟩ : BufTy).Contents (Elt F)),
    unary main_v75 main_v76 (broadcastInDim S512x1024x15 ![0, 1, 2] bcast_S1x1x15_S512x1024x15_0_1_2 : (⟨S1x1x15, .f32⟩ : BufTy).Contents (Elt F) → (⟨S512x1024x15, .f32⟩ : BufTy).Contents (Elt F)),
    binary main_v71 main_v76 main_v77 (addf : (⟨S512x1024x15, .f32⟩ : BufTy).Contents (Elt F) → (⟨S512x1024x15, .f32⟩ : BufTy).Contents (Elt F) → (⟨S512x1024x15, .f32⟩ : BufTy).Contents (Elt F)) ]

/-- Layer 2: the first rectifier (call 6) and the second stage (statements 79 … 83). -/
def w9 : List (HloOp τ sig (Elt F)) :=
  [ TRef.nullary main_call6.cst (constant S_ .f32 0x00000000#32),
    TRef.unary main_call6.cst main_call6.v0 (broadcastInDim S512x1024x15 ![] bcast_S_S512x1024x15),
    TRef.binary (.of main_v77) main_call6.v0 main_call6.v1 (cmpf .oge),
    TRef.nullary main_call6.cst_0 (constant S_ .f32 0x3C23D70A#32),
    TRef.unary main_call6.cst_0 main_call6.v2 (broadcastInDim S512x1024x15 ![] bcast_S_S512x1024x15),
    TRef.binary main_call6.v2 (.of main_v77) main_call6.v3 mulf,
    TRef.ternary main_call6.v1 (.of main_v77) main_call6.v3 main_call6.call0.v0 select,
    binary main_v78 main_arg13 main_v79 ((fun l r => Host.dotGeneral dot_S512x1024x15_S8x15_S512x1024x8_2_1_01_0_n_n none l r) : (⟨S512x1024x15, .f32⟩ : BufTy).Contents (Elt F) → (⟨S8x15, .f32⟩ : BufTy).Contents (Elt F) → (⟨S512x1024x8, .f32⟩ : BufTy).Contents (Elt F)),
    unary main_arg14 main_v80 (broadcastInDim S1x1x8 ![2] bcast_S8_S1x1x8_2 : (⟨S8, .f32⟩ : BufTy).Contents (Elt F) → (⟨S1x1x8, .f32⟩ : BufTy).Contents (Elt F)),
    unary main_v80 main_v81 (broadcastInDim S512x1024x8 ![0, 1, 2] bcast_S1x1x8_S512x1024x8_0_1_2 : (⟨S1x1x8, .f32⟩ : BufTy).Contents (Elt F) → (⟨S512x1024x8, .f32⟩ : BufTy).Contents (Elt F)),
    binary main_v79 main_v81 main_v82 (addf : (⟨S512x1024x8, .f32⟩ : BufTy).Contents (Elt F) → (⟨S512x1024x8, .f32⟩ : BufTy).Contents (Elt F) → (⟨S512x1024x8, .f32⟩ : BufTy).Contents (Elt F)) ]

/-- Layer 2: the second rectifier (call 7) and the third stage (statements 84 … 89). -/
def w10 : List (HloOp τ sig (Elt F)) :=
  [ TRef.nullary main_call7.cst (constant S_ .f32 0x00000000#32),
    TRef.unary main_call7.cst main_call7.v0 (broadcastInDim S512x1024x8 ![] bcast_S_S512x1024x8),
    TRef.binary (.of main_v82) main_call7.v0 main_call7.v1 (cmpf .oge),
    TRef.nullary main_call7.cst_0 (constant S_ .f32 0x3C23D70A#32),
    TRef.unary main_call7.cst_0 main_call7.v2 (broadcastInDim S512x1024x8 ![] bcast_S_S512x1024x8),
    TRef.binary main_call7.v2 (.of main_v82) main_call7.v3 mulf,
    TRef.ternary main_call7.v1 (.of main_v82) main_call7.v3 main_call7.call0.v0 select,
    binary main_v83 main_arg15 main_v84 ((fun l r => Host.dotGeneral dot_S512x1024x8_S1x8_S512x1024x1_2_1_01_0_n_n none l r) : (⟨S512x1024x8, .f32⟩ : BufTy).Contents (Elt F) → (⟨S1x8, .f32⟩ : BufTy).Contents (Elt F) → (⟨S512x1024x1, .f32⟩ : BufTy).Contents (Elt F)),
    unary main_arg16 main_v85 (broadcastInDim S1x1x1 ![2] bcast_S1_S1x1x1_2 : (⟨S1, .f32⟩ : BufTy).Contents (Elt F) → (⟨S1x1x1, .f32⟩ : BufTy).Contents (Elt F)),
    unary main_v85 main_v86 (broadcastInDim S512x1024x1 ![0, 1, 2] bcast_S1x1x1_S512x1024x1_0_1_2 : (⟨S1x1x1, .f32⟩ : BufTy).Contents (Elt F) → (⟨S512x1024x1, .f32⟩ : BufTy).Contents (Elt F)),
    binary main_v84 main_v86 main_v87 (addf : (⟨S512x1024x1, .f32⟩ : BufTy).Contents (Elt F) → (⟨S512x1024x1, .f32⟩ : BufTy).Contents (Elt F) → (⟨S512x1024x1, .f32⟩ : BufTy).Contents (Elt F)),
    reshape main_v87 main_v88 rfl shapeCasts_S512x1024x1_S512x1024 ]

/-- Layer 2: the third rectifier (call 8): the result (statement 90). -/
def w11 : List (HloOp τ sig (Elt F)) :=
  [ TRef.nullary main_call8.cst (constant S_ .f32 0x00000000#32),
    TRef.unary main_call8.cst main_call8.v0 (broadcastInDim S512x1024 ![] bcast_S_S512x1024),
    TRef.binary (.of main_v88) main_call8.v0 main_call8.v1 (cmpf .oge),
    TRef.nullary main_call8.cst_0 (constant S_ .f32 0x3C23D70A#32),
    TRef.unary main_call8.cst_0 main_call8.v2 (broadcastInDim S512x1024 ![] bcast_S_S512x1024),
    TRef.binary main_call8.v2 (.of main_v88) main_call8.v3 mulf,
    TRef.ternary main_call8.v1 (.of main_v88) main_call8.v3 main_call8.call0.v0 select ]

/-- The operations of the program's first part (statements 1 … 60): ninety. -/
abbrev ops_part0 : List (HloOp τ sig (Elt F)) := w0 ++ (w1 ++ (w2 ++ (w3 ++ (w4 ++ (w5 ++ w6)))))

/-- The operations of the program's second part (statements 61 … 90): fifty-four. -/
abbrev ops_part1 : List (HloOp τ sig (Elt F)) := w7 ++ (w8 ++ (w9 ++ (w10 ++ w11)))

/-- @main's 144 operations, in order. -/
abbrev ops : List (HloOp τ sig (Elt F)) := ops_part0 ++ ops_part1

set_option maxHeartbeats 4000000 in
/-- The first part is its windows run one after another: each called function's definition unfolded at its call and
    each call's record at its fields, both sides are one chain of operation steps once sequencing is reassociated. -/
theorem main_part0_eq (c : Dev nD) : main_part0 (F := F) c = seq ops_part0 := by
  simp only [main_part0, fn_leaky_relu.body, fn_where.body, fn_leaky_relu_0.body, fn_where_1.body, fn_leaky_relu_2.body,
    fn_where_3.body, ops_part0, seq_append, w0, w1, w2, w3, w4, w5, w6, seq, bind_assoc, pure_bind]
  all_goals rfl

set_option maxHeartbeats 4000000 in
/-- The second part likewise. -/
theorem main_part1_eq (c : Dev nD) : main_part1 (F := F) c = seq ops_part1 := by
  simp only [main_part1, fn_leaky_relu.body, fn_where.body, fn_leaky_relu_0.body, fn_where_1.body, fn_leaky_relu_2.body,
    fn_where_3.body, ops_part1, seq_append, w7, w8, w9, w10, w11, seq, bind_assoc, pure_bind]
  all_goals rfl

/-- @main is the whole list run in order. -/
theorem main_eq (c : Dev nD) : main (F := F) c = seq ops := by
  show main (F := F) c = seq (ops_part0 ++ ops_part1)
  rw [seq_append, ← main_part0_eq c, ← main_part1_eq c]
  rfl

end Cert.ReferenceIdeal.RefRun

end
-- ==== Proof.RefRun.lean ====
/-
  The reference's run read back: every weakly fair execution of @main terminates with the result array at the
  network of the seventeen argument arrays (RefDefs: netR, out) and every argument array unchanged.

  The list of operations (RefOps) is read window by window.  For each window: the buffers it writes (so that any other
  buffer keeps its contents through it), and the one or two values later windows read, each as a stage function of
  what the window found in the buffers it reads.  Composing the twelve windows gives the result as netR of the
  arguments' launch contents; no value is ever written out as one tree (a rectifier names its operand three times).
-/
import proofs.«120596_j16338055594194_2_alg».proof.Proof.RefDefs
import proofs.«120596_j16338055594194_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-! ## Every operation stays inside the TensorCore's buffers and determines its result -/

/-- Each operation of a literal list determines what it writes (none leaves a buffer's contents open). -/
local macro "fresh_each" : tactic =>
  `(tactic| (intro _ h; (repeat (cases h with | head => rfl | tail _ h => ?_)); exact nomatch h))

theorem w0_sub : (w0 : List (HloOp τ sig (Elt F))).Forall fun op => op.bufs ⊆ tcRefs τ sig := by
  unfold w0
  exact ⟨unary_bufs_sub .., binary_bufs_sub .., unary_bufs_sub .., unary_bufs_sub .., binary_bufs_sub .., reshape_bufs_sub ..,
      unary_bufs_sub .., binary_bufs_sub .., unary_bufs_sub .., reshape_bufs_sub .., binary_bufs_sub .., unary_bufs_sub ..,
      unary_bufs_sub .., binary_bufs_sub ..⟩
theorem w1_sub : (w1 : List (HloOp τ sig (Elt F))).Forall fun op => op.bufs ⊆ tcRefs τ sig := by
  unfold w1
  exact ⟨nullary_bufs_sub .., unary_bufs_sub .., binary_bufs_sub .., nullary_bufs_sub .., unary_bufs_sub .., binary_bufs_sub ..,
      ternary_bufs_sub .., binary_bufs_sub .., unary_bufs_sub .., unary_bufs_sub .., binary_bufs_sub ..⟩
theorem w2_sub : (w2 : List (HloOp τ sig (Elt F))).Forall fun op => op.bufs ⊆ tcRefs τ sig := by
  unfold w2
  exact ⟨nullary_bufs_sub .., unary_bufs_sub .., binary_bufs_sub .., nullary_bufs_sub .., unary_bufs_sub .., binary_bufs_sub ..,
      ternary_bufs_sub .., binary_bufs_sub .., unary_bufs_sub .., unary_bufs_sub .., binary_bufs_sub .., reshape_bufs_sub ..⟩
theorem w3_sub : (w3 : List (HloOp τ sig (Elt F))).Forall fun op => op.bufs ⊆ tcRefs τ sig := by
  unfold w3
  exact ⟨nullary_bufs_sub .., unary_bufs_sub .., binary_bufs_sub .., nullary_bufs_sub .., unary_bufs_sub .., binary_bufs_sub ..,
      ternary_bufs_sub ..⟩
theorem w4_sub : (w4 : List (HloOp τ sig (Elt F))).Forall fun op => op.bufs ⊆ tcRefs τ sig := by
  unfold w4
  exact ⟨unary_bufs_sub .., binary_bufs_sub .., unary_bufs_sub .., unary_bufs_sub .., binary_bufs_sub ..,
      unary_bufs_sub .., binary_bufs_sub .., unary_bufs_sub .., unary_bufs_sub .., binary_bufs_sub ..,
      binary_bufs_sub ..,
      unary_bufs_sub .., binary_bufs_sub .., unary_bufs_sub .., unary_bufs_sub .., binary_bufs_sub ..,
      reshape_bufs_sub .., unary_bufs_sub .., binary_bufs_sub .., unary_bufs_sub .., reshape_bufs_sub .., binary_bufs_sub ..,
      unary_bufs_sub .., unary_bufs_sub .., binary_bufs_sub ..⟩
theorem w5_sub : (w5 : List (HloOp τ sig (Elt F))).Forall fun op => op.bufs ⊆ tcRefs τ sig := by
  unfold w5
  exact ⟨nullary_bufs_sub .., unary_bufs_sub .., binary_bufs_sub .., nullary_bufs_sub .., unary_bufs_sub .., binary_bufs_sub ..,
      ternary_bufs_sub .., binary_bufs_sub .., unary_bufs_sub .., unary_bufs_sub .., binary_bufs_sub ..⟩
theorem w6_sub : (w6 : List (HloOp τ sig (Elt F))).Forall fun op => op.bufs ⊆ tcRefs τ sig := by
  unfold w6
  exact ⟨nullary_bufs_sub .., unary_bufs_sub .., binary_bufs_sub .., nullary_bufs_sub .., unary_bufs_sub .., binary_bufs_sub ..,
      ternary_bufs_sub .., binary_bufs_sub .., unary_bufs_sub .., unary_bufs_sub ..⟩
theorem w7_sub : (w7 : List (HloOp τ sig (Elt F))).Forall fun op => op.bufs ⊆ tcRefs τ sig := by
  unfold w7
  exact ⟨binary_bufs_sub .., reshape_bufs_sub .., nullary_bufs_sub .., unary_bufs_sub .., binary_bufs_sub .., nullary_bufs_sub ..,
      unary_bufs_sub .., binary_bufs_sub .., ternary_bufs_sub ..⟩
theorem w8_sub : (w8 : List (HloOp τ sig (Elt F))).Forall fun op => op.bufs ⊆ tcRefs τ sig := by
  unfold w8
  exact ⟨unary_bufs_sub .., binary_bufs_sub .., unary_bufs_sub .., unary_bufs_sub .., binary_bufs_sub .., binary_bufs_sub ..,
      reshape_bufs_sub .., unary_bufs_sub .., binary_bufs_sub .., unary_bufs_sub .., reshape_bufs_sub .., binary_bufs_sub ..,
      unary_bufs_sub .., unary_bufs_sub .., binary_bufs_sub ..⟩
theorem w9_sub : (w9 : List (HloOp τ sig (Elt F))).Forall fun op => op.bufs ⊆ tcRefs τ sig := by
  unfold w9
  exact ⟨nullary_bufs_sub .., unary_bufs_sub .., binary_bufs_sub .., nullary_bufs_sub .., unary_bufs_sub .., binary_bufs_sub ..,
      ternary_bufs_sub .., binary_bufs_sub .., unary_bufs_sub .., unary_bufs_sub .., binary_bufs_sub ..⟩
theorem w10_sub : (w10 : List (HloOp τ sig (Elt F))).Forall fun op => op.bufs ⊆ tcRefs τ sig := by
  unfold w10
  exact ⟨nullary_bufs_sub .., unary_bufs_sub .., binary_bufs_sub .., nullary_bufs_sub .., unary_bufs_sub .., binary_bufs_sub ..,
      ternary_bufs_sub .., binary_bufs_sub .., unary_bufs_sub .., unary_bufs_sub .., binary_bufs_sub .., reshape_bufs_sub ..⟩
theorem w11_sub : (w11 : List (HloOp τ sig (Elt F))).Forall fun op => op.bufs ⊆ tcRefs τ sig := by
  unfold w11
  exact ⟨nullary_bufs_sub .., unary_bufs_sub .., binary_bufs_sub .., nullary_bufs_sub .., unary_bufs_sub .., binary_bufs_sub ..,
      ternary_bufs_sub ..⟩

theorem ops_sub : (ops : List (HloOp τ sig (Elt F))).Forall fun op => op.bufs ⊆ tcRefs τ sig :=
  List.forall_iff_forall_mem.mpr fun op h => by
    simp only [ops, ops_part0, ops_part1, List.mem_append] at h
    rcases h with (h | h | h | h | h | h | h) | (h | h | h | h | h)
    exacts [List.forall_iff_forall_mem.mp w0_sub op h, List.forall_iff_forall_mem.mp w1_sub op h,
      List.forall_iff_forall_mem.mp w2_sub op h, List.forall_iff_forall_mem.mp w3_sub op h,
      List.forall_iff_forall_mem.mp w4_sub op h, List.forall_iff_forall_mem.mp w5_sub op h,
      List.forall_iff_forall_mem.mp w6_sub op h, List.forall_iff_forall_mem.mp w7_sub op h,
      List.forall_iff_forall_mem.mp w8_sub op h, List.forall_iff_forall_mem.mp w9_sub op h,
      List.forall_iff_forall_mem.mp w10_sub op h, List.forall_iff_forall_mem.mp w11_sub op h]

theorem w0_fresh : ∀ op ∈ (w0 : List (HloOp τ sig (Elt F))), op.fresh = ∅ := by unfold w0; fresh_each
theorem w1_fresh : ∀ op ∈ (w1 : List (HloOp τ sig (Elt F))), op.fresh = ∅ := by unfold w1; fresh_each
theorem w2_fresh : ∀ op ∈ (w2 : List (HloOp τ sig (Elt F))), op.fresh = ∅ := by unfold w2; fresh_each
theorem w3_fresh : ∀ op ∈ (w3 : List (HloOp τ sig (Elt F))), op.fresh = ∅ := by unfold w3; fresh_each
theorem w4_fresh : ∀ op ∈ (w4 : List (HloOp τ sig (Elt F))), op.fresh = ∅ := by unfold w4; fresh_each
theorem w5_fresh : ∀ op ∈ (w5 : List (HloOp τ sig (Elt F))), op.fresh = ∅ := by unfold w5; fresh_each
theorem w6_fresh : ∀ op ∈ (w6 : List (HloOp τ sig (Elt F))), op.fresh = ∅ := by unfold w6; fresh_each
theorem w7_fresh : ∀ op ∈ (w7 : List (HloOp τ sig (Elt F))), op.fresh = ∅ := by unfold w7; fresh_each
theorem w8_fresh : ∀ op ∈ (w8 : List (HloOp τ sig (Elt F))), op.fresh = ∅ := by unfold w8; fresh_each
theorem w9_fresh : ∀ op ∈ (w9 : List (HloOp τ sig (Elt F))), op.fresh = ∅ := by unfold w9; fresh_each
theorem w10_fresh : ∀ op ∈ (w10 : List (HloOp τ sig (Elt F))), op.fresh = ∅ := by unfold w10; fresh_each
theorem w11_fresh : ∀ op ∈ (w11 : List (HloOp τ sig (Elt F))), op.fresh = ∅ := by unfold w11; fresh_each

theorem ops_fresh : ∀ op ∈ (ops : List (HloOp τ sig (Elt F))), op.fresh = ∅ := fun op h => by
  simp only [ops, ops_part0, ops_part1, List.mem_append] at h
  rcases h with (h | h | h | h | h | h | h) | (h | h | h | h | h)
  exacts [w0_fresh op h, w1_fresh op h, w2_fresh op h, w3_fresh op h, w4_fresh op h, w5_fresh op h, w6_fresh op h,
    w7_fresh op h, w8_fresh op h, w9_fresh op h, w10_fresh op h, w11_fresh op h]

/-! ## What each window writes; every other buffer keeps its contents through it -/

abbrev w0_W : List (Ref sig .tc) :=
  [main_v0, main_v1, main_v2, main_v3, main_v4, main_v5, main_v6, main_v7, main_v8, main_v9, main_v10, main_v11, main_v12,
    main_v13]
abbrev w1_W : List (Ref sig .tc) :=
  [main_call0_cst, main_call0_v0, main_call0_v1, main_call0_cst_0, main_call0_v2, main_call0_v3, main_v14, main_v15, main_v16,
    main_v17, main_v18]
abbrev w2_W : List (Ref sig .tc) :=
  [main_call1_cst, main_call1_v0, main_call1_v1, main_call1_cst_0, main_call1_v2, main_call1_v3, main_v19, main_v20, main_v21,
    main_v22, main_v23, main_v24]
abbrev w3_W : List (Ref sig .tc) :=
  [main_call2_cst, main_call2_v0, main_call2_v1, main_call2_cst_0, main_call2_v2, main_call2_v3, main_v25]
abbrev w4_W : List (Ref sig .tc) :=
  [main_v26, main_v27, main_v28, main_v29, main_v30, main_v31, main_v32, main_v33, main_v34, main_v35, main_v36, main_v37,
    main_v38, main_v39, main_v40, main_v41, main_v42, main_v43, main_v44, main_v45, main_v46, main_v47, main_v48, main_v49,
    main_v50]
abbrev w5_W : List (Ref sig .tc) :=
  [main_call3_cst, main_call3_v0, main_call3_v1, main_call3_cst_0, main_call3_v2, main_call3_v3, main_v51, main_v52, main_v53,
    main_v54, main_v55]
abbrev w6_W : List (Ref sig .tc) :=
  [main_call4_cst, main_call4_v0, main_call4_v1, main_call4_cst_0, main_call4_v2, main_call4_v3, main_v56, main_v57, main_v58,
    main_v59]
abbrev w7_W : List (Ref sig .tc) :=
  [main_v60, main_v61, main_call5_cst, main_call5_v0, main_call5_v1, main_call5_cst_0, main_call5_v2, main_call5_v3, main_v62]
abbrev w8_W : List (Ref sig .tc) :=
  [main_v63, main_v64, main_v65, main_v66, main_v67, main_v68, main_v69, main_v70, main_v71, main_v72, main_v73, main_v74,
    main_v75, main_v76, main_v77]
abbrev w9_W : List (Ref sig .tc) :=
  [main_call6_cst, main_call6_v0, main_call6_v1, main_call6_cst_0, main_call6_v2, main_call6_v3, main_v78, main_v79, main_v80,
    main_v81, main_v82]
abbrev w10_W : List (Ref sig .tc) :=
  [main_call7_cst, main_call7_v0, main_call7_v1, main_call7_cst_0, main_call7_v2, main_call7_v3, main_v83, main_v84, main_v85,
    main_v86, main_v87, main_v88]
abbrev w11_W : List (Ref sig .tc) :=
  [main_call8_cst, main_call8_v0, main_call8_v1, main_call8_cst_0, main_call8_v2, main_call8_v3, main_v89]

/-- Each operation of a literal list writes one buffer, and that buffer is in the window's list. -/
local macro "writes_each" : tactic =>
  `(tactic| (simp only [List.Forall]
             repeat' constructor
             all_goals
               (simp only [nullary_writes, unary_writes, binary_writes, ternary_writes, reshape_writes,
                  Finset.singleton_subset_iff, List.mem_toFinset]
                exact List.mem_map_of_mem (by decide))))

theorem w0_writes : (w0 : List (HloOp τ sig (Elt F))).Forall fun op =>
    op.writes ⊆ (w0_W.map (Proc.devRef (τ := τ) .tc)).toFinset := by unfold w0; writes_each
theorem w1_writes : (w1 : List (HloOp τ sig (Elt F))).Forall fun op =>
    op.writes ⊆ (w1_W.map (Proc.devRef (τ := τ) .tc)).toFinset := by unfold w1; writes_each
theorem w2_writes : (w2 : List (HloOp τ sig (Elt F))).Forall fun op =>
    op.writes ⊆ (w2_W.map (Proc.devRef (τ := τ) .tc)).toFinset := by unfold w2; writes_each
theorem w3_writes : (w3 : List (HloOp τ sig (Elt F))).Forall fun op =>
    op.writes ⊆ (w3_W.map (Proc.devRef (τ := τ) .tc)).toFinset := by unfold w3; writes_each
theorem w4_writes : (w4 : List (HloOp τ sig (Elt F))).Forall fun op =>
    op.writes ⊆ (w4_W.map (Proc.devRef (τ := τ) .tc)).toFinset := by unfold w4; writes_each
theorem w5_writes : (w5 : List (HloOp τ sig (Elt F))).Forall fun op =>
    op.writes ⊆ (w5_W.map (Proc.devRef (τ := τ) .tc)).toFinset := by unfold w5; writes_each
theorem w6_writes : (w6 : List (HloOp τ sig (Elt F))).Forall fun op =>
    op.writes ⊆ (w6_W.map (Proc.devRef (τ := τ) .tc)).toFinset := by unfold w6; writes_each
theorem w7_writes : (w7 : List (HloOp τ sig (Elt F))).Forall fun op =>
    op.writes ⊆ (w7_W.map (Proc.devRef (τ := τ) .tc)).toFinset := by unfold w7; writes_each
theorem w8_writes : (w8 : List (HloOp τ sig (Elt F))).Forall fun op =>
    op.writes ⊆ (w8_W.map (Proc.devRef (τ := τ) .tc)).toFinset := by unfold w8; writes_each
theorem w9_writes : (w9 : List (HloOp τ sig (Elt F))).Forall fun op =>
    op.writes ⊆ (w9_W.map (Proc.devRef (τ := τ) .tc)).toFinset := by unfold w9; writes_each
theorem w10_writes : (w10 : List (HloOp τ sig (Elt F))).Forall fun op =>
    op.writes ⊆ (w10_W.map (Proc.devRef (τ := τ) .tc)).toFinset := by unfold w10; writes_each
theorem w11_writes : (w11 : List (HloOp τ sig (Elt F))).Forall fun op =>
    op.writes ⊆ (w11_W.map (Proc.devRef (τ := τ) .tc)).toFinset := by unfold w11; writes_each

theorem w0_keep (V : Valuation τ sig (Elt F)) (r : Ref sig .tc) (h : r ∉ w0_W) :
    after w0 V (no_index (Proc.devRef .tc r)) = V (Proc.devRef .tc r) := after_of_writes_sub w0 V w0_writes h
theorem w1_keep (V : Valuation τ sig (Elt F)) (r : Ref sig .tc) (h : r ∉ w1_W) :
    after w1 V (no_index (Proc.devRef .tc r)) = V (Proc.devRef .tc r) := after_of_writes_sub w1 V w1_writes h
theorem w2_keep (V : Valuation τ sig (Elt F)) (r : Ref sig .tc) (h : r ∉ w2_W) :
    after w2 V (no_index (Proc.devRef .tc r)) = V (Proc.devRef .tc r) := after_of_writes_sub w2 V w2_writes h
theorem w3_keep (V : Valuation τ sig (Elt F)) (r : Ref sig .tc) (h : r ∉ w3_W) :
    after w3 V (no_index (Proc.devRef .tc r)) = V (Proc.devRef .tc r) := after_of_writes_sub w3 V w3_writes h
theorem w4_keep (V : Valuation τ sig (Elt F)) (r : Ref sig .tc) (h : r ∉ w4_W) :
    after w4 V (no_index (Proc.devRef .tc r)) = V (Proc.devRef .tc r) := after_of_writes_sub w4 V w4_writes h
theorem w5_keep (V : Valuation τ sig (Elt F)) (r : Ref sig .tc) (h : r ∉ w5_W) :
    after w5 V (no_index (Proc.devRef .tc r)) = V (Proc.devRef .tc r) := after_of_writes_sub w5 V w5_writes h
theorem w6_keep (V : Valuation τ sig (Elt F)) (r : Ref sig .tc) (h : r ∉ w6_W) :
    after w6 V (no_index (Proc.devRef .tc r)) = V (Proc.devRef .tc r) := after_of_writes_sub w6 V w6_writes h
theorem w7_keep (V : Valuation τ sig (Elt F)) (r : Ref sig .tc) (h : r ∉ w7_W) :
    after w7 V (no_index (Proc.devRef .tc r)) = V (Proc.devRef .tc r) := after_of_writes_sub w7 V w7_writes h
theorem w8_keep (V : Valuation τ sig (Elt F)) (r : Ref sig .tc) (h : r ∉ w8_W) :
    after w8 V (no_index (Proc.devRef .tc r)) = V (Proc.devRef .tc r) := after_of_writes_sub w8 V w8_writes h
theorem w9_keep (V : Valuation τ sig (Elt F)) (r : Ref sig .tc) (h : r ∉ w9_W) :
    after w9 V (no_index (Proc.devRef .tc r)) = V (Proc.devRef .tc r) := after_of_writes_sub w9 V w9_writes h
theorem w10_keep (V : Valuation τ sig (Elt F)) (r : Ref sig .tc) (h : r ∉ w10_W) :
    after w10 V (no_index (Proc.devRef .tc r)) = V (Proc.devRef .tc r) := after_of_writes_sub w10 V w10_writes h
theorem w11_keep (V : Valuation τ sig (Elt F)) (r : Ref sig .tc) (h : r ∉ w11_W) :
    after w11 V (no_index (Proc.devRef .tc r)) = V (Proc.devRef .tc r) := after_of_writes_sub w11 V w11_writes h

/-- A buffer none of the twelve windows writes (every argument array) holds after the whole list what it held before. -/
theorem ops_keep (V : Valuation τ sig (Elt F)) (r : Ref sig .tc)
    (h : r ∉ w0_W ++ (w1_W ++ (w2_W ++ (w3_W ++ (w4_W ++ (w5_W ++ (w6_W ++ (w7_W ++ (w8_W ++ (w9_W ++ (w10_W ++ w11_W))))))))))) :
    after ops V (Proc.devRef .tc r) = V (Proc.devRef .tc r) := by
  simp only [List.mem_append, not_or] at h
  obtain ⟨h0, h1, h2, h3, h4, h5, h6, h7, h8, h9, h10, h11⟩ := h
  simp only [ops, ops_part0, ops_part1, StableHlo.after_append]
  rw [w11_keep _ r h11, w10_keep _ r h10, w9_keep _ r h9, w8_keep _ r h8, w7_keep _ r h7, w6_keep _ r h6, w5_keep _ r h5,
    w4_keep _ r h4, w3_keep _ r h3, w2_keep _ r h2, w1_keep _ r h1, w0_keep _ r h0]

/-! ## The value each window hands on, as a stage function of what it found -/

set_option maxHeartbeats 2000000 in
/-- Window 0 leaves the first stage's pre-activation of layer 0 (code column 32). -/
theorem w0_v13 (V : Valuation τ sig (Elt F)) :
    after w0 V (no_index (Proc.devRef .tc main_v13))
      = stage1 32 slices_S15x35_S15x1_0_32
          (lin (V (Proc.devRef .tc main_arg0)) (V (Proc.devRef .tc main_arg1)) (V (Proc.devRef .tc main_arg2)))
          (V (Proc.devRef .tc main_arg11)) (V (Proc.devRef .tc main_arg12)) := by
  unfold w0
  after_results_simp <;> rfl

set_option maxHeartbeats 2000000 in
/-- Window 1: the rectifier of what it found, through the second stage. -/
theorem w1_v18 (V : Valuation τ sig (Elt F)) :
    after w1 V (no_index (Proc.devRef .tc main_v18))
      = stage2 (lrelu15 (V (Proc.devRef .tc main_v13))) (V (Proc.devRef .tc main_arg13)) (V (Proc.devRef .tc main_arg14)) := by
  unfold w1
  after_results_simp <;> rfl

set_option maxHeartbeats 2000000 in
/-- Window 2: the rectifier of what it found, through the third stage. -/
theorem w2_v24 (V : Valuation τ sig (Elt F)) :
    after w2 V (no_index (Proc.devRef .tc main_v24))
      = stage3 (lrelu8 (V (Proc.devRef .tc main_v18))) (V (Proc.devRef .tc main_arg15)) (V (Proc.devRef .tc main_arg16)) := by
  unfold w2
  after_results_simp <;> rfl

set_option maxHeartbeats 2000000 in
/-- Window 3: the last rectifier of layer 0. -/
theorem w3_v25 (V : Valuation τ sig (Elt F)) :
    after w3 V (no_index (Proc.devRef .tc main_v25)) = lreluM (V (Proc.devRef .tc main_v24)) := by
  unfold w3
  after_results_simp <;> rfl

set_option maxHeartbeats 4000000 in
/-- Window 4 leaves the first stage's pre-activation of layer 1 (code column 33) of layer 0's output and x … -/
theorem w4_v50 (V : Valuation τ sig (Elt F)) :
    after w4 V (no_index (Proc.devRef .tc main_v50))
      = stage1 33 slices_S15x35_S15x1_0_33
          (addf (lin (V (Proc.devRef .tc main_v25)) (V (Proc.devRef .tc main_arg3)) (V (Proc.devRef .tc main_arg4)))
            (lin (V (Proc.devRef .tc main_arg0)) (V (Proc.devRef .tc main_arg7)) (V (Proc.devRef .tc main_arg8))))
          (V (Proc.devRef .tc main_arg11)) (V (Proc.devRef .tc main_arg12)) := by
  unfold w4
  after_results_simp <;> rfl

set_option maxHeartbeats 4000000 in
/-- … and the skip pre-activation of layer 0's output that layer 2 adds. -/
theorem w4_v41 (V : Valuation τ sig (Elt F)) :
    after w4 V (no_index (Proc.devRef .tc main_v41))
      = lin (V (Proc.devRef .tc main_v25)) (V (Proc.devRef .tc main_arg9)) (V (Proc.devRef .tc main_arg10)) := by
  unfold w4
  after_results_simp <;> rfl

set_option maxHeartbeats 2000000 in
theorem w5_v55 (V : Valuation τ sig (Elt F)) :
    after w5 V (no_index (Proc.devRef .tc main_v55))
      = stage2 (lrelu15 (V (Proc.devRef .tc main_v50))) (V (Proc.devRef .tc main_arg13)) (V (Proc.devRef .tc main_arg14)) := by
  unfold w5
  after_results_simp <;> rfl

set_option maxHeartbeats 2000000 in
/-- Window 6 ends inside the third stage: it leaves the product … -/
theorem w6_v57 (V : Valuation τ sig (Elt F)) :
    after w6 V (no_index (Proc.devRef .tc main_v57))
      = Host.dotGeneral dot_S512x1024x8_S1x8_S512x1024x1_2_1_01_0_n_n none (lrelu8 (V (Proc.devRef .tc main_v55)))
          (V (Proc.devRef .tc main_arg15)) := by
  unfold w6
  after_results_simp <;> rfl

set_option maxHeartbeats 2000000 in
/-- … and the bias, repeated over rows and nodes. -/
theorem w6_v59 (V : Valuation τ sig (Elt F)) :
    after w6 V (no_index (Proc.devRef .tc main_v59))
      = broadcastInDim S512x1024x1 ![0, 1, 2] bcast_S1x1x1_S512x1024x1_0_1_2
          (broadcastInDim S1x1x1 ![2] bcast_S1_S1x1x1_2 (V (Proc.devRef .tc main_arg16))) := by
  unfold w6
  after_results_simp <;> rfl

set_option maxHeartbeats 2000000 in
/-- Window 7 adds them, drops the unit axis and applies the last rectifier of layer 1. -/
theorem w7_v62 (V : Valuation τ sig (Elt F)) :
    after w7 V (no_index (Proc.devRef .tc main_v62))
      = lreluM (shapeCast S512x1024 (addf (V (Proc.devRef .tc main_v57)) (V (Proc.devRef .tc main_v59)))
          shapeCasts_S512x1024x1_S512x1024) := by
  unfold w7
  after_results_simp <;> rfl

set_option maxHeartbeats 4000000 in
/-- Window 8 leaves the first stage's pre-activation of layer 2 (code column 34) of layer 1's output and the kept skip. -/
theorem w8_v77 (V : Valuation τ sig (Elt F)) :
    after w8 V (no_index (Proc.devRef .tc main_v77))
      = stage1 34 slices_S15x35_S15x1_0_34
          (addf (lin (V (Proc.devRef .tc main_v62)) (V (Proc.devRef .tc main_arg5)) (V (Proc.devRef .tc main_arg6)))
            (V (Proc.devRef .tc main_v41)))
          (V (Proc.devRef .tc main_arg11)) (V (Proc.devRef .tc main_arg12)) := by
  unfold w8
  after_results_simp <;> rfl

set_option maxHeartbeats 2000000 in
theorem w9_v82 (V : Valuation τ sig (Elt F)) :
    after w9 V (no_index (Proc.devRef .tc main_v82))
      = stage2 (lrelu15 (V (Proc.devRef .tc main_v77))) (V (Proc.devRef .tc main_arg13)) (V (Proc.devRef .tc main_arg14)) := by
  unfold w9
  after_results_simp <;> rfl

set_option maxHeartbeats 2000000 in
theorem w10_v88 (V : Valuation τ sig (Elt F)) :
    after w10 V (no_index (Proc.devRef .tc main_v88))
      = stage3 (lrelu8 (V (Proc.devRef .tc main_v82))) (V (Proc.devRef .tc main_arg15)) (V (Proc.devRef .tc main_arg16)) := by
  unfold w10
  after_results_simp <;> rfl

set_option maxHeartbeats 2000000 in
theorem w11_v89 (V : Valuation τ sig (Elt F)) :
    after w11 V (no_index (Proc.devRef .tc main_v89)) = lreluM (V (Proc.devRef .tc main_v88)) := by
  unfold w11
  after_results_simp <;> rfl

/-! ## The whole list -/

set_option maxHeartbeats 4000000 in
/-- After the whole list the result buffer holds the network of the argument buffers' contents: the windows' values
    composed, every read of a buffer an earlier window wrote replaced by that window's value and every read of an
    argument carried back to the start (no window writes it). -/
theorem after_ops_out (V0 : Valuation τ sig (Elt F)) :
    after ops V0 (Proc.devRef .tc main_v89)
      = netR (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) (V0 (Proc.devRef .tc main_arg13)) (V0 (Proc.devRef .tc main_arg14))
          (V0 (Proc.devRef .tc main_arg15)) (V0 (Proc.devRef .tc main_arg16)) := by
  simp only [ops, ops_part0, ops_part1, StableHlo.after_append]
  simp (disch := decide) only [w11_v89, w10_v88, w9_v82, w8_v77, w7_v62, w6_v57, w6_v59, w5_v55, w4_v50, w4_v41, w3_v25,
    w2_v24, w1_v18, w0_v13, w11_keep, w10_keep, w9_keep, w8_keep, w7_keep, w6_keep, w5_keep, w4_keep, w3_keep, w2_keep,
    w1_keep, w0_keep]
  rfl

/-- On every device, for any float values, from any memory with zero counters: every weakly fair execution of @main
    terminates with the result array at the network of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v89).trans (after_ops_out (launchContents m c)),
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide)),
      (h c main_arg6).trans (ops_keep (launchContents m c) main_arg6 (by decide)),
      (h c main_arg7).trans (ops_keep (launchContents m c) main_arg7 (by decide)),
      (h c main_arg8).trans (ops_keep (launchContents m c) main_arg8 (by decide)),
      (h c main_arg9).trans (ops_keep (launchContents m c) main_arg9 (by decide)),
      (h c main_arg10).trans (ops_keep (launchContents m c) main_arg10 (by decide)),
      (h c main_arg11).trans (ops_keep (launchContents m c) main_arg11 (by decide)),
      (h c main_arg12).trans (ops_keep (launchContents m c) main_arg12 (by decide)),
      (h c main_arg13).trans (ops_keep (launchContents m c) main_arg13 (by decide)),
      (h c main_arg14).trans (ops_keep (launchContents m c) main_arg14 (by decide)),
      (h c main_arg15).trans (ops_keep (launchContents m c) main_arg15 (by decide)),
      (h c main_arg16).trans (ops_keep (launchContents m c) main_arg16 (by decide))⟩)
    (run_seq scopedRefs_eq scopedSems_eq defs main (fun _ => ops) main_eq (fun _ => ops_sub) m ρ (fun _ => ops_fresh))

end Cert.ReferenceIdeal.RefRun

end
-- ==== Proof.RefReads.lean ====
/-
  The reference's operations read at one index.

  Each lemma says what ONE kind of operation of the reference holds at an index given by its coordinates
  (ix1 / ix2 / ix3 of coordinates of literal Fin types): a product of a stack of rows with a matrix, contracted on the
  last axis of each, is the sum over the contracted coordinate; a vector laid along the last axis and copied over the
  leading axes reads the vector's entry; a matrix of 32768 columns viewed as 1024 nodes of 32 channels reads column
  node * 32 + channel; a column cut from a matrix and flattened reads the matrix's entry in that column; a trailing unit
  axis dropped reads the entry at 0 on that axis.  The sizes are parameters, so one lemma serves the three stages of the
  node network (15, 8 and 1 outputs).
-/
import proofs.«120596_j16338055594194_2_alg».proof.ReferenceIdeal
import Idealize.ShloMosaic.Lib.ValueLayout
import Idealize.ShloMosaic.Lib.StackMember
import Idealize.ShloMosaic.PureOps.Ideal.Laws

noncomputable section

namespace Cert.ReferenceIdeal.RefValue

open Idealize.ShloMosaic Idealize.ShloMosaic.ValueIdx

/-! ## Products -/

/-- A stack of rows [A, B, K] against a matrix [N, K], contracted on the last axis of each: at (a, b, n) the sum over
    the contracted coordinate c of X[a, b, c] * Y[n, c]. -/
theorem dot_rows_apply {A B K N : Nat} {φ₁ φ₂ : FTy}
    (w : DotDims.WF ⟨3, ![A, B, K]⟩ ⟨2, ![N, K]⟩ ⟨3, ![A, B, N]⟩ [2] [1] [0, 1] [0] [] [])
    (prec : Option ContractPrecision) (X : FVec Ideal ⟨3, ![A, B, K]⟩ φ₁) (Y : FVec Ideal ⟨2, ![N, K]⟩ φ₂)
    (a : Fin A) (b : Fin B) (n : Fin N) :
    Host.dotGeneral (F := Ideal) (⟨[2], [1], [0, 1], [0], [], [], w⟩ : DotDims _ _ _) prec X Y (ix3 a b n)
      = ∑ c : Fin K, X (ix3 a b c) * Y (ix2 n c) := by
  show FloatOps.dotGeneral _ prec _ X Y (ix3 a b n) = _
  rw [Ideal.dotGeneral_apply,
    ← Equiv.sum_comp (contrEquiv1 (⟨[2], [1], [0, 1], [0], [], [], w⟩ : DotDims _ _ _) K rfl rfl).symm]
  refine Finset.sum_congr rfl fun c _ => ?_
  have hc := contrEquiv1_symm_val
    (⟨[2], [1], [0, 1], [0], [], [], w⟩ : DotDims ⟨3, ![A, B, K]⟩ ⟨2, ![N, K]⟩ ⟨3, ![A, B, N]⟩) K rfl rfl c
  have hl : (⟨[2], [1], [0, 1], [0], [], [], w⟩ : DotDims ⟨3, ![A, B, K]⟩ ⟨2, ![N, K]⟩ ⟨3, ![A, B, N]⟩).lhsIdx (ix3 a b n)
      ((contrEquiv1 _ K rfl rfl).symm c) = ix3 a b c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact hc
  have hr : (⟨[2], [1], [0, 1], [0], [], [], w⟩ : DotDims ⟨3, ![A, B, K]⟩ ⟨2, ![N, K]⟩ ⟨3, ![A, B, N]⟩).rhsIdx (ix3 a b n)
      ((contrEquiv1 _ K rfl rfl).symm c) = ix2 n c := by
    funext ax; apply Fin.ext
    match ax with
    | ⟨0, _⟩ => simp [DotDims.rhsIdx]; rfl
    | ⟨1, _⟩ => simp [DotDims.rhsIdx]; exact hc
  rw [hl, hr]

/-! ## A vector copied over leading axes -/

/-- A vector [n] laid along the columns of a one-row matrix and that row copied to m rows: at (r, j) the vector at j. -/
theorem bias_rows_apply {α : Type} {m n : Nat} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    broadcastInDim ⟨2, ![m, n]⟩ ![0, 1] h2 (broadcastInDim ⟨2, ![1, n]⟩ ![1] h1 v) (ix2 r j) = v (ix1 j) := by
  refine (broadcastInDim_apply _ h2 _ (ix2 r j) (ix2 (0 : Fin 1) j) fun a => ?_).trans
    (broadcastInDim_apply _ h1 v (ix2 (0 : Fin 1) j) (ix1 j) fun a => ?_)
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-- A vector [n] laid along the last axis of [1, 1, n] and copied over the two leading axes of [a, b, n]:
    at (p, q, j) the vector at j. -/
theorem bias_nodes_apply {α : Type} {a b n : Nat} (v : (⟨1, ![n]⟩ : Shape).Idx → α)
    (h1 : (⟨1, ![n]⟩ : Shape).BroadcastsInDim ⟨3, ![1, 1, n]⟩ ![2])
    (h2 : (⟨3, ![1, 1, n]⟩ : Shape).BroadcastsInDim ⟨3, ![a, b, n]⟩ ![0, 1, 2]) (p : Fin a) (q : Fin b) (j : Fin n) :
    broadcastInDim ⟨3, ![a, b, n]⟩ ![0, 1, 2] h2 (broadcastInDim ⟨3, ![1, 1, n]⟩ ![2] h1 v) (ix3 p q j) = v (ix1 j) := by
  refine (broadcastInDim_apply _ h2 _ (ix3 p q j) (ix3 (0 : Fin 1) (0 : Fin 1) j) fun ax => ?_).trans
    (broadcastInDim_apply _ h1 v (ix3 (0 : Fin 1) (0 : Fin 1) j) (ix1 j) fun ax => ?_)
  · match ax with
    | ⟨0, _⟩ => rfl
    | ⟨1, _⟩ => rfl
    | ⟨2, _⟩ =>
      show j.val = if n = 1 then 0 else j.val
      split
      · have := j.isLt; omega
      · rfl
  · match ax with
    | ⟨0, _⟩ =>
      show j.val = if n = 1 then 0 else j.val
      split
      · have := j.isLt; omega
      · rfl

/-! ## Reshapes -/

/-- A matrix [a, b * c] viewed as [a, b, c]: at (r, n, e) the matrix's column n * c + e. -/
theorem nodes_view_apply {α : Type} {a b c bc : Nat} (hbc : bc = b * c) (x : (⟨2, ![a, bc]⟩ : Shape).Idx → α)
    (h : (⟨2, ![a, bc]⟩ : Shape).ShapeCasts ⟨3, ![a, b, c]⟩) (r : Fin a) (n : Fin b) (e : Fin c) (k : Fin bc)
    (hk : k.val = n.val * c + e.val) :
    shapeCast ⟨3, ![a, b, c]⟩ x h (ix3 r n e) = x (ix2 r k) :=
  shapeCast_apply x h _ _ (by
    rw [Shape.rowMajor_val_two, Shape.rowMajor_val_three]
    show r.val * bc + k.val = (r.val * b + n.val) * c + e.val
    rw [hk, hbc, Nat.add_mul, Nat.mul_assoc, Nat.add_assoc])

/-- A trailing unit axis dropped, [a, b, 1] viewed as [a, b]: at (r, n) the entry at (r, n, 0). -/
theorem drop_last_unit_apply {α : Type} {a b : Nat} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- One column cut from a matrix [a, b] at offset o and flattened to a vector [a]: at i the matrix's entry (i, k),
    k the column at o. -/
theorem column_apply {α : Type} {a b : Nat} (o : Nat) (D : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (i : Fin a) (k : Fin b) (hk : k.val = o) :
    shapeCast ⟨1, ![a]⟩ (extractStridedSlice ⟨2, ![a, 1]⟩ ![0, o] D hs) hc (ix1 i) = D (ix2 i k) := by
  refine (shapeCast_apply _ hc (ix1 i) (ix2 i (0 : Fin 1)) ?_).trans ?_
  · rw [Shape.rowMajor_val_two, Shape.rowMajor_val_one]
    show i.val * 1 + 0 = i.val
    rw [Nat.mul_one, Nat.add_zero]
  · exact slice2_axis1_apply o D hs i (0 : Fin 1) k (hk.trans (Nat.add_zero o).symm)

/-- The leading columns of a matrix [a, b] kept, [a, m]: at (i, j) the matrix's entry (i, k), k the column j. -/
theorem leading_columns_apply {α : Type} {a b m : Nat} (D : (⟨2, ![a, b]⟩ : Shape).Idx → α)
    (hs : (⟨2, ![a, b]⟩ : Shape).Slices ![0, 0] ⟨2, ![a, m]⟩) (i : Fin a) (j : Fin m) (k : Fin b) (hk : k.val = j.val) :
    extractStridedSlice ⟨2, ![a, m]⟩ ![0, 0] D hs (ix2 i j) = D (ix2 i k) :=
  slice2_axis1_apply 0 D hs i j k (hk.trans (Nat.zero_add _).symm)

end Cert.ReferenceIdeal.RefValue

end
-- ==== Proof.RefStages.lean ====
/-
  The reference's stage functions read at an index, at the ideal values.

  The rectifiers are the specification's lrelu entry by entry; a dense layer's pre-activation lin is the specification's
  lin; the three stages of a layer's node network are the weighted sums over the channels, over the 15 and over the 8
  hidden entries, each plus its bias; a layer's node network dan is the specification's dan of the pre-activation's
  entries; and the three layers h0R, h1R, netR are the specification's h0, h1, net.
-/
import proofs.«120596_j16338055594194_2_alg».proof.Proof.RefDefs
import proofs.«120596_j16338055594194_2_alg».proof.Proof.Spec
import proofs.«120596_j16338055594194_2_alg».proof.Proof.RefReads

noncomputable section

namespace Cert.ReferenceIdeal.RefValue

open Idealize.ShloMosaic Idealize.ShloMosaic.ValueIdx Cert.DanSpec Cert.ReferenceIdeal.Gen

/-! ## The rectifiers -/

/-- The rectifier on [512, 1024, 15] at an index is the specification's rectifier of the entry. -/
theorem lrelu15_apply (x : FVec Ideal S512x1024x15 .f32) (i : S512x1024x15.Idx) :
    RefRun.lrelu15 (F := Ideal) x i = lrelu (x i) := rfl

/-- The rectifier on [512, 1024, 8] at an index. -/
theorem lrelu8_apply (x : FVec Ideal S512x1024x8 .f32) (i : S512x1024x8.Idx) :
    RefRun.lrelu8 (F := Ideal) x i = lrelu (x i) := rfl

/-- The rectifier on [512, 1024] at an index. -/
theorem lreluM_apply (x : FVec Ideal S512x1024 .f32) (i : S512x1024.Idx) :
    RefRun.lreluM (F := Ideal) x i = lrelu (x i) := rfl

/-! ## A dense layer's pre-activation -/

/-- At (r, j): the sum over k of x[r, k] * W[j, k], plus b[j]. -/
theorem lin_apply (x : FVec Ideal S512x1024 .f32) (W : FVec Ideal S32768x1024 .f32) (b : FVec Ideal S32768 .f32)
    (r : Fin 512) (j : Fin 32768) : RefRun.lin (F := Ideal) x W b (ix2 r j) = lin x W b r j := by
  unfold RefRun.lin lin
  rw [addf_apply, bias_rows_apply]
  refine congrArg (· + b (ix1 j)) ?_
  refine (show Host.dotGeneral (F := Ideal) dot_S512x1024_S1024x32768_S512x32768_1_0_0_1_n_n none x
      (transpose S1024x32768 [1, 0] W transposes_S32768x1024_S1024x32768_1_0) (ix2 r j) = _ from
    StackMember.dotGeneral_plain_apply none x _ r j).trans ?_
  exact Finset.sum_congr rfl fun k _ => by rw [transpose_ix2_apply]

/-! ## The three stages of the node network -/

/-- The first stage at (r, n, h): the node's 32 channels against row h of the leading 32 columns of Dw1, plus the bias
    Db1[h] and the entry of Dw1 in row h of the column at offset k. -/
theorem stage1_apply (k : Nat) (hk : S15x35.Slices ![0, k] S15x1) (pre : FVec Ideal S512x32768 .f32)
    (Dw1 : FVec Ideal S15x35 .f32) (Db1 : FVec Ideal S15 .f32) (kk : Fin 35) (hkk : kk.val = k)
    (r : Fin 512) (n : Fin 1024) (h : Fin 15) :
    RefRun.stage1 (F := Ideal) k hk pre Dw1 Db1 (ix3 r n h)
      = (∑ c : Fin 32, pre (ix2 r (col n c)) * Dw1 (ix2 h (chan c))) + (Db1 (ix1 h) + Dw1 (ix2 h kk)) := by
  unfold RefRun.stage1
  rw [addf_apply, bias_nodes_apply, addf_apply, column_apply k Dw1 hk shapeCasts_S15x1_S15 h kk hkk]
  refine congrArg (· + (Db1 (ix1 h) + Dw1 (ix2 h kk))) ?_
  refine (show Host.dotGeneral (F := Ideal) dot_S512x1024x32_S15x32_S512x1024x15_2_1_01_0_n_n none
      (shapeCast S512x1024x32 pre shapeCasts_S512x32768_S512x1024x32)
      (extractStridedSlice S15x32 ![0, 0] Dw1 slices_S15x35_S15x32_0_0) (ix3 r n h) = _ from
    dot_rows_apply dot_S512x1024x32_S15x32_S512x1024x15_2_1_01_0_n_n_wf none _ _ r n h).trans ?_
  exact Finset.sum_congr rfl fun c _ => by
    rw [nodes_view_apply (show 32768 = 1024 * 32 from rfl) pre shapeCasts_S512x32768_S512x1024x32 r n c (col n c) rfl,
      leading_columns_apply Dw1 slices_S15x35_S15x32_0_0 h c (chan c) rfl]

/-- The second stage at (r, n, o): the 15 hidden entries against row o of Dw2, plus Db2[o]. -/
theorem stage2_apply (z : FVec Ideal S512x1024x15 .f32) (Dw2 : FVec Ideal S8x15 .f32) (Db2 : FVec Ideal S8 .f32)
    (r : Fin 512) (n : Fin 1024) (o : Fin 8) :
    RefRun.stage2 (F := Ideal) z Dw2 Db2 (ix3 r n o) = (∑ h : Fin 15, z (ix3 r n h) * Dw2 (ix2 o h)) + Db2 (ix1 o) := by
  unfold RefRun.stage2
  rw [addf_apply, bias_nodes_apply]
  refine congrArg (· + Db2 (ix1 o)) ?_
  exact (show Host.dotGeneral (F := Ideal) dot_S512x1024x15_S8x15_S512x1024x8_2_1_01_0_n_n none z Dw2 (ix3 r n o) = _ from
    dot_rows_apply dot_S512x1024x15_S8x15_S512x1024x8_2_1_01_0_n_n_wf none z Dw2 r n o)

/-- The third stage at (r, n): the 8 hidden entries against the one row of Dw3, plus Db3[0]. -/
theorem stage3_apply (z : FVec Ideal S512x1024x8 .f32) (Dw3 : FVec Ideal S1x8 .f32) (Db3 : FVec Ideal S1 .f32)
    (r : Fin 512) (n : Fin 1024) :
    RefRun.stage3 (F := Ideal) z Dw3 Db3 (ix2 r n)
      = (∑ o : Fin 8, z (ix3 r n o) * Dw3 (ix2 (0 : Fin 1) o)) + Db3 (ix1 (0 : Fin 1)) := by
  unfold RefRun.stage3
  rw [drop_last_unit_apply, addf_apply, bias_nodes_apply]
  refine congrArg (· + Db3 (ix1 (0 : Fin 1))) ?_
  exact (show Host.dotGeneral (F := Ideal) dot_S512x1024x8_S1x8_S512x1024x1_2_1_01_0_n_n none z Dw3 (ix3 r n (0 : Fin 1)) = _ from
    dot_rows_apply dot_S512x1024x8_S1x8_S512x1024x1_2_1_01_0_n_n_wf none z Dw3 r n (0 : Fin 1))

/-! ## A layer's node network -/

/-- At (r, n): the specification's dan of the pre-activation's entries, for the layer l whose code column sits at
    offset k. -/
theorem dan_apply (l : Fin 3) (k : Nat) (hl : (code l).val = k) (hk : S15x35.Slices ![0, k] S15x1)
    (pre : FVec Ideal S512x32768 .f32)
    (Dw1 : FVec Ideal S15x35 .f32) (Db1 : FVec Ideal S15 .f32) (Dw2 : FVec Ideal S8x15 .f32) (Db2 : FVec Ideal S8 .f32)
    (Dw3 : FVec Ideal S1x8 .f32) (Db3 : FVec Ideal S1 .f32) (r : Fin 512) (n : Fin 1024) :
    RefRun.dan (F := Ideal) k hk pre Dw1 Db1 Dw2 Db2 Dw3 Db3 (ix2 r n)
      = dan l Dw1 Db1 Dw2 Db2 Dw3 Db3 (fun r j => pre (ix2 r j)) r n := by
  unfold RefRun.dan dan node
  rw [lreluM_apply, stage3_apply]
  simp only [lrelu8_apply, stage2_apply, lrelu15_apply, stage1_apply k hk pre Dw1 Db1 (code l) hl]

/-! ## The three layers -/

/-- Two 512 x 1024 matrices with the same entry at every (r, n) are equal. -/
theorem mat_ext {f g : Mat 512 1024} (h : ∀ (r : Fin 512) (n : Fin 1024), f (ix2 r n) = g (ix2 r n)) : f = g := by
  funext i
  rw [eq_ix2 i]
  exact h (i 0) (i 1)

/-- Layer 0's output is the specification's. -/
theorem h0R_eq (x : Mat 512 1024) (W0 : Mat 32768 1024) (b0 : Vct 32768)
    (Dw1 : Mat 15 35) (Db1 : Vct 15) (Dw2 : Mat 8 15) (Db2 : Vct 8) (Dw3 : Mat 1 8) (Db3 : Vct 1) :
    RefRun.h0R (F := Ideal) x W0 b0 Dw1 Db1 Dw2 Db2 Dw3 Db3 = h0 x W0 b0 Dw1 Db1 Dw2 Db2 Dw3 Db3 :=
  mat_ext fun r n => by
    unfold RefRun.h0R
    rw [dan_apply 0 32 rfl]
    show _ = dan 0 Dw1 Db1 Dw2 Db2 Dw3 Db3 (lin x W0 b0) r n
    exact congrArg (fun p => dan 0 Dw1 Db1 Dw2 Db2 Dw3 Db3 p r n)
      (funext fun r => funext fun j => lin_apply x W0 b0 r j)

/-- Layer 1's output is the specification's. -/
theorem h1R_eq (x : Mat 512 1024) (W0 : Mat 32768 1024) (b0 : Vct 32768) (W1 : Mat 32768 1024) (b1 : Vct 32768)
    (Ws02 : Mat 32768 1024) (bs02 : Vct 32768)
    (Dw1 : Mat 15 35) (Db1 : Vct 15) (Dw2 : Mat 8 15) (Db2 : Vct 8) (Dw3 : Mat 1 8) (Db3 : Vct 1) :
    RefRun.h1R (F := Ideal) x W0 b0 W1 b1 Ws02 bs02 Dw1 Db1 Dw2 Db2 Dw3 Db3
      = h1 x W0 b0 W1 b1 Ws02 bs02 Dw1 Db1 Dw2 Db2 Dw3 Db3 :=
  mat_ext fun r n => by
    unfold RefRun.h1R
    rw [dan_apply 1 33 rfl, h0R_eq]
    show _ = dan 1 Dw1 Db1 Dw2 Db2 Dw3 Db3
      (fun r j => lin (h0 x W0 b0 Dw1 Db1 Dw2 Db2 Dw3 Db3) W1 b1 r j + lin x Ws02 bs02 r j) r n
    exact congrArg (fun p => dan 1 Dw1 Db1 Dw2 Db2 Dw3 Db3 p r n)
      (funext fun r => funext fun j => by rw [addf_apply, lin_apply, lin_apply])

/-- The reference's network is the specification's network of the same seventeen arrays. -/
theorem netR_eq_net (x : Mat 512 1024) (W0 : Mat 32768 1024) (b0 : Vct 32768) (W1 : Mat 32768 1024) (b1 : Vct 32768)
    (W2 : Mat 32768 1024) (b2 : Vct 32768) (Ws02 : Mat 32768 1024) (bs02 : Vct 32768)
    (Ws13 : Mat 32768 1024) (bs13 : Vct 32768)
    (Dw1 : Mat 15 35) (Db1 : Vct 15) (Dw2 : Mat 8 15) (Db2 : Vct 8) (Dw3 : Mat 1 8) (Db3 : Vct 1) :
    RefRun.netR (F := Ideal) x W0 b0 W1 b1 W2 b2 Ws02 bs02 Ws13 bs13 Dw1 Db1 Dw2 Db2 Dw3 Db3
      = net x W0 b0 W1 b1 W2 b2 Ws02 bs02 Ws13 bs13 Dw1 Db1 Dw2 Db2 Dw3 Db3 :=
  mat_ext fun r n => by
    unfold RefRun.netR
    rw [dan_apply 2 34 rfl, h1R_eq, h0R_eq]
    show _ = dan 2 Dw1 Db1 Dw2 Db2 Dw3 Db3
      (fun r j => lin (h1 x W0 b0 W1 b1 Ws02 bs02 Dw1 Db1 Dw2 Db2 Dw3 Db3) W2 b2 r j
        + lin (h0 x W0 b0 Dw1 Db1 Dw2 Db2 Dw3 Db3) Ws13 bs13 r j) r n
    exact congrArg (fun p => dan 2 Dw1 Db1 Dw2 Db2 Dw3 Db3 p r n)
      (funext fun r => funext fun j => by rw [addf_apply, lin_apply, lin_apply])

/-- The reference's result array is the specification's network of its seventeen argument arrays. -/
theorem out_eq_net (m : (ℓ : Loc nD τ sig) → Buf (Elt Ideal) ℓ) (c : Dev nD) :
    RefRun.out (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) :=
  netR_eq_net _ _ _ _ _ _ _ _ _ _ _ _ _ _ _ _ _

end Cert.ReferenceIdeal.RefValue

end
-- ==== Proof.lean ====
/-
  The certificate's five claims.

  The kernel program runs four kernel regions between four stretches of host operations; the launch of @main is
  composed segment by segment, each region's body run at every grid point from the invariant that carries the
  512 x 4096 pre-activation slab, and the seventeen argument arrays reach the end as launched (the three frames;
  the word-level program's proof is the exact-instance program's, in its own namespace).  The ideal pass rewrote
  nothing, so the idealization's claim is trivial.  At the exact instance the kernel program's result and the
  reference's result are both the specification's three-layer network of the arguments: the reference by reading
  its operations one by one; the kernel because multiplying by a block-diagonal copy of the shared perceptron's
  weights adds only zero terms to each node's own sum, and regrouping a sum of extended reals does not change it.
-/
import proofs.«120596_j16338055594194_2_alg».proof.Defs
import proofs.«120596_j16338055594194_2_alg».proof.Proof.Gen.Kernel
import proofs.«120596_j16338055594194_2_alg».proof.Proof.Gen.KernelIdeal
import proofs.«120596_j16338055594194_2_alg».proof.Proof.Gen.ReferenceIdeal
import proofs.«120596_j16338055594194_2_alg».proof.Proof.Gen.Pre_finite_inputs
import proofs.«120596_j16338055594194_2_alg».proof.Proof.BRunArgs
import proofs.«120596_j16338055594194_2_alg».proof.Proof.KRunArgs
import proofs.«120596_j16338055594194_2_alg».proof.Proof.KValue
import proofs.«120596_j16338055594194_2_alg».proof.Proof.RefRun
import proofs.«120596_j16338055594194_2_alg».proof.Proof.RefStages
import Idealize.ShloMosaic.Adequacy
import Idealize.ShloMosaic.Init

noncomputable section

namespace Cert.Proof

open Idealize.ShloMosaic Idealize.SL.Sem

/-- The word-level kernel program runs to the end and leaves its arguments unchanged. -/
theorem frame_k [Cert.Kernel.Facts] [Cert.Pre_finite_inputs.Facts] : Cert.frame_Kernel :=
  fun m ρ _ => Cert.Kernel.KRun.frame (F := Bits) m ρ

/-- So does the idealized kernel program. -/
theorem frame_ki [Cert.KernelIdeal.Facts] [Cert.Pre_finite_inputs.Facts] : Cert.frame_KernelIdeal :=
  fun m ρ _ => Cert.KernelIdeal.KRun.frame (F := Ideal) m ρ

/-- And the idealized reference: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefRun.run (F := Ideal) m ρ)

/-- The ideal pass rewrote no operation. -/
theorem preserves : Cert.preserves_Kernel_KernelIdeal := trivial

/-- Both idealized programs end at the specification's network of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.DanSpec.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KValue.result_eq_net m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run (F := Ideal) m' ρ')
    rw [Cert.ReferenceIdeal.RefValue.out_eq_net]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
